-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S256x512 : Shape := ⟨2, ![256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S512x256 .f32) (main_arg1 : FVec F S256x512 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  main_v8
-- ==== Pre_finite_inputs_ReferenceIdeal.lean ====
abbrev S512x1024 : Shape := ⟨2, ![512, 1024]⟩
abbrev S1024x512 : Shape := ⟨2, ![1024, 512]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S512x1024 .f32) (main_arg1 : FVec F S1024x512 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  main_v8
-- ==== Kernel.lean ====
abbrev S512x256 : Shape := ⟨2, ![512, 256]⟩
abbrev S256x512 : Shape := ⟨2, ![256, 512]⟩
abbrev S512x512 : Shape := ⟨2, ![512, 512]⟩
abbrev S128x512 : Shape := ⟨2, ![128, 512]⟩
abbrev S3x128x512 : Shape := ⟨3, ![3, 128, 512]⟩
abbrev S3 : Shape := ⟨1, ![3]⟩
abbrev S4 : Shape := ⟨1, ![4]⟩
abbrev S_ : Shape := ⟨0, ![]⟩
abbrev S128x256 : Shape := ⟨2, ![128, 256]⟩
abbrev S1 : Shape := ⟨1, ![1]⟩
abbrev S1x128x512 : Shape := ⟨3, ![1, 128, 512]⟩

abbrev nBuf : Space → Nat
  | .hbm => 3
  | .vmem => 9
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S512x512, .f32⟩
  | .local _ .vmem, ⟨0, _⟩ => ⟨S512x256, .f32⟩
  | .local _ .vmem, ⟨1, _⟩ => ⟨S256x512, .f32⟩
  | .local _ .vmem, ⟨2, _⟩ => ⟨S256x512, .bf16⟩
  | .local _ .vmem, ⟨3, _⟩ => ⟨S128x512, .f32⟩
  | .local _ .vmem, ⟨4, _⟩ => ⟨S512x512, .bf16⟩
  | .local _ .vmem, ⟨5, _⟩ => ⟨S3x128x512, .bf16⟩
  | .local _ .vmem, ⟨6, _⟩ => ⟨S128x512, .bf16⟩
  | .local _ .vmem, ⟨7, _⟩ => ⟨S3x128x512, .bf16⟩
  | .local _ .vmem, ⟨8, _⟩ => ⟨S512x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  { ofTc nBuf bufTy 1 18 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c1_i32_31 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v49 : BitVec 32 := Scalar.addi v2 c1_i32_31
  let c4_i32_32 : BitVec 32 := 4#32
  let c0_i32_33 : BitVec 32 := 0#32
  let v50 : BitVec 1 := Scalar.cmpi .eq c4_i32_32 c0_i32_33
  let c1_i32_34 : BitVec 32 := 1#32
  let v51 : BitVec 32 := Scalar.select v50 c1_i32_34 c4_i32_32
  let v52 : BitVec 32 := Scalar.remsi v49 v51
  let c0_i32_36 : BitVec 32 := 0#32
  let v54 : BitVec 1 := Scalar.cmpi .slt v52 c0_i32_36
  let c0_i32_37 : BitVec 32 := 0#32
  let v55 : BitVec 1 := Scalar.cmpi .slt v51 c0_i32_37
  let v56 : BitVec 1 := Scalar.xori v54 v55
  let c0_i32_35 : BitVec 32 := 0#32
  let v53 : BitVec 1 := Scalar.cmpi .ne v52 c0_i32_35
  let v57 : BitVec 1 := Scalar.andi v56 v53
  let v58 : BitVec 32 := Scalar.addi v52 v51
  let v59 : BitVec 32 := Scalar.select v57 v58 v52
  let c128_i32 : BitVec 32 := 128#32
  let v60 : BitVec 32 := Scalar.muli v59 c128_i32
  let v61 : Index := Scalar.indexCast v60
  let c0_38 : Index := 0#32
  ![v61.toNat, 0]
def k0_off2 (d0 : Dev nD) (c1_i32_31 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v49 : BitVec 32 := Scalar.addi v2 c1_i32_31
  let c4_i32_32 : BitVec 32 := 4#32
  let c0_i32_33 : BitVec 32 := 0#32
  let v50 : BitVec 1 := Scalar.cmpi .eq c4_i32_32 c0_i32_33
  let c1_i32_34 : BitVec 32 := 1#32
  let v51 : BitVec 32 := Scalar.select v50 c1_i32_34 c4_i32_32
  let v52 : BitVec 32 := Scalar.remsi v49 v51
  let c0_i32_36 : BitVec 32 := 0#32
  let v54 : BitVec 1 := Scalar.cmpi .slt v52 c0_i32_36
  let c0_i32_37 : BitVec 32 := 0#32
  let v55 : BitVec 1 := Scalar.cmpi .slt v51 c0_i32_37
  let v56 : BitVec 1 := Scalar.xori v54 v55
  let c0_i32_35 : BitVec 32 := 0#32
  let v53 : BitVec 1 := Scalar.cmpi .ne v52 c0_i32_35
  let v57 : BitVec 1 := Scalar.andi v56 v53
  let v58 : BitVec 32 := Scalar.addi v52 v51
  let v59 : BitVec 32 := Scalar.select v57 v58 v52
  let c128_i32 : BitVec 32 := 128#32
  let v60 : BitVec 32 := Scalar.muli v59 c128_i32
  let v68 : Index := Scalar.indexCast v60
  let c0_41 : Index := 0#32
  ![v68.toNat, 0]
def k0_off3 (d0 : Dev nD) (c1_i32_31 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v49 : BitVec 32 := Scalar.addi v2 c1_i32_31
  let c4_i32_32 : BitVec 32 := 4#32
  let c0_i32_33 : BitVec 32 := 0#32
  let v50 : BitVec 1 := Scalar.cmpi .eq c4_i32_32 c0_i32_33
  let c1_i32_34 : BitVec 32 := 1#32
  let v51 : BitVec 32 := Scalar.select v50 c1_i32_34 c4_i32_32
  let v52 : BitVec 32 := Scalar.remsi v49 v51
  let c0_i32_36 : BitVec 32 := 0#32
  let v54 : BitVec 1 := Scalar.cmpi .slt v52 c0_i32_36
  let c0_i32_37 : BitVec 32 := 0#32
  let v55 : BitVec 1 := Scalar.cmpi .slt v51 c0_i32_37
  let v56 : BitVec 1 := Scalar.xori v54 v55
  let c0_i32_35 : BitVec 32 := 0#32
  let v53 : BitVec 1 := Scalar.cmpi .ne v52 c0_i32_35
  let v57 : BitVec 1 := Scalar.andi v56 v53
  let v58 : BitVec 32 := Scalar.addi v52 v51
  let v59 : BitVec 32 := Scalar.select v57 v58 v52
  let c128_i32 : BitVec 32 := 128#32
  let v60 : BitVec 32 := Scalar.muli v59 c128_i32
  let c0_i32_49 : BitVec 32 := 0#32
  ![v60.toNat, 0]
def k0_dev4 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_31 : BitVec 32 := 1#32
  let v49 : BitVec 32 := Scalar.addi v2 c1_i32_31
  let c4_i32_32 : BitVec 32 := 4#32
  let c0_i32_33 : BitVec 32 := 0#32
  let v50 : BitVec 1 := Scalar.cmpi .eq c4_i32_32 c0_i32_33
  let c1_i32_34 : BitVec 32 := 1#32
  let v51 : BitVec 32 := Scalar.select v50 c1_i32_34 c4_i32_32
  let v52 : BitVec 32 := Scalar.remsi v49 v51
  let c0_i32_36 : BitVec 32 := 0#32
  let v54 : BitVec 1 := Scalar.cmpi .slt v52 c0_i32_36
  let c0_i32_37 : BitVec 32 := 0#32
  let v55 : BitVec 1 := Scalar.cmpi .slt v51 c0_i32_37
  let v56 : BitVec 1 := Scalar.xori v54 v55
  let c0_i32_35 : BitVec 32 := 0#32
  let v53 : BitVec 1 := Scalar.cmpi .ne v52 c0_i32_35
  let v57 : BitVec 1 := Scalar.andi v56 v53
  let v58 : BitVec 32 := Scalar.addi v52 v51
  let v59 : BitVec 32 := Scalar.select v57 v58 v52
  let c1_i32_45 : BitVec 32 := 1#32
  let v72 : BitVec 32 := Scalar.muli v59 c1_i32_45
  let v73 : BitVec 32 := Scalar.addi c0_i32_46 v72
  v73.toNat
def k0_dev5 (d0 : Dev nD) : Nat :=
  let c0_i32_67 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_50 : BitVec 32 := 2#32
  let v81 : BitVec 32 := Scalar.addi v2 c2_i32_50
  let c4_i32_51 : BitVec 32 := 4#32
  let c0_i32_52 : BitVec 32 := 0#32
  let v82 : BitVec 1 := Scalar.cmpi .eq c4_i32_51 c0_i32_52
  let c1_i32_53 : BitVec 32 := 1#32
  let v83 : BitVec 32 := Scalar.select v82 c1_i32_53 c4_i32_51
  let v84 : BitVec 32 := Scalar.remsi v81 v83
  let c0_i32_55 : BitVec 32 := 0#32
  let v86 : BitVec 1 := Scalar.cmpi .slt v84 c0_i32_55
  let c0_i32_56 : BitVec 32 := 0#32
  let v87 : BitVec 1 := Scalar.cmpi .slt v83 c0_i32_56
  let v88 : BitVec 1 := Scalar.xori v86 v87
  let c0_i32_54 : BitVec 32 := 0#32
  let v85 : BitVec 1 := Scalar.cmpi .ne v84 c0_i32_54
  let v89 : BitVec 1 := Scalar.andi v88 v85
  let v90 : BitVec 32 := Scalar.addi v84 v83
  let v91 : BitVec 32 := Scalar.select v89 v90 v84
  let c1_i32_66 : BitVec 32 := 1#32
  let v104 : BitVec 32 := Scalar.muli v91 c1_i32_66
  let v105 : BitVec 32 := Scalar.addi c0_i32_67 v104
  v105.toNat
def k0_dev6 (d0 : Dev nD) : Nat :=
  let c0_i32_88 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_71 : BitVec 32 := 3#32
  let v113 : BitVec 32 := Scalar.addi v2 c3_i32_71
  let c4_i32_72 : BitVec 32 := 4#32
  let c0_i32_73 : BitVec 32 := 0#32
  let v114 : BitVec 1 := Scalar.cmpi .eq c4_i32_72 c0_i32_73
  let c1_i32_74 : BitVec 32 := 1#32
  let v115 : BitVec 32 := Scalar.select v114 c1_i32_74 c4_i32_72
  let v116 : BitVec 32 := Scalar.remsi v113 v115
  let c0_i32_76 : BitVec 32 := 0#32
  let v118 : BitVec 1 := Scalar.cmpi .slt v116 c0_i32_76
  let c0_i32_77 : BitVec 32 := 0#32
  let v119 : BitVec 1 := Scalar.cmpi .slt v115 c0_i32_77
  let v120 : BitVec 1 := Scalar.xori v118 v119
  let c0_i32_75 : BitVec 32 := 0#32
  let v117 : BitVec 1 := Scalar.cmpi .ne v116 c0_i32_75
  let v121 : BitVec 1 := Scalar.andi v120 v117
  let v122 : BitVec 32 := Scalar.addi v116 v115
  let v123 : BitVec 32 := Scalar.select v121 v122 v116
  let c1_i32_87 : BitVec 32 := 1#32
  let v136 : BitVec 32 := Scalar.muli v123 c1_i32_87
  let v137 : BitVec 32 := Scalar.addi c0_i32_88 v136
  v137.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_92 : BitVec 32 := 128#32
  let v145 : BitVec 32 := Scalar.muli v2 c128_i32_92
  let v146 : Index := Scalar.indexCast v145
  let c0_93 : Index := 0#32
  ![v146.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_92 : BitVec 32 := 128#32
  let v145 : BitVec 32 := Scalar.muli v2 c128_i32_92
  let v212 : Index := Scalar.indexCast v145
  let c0_156 : Index := 0#32
  ![v212.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_92 : BitVec 32 := 128#32
  let v145 : BitVec 32 := Scalar.muli v2 c128_i32_92
  let c0_i32_160 : BitVec 32 := 0#32
  ![v145.toNat, 0]
def k0_dev7 (d0 : Dev nD) : Nat :=
  let c0_i32_173 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_162 : BitVec 32 := 1#32
  let v224 : BitVec 32 := Scalar.addi v2 c1_i32_162
  let c4_i32_163 : BitVec 32 := 4#32
  let c0_i32_164 : BitVec 32 := 0#32
  let v225 : BitVec 1 := Scalar.cmpi .eq c4_i32_163 c0_i32_164
  let c1_i32_165 : BitVec 32 := 1#32
  let v226 : BitVec 32 := Scalar.select v225 c1_i32_165 c4_i32_163
  let v227 : BitVec 32 := Scalar.remsi v224 v226
  let c0_i32_167 : BitVec 32 := 0#32
  let v229 : BitVec 1 := Scalar.cmpi .slt v227 c0_i32_167
  let c0_i32_168 : BitVec 32 := 0#32
  let v230 : BitVec 1 := Scalar.cmpi .slt v226 c0_i32_168
  let v231 : BitVec 1 := Scalar.xori v229 v230
  let c0_i32_166 : BitVec 32 := 0#32
  let v228 : BitVec 1 := Scalar.cmpi .ne v227 c0_i32_166
  let v232 : BitVec 1 := Scalar.andi v231 v228
  let v233 : BitVec 32 := Scalar.addi v227 v226
  let v234 : BitVec 32 := Scalar.select v232 v233 v227
  let c1_i32_172 : BitVec 32 := 1#32
  let v235 : BitVec 32 := Scalar.muli v234 c1_i32_172
  let v236 : BitVec 32 := Scalar.addi c0_i32_173 v235
  v236.toNat
def k0_dev8 (d0 : Dev nD) : Nat :=
  let c0_i32_187 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_176 : BitVec 32 := 2#32
  let v243 : BitVec 32 := Scalar.addi v2 c2_i32_176
  let c4_i32_177 : BitVec 32 := 4#32
  let c0_i32_178 : BitVec 32 := 0#32
  let v244 : BitVec 1 := Scalar.cmpi .eq c4_i32_177 c0_i32_178
  let c1_i32_179 : BitVec 32 := 1#32
  let v245 : BitVec 32 := Scalar.select v244 c1_i32_179 c4_i32_177
  let v246 : BitVec 32 := Scalar.remsi v243 v245
  let c0_i32_181 : BitVec 32 := 0#32
  let v248 : BitVec 1 := Scalar.cmpi .slt v246 c0_i32_181
  let c0_i32_182 : BitVec 32 := 0#32
  let v249 : BitVec 1 := Scalar.cmpi .slt v245 c0_i32_182
  let v250 : BitVec 1 := Scalar.xori v248 v249
  let c0_i32_180 : BitVec 32 := 0#32
  let v247 : BitVec 1 := Scalar.cmpi .ne v246 c0_i32_180
  let v251 : BitVec 1 := Scalar.andi v250 v247
  let v252 : BitVec 32 := Scalar.addi v246 v245
  let v253 : BitVec 32 := Scalar.select v251 v252 v246
  let c1_i32_186 : BitVec 32 := 1#32
  let v254 : BitVec 32 := Scalar.muli v253 c1_i32_186
  let v255 : BitVec 32 := Scalar.addi c0_i32_187 v254
  v255.toNat
def k0_dev9 (d0 : Dev nD) : Nat :=
  let c0_i32_201 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_190 : BitVec 32 := 3#32
  let v262 : BitVec 32 := Scalar.addi v2 c3_i32_190
  let c4_i32_191 : BitVec 32 := 4#32
  let c0_i32_192 : BitVec 32 := 0#32
  let v263 : BitVec 1 := Scalar.cmpi .eq c4_i32_191 c0_i32_192
  let c1_i32_193 : BitVec 32 := 1#32
  let v264 : BitVec 32 := Scalar.select v263 c1_i32_193 c4_i32_191
  let v265 : BitVec 32 := Scalar.remsi v262 v264
  let c0_i32_195 : BitVec 32 := 0#32
  let v267 : BitVec 1 := Scalar.cmpi .slt v265 c0_i32_195
  let c0_i32_196 : BitVec 32 := 0#32
  let v268 : BitVec 1 := Scalar.cmpi .slt v264 c0_i32_196
  let v269 : BitVec 1 := Scalar.xori v267 v268
  let c0_i32_194 : BitVec 32 := 0#32
  let v266 : BitVec 1 := Scalar.cmpi .ne v265 c0_i32_194
  let v270 : BitVec 1 := Scalar.andi v269 v266
  let v271 : BitVec 32 := Scalar.addi v265 v264
  let v272 : BitVec 32 := Scalar.select v270 v271 v265
  let c1_i32_200 : BitVec 32 := 1#32
  let v273 : BitVec 32 := Scalar.muli v272 c1_i32_200
  let v274 : BitVec 32 := Scalar.addi c0_i32_201 v273
  v274.toNat
def k0_off7 (d0 : Dev nD) (c1_i32_217 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v291 : BitVec 32 := Scalar.subi v2 c1_i32_217
  let c4_i32_218 : BitVec 32 := 4#32
  let c0_i32_219 : BitVec 32 := 0#32
  let v292 : BitVec 1 := Scalar.cmpi .eq c4_i32_218 c0_i32_219
  let c1_i32_220 : BitVec 32 := 1#32
  let v293 : BitVec 32 := Scalar.select v292 c1_i32_220 c4_i32_218
  let v294 : BitVec 32 := Scalar.remsi v291 v293
  let c0_i32_222 : BitVec 32 := 0#32
  let v296 : BitVec 1 := Scalar.cmpi .slt v294 c0_i32_222
  let c0_i32_223 : BitVec 32 := 0#32
  let v297 : BitVec 1 := Scalar.cmpi .slt v293 c0_i32_223
  let v298 : BitVec 1 := Scalar.xori v296 v297
  let c0_i32_221 : BitVec 32 := 0#32
  let v295 : BitVec 1 := Scalar.cmpi .ne v294 c0_i32_221
  let v299 : BitVec 1 := Scalar.andi v298 v295
  let v300 : BitVec 32 := Scalar.addi v294 v293
  let v301 : BitVec 32 := Scalar.select v299 v300 v294
  let c128_i32_224 : BitVec 32 := 128#32
  let v302 : BitVec 32 := Scalar.muli v301 c128_i32_224
  let v306 : Index := Scalar.indexCast v302
  let c0_228 : Index := 0#32
  ![v306.toNat, 0]
def k0_off8 (d0 : Dev nD) (c1_i32_217 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v291 : BitVec 32 := Scalar.subi v2 c1_i32_217
  let c4_i32_218 : BitVec 32 := 4#32
  let c0_i32_219 : BitVec 32 := 0#32
  let v292 : BitVec 1 := Scalar.cmpi .eq c4_i32_218 c0_i32_219
  let c1_i32_220 : BitVec 32 := 1#32
  let v293 : BitVec 32 := Scalar.select v292 c1_i32_220 c4_i32_218
  let v294 : BitVec 32 := Scalar.remsi v291 v293
  let c0_i32_222 : BitVec 32 := 0#32
  let v296 : BitVec 1 := Scalar.cmpi .slt v294 c0_i32_222
  let c0_i32_223 : BitVec 32 := 0#32
  let v297 : BitVec 1 := Scalar.cmpi .slt v293 c0_i32_223
  let v298 : BitVec 1 := Scalar.xori v296 v297
  let c0_i32_221 : BitVec 32 := 0#32
  let v295 : BitVec 1 := Scalar.cmpi .ne v294 c0_i32_221
  let v299 : BitVec 1 := Scalar.andi v298 v295
  let v300 : BitVec 32 := Scalar.addi v294 v293
  let v301 : BitVec 32 := Scalar.select v299 v300 v294
  let c128_i32_224 : BitVec 32 := 128#32
  let v302 : BitVec 32 := Scalar.muli v301 c128_i32_224
  let c0_i32_230 : BitVec 32 := 0#32
  ![v302.toNat, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S256x512_S256x512_0_0 : ∀ a, (![0, 0] : Fin 2 → Nat) a + S256x512.size a ≤ S256x512.size a
  h_S256x512 : 0 < S256x512.numel
  shapeCasts_S256x512_S256x512 : S256x512.ShapeCasts S256x512
  bitsLt_bf16_f32 : FTy.bits .bf16 < FTy.bits .f32
  packedbf16_S256x512_S256x512_0_0 : (Rect.unit (s := S256x512) ![0, 0] S256x512.size inb_S256x512_S256x512_0_0).PackedRows (EltTy.packing .bf16)
  hamt_3 : (3#32 : BitVec 32).msb = false
  h_S128x256 : 0 < S128x256.numel
  shapeCasts_S128x256_S128x256 : S128x256.ShapeCasts S128x256
  h_S128x512 : 0 < S128x512.numel
  shapeCasts_S128x512_S128x512 : S128x512.ShapeCasts S128x512
  inb_S3_S1_0 : ∀ a, (![0] : Fin 1 → Nat) a + S1.size a ≤ S3.size a
  squeezes_S1_S_ : S1.Squeezes S_
  inb_S3x128x512_S1x128x512_0_0_0 : ∀ a, (![0, 0, 0] : Fin 3 → Nat) a + S1x128x512.size a ≤ S3x128x512.size a
  squeezes_S1x128x512_S128x512 : S1x128x512.Squeezes S128x512
  wordsbf16_S3x128x512_S1x128x512_0_0_0 : (Rect.unit (s := S3x128x512) ![0, 0, 0] S1x128x512.size inb_S3x128x512_S1x128x512_0_0_0).WholeWords (EltTy.packing .bf16)
  inb_S3_S1_1 : ∀ a, (![1] : Fin 1 → Nat) a + S1.size a ≤ S3.size a
  inb_S3x128x512_S1x128x512_1_0_0 : ∀ a, (![1, 0, 0] : Fin 3 → Nat) a + S1x128x512.size a ≤ S3x128x512.size a
  wordsbf16_S3x128x512_S1x128x512_1_0_0 : (Rect.unit (s := S3x128x512) ![1, 0, 0] S1x128x512.size inb_S3x128x512_S1x128x512_1_0_0).WholeWords (EltTy.packing .bf16)
  inb_S3_S1_2 : ∀ a, (![2] : Fin 1 → Nat) a + S1.size a ≤ S3.size a
  inb_S3x128x512_S1x128x512_2_0_0 : ∀ a, (![2, 0, 0] : Fin 3 → Nat) a + S1x128x512.size a ≤ S3x128x512.size a
  wordsbf16_S3x128x512_S1x128x512_2_0_0 : (Rect.unit (s := S3x128x512) ![2, 0, 0] S1x128x512.size inb_S3x128x512_S1x128x512_2_0_0).WholeWords (EltTy.packing .bf16)
  inb_S128x512_S128x512_0_0 : ∀ a, (![0, 0] : Fin 2 → Nat) a + S128x512.size a ≤ S128x512.size a
  h_S1x128x512 : 0 < S1x128x512.numel
  shapeCasts_S1x128x512_S128x512 : S1x128x512.ShapeCasts S128x512
  packedbf16_S128x512_S128x512_0_0 : (Rect.unit (s := S128x512) ![0, 0] S128x512.size inb_S128x512_S128x512_0_0).PackedRows (EltTy.packing .bf16)
  inb_S4_S1_0 : ∀ a, (![0] : Fin 1 → Nat) a + S1.size a ≤ S4.size a
  inb_S4_S1_1 : ∀ a, (![1] : Fin 1 → Nat) a + S1.size a ≤ S4.size a
  inb_S4_S1_2 : ∀ a, (![2] : Fin 1 → Nat) a + S1.size a ≤ S4.size a
  inb_S4_S1_3 : ∀ a, (![3] : Fin 1 → Nat) a + S1.size a ≤ S4.size a
  dot_S128x256_S256x512_S128x512_1_0_0_1_n_n_wf : DotDims.WF S128x256 S256x512 S128x512 [1] [0] [0] [1] [] []
  hcc0_scratch7 : 2 + S3.numel ≤ 18
  hcc0_scratch8 : 5 + S3.numel ≤ 18
  hcc0_scratch9 : 8 + S3.numel ≤ 18
  hcc0_scratch10 : 11 + S3.numel ≤ 18
  hcc0_scratch11 : 14 + S4.numel ≤ 18
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ (r : Fin 3), ∀ a, (k0_off1 d0 (BitVec.ofNat 32 (1 + r.val))) a + S128x256.size a ≤ S512x256.size a
  k0_off2_inb : ∀ d0 : Dev nD, ∀ (r : Fin 3), ∀ a, (k0_off2 d0 (BitVec.ofNat 32 (1 + r.val))) a + S128x512.size a ≤ S512x512.size a
  k0_off2_packedbf16 : ∀ d0 : Dev nD, ∀ (r : Fin 3), (Rect.unit (s := S512x512) (k0_off2 d0 (BitVec.ofNat 32 (1 + r.val))) S128x512.size (k0_off2_inb d0 r)).PackedRows (EltTy.packing .bf16)
  k0_off3_inb : ∀ d0 : Dev nD, ∀ (r : Fin 3), ∀ a, (k0_off3 d0 (BitVec.ofNat 32 (1 + r.val))) a + S128x512.size a ≤ S512x512.size a
  k0_off3_wordsbf16 : ∀ d0 : Dev nD, ∀ (r : Fin 3), (Rect.unit (s := S512x512) (k0_off3 d0 (BitVec.ofNat 32 (1 + r.val))) S128x512.size (k0_off3_inb d0 r)).WholeWords (EltTy.packing .bf16)
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_off4_inb : ∀ d0 : Dev nD, ∀ a, (k0_off4 d0) a + S128x256.size a ≤ S512x256.size a
  k0_off5_inb : ∀ d0 : Dev nD, ∀ a, (k0_off5 d0) a + S128x512.size a ≤ S512x512.size a
  k0_off6_inb : ∀ d0 : Dev nD, ∀ a, (k0_off6 d0) a + S128x512.size a ≤ S512x512.size a
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_off7_inb : ∀ d0 : Dev nD, ∀ (r : Fin 3), ∀ a, (k0_off7 d0 (BitVec.ofNat 32 (1 + r.val))) a + S128x512.size a ≤ S512x512.size a
  k0_off8_inb : ∀ d0 : Dev nD, ∀ (r : Fin 3), ∀ a, (k0_off8 d0 (BitVec.ofNat 32 (1 + r.val))) a + S128x512.size a ≤ S512x512.size a
  hstage0_0 : ∀ j, (stage0_0 j).IsWhole
  hstage0_1 : ∀ j, (stage0_1 j).IsWhole

variable [Facts₀]

abbrev cc0_scratch7 : DmaSems sig S3 := SemArray.consecutive 2 S3 hcc0_scratch7
abbrev cc0_scratch8 : DmaSems sig S3 := SemArray.consecutive 5 S3 hcc0_scratch8
abbrev cc0_scratch9 : DmaSems sig S3 := SemArray.consecutive 8 S3 hcc0_scratch9
abbrev cc0_scratch10 : DmaSems sig S3 := SemArray.consecutive 11 S3 hcc0_scratch10
abbrev cc0_scratch11 : DmaSems sig S4 := SemArray.consecutive 14 S4 hcc0_scratch11
def dot_S128x256_S256x512_S128x512_1_0_0_1_n_n : DotDims S128x256 S256x512 S128x512 where
  lhsContracting := [1]
  rhsContracting := [0]
  lhsNonContracting := [0]
  rhsNonContracting := [1]
  lhsBatch := []
  rhsBatch := []
  wf := dot_S128x256_S256x512_S128x512_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x1024 : Shape := ⟨2, ![512, 1024]⟩
abbrev S1024x512 : Shape := ⟨2, ![1024, 512]⟩
abbrev S512x512 : Shape := ⟨2, ![512, 512]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S_, .f32⟩
  | .hbm, ⟨6, _⟩ => ⟨S512x512, .f32⟩
  | .hbm, ⟨7, _⟩ => ⟨S512x512, .f32⟩
  | .hbm, ⟨8, _⟩ => ⟨S512x512, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  dot_S512x1024_S1024x512_S512x512_1_0_0_1_n_n_wf : DotDims.WF S512x1024 S1024x512 S512x512 [1] [0] [0] [1] [] []

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

class Facts : Prop extends Facts₀ where

variable [Facts]
-- ==== Proof.V.Base.lean ====
import proofs.«900373_g7700000000000374_dist_matmul_silu_kshard_i_m512_n512_k256_v7x_i4_f32_1_alg».proof.Proof.Gen.KernelIdeal
import proofs.«900373_g7700000000000374_dist_matmul_silu_kshard_i_m512_n512_k256_v7x_i4_f32_1_alg».proof.Proof.Gen.KernelIdeal.Skeleton
import proofs.«900373_g7700000000000374_dist_matmul_silu_kshard_i_m512_n512_k256_v7x_i4_f32_1_alg».proof.Proof.Gen.KernelIdeal.Launch
import Idealize.ShloMosaic.Lib.Pipeline.Launch
import Idealize.ShloMosaic.Lib.Pipeline.Kit
import Idealize.ShloMosaic.Lib.Tactic

/-! # The four devices' conversation

Four devices on a ring of offsets: device `c`'s `(d+1)`-th successor is `fwd d c = c + 1 + d (mod 4)`, its
`(d+1)`-th predecessor `bwd d c = c + 3 - d (mod 4)`, for `d = 0, 1, 2`.

Every device holds seventeen counting cells.
* The entry cell. Each of the three other devices adds one unit to it; the device waits for all three. The unit from
  `bwd d c` tells `c` that this peer is inside its kernel and lends `c` the two landing slices on the peer that `c` is
  going to write (slice `2 - d` of the peer's first and second landing buffers).
* Three departure cells and three arrival cells of the first exchange: transfer `k` of device `c` carries the row block
  `fwd k c` of `c`'s partial product into slice `k` of the first landing buffer of `fwd k c`; the departure cell is
  credited on `c` once the rows are read, the arrival cell on the target once they are written.
* Three departure and three arrival cells of the second exchange: transfer `k` carries `c`'s finished rows into slice
  `k` of the second landing buffer of `fwd k c`; the three transfers read one source, each through a share of it.
* Four cells of the copies of finished row blocks from the result scratch to the result array, each paid by the
  device's own copy.

A wait is admissible when its cell lies below every cell the waiter still owes units to: entry cells lie at height 1,
first arrival cells at 2, second arrival cells at 3, every other cell at 0, and a device pays its entry units first,
then the first arrivals, then the second arrivals. -/

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging pipeline's cells beside the conversation's (duties named by `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

def fwd (d : Fin 3) (c : Dev nD) : Dev nD := ⟨(c.val + 1 + d.val) % 4, Nat.mod_lt _ (by decide)⟩
def bwd (d : Fin 3) (c : Dev nD) : Dev nD := ⟨(c.val + 3 - d.val) % 4, Nat.mod_lt _ (by decide)⟩
/-- The slice of a peer's landing buffer that the peer `bwd d c` keeps for `c`. -/
def rev (d : Fin 3) : Fin 3 := ⟨2 - d.val, by omega⟩

theorem bwd_fwd (d : Fin 3) (c : Dev nD) : bwd d (fwd d c) = c := by revert d c; decide
theorem fwd_bwd (d : Fin 3) (c : Dev nD) : fwd d (bwd d c) = c := by revert d c; decide
theorem bwd_eq_fwd_rev (d : Fin 3) (c : Dev nD) : bwd d c = fwd (rev d) c := by revert d c; decide
theorem rev_rev (d : Fin 3) : rev (rev d) = d := by revert d; decide
theorem fwd_ne_self (d : Fin 3) (c : Dev nD) : fwd d c ≠ c := by revert d c; decide
theorem fwd_inj_left {d d' : Fin 3} {c : Dev nD} (h : fwd d c = fwd d' c) : d = d' := by revert d d' c; decide

/-- The printed device chains: the three entry signals, the three transfers of each exchange, all address the
    successors in order. -/
theorem dev1_eq (c : Dev nD) : (⟨k0_dev1 c, k0_dev1_lt c⟩ : Dev nD) = fwd 0 c := by revert c; decide +kernel
theorem dev2_eq (c : Dev nD) : (⟨k0_dev2 c, k0_dev2_lt c⟩ : Dev nD) = fwd 1 c := by revert c; decide +kernel
theorem dev3_eq (c : Dev nD) : (⟨k0_dev3 c, k0_dev3_lt c⟩ : Dev nD) = fwd 2 c := by revert c; decide +kernel
theorem dev4_eq (c : Dev nD) : (⟨k0_dev4 c, k0_dev4_lt c⟩ : Dev nD) = fwd 0 c := by revert c; decide +kernel
theorem dev5_eq (c : Dev nD) : (⟨k0_dev5 c, k0_dev5_lt c⟩ : Dev nD) = fwd 1 c := by revert c; decide +kernel
theorem dev6_eq (c : Dev nD) : (⟨k0_dev6 c, k0_dev6_lt c⟩ : Dev nD) = fwd 2 c := by revert c; decide +kernel
theorem dev7_eq (c : Dev nD) : (⟨k0_dev7 c, k0_dev7_lt c⟩ : Dev nD) = fwd 0 c := by revert c; decide +kernel
theorem dev8_eq (c : Dev nD) : (⟨k0_dev8 c, k0_dev8_lt c⟩ : Dev nD) = fwd 1 c := by revert c; decide +kernel
theorem dev9_eq (c : Dev nD) : (⟨k0_dev9 c, k0_dev9_lt c⟩ : Dev nD) = fwd 2 c := by revert c; decide +kernel

/-- The printed row offsets: a transfer of the first exchange reads and writes the row block of its target, a copy of
    the second exchange's rows the row block of their origin. -/
theorem off1_eq : ∀ c : Dev nD, ∀ r : Fin 3, k0_off1 c (BitVec.ofNat 32 (1 + r.val)) = ![128 * (fwd r c).val, 0] := by decide +kernel
theorem off2_eq : ∀ c : Dev nD, ∀ r : Fin 3, k0_off2 c (BitVec.ofNat 32 (1 + r.val)) = ![128 * (fwd r c).val, 0] := by decide +kernel
theorem off3_eq : ∀ c : Dev nD, ∀ r : Fin 3, k0_off3 c (BitVec.ofNat 32 (1 + r.val)) = ![128 * (fwd r c).val, 0] := by decide +kernel
theorem off7_eq : ∀ c : Dev nD, ∀ r : Fin 3, k0_off7 c (BitVec.ofNat 32 (1 + r.val)) = ![128 * (bwd r c).val, 0] := by decide +kernel
theorem off8_eq : ∀ c : Dev nD, ∀ r : Fin 3, k0_off8 c (BitVec.ofNat 32 (1 + r.val)) = ![128 * (bwd r c).val, 0] := by decide +kernel

/-! ## The buffers and their slices, as the body spells them -/

abbrev aM : Memref sig .tc .vmem S512x256 .f32 := Memref.whole cc0_stg0_0
abbrev bM : Memref sig .tc .vmem S256x512 .f32 := Memref.whole cc0_stg1_0
abbrev outM : Memref sig .tc .hbm S512x512 .f32 := Memref.whole main_v1
abbrev bbfM : Memref sig .tc .vmem S256x512 .bf16 := Memref.whole cc0_scratch0
abbrev ownM : Memref sig .tc .vmem S128x512 .f32 := Memref.whole cc0_scratch1
abbrev sbM : Memref sig .tc .vmem S512x512 .bf16 := Memref.whole cc0_scratch2
abbrev commM : Memref sig .tc .vmem S3x128x512 .bf16 := Memref.whole cc0_scratch3
abbrev gsM : Memref sig .tc .vmem S128x512 .bf16 := Memref.whole cc0_scratch4
abbrev grM : Memref sig .tc .vmem S3x128x512 .bf16 := Memref.whole cc0_scratch5
abbrev resM : Memref sig .tc .vmem S512x512 .f32 := Memref.whole cc0_scratch6

/-- The rows of the send buffer that transfer `k` of device `c` reads. -/
abbrev sbSl (c : Dev nD) (k : Fin 3) : Memref sig .tc .vmem S128x512 .bf16 :=
  sbM.slice (Rect.unit (s := S512x512) (k0_off3 c (BitVec.ofNat 32 (1 + k.val))) S128x512.size (k0_off3_inb c k)) (fun _ => rfl)
/-- The device's own rows of the send buffer, which no transfer carries. -/
abbrev sbOwn (c : Dev nD) : Memref sig .tc .vmem S128x512 .bf16 :=
  sbM.slice (Rect.unit (s := S512x512) (k0_off5 c) S128x512.size (k0_off5_inb c)) (fun _ => rfl)
/-- Slice `k` of the first landing buffer. -/
abbrev commSl : Fin 3 → Memref sig .tc .vmem S128x512 .bf16
  | 0 => (commM.slice (Rect.unit (s := S3x128x512) ![0, 0, 0] S1x128x512.size inb_S3x128x512_S1x128x512_0_0_0) (fun _ => rfl)).squeeze S128x512 squeezes_S1x128x512_S128x512
  | 1 => (commM.slice (Rect.unit (s := S3x128x512) ![1, 0, 0] S1x128x512.size inb_S3x128x512_S1x128x512_1_0_0) (fun _ => rfl)).squeeze S128x512 squeezes_S1x128x512_S128x512
  | 2 => (commM.slice (Rect.unit (s := S3x128x512) ![2, 0, 0] S1x128x512.size inb_S3x128x512_S1x128x512_2_0_0) (fun _ => rfl)).squeeze S128x512 squeezes_S1x128x512_S128x512
/-- Slice `k` of the second landing buffer. -/
abbrev grSl : Fin 3 → Memref sig .tc .vmem S128x512 .bf16
  | 0 => (grM.slice (Rect.unit (s := S3x128x512) ![0, 0, 0] S1x128x512.size inb_S3x128x512_S1x128x512_0_0_0) (fun _ => rfl)).squeeze S128x512 squeezes_S1x128x512_S128x512
  | 1 => (grM.slice (Rect.unit (s := S3x128x512) ![1, 0, 0] S1x128x512.size inb_S3x128x512_S1x128x512_1_0_0) (fun _ => rfl)).squeeze S128x512 squeezes_S1x128x512_S128x512
  | 2 => (grM.slice (Rect.unit (s := S3x128x512) ![2, 0, 0] S1x128x512.size inb_S3x128x512_S1x128x512_2_0_0) (fun _ => rfl)).squeeze S128x512 squeezes_S1x128x512_S128x512
/-- The device's own rows of the result scratch and of the result array, -/
abbrev resOwn (c : Dev nD) : Memref sig .tc .vmem S128x512 .f32 :=
  resM.slice (Rect.unit (s := S512x512) (k0_off6 c) S128x512.size (k0_off6_inb c)) (fun _ => rfl)
abbrev outOwn (c : Dev nD) : Memref sig .tc .hbm S128x512 .f32 :=
  outM.slice (Rect.unit (s := S512x512) (k0_off6 c) S128x512.size (k0_off6_inb c)) (fun _ => rfl)
/-- and the rows that came from the predecessor `bwd k c`. -/
abbrev resSl (c : Dev nD) (k : Fin 3) : Memref sig .tc .vmem S128x512 .f32 :=
  resM.slice (Rect.unit (s := S512x512) (k0_off8 c (BitVec.ofNat 32 (1 + k.val))) S128x512.size (k0_off8_inb c k)) (fun _ => rfl)
abbrev outSl (c : Dev nD) (k : Fin 3) : Memref sig .tc .hbm S128x512 .f32 :=
  outM.slice (Rect.unit (s := S512x512) (k0_off8 c (BitVec.ofNat 32 (1 + k.val))) S128x512.size (k0_off8_inb c k)) (fun _ => rfl)

/-! ## The cells -/

abbrev barS : Sem sig := (SemArray.scalar (sig.barrier 0 rfl) : Sems sig S_).sem
abbrev s1S : Fin 3 → DmaSem sig := fun | 0 => 2 | 1 => 3 | 2 => 4
abbrev r1S : Fin 3 → DmaSem sig := fun | 0 => 5 | 1 => 6 | 2 => 7
abbrev s2S : Fin 3 → DmaSem sig := fun | 0 => 8 | 1 => 9 | 2 => 10
abbrev r2S : Fin 3 → DmaSem sig := fun | 0 => 11 | 1 => 12 | 2 => 13
abbrev csS : Fin 4 → DmaSem sig := fun | 0 => 14 | 1 => 15 | 2 => 16 | 3 => 17

abbrev barCell (c : Dev nD) : GSem nD τ sig := ((c : Thread nD τ), .reg barS)
abbrev s1Cell (c : Dev nD) (k : Fin 3) : GSem nD τ sig := ((c : Thread nD τ), .dma (s1S k))
abbrev r1Cell (c : Dev nD) (k : Fin 3) : GSem nD τ sig := ((c : Thread nD τ), .dma (r1S k))
abbrev s2Cell (c : Dev nD) (k : Fin 3) : GSem nD τ sig := ((c : Thread nD τ), .dma (s2S k))
abbrev r2Cell (c : Dev nD) (k : Fin 3) : GSem nD τ sig := ((c : Thread nD τ), .dma (r2S k))
abbrev csCell (c : Dev nD) (j : Fin 4) : GSem nD τ sig := ((c : Thread nD τ), .dma (csS j))

/-- What a cell is for. -/
inductive Role
  | bar | s1 (k : Fin 3) | r1 (k : Fin 3) | s2 (k : Fin 3) | r2 (k : Fin 3) | cs (j : Fin 4) | none
deriving DecidableEq

def roleOf : SemLoc sig → Role
  | .reg s => if s = barS then .bar else .none
  | .dma q => match q.val with
    | 2 => .s1 0 | 3 => .s1 1 | 4 => .s1 2
    | 5 => .r1 0 | 6 => .r1 1 | 7 => .r1 2
    | 8 => .s2 0 | 9 => .s2 1 | 10 => .s2 2
    | 11 => .r2 0 | 12 => .r2 1 | 13 => .r2 2
    | 14 => .cs 0 | 15 => .cs 1 | 16 => .cs 2 | 17 => .cs 3
    | _ => .none

theorem role_bar : roleOf (.reg barS) = .bar := by
  show (if barS = barS then Role.bar else Role.none) = Role.bar
  exact if_pos rfl
theorem role_s1 (k : Fin 3) : roleOf (.dma (s1S k)) = .s1 k := by revert k; decide
theorem role_r1 (k : Fin 3) : roleOf (.dma (r1S k)) = .r1 k := by revert k; decide
theorem role_s2 (k : Fin 3) : roleOf (.dma (s2S k)) = .s2 k := by revert k; decide
theorem role_r2 (k : Fin 3) : roleOf (.dma (r2S k)) = .r2 k := by revert k; decide
theorem role_cs (j : Fin 4) : roleOf (.dma (csS j)) = .cs j := by revert j; decide

/-- The units a transfer of a bf16 row block, and a copy of an f32 row block, put on their cells. -/
abbrev Nb : ℕ := (gsM : Memref sig .tc .vmem S128x512 .bf16).view.dmaCredit
abbrev Nf : ℕ := (ownM : Memref sig .tc .vmem S128x512 .f32).view.dmaCredit
theorem Nb_pos : 0 < Nb := View.dmaCredit_pos _ (by decide)
theorem Nf_pos : 0 < Nf := View.dmaCredit_pos _ (by decide)

/-! ## What the units hand over -/

/-- All of a memref's elements on device `c`, at some contents. -/
def holds {sp : Space} {s : Shape} {e : EltTy} (c : Dev nD) (M : Memref sig .tc sp s e) : sProp 𝕄 :=
  iprop(∃ f : Buf (Elt F) (M.view.loc (c : Thread nD τ)), M.view.loc (c : Thread nD τ) ↦[M.view.set]{fullShare} f)
/-- A share of them. -/
def holdsAt {sp : Space} {s : Shape} {e : EltTy} (q : PosShare TreeShare) (c : Dev nD) (M : Memref sig .tc sp s e) : sProp 𝕄 :=
  iprop(∃ f : Buf (Elt F) (M.view.loc (c : Thread nD τ)), M.view.loc (c : Thread nD τ) ↦[M.view.set]{q} f)

/-- The shares through which the three transfers of the second exchange read their one source. -/
def gsShare : Fin 3 → PosShare TreeShare
  | 0 => fullShare.left
  | 1 => fullShare.right.left
  | 2 => fullShare.right.right

/-- The unit of `bwd d c` on `c`'s entry cell: the two slices on that peer which `c` will write, and that the peer
    stands at the start of the two cells those writes credit. -/
def barPay (c : Dev nD) (d : Fin 3) : sProp 𝕄 :=
  iprop(holds (F := F) (bwd d c) (commSl (rev d)) ∗ holds (F := F) (bwd d c) (grSl (rev d))
    ∗ reached ER (r1Cell (bwd d c) (rev d)) 0 ∗ reached ER (r2Cell (bwd d c) (rev d)) 0)

/-! ## What each device owes at launch, and the heights -/

/-- Device `c` owes each successor one entry unit, a first arrival and a second arrival. -/
def owedBar (c : Dev nD) : CellTallies nD τ sig Unit :=
  tallyAt (barCell (fwd 2 c)) () 1 + tallyAt (barCell (fwd 1 c)) () 1 + tallyAt (barCell (fwd 0 c)) () 1
def owedR1 (c : Dev nD) : CellTallies nD τ sig Unit :=
  tallyAt (r1Cell (fwd 2 c) 2) () Nb + tallyAt (r1Cell (fwd 1 c) 1) () Nb + tallyAt (r1Cell (fwd 0 c) 0) () Nb
def owedR2 (c : Dev nD) : CellTallies nD τ sig Unit :=
  tallyAt (r2Cell (fwd 2 c) 2) () Nb + tallyAt (r2Cell (fwd 1 c) 1) () Nb + tallyAt (r2Cell (fwd 0 c) 0) () Nb
def O₀ (c : Dev nD) : CellTallies nD τ sig Unit := owedR2 c + owedR1 c + owedBar c

def L (g : GSem nD τ sig) : Finset Unit := if g.1.2 = .tc then {()} else ∅
def lv (g : GSem nD τ sig) (_ : Unit) : ℕ := match roleOf g.2 with | .bar => 1 | .r1 _ => 2 | .r2 _ => 3 | _ => 0

theorem L_of_ne (g : GSem nD τ sig) (h : g.1.2 ≠ .tc) : L g = ∅ := if_neg h
theorem L_tc (c : Dev nD) (sm : SemLoc sig) : L ((c : Thread nD τ), sm) = {()} := if_pos rfl

end Cert.KernelIdealProof

end
-- ==== Proof.V.Contents.lean ====
import proofs.«900373_g7700000000000374_dist_matmul_silu_kshard_i_m512_n512_k256_v7x_i4_f32_1_alg».proof.Proof.V.Base
import Idealize.ShloMosaic.Lib.ValueIdx

/-! # What every buffer holds at the end, as functions of the devices' blocks

Device `d` stages its column block `a d` of the first matrix and its row block `b d` of the second. From these:
the second block in the narrow format; the three partial products a device sends, for the row blocks of its three
successors, and the one it keeps for its own rows; what lands in a device's first landing buffer (slice `k` from its
`(k+1)`-th predecessor); the sum of the four partial products of a device's own rows and its activation; what lands in
the second landing buffer (slice `k`: the activated rows of the `(k+1)`-th predecessor); and the result array, row
block by row block: a device's own rows from its own activation, every other row block from the slice its owner sent. -/

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (a : Dev nD → (cc0_stg0_0 : Ref sig .tc).ty.Contents (Elt F)) (b : Dev nD → (cc0_stg1_0 : Ref sig .tc).ty.Contents (Elt F))

/-- The second block in the narrow format. -/
def bbfV (d : Dev nD) : FVec F S256x512 .bf16 := k0_pay1 (b d)

/-- The rows of the first block that device `d` multiplies for its `(k+1)`-th successor: the row block of that successor. -/
def rowsA (d : Dev nD) (k : Fin 3) : Vec F S128x256 .f32 :=
  aM.view.readAt (Elt F) (Rect.unit (s := S512x256) (k0_off1 d (BitVec.ofNat 32 (1 + k.val))) S128x256.size (k0_off1_inb d k)).toLoadRect (a d)

/-- Its own rows. -/
def ownRows (d : Dev nD) : Vec F S128x256 .f32 :=
  aM.view.readAt (Elt F) (Rect.unit (s := S512x256) (k0_off4 d) S128x256.size (k0_off4_inb d)).toLoadRect (a d)

/-- The partial product device `d` sends to its `(k+1)`-th successor. -/
def sentV (d : Dev nD) : Fin 3 → FVec F S128x512 .bf16
  | 0 => k0_pay3 (k0_pay2 (rowsA a d 0)) (bbfV b d)
  | 1 => k0_pay5 (k0_pay4 (rowsA a d 1) (bbfV b d))
  | 2 => k0_pay6 (rowsA a d 2) (bbfV b d)

/-- The partial product of its own rows. -/
def ownV (d : Dev nD) : FVec F S128x512 .f32 := k0_pay7 (ownRows a d) (bbfV b d)

/-- A row block as one slice of a landing buffer. -/
def lift1 {e : EltTy} (x : Vec F S128x512 e) : Vec F S1x128x512 e :=
  fun i => x (ValueIdx.ix2 (⟨(i 1).val, (i 1).isLt⟩ : Fin 128) (⟨(i 2).val, (i 2).isLt⟩ : Fin 512))

/-- Slice `k` of device `c`'s first landing buffer: what its `(k+1)`-th predecessor sent it. -/
def commV (c : Dev nD) (k : Fin 3) : Vec F S1x128x512 .bf16 := lift1 (sentV a b (bwd k c) k)

/-- Device `c`'s activated rows, wide, -/
def resOwnV (c : Dev nD) : FVec F S128x512 .f32 := k0_pay9 (ownV a b c) (commV a b c 0) (commV a b c 1) (commV a b c 2)
/-- and narrow, as sent to its successors. -/
def gsV (c : Dev nD) : FVec F S128x512 .bf16 := k0_pay10 (ownV a b c) (commV a b c 0) (commV a b c 1) (commV a b c 2)

/-- Slice `k` of device `c`'s second landing buffer: the activated rows of its `(k+1)`-th predecessor. -/
def grV (c : Dev nD) (k : Fin 3) : Vec F S1x128x512 .bf16 := lift1 (gsV a b (bwd k c))

/-- The rows of the `(k+1)`-th predecessor as device `c` puts them in the result. -/
def backV (c : Dev nD) : Fin 3 → FVec F S128x512 .f32
  | 0 => k0_pay11 (grV a b c 0)
  | 1 => k0_pay12 (grV a b c 1)
  | 2 => k0_pay13 (grV a b c 2)

/-- Row block `t` of device `c`'s result. -/
def rowBlk (c t : Dev nD) : Vec F S128x512 .f32 :=
  if t = c then resOwnV a b c else if t = bwd 0 c then backV a b c 0 else if t = bwd 1 c then backV a b c 1 else backV a b c 2

/-- Device `c`'s result array. -/
def outV (c : Dev nD) : Vec F S512x512 .f32 := fun i =>
  rowBlk a b c (⟨(i 0).val / 128, by have := ValueIdx.idx2_lt0 i; show _ < 4; omega⟩ : Dev nD)
    (ValueIdx.ix2 (⟨(i 0).val % 128, Nat.mod_lt _ (by decide)⟩ : Fin 128) (⟨(i 1).val, ValueIdx.idx2_lt1 i⟩ : Fin 512))

end Cert.KernelIdealProof

end
-- ==== Proof.V.Protocol.lean ====
import proofs.«900373_g7700000000000374_dist_matmul_silu_kshard_i_m512_n512_k256_v7x_i4_f32_1_alg».proof.Proof.V.Contents

/-! # The conversation, with what each unit hands over named

The schedule of the four devices' conversation as a function of the devices' staged blocks `a` and `b`: the duties and
amounts are those of the cells' roles; an arrival cell of the first exchange hands its owner slice `k` of the first
landing buffer holding the partial product its `(k+1)`-th predecessor computed for it, an arrival cell of the second
exchange slice `k` of the second landing buffer holding that predecessor's activated rows, and a result copy's cell the
rows of the result array holding the finished values. -/

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- All of a memref's elements on device `c`, reading as `V`. -/
def holdsV {sp : Space} {s : Shape} {e : EltTy} (c : Dev nD) (M : Memref sig .tc sp s e) (V : s.Idx → Elt F e) : sProp 𝕄 :=
  iprop(∃ f : Buf (Elt F) (M.view.loc (c : Thread nD τ)), ⌜M.view.read (Elt F) f = V⌝ ∗ (M.view.loc (c : Thread nD τ) ↦[M.view.set]{fullShare} f))

omit [FloatOps F] in
/-- Named contents are some contents. -/
theorem holdsV_holds {sp : Space} {s : Shape} {e : EltTy} (c : Dev nD) (M : Memref sig .tc sp s e) (V : s.Idx → Elt F e) :
    holdsV (F := F) c M V ⊢ holds (F := F) c M := by
  unfold holdsV holds
  iintro ⟨%f, -, H⟩
  iexists f; iexact H

variable (a : Dev nD → (cc0_stg0_0 : Ref sig .tc).ty.Contents (Elt F)) (b : Dev nD → (cc0_stg1_0 : Ref sig .tc).ty.Contents (Elt F))

/-- The conversation, one round per cell. -/
def conv : Rounds.Schedule (GSem nD τ sig) (Fin 3) 𝕄 where
  duties g r :=
    if r = 0 ∧ g.1.2 = .tc then
      (match roleOf g.2 with | .bar => Finset.univ | .none => ∅ | _ => {0})
    else ∅
  unitless _ := False
  amount g _ _ := match roleOf g.2 with | .bar => 1 | .cs _ => Nf | _ => Nb
  payload g _ d := match roleOf g.2 with
    | .bar => barPay g.1.1 d
    | .s1 k => holds (F := F) g.1.1 (sbSl g.1.1 k)
    | .r1 k => holdsV (F := F) g.1.1 (commSl k) (sentV a b (bwd k g.1.1) k)
    | .s2 k => holdsAt (F := F) (gsShare k) g.1.1 gsM
    | .r2 k => holdsV (F := F) g.1.1 (grSl k) (gsV a b (bwd k g.1.1))
    | .cs 0 => iprop(holdsV (F := F) g.1.1 (outOwn g.1.1) (resOwnV a b g.1.1) ∗ holds (F := F) g.1.1 (resOwn g.1.1))
    | .cs 1 => iprop(holdsV (F := F) g.1.1 (outSl g.1.1 0) (backV a b g.1.1 0) ∗ holds (F := F) g.1.1 (resSl g.1.1 0))
    | .cs 2 => iprop(holdsV (F := F) g.1.1 (outSl g.1.1 1) (backV a b g.1.1 1) ∗ holds (F := F) g.1.1 (resSl g.1.1 1))
    | .cs 3 => iprop(holdsV (F := F) g.1.1 (outSl g.1.1 2) (backV a b g.1.1 2) ∗ holds (F := F) g.1.1 (resSl g.1.1 2))
    | .none => iprop(emp)
  amount_pos g _ _ _ := by
    cases roleOf g.2 <;> first | exact Nat.one_pos | exact Nb_pos | exact Nf_pos

/-! ## The schedule's tables -/

section Tables
variable (c : Dev nD)

theorem duties_bar : (conv (F := F) a b).duties (barCell c) 0 = Finset.univ := by
  dsimp only [conv]; rw [if_pos ⟨rfl, rfl⟩, role_bar]
theorem duties_s1 (k : Fin 3) : (conv (F := F) a b).duties (s1Cell c k) 0 = {0} := by
  dsimp only [conv]; rw [if_pos ⟨rfl, rfl⟩, role_s1]
theorem duties_r1 (k : Fin 3) : (conv (F := F) a b).duties (r1Cell c k) 0 = {0} := by
  dsimp only [conv]; rw [if_pos ⟨rfl, rfl⟩, role_r1]
theorem duties_s2 (k : Fin 3) : (conv (F := F) a b).duties (s2Cell c k) 0 = {0} := by
  dsimp only [conv]; rw [if_pos ⟨rfl, rfl⟩, role_s2]
theorem duties_r2 (k : Fin 3) : (conv (F := F) a b).duties (r2Cell c k) 0 = {0} := by
  dsimp only [conv]; rw [if_pos ⟨rfl, rfl⟩, role_r2]
theorem duties_cs (j : Fin 4) : (conv (F := F) a b).duties (csCell c j) 0 = {0} := by
  dsimp only [conv]; rw [if_pos ⟨rfl, rfl⟩, role_cs]
theorem duties_later (g : GSem nD τ sig) : ∀ r, 1 ≤ r → (conv (F := F) a b).duties g r = ∅ :=
  fun r hr => by dsimp only [conv]; rw [if_neg fun h => by omega]

theorem amount_bar (d : Fin 3) : (conv (F := F) a b).amount (barCell c) 0 d = 1 := by dsimp only [conv]; rw [role_bar]
theorem amount_s1 (k d : Fin 3) : (conv (F := F) a b).amount (s1Cell c k) 0 d = Nb := by dsimp only [conv]; rw [role_s1]
theorem amount_r1 (k d : Fin 3) : (conv (F := F) a b).amount (r1Cell c k) 0 d = Nb := by dsimp only [conv]; rw [role_r1]
theorem amount_s2 (k d : Fin 3) : (conv (F := F) a b).amount (s2Cell c k) 0 d = Nb := by dsimp only [conv]; rw [role_s2]
theorem amount_r2 (k d : Fin 3) : (conv (F := F) a b).amount (r2Cell c k) 0 d = Nb := by dsimp only [conv]; rw [role_r2]
theorem amount_cs (j : Fin 4) (d : Fin 3) : (conv (F := F) a b).amount (csCell c j) 0 d = Nf := by dsimp only [conv]; rw [role_cs]

theorem expect_bar : (conv (F := F) a b).expect (barCell c) 0 = 3 := by
  unfold Schedule.expect Schedule.amountOf
  rw [duties_bar, Finset.sum_congr rfl fun d _ => amount_bar a b c d, Finset.sum_const, Finset.card_univ, Fintype.card_fin, smul_eq_mul]
theorem expect_s1 (k : Fin 3) : (conv (F := F) a b).expect (s1Cell c k) 0 = Nb := by
  unfold Schedule.expect Schedule.amountOf; rw [duties_s1, Finset.sum_singleton, amount_s1]
theorem expect_r1 (k : Fin 3) : (conv (F := F) a b).expect (r1Cell c k) 0 = Nb := by
  unfold Schedule.expect Schedule.amountOf; rw [duties_r1, Finset.sum_singleton, amount_r1]
theorem expect_s2 (k : Fin 3) : (conv (F := F) a b).expect (s2Cell c k) 0 = Nb := by
  unfold Schedule.expect Schedule.amountOf; rw [duties_s2, Finset.sum_singleton, amount_s2]
theorem expect_r2 (k : Fin 3) : (conv (F := F) a b).expect (r2Cell c k) 0 = Nb := by
  unfold Schedule.expect Schedule.amountOf; rw [duties_r2, Finset.sum_singleton, amount_r2]
theorem expect_cs (j : Fin 4) : (conv (F := F) a b).expect (csCell c j) 0 = Nf := by
  unfold Schedule.expect Schedule.amountOf; rw [duties_cs, Finset.sum_singleton, amount_cs]

theorem payload_bar (d : Fin 3) : (conv (F := F) a b).payload (barCell c) 0 d = barPay c d := by dsimp only [conv]; rw [role_bar]
theorem payload_s1 (k d : Fin 3) : (conv (F := F) a b).payload (s1Cell c k) 0 d = holds (F := F) c (sbSl c k) := by dsimp only [conv]; rw [role_s1]
theorem payload_r1 (k d : Fin 3) : (conv (F := F) a b).payload (r1Cell c k) 0 d = holdsV (F := F) c (commSl k) (sentV a b (bwd k c) k) := by
  dsimp only [conv]; rw [role_r1]
theorem payload_s2 (k d : Fin 3) : (conv (F := F) a b).payload (s2Cell c k) 0 d = holdsAt (F := F) (gsShare k) c gsM := by dsimp only [conv]; rw [role_s2]
theorem payload_r2 (k d : Fin 3) : (conv (F := F) a b).payload (r2Cell c k) 0 d = holdsV (F := F) c (grSl k) (gsV a b (bwd k c)) := by
  dsimp only [conv]; rw [role_r2]
theorem payload_cs0 (d : Fin 3) : (conv (F := F) a b).payload (csCell c 0) 0 d
    = iprop(holdsV (F := F) c (outOwn c) (resOwnV a b c) ∗ holds (F := F) c (resOwn c)) := by
  dsimp only [conv]; rw [role_cs]
theorem payload_cs (k d : Fin 3) : (conv (F := F) a b).payload (csCell c k.succ) 0 d
    = iprop(holdsV (F := F) c (outSl c k) (backV a b c k) ∗ holds (F := F) c (resSl c k)) := by
  dsimp only [conv]; rw [role_cs]; fin_cases k <;> rfl

end Tables

end Cert.KernelIdealProof

end
-- ==== Proof.V.Data.lean ====
import proofs.«900373_g7700000000000374_dist_matmul_silu_kshard_i_m512_n512_k256_v7x_i4_f32_1_alg».proof.Proof.V.Protocol

/-! # What a device holds when its body starts, and the staging pipeline's proof data

The kernel has one grid point. Its two windows stage the device's column block of the first matrix and row block of the
second, both read only. Beside them a device starts with the result array and its seven scratch buffers at some contents,
the conversation's ghost state — the seventeen invariants of its own cells and the nine of the cells it pays into, its
position at the start of each of its cells, the tokens of the nineteen duties it pays, and the launch credit of the seven
cells its peers pay — and what it owes. It ends with the buffers at some contents again and its sixteen own cells closed
at zero. -/

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter zero. -/
def s₀ : MemSt nD τ sig (Elt F) := ⟨m, fun _ => 0, ρ⟩

/-- The device's block of each argument array, as staged. -/
def aS (c : Dev nD) : (cc0_stg0_0 : Ref sig .tc).ty.Contents (Elt F) :=
  (win0_0.blk (0 : Fin 1)).view.read (Elt F) ((s₀ m ρ).mem ((c : Thread nD τ).loc main_arg0))
def bS (c : Dev nD) : (cc0_stg1_0 : Ref sig .tc).ty.Contents (Elt F) :=
  (win0_1.blk (0 : Fin 1)).view.read (Elt F) ((s₀ m ρ).mem ((c : Thread nD τ).loc main_arg1))

/-! ## The cells by number -/

/-- A device's seventeen cells: 0 the entry cell, 1–3 and 4–6 the first exchange's departures and arrivals, 7–9 and
    10–12 the second's, 13–16 the result copies'. -/
abbrev csem : Fin 17 → SemLoc sig := fun
  | 0 => .reg barS
  | 1 => .dma (s1S 0) | 2 => .dma (s1S 1) | 3 => .dma (s1S 2)
  | 4 => .dma (r1S 0) | 5 => .dma (r1S 1) | 6 => .dma (r1S 2)
  | 7 => .dma (s2S 0) | 8 => .dma (s2S 1) | 9 => .dma (s2S 2)
  | 10 => .dma (r2S 0) | 11 => .dma (r2S 1) | 12 => .dma (r2S 2)
  | 13 => .dma (csS 0) | 14 => .dma (csS 1) | 15 => .dma (csS 2) | 16 => .dma (csS 3)
  | ⟨_ + 17, h⟩ => absurd h (Nat.not_lt.2 (Nat.le_add_left _ _))
abbrev kcell (ck : Dev nD × Fin 17) : GSem nD τ sig := ((ck.1 : Thread nD τ), csem ck.2)
/-- The kernel's own sixteen (scoped) semaphores, as the launch numbers them. -/
abbrev osem : Fin 16 → SemLoc sig := fun i => csem i.succ

/-! ## The ghost state -/

/-- The invariants of the cells device `c` touches: its own, and each successor's entry cell and the two arrival cells
    its transfers to that successor credit. -/
def invs (K : Dev nD × Fin 17 → ℕ) (c : Dev nD) : sProp 𝕄 :=
  iprop(cellInv ER (conv (F := F) (aS m ρ) (bS m ρ)) (K (c, 0)) (barCell c)
    ∗ cellInv ER (conv (F := F) (aS m ρ) (bS m ρ)) (K (c, 1)) (s1Cell c 0)
    ∗ cellInv ER (conv (F := F) (aS m ρ) (bS m ρ)) (K (c, 2)) (s1Cell c 1)
    ∗ cellInv ER (conv (F := F) (aS m ρ) (bS m ρ)) (K (c, 3)) (s1Cell c 2)
    ∗ cellInv ER (conv (F := F) (aS m ρ) (bS m ρ)) (K (c, 4)) (r1Cell c 0)
    ∗ cellInv ER (conv (F := F) (aS m ρ) (bS m ρ)) (K (c, 5)) (r1Cell c 1)
    ∗ cellInv ER (conv (F := F) (aS m ρ) (bS m ρ)) (K (c, 6)) (r1Cell c 2)
    ∗ cellInv ER (conv (F := F) (aS m ρ) (bS m ρ)) (K (c, 7)) (s2Cell c 0)
    ∗ cellInv ER (conv (F := F) (aS m ρ) (bS m ρ)) (K (c, 8)) (s2Cell c 1)
    ∗ cellInv ER (conv (F := F) (aS m ρ) (bS m ρ)) (K (c, 9)) (s2Cell c 2)
    ∗ cellInv ER (conv (F := F) (aS m ρ) (bS m ρ)) (K (c, 10)) (r2Cell c 0)
    ∗ cellInv ER (conv (F := F) (aS m ρ) (bS m ρ)) (K (c, 11)) (r2Cell c 1)
    ∗ cellInv ER (conv (F := F) (aS m ρ) (bS m ρ)) (K (c, 12)) (r2Cell c 2)
    ∗ cellInv ER (conv (F := F) (aS m ρ) (bS m ρ)) (K (c, 13)) (csCell c 0)
    ∗ cellInv ER (conv (F := F) (aS m ρ) (bS m ρ)) (K (c, 14)) (csCell c 1)
    ∗ cellInv ER (conv (F := F) (aS m ρ) (bS m ρ)) (K (c, 15)) (csCell c 2)
    ∗ cellInv ER (conv (F := F) (aS m ρ) (bS m ρ)) (K (c, 16)) (csCell c 3)
    ∗ cellInv ER (conv (F := F) (aS m ρ) (bS m ρ)) (K (fwd 0 c, 0)) (barCell (fwd 0 c))
    ∗ cellInv ER (conv (F := F) (aS m ρ) (bS m ρ)) (K (fwd 1 c, 0)) (barCell (fwd 1 c))
    ∗ cellInv ER (conv (F := F) (aS m ρ) (bS m ρ)) (K (fwd 2 c, 0)) (barCell (fwd 2 c))
    ∗ cellInv ER (conv (F := F) (aS m ρ) (bS m ρ)) (K (fwd 0 c, 4)) (r1Cell (fwd 0 c) 0)
    ∗ cellInv ER (conv (F := F) (aS m ρ) (bS m ρ)) (K (fwd 1 c, 5)) (r1Cell (fwd 1 c) 1)
    ∗ cellInv ER (conv (F := F) (aS m ρ) (bS m ρ)) (K (fwd 2 c, 6)) (r1Cell (fwd 2 c) 2)
    ∗ cellInv ER (conv (F := F) (aS m ρ) (bS m ρ)) (K (fwd 0 c, 10)) (r2Cell (fwd 0 c) 0)
    ∗ cellInv ER (conv (F := F) (aS m ρ) (bS m ρ)) (K (fwd 1 c, 11)) (r2Cell (fwd 1 c) 1)
    ∗ cellInv ER (conv (F := F) (aS m ρ) (bS m ρ)) (K (fwd 2 c, 12)) (r2Cell (fwd 2 c) 2))

instance invs_persistent (K : Dev nD × Fin 17 → ℕ) (c : Dev nD) : BI.Persistent (invs (F := F) m ρ K c) := by unfold invs; infer_instance

/-- Its position at the start of each of its cells. -/
def poss (c : Dev nD) : sProp 𝕄 :=
  iprop(atPos ER (barCell c) 0 ∅ 0
    ∗ atPos ER (s1Cell c 0) 0 ∅ 0
    ∗ atPos ER (s1Cell c 1) 0 ∅ 0
    ∗ atPos ER (s1Cell c 2) 0 ∅ 0
    ∗ atPos ER (r1Cell c 0) 0 ∅ 0
    ∗ atPos ER (r1Cell c 1) 0 ∅ 0
    ∗ atPos ER (r1Cell c 2) 0 ∅ 0
    ∗ atPos ER (s2Cell c 0) 0 ∅ 0
    ∗ atPos ER (s2Cell c 1) 0 ∅ 0
    ∗ atPos ER (s2Cell c 2) 0 ∅ 0
    ∗ atPos ER (r2Cell c 0) 0 ∅ 0
    ∗ atPos ER (r2Cell c 1) 0 ∅ 0
    ∗ atPos ER (r2Cell c 2) 0 ∅ 0
    ∗ atPos ER (csCell c 0) 0 ∅ 0
    ∗ atPos ER (csCell c 1) 0 ∅ 0
    ∗ atPos ER (csCell c 2) 0 ∅ 0
    ∗ atPos ER (csCell c 3) 0 ∅ 0)

/-- The rounds it knows reached: of the cells it pays into, of its own cells it pays itself, and of its own arrival cells
    (which it tells its peers). -/
def marks (c : Dev nD) : sProp 𝕄 :=
  iprop(reached ER (barCell (fwd 0 c)) 0
    ∗ reached ER (barCell (fwd 1 c)) 0
    ∗ reached ER (barCell (fwd 2 c)) 0
    ∗ reached ER (r1Cell (fwd 0 c) 0) 0
    ∗ reached ER (r1Cell (fwd 1 c) 1) 0
    ∗ reached ER (r1Cell (fwd 2 c) 2) 0
    ∗ reached ER (r2Cell (fwd 0 c) 0) 0
    ∗ reached ER (r2Cell (fwd 1 c) 1) 0
    ∗ reached ER (r2Cell (fwd 2 c) 2) 0
    ∗ reached ER (s1Cell c 0) 0
    ∗ reached ER (s1Cell c 1) 0
    ∗ reached ER (s1Cell c 2) 0
    ∗ reached ER (s2Cell c 0) 0
    ∗ reached ER (s2Cell c 1) 0
    ∗ reached ER (s2Cell c 2) 0
    ∗ reached ER (csCell c 0) 0
    ∗ reached ER (csCell c 1) 0
    ∗ reached ER (csCell c 2) 0
    ∗ reached ER (csCell c 3) 0
    ∗ reached ER (r1Cell c 0) 0
    ∗ reached ER (r1Cell c 1) 0
    ∗ reached ER (r1Cell c 2) 0
    ∗ reached ER (r2Cell c 0) 0
    ∗ reached ER (r2Cell c 1) 0
    ∗ reached ER (r2Cell c 2) 0)

instance marks_persistent (c : Dev nD) : BI.Persistent (marks (F := F) c) := by unfold marks; infer_instance

/-- The tokens of the duties it pays: one entry unit and two arrivals per successor, and its own departures and copies. -/
def payToks (c : Dev nD) : sProp 𝕄 :=
  iprop(dutyTok ER (barCell (fwd 0 c)) 0 0
    ∗ dutyTok ER (barCell (fwd 1 c)) 0 1
    ∗ dutyTok ER (barCell (fwd 2 c)) 0 2
    ∗ dutyTok ER (r1Cell (fwd 0 c) 0) 0 0
    ∗ dutyTok ER (r1Cell (fwd 1 c) 1) 0 0
    ∗ dutyTok ER (r1Cell (fwd 2 c) 2) 0 0
    ∗ dutyTok ER (r2Cell (fwd 0 c) 0) 0 0
    ∗ dutyTok ER (r2Cell (fwd 1 c) 1) 0 0
    ∗ dutyTok ER (r2Cell (fwd 2 c) 2) 0 0
    ∗ dutyTok ER (s1Cell c 0) 0 0
    ∗ dutyTok ER (s1Cell c 1) 0 0
    ∗ dutyTok ER (s1Cell c 2) 0 0
    ∗ dutyTok ER (s2Cell c 0) 0 0
    ∗ dutyTok ER (s2Cell c 1) 0 0
    ∗ dutyTok ER (s2Cell c 2) 0 0
    ∗ dutyTok ER (csCell c 0) 0 0
    ∗ dutyTok ER (csCell c 1) 0 0
    ∗ dutyTok ER (csCell c 2) 0 0
    ∗ dutyTok ER (csCell c 3) 0 0)

def ghost (K : Dev nD × Fin 17 → ℕ) (c : Dev nD) : sProp 𝕄 :=
  iprop(invs (F := F) m ρ K c ∗ poss (F := F) c ∗ marks (F := F) c ∗ payToks (F := F) c)

/-- The launch credit of the cells its peers pay. -/
def creds (c : Dev nD) : sProp 𝕄 :=
  iprop(cred (tallyAt (barCell c) () 3)
    ∗ cred (tallyAt (r1Cell c 0) () Nb)
    ∗ cred (tallyAt (r1Cell c 1) () Nb)
    ∗ cred (tallyAt (r1Cell c 2) () Nb)
    ∗ cred (tallyAt (r2Cell c 0) () Nb)
    ∗ cred (tallyAt (r2Cell c 1) () Nb)
    ∗ cred (tallyAt (r2Cell c 2) () Nb))

/-- The seven scratch buffers, each whole at some contents. -/
def scratch (c : Dev nD) : sProp 𝕄 :=
  iprop(holds (F := F) c bbfM
    ∗ holds (F := F) c ownM
    ∗ holds (F := F) c sbM
    ∗ holds (F := F) c commM
    ∗ holds (F := F) c gsM
    ∗ holds (F := F) c grM
    ∗ holds (F := F) c resM)

/-- What the launch hands the device before the scoped buffers: the ghost state at some names, the credit, the heights,
    and the result array. -/
def start (c : Dev nD) : sProp 𝕄 :=
  iprop((∃ K, ghost (F := F) m ρ K c) ∗ creds (F := F) c ∗ levAts L lv ∗ holds (F := F) c outM)

def Φ₀ (c : Dev nD) : sProp 𝕄 := iprop(start (F := F) m ρ c ∗ scratch (F := F) c)

/-- Its own sixteen cells closed, their counters at zero. -/
def closedSems (c : Dev nD) : sProp 𝕄 :=
  iprop(semVal (s1Cell c 0) 0
    ∗ semVal (s1Cell c 1) 0
    ∗ semVal (s1Cell c 2) 0
    ∗ semVal (r1Cell c 0) 0
    ∗ semVal (r1Cell c 1) 0
    ∗ semVal (r1Cell c 2) 0
    ∗ semVal (s2Cell c 0) 0
    ∗ semVal (s2Cell c 1) 0
    ∗ semVal (s2Cell c 2) 0
    ∗ semVal (r2Cell c 0) 0
    ∗ semVal (r2Cell c 1) 0
    ∗ semVal (r2Cell c 2) 0
    ∗ semVal (csCell c 0) 0
    ∗ semVal (csCell c 1) 0
    ∗ semVal (csCell c 2) 0
    ∗ semVal (csCell c 3) 0)

/-- The result array on device `c` holding its named end contents. -/
def holdsOut (c : Dev nD) : sProp 𝕄 := holdsV (F := F) c outM (outV (aS m ρ) (bS m ρ) c)

def Φ₁ (c : Dev nD) : sProp 𝕄 := iprop(holdsOut (F := F) m ρ c ∗ scratch (F := F) c ∗ closedSems (F := F) c)

/-! ## The staging pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => aS m ρ c
    | ⟨1, _⟩ => bS m ρ c
  Φ t := match t with
    | ⟨0, _⟩ => Φ₀ (F := F) m ρ c
    | ⟨_ + 1, _⟩ => Φ₁ (F := F) m ρ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.KernelIdealProof

end
-- ==== Proof.V.PayloadStorable.lean ====
import proofs.«900373_g7700000000000374_dist_matmul_silu_kshard_i_m512_n512_k256_v7x_i4_f32_1_alg».proof.Proof.V.Protocol

/-! # What a unit hands over can be kept under an invariant

Every payload of the conversation — whole slices at some contents, a share of one, and the marks that a peer stands at
the start of a cell — is an assertion an invariant may hold. -/

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
instance holds_storable {sp : Space} {s : Shape} {e : EltTy} (c : Dev nD) (M : Memref sig .tc sp s e) :
    BI.Storable (upEmb : UEmb _ 𝕄) (holds (F := F) c M) := by unfold holds; infer_instance
omit [FloatOps F] in
instance holdsAt_storable {sp : Space} {s : Shape} {e : EltTy} (q : PosShare TreeShare) (c : Dev nD) (M : Memref sig .tc sp s e) :
    BI.Storable (upEmb : UEmb _ 𝕄) (holdsAt (F := F) q c M) := by unfold holdsAt; infer_instance
omit [FloatOps F] in
instance holdsV_storable {sp : Space} {s : Shape} {e : EltTy} (c : Dev nD) (M : Memref sig .tc sp s e) (V : s.Idx → Elt F e) :
    BI.Storable (upEmb : UEmb _ 𝕄) (holdsV (F := F) c M V) := by unfold holdsV; infer_instance
omit [FloatOps F] in
instance barPay_storable (c : Dev nD) (d : Fin 3) : BI.Storable (upEmb : UEmb _ 𝕄) (barPay (F := F) c d) := by
  unfold barPay; infer_instance

instance conv_payload_storable (a : Dev nD → (cc0_stg0_0 : Ref sig .tc).ty.Contents (Elt F)) (b : Dev nD → (cc0_stg1_0 : Ref sig .tc).ty.Contents (Elt F))
    (g : GSem nD τ sig) (r : ℕ) (d : Fin 3) :
    BI.Storable (upEmb : UEmb _ 𝕄) ((conv (F := F) a b).payload g r d) := by
  dsimp only [conv]
  split <;> infer_instance

end Cert.KernelIdealProof

end
-- ==== Proof.V.LaunchGhost.lean ====
import proofs.«900373_g7700000000000374_dist_matmul_silu_kshard_i_m512_n512_k256_v7x_i4_f32_1_alg».proof.Proof.V.Data
import proofs.«900373_g7700000000000374_dist_matmul_silu_kshard_i_m512_n512_k256_v7x_i4_f32_1_alg».proof.Proof.V.PayloadStorable

/-! # The conversation's ghost state at launch

The launch element holds, beside the staging pipeline's cells, every device's seventeen cells at the start of their
first round and the tokens of their duties. One update over all devices puts each cell's counter, at zero, under an
invariant; each device then receives the invariants of the cells it touches, its positions, the marks that the first
round of every cell it needs is reached, and the tokens of the nineteen duties it pays — nine of them minted for its
successors' cells and dealt around the ring. -/

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens, enumerated -/

theorem ownSemFacts : Pipeline.OwnSemFacts cfg0.spec osem := by decide

theorem share_eq (c : Dev nD) (w : Fin cfg0.W) : (dats m ρ 0 c).share w = fullShare := by unfold Dat.share; split <;> rfl

/-- A number for each semaphore: the regular ones `0`, a DMA semaphore its own number. -/
def semCode : SemLoc sig → ℕ
  | .reg _ => 0
  | .dma q => q.val

theorem semCode_csem (k : Fin 17) : semCode (csem k) = if k.val = 0 then 0 else k.val + 1 := by
  fin_cases k <;> rfl

theorem csem_injective : Function.Injective csem := fun k k' h => by
  have := congrArg semCode h
  rw [semCode_csem, semCode_csem] at this
  refine Fin.ext ?_
  split_ifs at this <;> omega

theorem kcell_injective : Function.Injective (kcell : Dev nD × Fin 17 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

/-- A device's own cells' duty tokens as minted: (device, which token) — the entry cell's three, then one for each of
    the sixteen other cells. -/
abbrev tokOf (cj : Dev nD × Fin 19) : GSem nD τ sig × ℕ × Fin 3 := match cj.2 with
  | 0 => (barCell cj.1, 0, 0) | 1 => (barCell cj.1, 0, 1) | 2 => (barCell cj.1, 0, 2)
  | 3 => (s1Cell cj.1 0, 0, 0) | 4 => (s1Cell cj.1 1, 0, 0) | 5 => (s1Cell cj.1 2, 0, 0)
  | 6 => (r1Cell cj.1 0, 0, 0) | 7 => (r1Cell cj.1 1, 0, 0) | 8 => (r1Cell cj.1 2, 0, 0)
  | 9 => (s2Cell cj.1 0, 0, 0) | 10 => (s2Cell cj.1 1, 0, 0) | 11 => (s2Cell cj.1 2, 0, 0)
  | 12 => (r2Cell cj.1 0, 0, 0) | 13 => (r2Cell cj.1 1, 0, 0) | 14 => (r2Cell cj.1 2, 0, 0)
  | 15 => (csCell cj.1 0, 0, 0) | 16 => (csCell cj.1 1, 0, 0) | 17 => (csCell cj.1 2, 0, 0) | 18 => (csCell cj.1 3, 0, 0)
  | ⟨_ + 19, h⟩ => absurd h (Nat.not_lt.2 (Nat.le_add_left _ _))

theorem tokOf_dev (c : Dev nD) (j : Fin 19) : (tokOf (c, j)).1.1.1 = c := by fin_cases j <;> rfl
theorem tokOf_code (c : Dev nD) (j : Fin 19) :
    (semCode (tokOf (c, j)).1.2, (tokOf (c, j)).2.2.val) = if j.val < 3 then (0, j.val) else (j.val - 1, 0) := by
  fin_cases j <;> rfl

theorem tokOf_injective : Function.Injective (tokOf : Dev nD × Fin 19 → GSem nD τ sig × ℕ × Fin 3) := by
  rintro ⟨c, j⟩ ⟨c', j'⟩ h
  have h1 : c = c' := by
    have := congrArg (fun x : GSem nD τ sig × ℕ × Fin 3 => x.1.1.1) h
    simpa only [tokOf_dev] using this
  subst h1
  have h2 := congrArg (fun x : GSem nD τ sig × ℕ × Fin 3 => (semCode x.1.2, x.2.2.val)) h
  simp only [tokOf_code] at h2
  have : j = j' := by
    refine Fin.ext ?_
    split_ifs at h2 <;> simp only [Prod.mk.injEq] at h2 <;> omega
  subst this; rfl
def ringToks : Finset (GSem nD τ sig × ℕ × Fin 3) := Finset.univ.map ⟨tokOf, tokOf_injective⟩

/-- The launch element: the staging pipeline's cells and tokens beside the conversation's. -/
def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop(dutyTok ER (barCell c) 0 0 ∗ dutyTok ER (barCell c) 0 1 ∗ dutyTok ER (barCell c) 0 2
    ∗ dutyTok ER (s1Cell c 0) 0 0 ∗ dutyTok ER (s1Cell c 1) 0 0 ∗ dutyTok ER (s1Cell c 2) 0 0
    ∗ dutyTok ER (r1Cell c 0) 0 0 ∗ dutyTok ER (r1Cell c 1) 0 0 ∗ dutyTok ER (r1Cell c 2) 0 0
    ∗ dutyTok ER (s2Cell c 0) 0 0 ∗ dutyTok ER (s2Cell c 1) 0 0 ∗ dutyTok ER (s2Cell c 2) 0 0
    ∗ dutyTok ER (r2Cell c 0) 0 0 ∗ dutyTok ER (r2Cell c 1) 0 0 ∗ dutyTok ER (r2Cell c 2) 0 0
    ∗ dutyTok ER (csCell c 0) 0 0 ∗ dutyTok ER (csCell c 1) 0 0 ∗ dutyTok ER (csCell c 2) 0 0 ∗ dutyTok ER (csCell c 3) 0 0)

/-- What the launch element deals device `c`. -/
def G (c : Dev nD) : sProp 𝕄 :=
  iprop((bigSep Finset.univ fun k : Fin 17 => roundState ER (conv (F := F) (aS m ρ) (bS m ρ)) (kcell (c, k)) 0)
    ∗ (bigSep Finset.univ fun k : Fin 17 => iprop(atPos ER (kcell (c, k)) 0 ∅ 0 ∗ reached ER (kcell (c, k)) 0)) ∗ toks (F := F) c)

/-- What the global step makes of it. -/
def G' (c : Dev nD) : sProp 𝕄 := iprop(∃ K, ghost (F := F) m ρ K c)

theorem bigSep_fin16 (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
theorem bigSep_fin17 (Φ : Fin 17 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ
theorem bigSep_fin19 (Φ : Fin 19 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18) :=
  bigSep_univ_eq_bigSepL [0, 1, 2, 3, 4, 5, 6, 7, 8, 9, 10, 11, 12, 13, 14, 15, 16, 17, 18] (by decide) (by decide) Φ
theorem bigSep_fin3 (Φ : Fin 3 → sProp 𝕄) : bigSep Finset.univ Φ = iprop(Φ 0 ∗ Φ 1 ∗ Φ 2) :=
  bigSep_univ_eq_bigSepL [0, 1, 2] (by decide) (by decide) Φ

/-! ## Funding -/

theorem fund_ring : BI.own (ER (initOf ringCells ringToks)) ⊢ (|==> bigSep Finset.univ (G (F := F) m ρ) : sProp 𝕄) := by
  have hX (Φ : GSem nD τ sig → sProp 𝕄) : bigSep ringCells Φ = bigSep Finset.univ fun c : Dev nD => bigSep Finset.univ fun k : Fin 17 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]
    exact bigSep_congr fun c _ => by unfold toks; rw [bigSep_fin19]; rfl
  iintro HX
  imod (Rounds.fund ER (conv (F := F) (aS m ρ) (bS m ρ)) ringCells ringToks) $$ HX with ⟨Hst, Hr, Hat, Htok⟩
  imodintro
  ihave Hst' := (Entails.of_eq (hX fun g => roundState ER (conv (F := F) (aS m ρ) (bS m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters at zero -/

/-- The sixteen DMA semaphores are the kernel's own; -/
theorem ownSems0_eq (c : Dev nD) : (Pipeline.ownSems0 (Ix := Unit) (Name := ℕ) (U := UU) (Lvl := ℕ) (Val := Elt F) (τ := τ) osem c : sProp 𝕄)
    = closedSems (F := F) c := by
  rw [Pipeline.ownSems0_eq_of_list c osem [0, 1, 2, 3, 4, 5, 6, 7, 8, 9, 10, 11, 12, 13, 14, 15] (by decide) (by decide)]; rfl
/-- the entry semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 17 => semVal (kcell (c, k)) 0 : sProp 𝕄) := by
  rw [ownSems0_eq, unscopedSems0_eq, bigSep_fin17]
  unfold closedSems
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G (F := F) m ρ c)
      ⊢ |={Set.univ}=> iprop((bigSep Finset.univ fun k => iprop(∃ κ : ℕ, cellInv ER (conv (F := F) (aS m ρ) (bS m ρ)) κ (kcell (c, k))))
          ∗ (bigSep Finset.univ fun k : Fin 17 => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : Fin 17 => semVal (kcell (c, k)) 0) ∗ bigSep Finset.univ fun k : Fin 17 => roundState ER (conv (F := F) (aS m ρ) (bS m ρ)) (kcell (c, k)) 0)
      ⊢ (|={Set.univ}=> bigSep Finset.univ fun k => iprop(∃ κ : ℕ, cellInv ER (conv (F := F) (aS m ρ) (bS m ρ)) κ (kcell (c, k))) : sProp 𝕄) from by
        rw [← bigSep_sep']
        exact (bigSep_mono fun k _ => (Rounds.body_intro ER (conv (F := F) (aS m ρ) (bS m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the ghost state -/

def records (K : Dev nD × Fin 17 → ℕ) : sProp 𝕄 :=
  iprop((bigSep Finset.univ fun ck : Dev nD × Fin 17 => cellInv ER (conv (F := F) (aS m ρ) (bS m ρ)) (K ck) (kcell ck))
    ∗ bigSep Finset.univ fun ck : Dev nD × Fin 17 => reached ER (kcell ck) 0)

instance records_persistent (K : Dev nD × Fin 17 → ℕ) : BI.Persistent (records (F := F) m ρ K) := by unfold records; infer_instance

theorem inv_at (K : Dev nD × Fin 17 → ℕ) (ck : Dev nD × Fin 17) :
    (bigSep Finset.univ fun ck : Dev nD × Fin 17 => (cellInv ER (conv (F := F) (aS m ρ) (bS m ρ)) (K ck) (kcell ck) : sProp 𝕄)) ⊢ cellInv ER (conv (F := F) (aS m ρ) (bS m ρ)) (K ck) (kcell ck) :=
  bigSep_elim (Finset.mem_univ ck)
theorem reached_at (ck : Dev nD × Fin 17) :
    (bigSep Finset.univ fun ck : Dev nD × Fin 17 => (reached ER (kcell ck) 0 : sProp 𝕄)) ⊢ reached ER (kcell ck) 0 :=
  bigSep_elim (Finset.mem_univ ck)

/-- What stays with device `c`: its positions, and the tokens of the duties it pays. -/
def linear (c : Dev nD) : sProp 𝕄 := iprop(poss (F := F) c ∗ payToks (F := F) c)

theorem ghost_intro (K : Dev nD × Fin 17 → ℕ) (c : Dev nD) : iprop(records (F := F) m ρ K ∗ linear (F := F) c) ⊢ G' (F := F) m ρ c := by
  unfold records linear G' ghost
  iintro ⟨⟨#HI, #HR⟩, Hpos, Htok⟩
  iexists K
  isplitr
  · unfold invs
    isplitr; · iapply (inv_at (F := F) m ρ K (c, 0)); iexact HI
    isplitr; · iapply (inv_at (F := F) m ρ K (c, 1)); iexact HI
    isplitr; · iapply (inv_at (F := F) m ρ K (c, 2)); iexact HI
    isplitr; · iapply (inv_at (F := F) m ρ K (c, 3)); iexact HI
    isplitr; · iapply (inv_at (F := F) m ρ K (c, 4)); iexact HI
    isplitr; · iapply (inv_at (F := F) m ρ K (c, 5)); iexact HI
    isplitr; · iapply (inv_at (F := F) m ρ K (c, 6)); iexact HI
    isplitr; · iapply (inv_at (F := F) m ρ K (c, 7)); iexact HI
    isplitr; · iapply (inv_at (F := F) m ρ K (c, 8)); iexact HI
    isplitr; · iapply (inv_at (F := F) m ρ K (c, 9)); iexact HI
    isplitr; · iapply (inv_at (F := F) m ρ K (c, 10)); iexact HI
    isplitr; · iapply (inv_at (F := F) m ρ K (c, 11)); iexact HI
    isplitr; · iapply (inv_at (F := F) m ρ K (c, 12)); iexact HI
    isplitr; · iapply (inv_at (F := F) m ρ K (c, 13)); iexact HI
    isplitr; · iapply (inv_at (F := F) m ρ K (c, 14)); iexact HI
    isplitr; · iapply (inv_at (F := F) m ρ K (c, 15)); iexact HI
    isplitr; · iapply (inv_at (F := F) m ρ K (c, 16)); iexact HI
    isplitr; · iapply (inv_at (F := F) m ρ K (fwd 0 c, 0)); iexact HI
    isplitr; · iapply (inv_at (F := F) m ρ K (fwd 1 c, 0)); iexact HI
    isplitr; · iapply (inv_at (F := F) m ρ K (fwd 2 c, 0)); iexact HI
    isplitr; · iapply (inv_at (F := F) m ρ K (fwd 0 c, 4)); iexact HI
    isplitr; · iapply (inv_at (F := F) m ρ K (fwd 1 c, 5)); iexact HI
    isplitr; · iapply (inv_at (F := F) m ρ K (fwd 2 c, 6)); iexact HI
    isplitr; · iapply (inv_at (F := F) m ρ K (fwd 0 c, 10)); iexact HI
    isplitr; · iapply (inv_at (F := F) m ρ K (fwd 1 c, 11)); iexact HI
    iapply (inv_at (F := F) m ρ K (fwd 2 c, 12)); iexact HI
  isplitl [Hpos]; · iexact Hpos
  isplitr
  · unfold marks
    isplitr; · iapply (reached_at (F := F) (fwd 0 c, 0)); iexact HR
    isplitr; · iapply (reached_at (F := F) (fwd 1 c, 0)); iexact HR
    isplitr; · iapply (reached_at (F := F) (fwd 2 c, 0)); iexact HR
    isplitr; · iapply (reached_at (F := F) (fwd 0 c, 4)); iexact HR
    isplitr; · iapply (reached_at (F := F) (fwd 1 c, 5)); iexact HR
    isplitr; · iapply (reached_at (F := F) (fwd 2 c, 6)); iexact HR
    isplitr; · iapply (reached_at (F := F) (fwd 0 c, 10)); iexact HR
    isplitr; · iapply (reached_at (F := F) (fwd 1 c, 11)); iexact HR
    isplitr; · iapply (reached_at (F := F) (fwd 2 c, 12)); iexact HR
    isplitr; · iapply (reached_at (F := F) (c, 1)); iexact HR
    isplitr; · iapply (reached_at (F := F) (c, 2)); iexact HR
    isplitr; · iapply (reached_at (F := F) (c, 3)); iexact HR
    isplitr; · iapply (reached_at (F := F) (c, 7)); iexact HR
    isplitr; · iapply (reached_at (F := F) (c, 8)); iexact HR
    isplitr; · iapply (reached_at (F := F) (c, 9)); iexact HR
    isplitr; · iapply (reached_at (F := F) (c, 13)); iexact HR
    isplitr; · iapply (reached_at (F := F) (c, 14)); iexact HR
    isplitr; · iapply (reached_at (F := F) (c, 15)); iexact HR
    isplitr; · iapply (reached_at (F := F) (c, 16)); iexact HR
    isplitr; · iapply (reached_at (F := F) (c, 4)); iexact HR
    isplitr; · iapply (reached_at (F := F) (c, 5)); iexact HR
    isplitr; · iapply (reached_at (F := F) (c, 6)); iexact HR
    isplitr; · iapply (reached_at (F := F) (c, 10)); iexact HR
    isplitr; · iapply (reached_at (F := F) (c, 11)); iexact HR
    iapply (reached_at (F := F) (c, 12)); iexact HR
  iexact Htok

/-- The ring's shifts as bijections of the devices. -/
def fwdE (d : Fin 3) : Dev nD ≃ Dev nD := ⟨fwd d, bwd d, bwd_fwd d, fwd_bwd d⟩

/-- The tokens dealt around the ring: duty `d` of a device's entry cell, and the duty of its `d`-th arrival cells, go
    to the device's `(d+1)`-th predecessor, which pays them. -/
theorem toks_around : (bigSep Finset.univ fun c : Dev nD => (toks (F := F) c : sProp 𝕄)) ⊢ bigSep Finset.univ fun c : Dev nD => payToks (F := F) c := by
  unfold toks payToks
  rw [bigSep_sep', bigSep_sep', bigSep_sep', bigSep_sep', bigSep_sep', bigSep_sep', bigSep_sep', bigSep_sep', bigSep_sep',
    bigSep_sep', bigSep_sep', bigSep_sep', bigSep_sep', bigSep_sep', bigSep_sep', bigSep_sep', bigSep_sep', bigSep_sep',
    bigSep_sep', bigSep_sep', bigSep_sep', bigSep_sep', bigSep_sep', bigSep_sep', bigSep_sep', bigSep_sep', bigSep_sep',
    bigSep_sep', bigSep_sep', bigSep_sep', bigSep_sep', bigSep_sep', bigSep_sep', bigSep_sep', bigSep_sep', bigSep_sep',
    bigSep_univ_equiv (fwdE 0) (fun c : Dev nD => (dutyTok ER (barCell c) 0 0 : sProp 𝕄)),
    bigSep_univ_equiv (fwdE 1) (fun c : Dev nD => (dutyTok ER (barCell c) 0 1 : sProp 𝕄)),
    bigSep_univ_equiv (fwdE 2) (fun c : Dev nD => (dutyTok ER (barCell c) 0 2 : sProp 𝕄)),
    bigSep_univ_equiv (fwdE 0) (fun c : Dev nD => (dutyTok ER (r1Cell c 0) 0 0 : sProp 𝕄)),
    bigSep_univ_equiv (fwdE 1) (fun c : Dev nD => (dutyTok ER (r1Cell c 1) 0 0 : sProp 𝕄)),
    bigSep_univ_equiv (fwdE 2) (fun c : Dev nD => (dutyTok ER (r1Cell c 2) 0 0 : sProp 𝕄)),
    bigSep_univ_equiv (fwdE 0) (fun c : Dev nD => (dutyTok ER (r2Cell c 0) 0 0 : sProp 𝕄)),
    bigSep_univ_equiv (fwdE 1) (fun c : Dev nD => (dutyTok ER (r2Cell c 1) 0 0 : sProp 𝕄)),
    bigSep_univ_equiv (fwdE 2) (fun c : Dev nD => (dutyTok ER (r2Cell c 2) 0 0 : sProp 𝕄))]
  iintro ⟨T0, T1, T2, T3, T4, T5, T6, T7, T8, T9, T10, T11, T12, T13, T14, T15, T16, T17, T18⟩
  isplitl [T0]; · iexact T0
  isplitl [T1]; · iexact T1
  isplitl [T2]; · iexact T2
  isplitl [T6]; · iexact T6
  isplitl [T7]; · iexact T7
  isplitl [T8]; · iexact T8
  isplitl [T12]; · iexact T12
  isplitl [T13]; · iexact T13
  isplitl [T14]; · iexact T14
  isplitl [T3]; · iexact T3
  isplitl [T4]; · iexact T4
  isplitl [T5]; · iexact T5
  isplitl [T9]; · iexact T9
  isplitl [T10]; · iexact T10
  isplitl [T11]; · iexact T11
  isplitl [T15]; · iexact T15
  isplitl [T16]; · iexact T16
  isplitl [T17]; · iexact T17
  iexact T18

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem poss_eq (c : Dev nD) : (bigSep Finset.univ fun k : Fin 17 => (atPos ER (kcell (c, k)) 0 ∅ 0 : sProp 𝕄)) = poss (F := F) c := by
  rw [bigSep_fin17]; rfl

theorem regroup :
    (bigSep Finset.univ fun c : Dev nD => iprop((bigSep Finset.univ fun k => iprop(∃ κ : ℕ, cellInv ER (conv (F := F) (aS m ρ) (bS m ρ)) κ (kcell (c, k))))
          ∗ (bigSep Finset.univ fun k : Fin 17 => iprop(atPos ER (kcell (c, k)) 0 ∅ 0 ∗ reached ER (kcell (c, k)) 0)) ∗ toks (F := F) c) : sProp 𝕄)
      ⊢ bigSep Finset.univ (G' (F := F) m ρ) := by
  rw [bigSep_sep', bigSep_sep', ← bigSep_univ_prod (fun ck : Dev nD × Fin 17 => iprop(∃ κ : ℕ, cellInv ER (conv (F := F) (aS m ρ) (bS m ρ)) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (conv (F := F) (aS m ρ) (bS m ρ)) κ (kcell ck) : sProp 𝕄))) $$ HI
  icases HK with ⟨%K, #HI⟩
  ihave Htk := (toks_around (F := F)) $$ Htok
  iapply (bigSep_with_persistent (R := records (F := F) m ρ K) fun c _ => ghost_intro (F := F) m ρ K c)
  isplitr
  · unfold records; isplitl; · iexact HI
    iexact HR
  · iapply ((Entails.of_eq (bigSep_sep' Finset.univ (fun c : Dev nD => bigSep Finset.univ fun k : Fin 17 => (atPos ER (kcell (c, k)) 0 ∅ 0 : sProp 𝕄)) (payToks (F := F))).symm).trans
      (bigSep_mono fun c _ => show _ ⊢ linear (F := F) c from Entails.of_eq (by unfold linear; rw [poss_eq])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G (F := F) m ρ c) : sProp 𝕄)
    ⊢ |={Set.univ}=> bigSep Finset.univ (G' (F := F) m ρ) :=
  ((bigSep_mono fun c _ => core_alloc (F := F) m ρ c).trans (bigSep_fupd _ _)).trans (BI.fupd_mono (regroup (F := F) m ρ))

end Cert.KernelIdealProof

end
-- ==== Proof.V.LaunchCredit.lean ====
import proofs.«900373_g7700000000000374_dist_matmul_silu_kshard_i_m512_n512_k256_v7x_i4_f32_1_alg».proof.Proof.V.Data

/-! # The launch credit and the heights

Device `c` owes one entry unit, a first arrival and a second arrival to each of its three successors; summed over the
devices, the units owed to `c`'s own cells are three entry units and the arrivals of its six arrival cells: that is the
credit the launch deals `c`. Everything a device owes sits at height one or more, the staging cells at height zero: a
device may wait on them whatever it still owes. -/

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The launch credit -/

omit [FloatOps F] in
theorem launchCred3 (A B C : Dev nD → CellTallies nD τ sig Unit) (c : Dev nD) :
    (Pipeline.launchCred (fun d => A d + B d + C d) c : sProp 𝕄)
      = iprop((Pipeline.launchCred A c ∗ Pipeline.launchCred B c) ∗ Pipeline.launchCred C c) := by
  rw [Pipeline.launchCred_add (fun d => A d + B d) C, Pipeline.launchCred_add A B]

omit [FloatOps F] in
/-- Each successor's unit on the entry cell: three units in all. -/
theorem cred_owedBar (c : Dev nD) : (Pipeline.launchCred owedBar c : sProp 𝕄) ⊢ cred (tallyAt (barCell c) () 3) := by
  have h : (owedBar : Dev nD → CellTallies nD τ sig Unit)
      = fun d => tallyAt (((fwd 2 d).tc : Thread nD τ), .reg barS) () 1 + tallyAt (((fwd 1 d).tc : Thread nD τ), .reg barS) () 1
          + tallyAt (((fwd 0 d).tc : Thread nD τ), .reg barS) () 1 := rfl
  have e : (tallyAt (barCell c) () 1 + tallyAt (barCell c) () 1 + tallyAt (barCell c) () 1 : CellTallies nD τ sig Unit)
      = tallyAt (barCell c) () 3 := by rw [tallyAt_add, tallyAt_add]
  rw [h, launchCred3, ← e]
  iintro ⟨⟨H2, H1⟩, H0⟩
  ihave C2 := (Pipeline.launchCred_tallyAt (.reg barS) (fwd 2) (bwd 2) (fwd_bwd 2) (bwd_fwd 2) () 1 c) $$ H2
  ihave C1 := (Pipeline.launchCred_tallyAt (.reg barS) (fwd 1) (bwd 1) (fwd_bwd 1) (bwd_fwd 1) () 1 c) $$ H1
  ihave C0 := (Pipeline.launchCred_tallyAt (.reg barS) (fwd 0) (bwd 0) (fwd_bwd 0) (bwd_fwd 0) () 1 c) $$ H0
  iapply (cred_add _ _).2
  isplitl [C2 C1]
  · iapply (cred_add _ _).2
    isplitl [C2] <;> iassumption
  iexact C0

omit [FloatOps F] in
/-- The first arrivals: each of the three arrival cells is paid by one predecessor. -/
theorem cred_owedR1 (c : Dev nD) : (Pipeline.launchCred owedR1 c : sProp 𝕄)
    ⊢ iprop(cred (tallyAt (r1Cell c 0) () Nb) ∗ cred (tallyAt (r1Cell c 1) () Nb) ∗ cred (tallyAt (r1Cell c 2) () Nb)) := by
  have h : (owedR1 : Dev nD → CellTallies nD τ sig Unit)
      = fun d => tallyAt (((fwd 2 d).tc : Thread nD τ), .dma (r1S 2)) () Nb + tallyAt (((fwd 1 d).tc : Thread nD τ), .dma (r1S 1)) () Nb
          + tallyAt (((fwd 0 d).tc : Thread nD τ), .dma (r1S 0)) () Nb := rfl
  rw [h, launchCred3]
  iintro ⟨⟨H2, H1⟩, H0⟩
  ihave C2 := (Pipeline.launchCred_tallyAt (.dma (r1S 2)) (fwd 2) (bwd 2) (fwd_bwd 2) (bwd_fwd 2) () Nb c) $$ H2
  ihave C1 := (Pipeline.launchCred_tallyAt (.dma (r1S 1)) (fwd 1) (bwd 1) (fwd_bwd 1) (bwd_fwd 1) () Nb c) $$ H1
  ihave C0 := (Pipeline.launchCred_tallyAt (.dma (r1S 0)) (fwd 0) (bwd 0) (fwd_bwd 0) (bwd_fwd 0) () Nb c) $$ H0
  isplitl [C0]; · iexact C0
  isplitl [C1]; · iexact C1
  iexact C2

omit [FloatOps F] in
/-- The second arrivals likewise. -/
theorem cred_owedR2 (c : Dev nD) : (Pipeline.launchCred owedR2 c : sProp 𝕄)
    ⊢ iprop(cred (tallyAt (r2Cell c 0) () Nb) ∗ cred (tallyAt (r2Cell c 1) () Nb) ∗ cred (tallyAt (r2Cell c 2) () Nb)) := by
  have h : (owedR2 : Dev nD → CellTallies nD τ sig Unit)
      = fun d => tallyAt (((fwd 2 d).tc : Thread nD τ), .dma (r2S 2)) () Nb + tallyAt (((fwd 1 d).tc : Thread nD τ), .dma (r2S 1)) () Nb
          + tallyAt (((fwd 0 d).tc : Thread nD τ), .dma (r2S 0)) () Nb := rfl
  rw [h, launchCred3]
  iintro ⟨⟨H2, H1⟩, H0⟩
  ihave C2 := (Pipeline.launchCred_tallyAt (.dma (r2S 2)) (fwd 2) (bwd 2) (fwd_bwd 2) (bwd_fwd 2) () Nb c) $$ H2
  ihave C1 := (Pipeline.launchCred_tallyAt (.dma (r2S 1)) (fwd 1) (bwd 1) (fwd_bwd 1) (bwd_fwd 1) () Nb c) $$ H1
  ihave C0 := (Pipeline.launchCred_tallyAt (.dma (r2S 0)) (fwd 0) (bwd 0) (fwd_bwd 0) (bwd_fwd 0) () Nb c) $$ H0
  isplitl [C0]; · iexact C0
  isplitl [C1]; · iexact C1
  iexact C2

omit [FloatOps F] in
/-- What the launch deals device `c` for what the devices owe its cells. -/
theorem creds_intro (c : Dev nD) : (Pipeline.launchCred O₀ c : sProp 𝕄) ⊢ creds (F := F) c := by
  have h : (O₀ : Dev nD → CellTallies nD τ sig Unit) = fun d => owedR2 d + owedR1 d + owedBar d := rfl
  rw [h, launchCred3]
  unfold creds
  iintro ⟨⟨H2, H1⟩, HB⟩
  ihave CB := (cred_owedBar (F := F) c) $$ HB
  ihave C1 := (cred_owedR1 (F := F) c) $$ H1
  ihave C2 := (cred_owedR2 (F := F) c) $$ H2
  icases C1 with ⟨A0, A1, A2⟩
  icases C2 with ⟨B0, B1, B2⟩
  isplitl [CB]; · iexact CB
  isplitl [A0]; · iexact A0
  isplitl [A1]; · iexact A1
  isplitl [A2]; · iexact A2
  isplitl [B0]; · iexact B0
  isplitl [B1]; · iexact B1
  iexact B2

/-! ## The heights -/

omit [FloatOps F] in
/-- Where a device owes anything: a successor's entry cell or one of the two arrival cells it pays there. -/
theorem O₀_pos {c : Dev nD} {g : GSem nD τ sig} {u : Unit} (h : 0 < O₀ c g u) :
    ∃ k : Fin 3, g = barCell (fwd k c) ∨ g = r1Cell (fwd k c) k ∨ g = r2Cell (fwd k c) k := by
  unfold O₀ owedR2 owedR1 owedBar at h
  rcases Pipeline.add_pos_cases h with h | h
  · rcases Pipeline.add_pos_cases h with h | h
    · rcases Pipeline.add_pos_cases h with h | h
      · rcases Pipeline.add_pos_cases h with h | h
        · exact ⟨2, .inr (.inr (Pipeline.tallyAt_pos h).1)⟩
        · exact ⟨1, .inr (.inr (Pipeline.tallyAt_pos h).1)⟩
      · exact ⟨0, .inr (.inr (Pipeline.tallyAt_pos h).1)⟩
    · rcases Pipeline.add_pos_cases h with h | h
      · rcases Pipeline.add_pos_cases h with h | h
        · exact ⟨2, .inr (.inl (Pipeline.tallyAt_pos h).1)⟩
        · exact ⟨1, .inr (.inl (Pipeline.tallyAt_pos h).1)⟩
      · exact ⟨0, .inr (.inl (Pipeline.tallyAt_pos h).1)⟩
  · rcases Pipeline.add_pos_cases h with h | h
    · rcases Pipeline.add_pos_cases h with h | h
      · exact ⟨2, .inl (Pipeline.tallyAt_pos h).1⟩
      · exact ⟨1, .inl (Pipeline.tallyAt_pos h).1⟩
    · exact ⟨0, .inl (Pipeline.tallyAt_pos h).1⟩

omit [FloatOps F] in
theorem lv_bar (c : Dev nD) (u : Unit) : lv (barCell c) u = 1 := by dsimp only [lv]; rw [role_bar]
omit [FloatOps F] in
theorem lv_r1 (c : Dev nD) (k : Fin 3) (u : Unit) : lv (r1Cell c k) u = 2 := by dsimp only [lv]; rw [role_r1]
omit [FloatOps F] in
theorem lv_r2 (c : Dev nD) (k : Fin 3) (u : Unit) : lv (r2Cell c k) u = 3 := by dsimp only [lv]; rw [role_r2]

omit [FloatOps F] in
/-- Everything a device owes at launch sits at height one or more. -/
theorem O₀_high {c : Dev nD} {g : GSem nD τ sig} {u : Unit} (h : 0 < O₀ c g u) : u ∈ L g ∧ 1 ≤ lv g u := by
  obtain ⟨k, rfl | rfl | rfl⟩ := O₀_pos h
  · exact ⟨by rw [L_tc]; exact Finset.mem_singleton_self _, by rw [lv_bar]⟩
  · exact ⟨by rw [L_tc]; exact Finset.mem_singleton_self _, by rw [lv_r1]; decide⟩
  · exact ⟨by rw [L_tc]; exact Finset.mem_singleton_self _, by rw [lv_r2]; decide⟩

omit [FloatOps F] in
/-- A cell that plays no part in the conversation sits at height zero: a device may wait on it owing what it owes at
    launch, or nothing. -/
theorem mayWait_stage (c : Dev nD) (q : DmaSem sig) (hq : roleOf (.dma q) = .none) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    obtain ⟨hL, hlv⟩ := O₀_high hg
    refine ⟨hL, ?_⟩
    have h0 : lv ((c : Thread nD τ), .dma q) () = 0 := by dsimp only [lv]; rw [hq]
    rw [h0]; exact hlv
  · rw [MayWait_zero]; iintro -; iempintro

end Cert.KernelIdealProof

end
-- ==== Proof.V.Launch.lean ====
import proofs.«900373_g7700000000000374_dist_matmul_silu_kshard_i_m512_n512_k256_v7x_i4_f32_1_alg».proof.Proof.V.Data
import proofs.«900373_g7700000000000374_dist_matmul_silu_kshard_i_m512_n512_k256_v7x_i4_f32_1_alg».proof.Proof.V.LaunchGhost
import proofs.«900373_g7700000000000374_dist_matmul_silu_kshard_i_m512_n512_k256_v7x_i4_f32_1_alg».proof.Proof.V.LaunchCredit

/-! # The launch

From a proof of one device's body, the run of the whole program: the launch element is dealt, the cells' counters go
under their invariants in one update over all devices, each device takes the result array and its scratch buffers at
some contents, runs its body owing what the conversation says it owes, and hands back the result array, its scratch
buffers and its sixteen own cells closed at zero. Both argument arrays are read only, so they end as they began. -/

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Whole buffers -/

theorem holds_whole (c : Dev nD) (b : Ref sig .tc) :
    holds (F := F) c (Memref.whole b) = iprop(∃ f : Buf (Elt F) ((c : Thread nD τ).loc b), ((c : Thread nD τ).loc b) ↦{fullShare} f) := by
  have e : (Memref.whole b : Memref sig .tc _ _ _).view.set = Finset.univ := View.set_whole _
  unfold holds; rw [e]

theorem holds_outM (c : Dev nD) : holds (F := F) c outM
    = iprop(∃ f : Buf (Elt F) ((c : Thread nD τ).loc main_v1), ((c : Thread nD τ).loc main_v1) ↦{fullShare} f) := holds_whole c main_v1

/-- The seven scratch buffers are the device's scoped buffers beside the staging ones. -/
theorem scratch_eq (c : Dev nD) : scratch (F := F) c = Pipeline.scopedRest cfg0.spec c := by
  rw [scopedRest0_eq]
  unfold scratch
  rw [show holds (F := F) c bbfM = _ from holds_whole c cc0_scratch0, show holds (F := F) c ownM = _ from holds_whole c cc0_scratch1,
    show holds (F := F) c sbM = _ from holds_whole c cc0_scratch2, show holds (F := F) c commM = _ from holds_whole c cc0_scratch3,
    show holds (F := F) c gsM = _ from holds_whole c cc0_scratch4, show holds (F := F) c grM = _ from holds_whole c cc0_scratch5,
    show holds (F := F) c resM = _ from holds_whole c cc0_scratch6]

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (F := F) m ρ c)
      ⊢ |={Set.univ}=> iprop(start (F := F) m ρ c ∗ emp) := by
  rw [Pipeline.unscopedRestP_none, unscopedRest0_eq]
  iintro ⟨Hout, Hlev, Hcr, -, HG⟩
  ihave Hc := (creds_intro (F := F) c) $$ Hcr
  imodintro
  unfold start G'
  isplitl
  · isplitl [HG]; · iexact HG
    isplitl [Hc]; · iexact Hc
    isplitl [Hlev]; · iexact Hlev
    rw [holds_outM]; iexists _; iexact Hout
  · iempintro

theorem phi0_intro (c : Dev nD) :
    iprop(start (F := F) m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ (F := F) m ρ c from rfl, ← scratch_eq]
  unfold Φ₀
  iintro ⟨Hs, -, Hr⟩
  isplitl [Hs]; · iexact Hs
  iexact Hr

theorem phi1_exit (c : Dev nD) :
    (dats m ρ 0 c).Φ (Fin.last cfg0.N) ⊢ iprop(holdsOut (F := F) m ρ c ∗ Pipeline.ownSems0 osem c ∗ Pipeline.scopedRest cfg0.spec c) := by
  rw [show (dats m ρ 0 c).Φ (Fin.last cfg0.N) = Φ₁ (F := F) m ρ c from rfl, ← scratch_eq, ownSems0_eq]
  unfold Φ₁
  iintro ⟨Ho, Hs, Hz⟩
  isplitl [Ho]; · iexact Ho
  isplitl [Hz]; · iexact Hz
  iexact Hs

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The named result array, as a whole-buffer points-to. -/
theorem holdsOut_eq (c : Dev nD) : holdsOut (F := F) m ρ c
    = iprop(∃ f : Buf (Elt F) ((c : Thread nD τ).loc main_v1), ⌜f = outV (aS m ρ) (bS m ρ) c⌝ ∗ (((c : Thread nD τ).loc main_v1) ↦{fullShare} f)) := by
  have e : (Memref.whole main_v1 : Memref sig .tc _ _ _).view.set = Finset.univ := View.set_whole _
  unfold holdsOut holdsV; rw [e]; rfl

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_v1) = outV (aS m ρ) (bS m ρ) c

set_option maxRecDepth 8000 in
/-- At the compiled mesh of four devices, for any float values, from any memory with zero counters: given the body's
    proof at every device, every weakly fair execution of the program terminates, and every final state has each
    window's array at what the proof data say it ends at and every device's result array at its named contents. -/
theorem run_main (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (F := F) m ρ) (G' := G' (F := F) m ρ) (u₀ := u₀)
    (hu₀ := by
      unfold u₀
      iintro Hu
      ihave H := (ownU_pair _ _) $$ Hu
      icases H with ⟨HP, HX⟩
      imod (fund_ring (F := F) m ρ) $$ HX with HG
      imodintro
      isplitl [HP] <;> iassumption)
    (hglob := glob (F := F) m ρ)
    (hA := fun _ _ => rfl) (hpf := fun _ k => k.elim0)
    (X := start (F := F) m ρ) (Y := holdsOut (F := F) m ρ) (Z := fun _ => iprop(emp))
    (hX := start_intro m ρ) (hin := phi0_intro m ρ) (hout := phi1_exit m ρ)
    (QY := fun c s => s.mem ((c : Thread nD τ).loc main_v1) = outV (aS m ρ) (bS m ρ) c)
    (hY := fun c s' => by
      rw [holdsOut_eq]
      iintro ⟨⟨%f, %hf, H1⟩, -, HSI⟩
      icombine HSI H1 gives %h
      imodintro
      isplitr; · ipureintro; exact (Buf.eq_of_forall_mem_univ h).trans hf
      iexact HSI)
    (hQ := fun _ h c => ⟨fun w => (h c).1 w, (h c).2.2⟩)

/-- THE RUN WITH ITS VALUE: every device's result array ends at its named contents, and both argument arrays as they
    began. -/
theorem value_run (hbody : ∀ c, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outV (aS m ρ) (bS m ρ) c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2, ((h c).1 0).trans ((dats (F := F) m ρ 0 c).arrAt_in 0 rfl _), ((h c).1 1).trans ((dats (F := F) m ρ 0 c).arrAt_in 1 rfl _)⟩) (run_main m ρ hbody)

/-- Both argument arrays end as they began. -/
theorem frame_run (hbody : ∀ c, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (value_run m ρ hbody)

end Cert.KernelIdealProof

end
-- ==== Proof.V.Bits.Base.lean ====
import proofs.«900373_g7700000000000374_dist_matmul_silu_kshard_i_m512_n512_k256_v7x_i4_f32_1_alg».proof.Proof.Gen.Kernel
import proofs.«900373_g7700000000000374_dist_matmul_silu_kshard_i_m512_n512_k256_v7x_i4_f32_1_alg».proof.Proof.Gen.Kernel.Skeleton
import proofs.«900373_g7700000000000374_dist_matmul_silu_kshard_i_m512_n512_k256_v7x_i4_f32_1_alg».proof.Proof.Gen.Kernel.Launch
import Idealize.ShloMosaic.Lib.Pipeline.Launch
import Idealize.ShloMosaic.Lib.Pipeline.Kit
import Idealize.ShloMosaic.Lib.Tactic

/-! # The four devices' conversation

Four devices on a ring of offsets: device `c`'s `(d+1)`-th successor is `fwd d c = c + 1 + d (mod 4)`, its
`(d+1)`-th predecessor `bwd d c = c + 3 - d (mod 4)`, for `d = 0, 1, 2`.

Every device holds seventeen counting cells.
* The entry cell. Each of the three other devices adds one unit to it; the device waits for all three. The unit from
  `bwd d c` tells `c` that this peer is inside its kernel and lends `c` the two landing slices on the peer that `c` is
  going to write (slice `2 - d` of the peer's first and second landing buffers).
* Three departure cells and three arrival cells of the first exchange: transfer `k` of device `c` carries the row block
  `fwd k c` of `c`'s partial product into slice `k` of the first landing buffer of `fwd k c`; the departure cell is
  credited on `c` once the rows are read, the arrival cell on the target once they are written.
* Three departure and three arrival cells of the second exchange: transfer `k` carries `c`'s finished rows into slice
  `k` of the second landing buffer of `fwd k c`; the three transfers read one source, each through a share of it.
* Four cells of the copies of finished row blocks from the result scratch to the result array, each paid by the
  device's own copy.

A wait is admissible when its cell lies below every cell the waiter still owes units to: entry cells lie at height 1,
first arrival cells at 2, second arrival cells at 3, every other cell at 0, and a device pays its entry units first,
then the first arrivals, then the second arrivals. -/

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging pipeline's cells beside the conversation's (duties named by `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

def fwd (d : Fin 3) (c : Dev nD) : Dev nD := ⟨(c.val + 1 + d.val) % 4, Nat.mod_lt _ (by decide)⟩
def bwd (d : Fin 3) (c : Dev nD) : Dev nD := ⟨(c.val + 3 - d.val) % 4, Nat.mod_lt _ (by decide)⟩
/-- The slice of a peer's landing buffer that the peer `bwd d c` keeps for `c`. -/
def rev (d : Fin 3) : Fin 3 := ⟨2 - d.val, by omega⟩

theorem bwd_fwd (d : Fin 3) (c : Dev nD) : bwd d (fwd d c) = c := by revert d c; decide
theorem fwd_bwd (d : Fin 3) (c : Dev nD) : fwd d (bwd d c) = c := by revert d c; decide
theorem bwd_eq_fwd_rev (d : Fin 3) (c : Dev nD) : bwd d c = fwd (rev d) c := by revert d c; decide
theorem rev_rev (d : Fin 3) : rev (rev d) = d := by revert d; decide
theorem fwd_ne_self (d : Fin 3) (c : Dev nD) : fwd d c ≠ c := by revert d c; decide
theorem fwd_inj_left {d d' : Fin 3} {c : Dev nD} (h : fwd d c = fwd d' c) : d = d' := by revert d d' c; decide

/-- The printed device chains: the three entry signals, the three transfers of each exchange, all address the
    successors in order. -/
theorem dev1_eq (c : Dev nD) : (⟨k0_dev1 c, k0_dev1_lt c⟩ : Dev nD) = fwd 0 c := by revert c; decide +kernel
theorem dev2_eq (c : Dev nD) : (⟨k0_dev2 c, k0_dev2_lt c⟩ : Dev nD) = fwd 1 c := by revert c; decide +kernel
theorem dev3_eq (c : Dev nD) : (⟨k0_dev3 c, k0_dev3_lt c⟩ : Dev nD) = fwd 2 c := by revert c; decide +kernel
theorem dev4_eq (c : Dev nD) : (⟨k0_dev4 c, k0_dev4_lt c⟩ : Dev nD) = fwd 0 c := by revert c; decide +kernel
theorem dev5_eq (c : Dev nD) : (⟨k0_dev5 c, k0_dev5_lt c⟩ : Dev nD) = fwd 1 c := by revert c; decide +kernel
theorem dev6_eq (c : Dev nD) : (⟨k0_dev6 c, k0_dev6_lt c⟩ : Dev nD) = fwd 2 c := by revert c; decide +kernel
theorem dev7_eq (c : Dev nD) : (⟨k0_dev7 c, k0_dev7_lt c⟩ : Dev nD) = fwd 0 c := by revert c; decide +kernel
theorem dev8_eq (c : Dev nD) : (⟨k0_dev8 c, k0_dev8_lt c⟩ : Dev nD) = fwd 1 c := by revert c; decide +kernel
theorem dev9_eq (c : Dev nD) : (⟨k0_dev9 c, k0_dev9_lt c⟩ : Dev nD) = fwd 2 c := by revert c; decide +kernel

/-- The printed row offsets: a transfer of the first exchange reads and writes the row block of its target, a copy of
    the second exchange's rows the row block of their origin. -/
theorem off1_eq : ∀ c : Dev nD, ∀ r : Fin 3, k0_off1 c (BitVec.ofNat 32 (1 + r.val)) = ![128 * (fwd r c).val, 0] := by decide +kernel
theorem off2_eq : ∀ c : Dev nD, ∀ r : Fin 3, k0_off2 c (BitVec.ofNat 32 (1 + r.val)) = ![128 * (fwd r c).val, 0] := by decide +kernel
theorem off3_eq : ∀ c : Dev nD, ∀ r : Fin 3, k0_off3 c (BitVec.ofNat 32 (1 + r.val)) = ![128 * (fwd r c).val, 0] := by decide +kernel
theorem off7_eq : ∀ c : Dev nD, ∀ r : Fin 3, k0_off7 c (BitVec.ofNat 32 (1 + r.val)) = ![128 * (bwd r c).val, 0] := by decide +kernel
theorem off8_eq : ∀ c : Dev nD, ∀ r : Fin 3, k0_off8 c (BitVec.ofNat 32 (1 + r.val)) = ![128 * (bwd r c).val, 0] := by decide +kernel

/-! ## The buffers and their slices, as the body spells them -/

abbrev aM : Memref sig .tc .vmem S512x256 .f32 := Memref.whole cc0_stg0_0
abbrev bM : Memref sig .tc .vmem S256x512 .f32 := Memref.whole cc0_stg1_0
abbrev outM : Memref sig .tc .hbm S512x512 .f32 := Memref.whole main_v1
abbrev bbfM : Memref sig .tc .vmem S256x512 .bf16 := Memref.whole cc0_scratch0
abbrev ownM : Memref sig .tc .vmem S128x512 .f32 := Memref.whole cc0_scratch1
abbrev sbM : Memref sig .tc .vmem S512x512 .bf16 := Memref.whole cc0_scratch2
abbrev commM : Memref sig .tc .vmem S3x128x512 .bf16 := Memref.whole cc0_scratch3
abbrev gsM : Memref sig .tc .vmem S128x512 .bf16 := Memref.whole cc0_scratch4
abbrev grM : Memref sig .tc .vmem S3x128x512 .bf16 := Memref.whole cc0_scratch5
abbrev resM : Memref sig .tc .vmem S512x512 .f32 := Memref.whole cc0_scratch6

/-- The rows of the send buffer that transfer `k` of device `c` reads. -/
abbrev sbSl (c : Dev nD) (k : Fin 3) : Memref sig .tc .vmem S128x512 .bf16 :=
  sbM.slice (Rect.unit (s := S512x512) (k0_off3 c (BitVec.ofNat 32 (1 + k.val))) S128x512.size (k0_off3_inb c k)) (fun _ => rfl)
/-- The device's own rows of the send buffer, which no transfer carries. -/
abbrev sbOwn (c : Dev nD) : Memref sig .tc .vmem S128x512 .bf16 :=
  sbM.slice (Rect.unit (s := S512x512) (k0_off5 c) S128x512.size (k0_off5_inb c)) (fun _ => rfl)
/-- Slice `k` of the first landing buffer. -/
abbrev commSl : Fin 3 → Memref sig .tc .vmem S128x512 .bf16
  | 0 => (commM.slice (Rect.unit (s := S3x128x512) ![0, 0, 0] S1x128x512.size inb_S3x128x512_S1x128x512_0_0_0) (fun _ => rfl)).squeeze S128x512 squeezes_S1x128x512_S128x512
  | 1 => (commM.slice (Rect.unit (s := S3x128x512) ![1, 0, 0] S1x128x512.size inb_S3x128x512_S1x128x512_1_0_0) (fun _ => rfl)).squeeze S128x512 squeezes_S1x128x512_S128x512
  | 2 => (commM.slice (Rect.unit (s := S3x128x512) ![2, 0, 0] S1x128x512.size inb_S3x128x512_S1x128x512_2_0_0) (fun _ => rfl)).squeeze S128x512 squeezes_S1x128x512_S128x512
/-- Slice `k` of the second landing buffer. -/
abbrev grSl : Fin 3 → Memref sig .tc .vmem S128x512 .bf16
  | 0 => (grM.slice (Rect.unit (s := S3x128x512) ![0, 0, 0] S1x128x512.size inb_S3x128x512_S1x128x512_0_0_0) (fun _ => rfl)).squeeze S128x512 squeezes_S1x128x512_S128x512
  | 1 => (grM.slice (Rect.unit (s := S3x128x512) ![1, 0, 0] S1x128x512.size inb_S3x128x512_S1x128x512_1_0_0) (fun _ => rfl)).squeeze S128x512 squeezes_S1x128x512_S128x512
  | 2 => (grM.slice (Rect.unit (s := S3x128x512) ![2, 0, 0] S1x128x512.size inb_S3x128x512_S1x128x512_2_0_0) (fun _ => rfl)).squeeze S128x512 squeezes_S1x128x512_S128x512
/-- The device's own rows of the result scratch and of the result array, -/
abbrev resOwn (c : Dev nD) : Memref sig .tc .vmem S128x512 .f32 :=
  resM.slice (Rect.unit (s := S512x512) (k0_off6 c) S128x512.size (k0_off6_inb c)) (fun _ => rfl)
abbrev outOwn (c : Dev nD) : Memref sig .tc .hbm S128x512 .f32 :=
  outM.slice (Rect.unit (s := S512x512) (k0_off6 c) S128x512.size (k0_off6_inb c)) (fun _ => rfl)
/-- and the rows that came from the predecessor `bwd k c`. -/
abbrev resSl (c : Dev nD) (k : Fin 3) : Memref sig .tc .vmem S128x512 .f32 :=
  resM.slice (Rect.unit (s := S512x512) (k0_off8 c (BitVec.ofNat 32 (1 + k.val))) S128x512.size (k0_off8_inb c k)) (fun _ => rfl)
abbrev outSl (c : Dev nD) (k : Fin 3) : Memref sig .tc .hbm S128x512 .f32 :=
  outM.slice (Rect.unit (s := S512x512) (k0_off8 c (BitVec.ofNat 32 (1 + k.val))) S128x512.size (k0_off8_inb c k)) (fun _ => rfl)

/-! ## The cells -/

abbrev barS : Sem sig := (SemArray.scalar (sig.barrier 0 rfl) : Sems sig S_).sem
abbrev s1S : Fin 3 → DmaSem sig := fun | 0 => 2 | 1 => 3 | 2 => 4
abbrev r1S : Fin 3 → DmaSem sig := fun | 0 => 5 | 1 => 6 | 2 => 7
abbrev s2S : Fin 3 → DmaSem sig := fun | 0 => 8 | 1 => 9 | 2 => 10
abbrev r2S : Fin 3 → DmaSem sig := fun | 0 => 11 | 1 => 12 | 2 => 13
abbrev csS : Fin 4 → DmaSem sig := fun | 0 => 14 | 1 => 15 | 2 => 16 | 3 => 17

abbrev barCell (c : Dev nD) : GSem nD τ sig := ((c : Thread nD τ), .reg barS)
abbrev s1Cell (c : Dev nD) (k : Fin 3) : GSem nD τ sig := ((c : Thread nD τ), .dma (s1S k))
abbrev r1Cell (c : Dev nD) (k : Fin 3) : GSem nD τ sig := ((c : Thread nD τ), .dma (r1S k))
abbrev s2Cell (c : Dev nD) (k : Fin 3) : GSem nD τ sig := ((c : Thread nD τ), .dma (s2S k))
abbrev r2Cell (c : Dev nD) (k : Fin 3) : GSem nD τ sig := ((c : Thread nD τ), .dma (r2S k))
abbrev csCell (c : Dev nD) (j : Fin 4) : GSem nD τ sig := ((c : Thread nD τ), .dma (csS j))

/-- What a cell is for. -/
inductive Role
  | bar | s1 (k : Fin 3) | r1 (k : Fin 3) | s2 (k : Fin 3) | r2 (k : Fin 3) | cs (j : Fin 4) | none
deriving DecidableEq

def roleOf : SemLoc sig → Role
  | .reg s => if s = barS then .bar else .none
  | .dma q => match q.val with
    | 2 => .s1 0 | 3 => .s1 1 | 4 => .s1 2
    | 5 => .r1 0 | 6 => .r1 1 | 7 => .r1 2
    | 8 => .s2 0 | 9 => .s2 1 | 10 => .s2 2
    | 11 => .r2 0 | 12 => .r2 1 | 13 => .r2 2
    | 14 => .cs 0 | 15 => .cs 1 | 16 => .cs 2 | 17 => .cs 3
    | _ => .none

theorem role_bar : roleOf (.reg barS) = .bar := by
  show (if barS = barS then Role.bar else Role.none) = Role.bar
  exact if_pos rfl
theorem role_s1 (k : Fin 3) : roleOf (.dma (s1S k)) = .s1 k := by revert k; decide
theorem role_r1 (k : Fin 3) : roleOf (.dma (r1S k)) = .r1 k := by revert k; decide
theorem role_s2 (k : Fin 3) : roleOf (.dma (s2S k)) = .s2 k := by revert k; decide
theorem role_r2 (k : Fin 3) : roleOf (.dma (r2S k)) = .r2 k := by revert k; decide
theorem role_cs (j : Fin 4) : roleOf (.dma (csS j)) = .cs j := by revert j; decide

/-- The units a transfer of a bf16 row block, and a copy of an f32 row block, put on their cells. -/
abbrev Nb : ℕ := (gsM : Memref sig .tc .vmem S128x512 .bf16).view.dmaCredit
abbrev Nf : ℕ := (ownM : Memref sig .tc .vmem S128x512 .f32).view.dmaCredit
theorem Nb_pos : 0 < Nb := View.dmaCredit_pos _ (by decide)
theorem Nf_pos : 0 < Nf := View.dmaCredit_pos _ (by decide)

/-! ## What the units hand over -/

/-- All of a memref's elements on device `c`, at some contents. -/
def holds {sp : Space} {s : Shape} {e : EltTy} (c : Dev nD) (M : Memref sig .tc sp s e) : sProp 𝕄 :=
  iprop(∃ f : Buf (Elt F) (M.view.loc (c : Thread nD τ)), M.view.loc (c : Thread nD τ) ↦[M.view.set]{fullShare} f)
/-- A share of them. -/
def holdsAt {sp : Space} {s : Shape} {e : EltTy} (q : PosShare TreeShare) (c : Dev nD) (M : Memref sig .tc sp s e) : sProp 𝕄 :=
  iprop(∃ f : Buf (Elt F) (M.view.loc (c : Thread nD τ)), M.view.loc (c : Thread nD τ) ↦[M.view.set]{q} f)

/-- The shares through which the three transfers of the second exchange read their one source. -/
def gsShare : Fin 3 → PosShare TreeShare
  | 0 => fullShare.left
  | 1 => fullShare.right.left
  | 2 => fullShare.right.right

/-- The unit of `bwd d c` on `c`'s entry cell: the two slices on that peer which `c` will write, and that the peer
    stands at the start of the two cells those writes credit. -/
def barPay (c : Dev nD) (d : Fin 3) : sProp 𝕄 :=
  iprop(holds (F := F) (bwd d c) (commSl (rev d)) ∗ holds (F := F) (bwd d c) (grSl (rev d))
    ∗ reached ER (r1Cell (bwd d c) (rev d)) 0 ∗ reached ER (r2Cell (bwd d c) (rev d)) 0)

/-! ## What each device owes at launch, and the heights -/

/-- Device `c` owes each successor one entry unit, a first arrival and a second arrival. -/
def owedBar (c : Dev nD) : CellTallies nD τ sig Unit :=
  tallyAt (barCell (fwd 2 c)) () 1 + tallyAt (barCell (fwd 1 c)) () 1 + tallyAt (barCell (fwd 0 c)) () 1
def owedR1 (c : Dev nD) : CellTallies nD τ sig Unit :=
  tallyAt (r1Cell (fwd 2 c) 2) () Nb + tallyAt (r1Cell (fwd 1 c) 1) () Nb + tallyAt (r1Cell (fwd 0 c) 0) () Nb
def owedR2 (c : Dev nD) : CellTallies nD τ sig Unit :=
  tallyAt (r2Cell (fwd 2 c) 2) () Nb + tallyAt (r2Cell (fwd 1 c) 1) () Nb + tallyAt (r2Cell (fwd 0 c) 0) () Nb
def O₀ (c : Dev nD) : CellTallies nD τ sig Unit := owedR2 c + owedR1 c + owedBar c

def L (g : GSem nD τ sig) : Finset Unit := if g.1.2 = .tc then {()} else ∅
def lv (g : GSem nD τ sig) (_ : Unit) : ℕ := match roleOf g.2 with | .bar => 1 | .r1 _ => 2 | .r2 _ => 3 | _ => 0

theorem L_of_ne (g : GSem nD τ sig) (h : g.1.2 ≠ .tc) : L g = ∅ := if_neg h
theorem L_tc (c : Dev nD) (sm : SemLoc sig) : L ((c : Thread nD τ), sm) = {()} := if_pos rfl

end Cert.KernelProof

end
-- ==== Proof.V.Bits.Contents.lean ====
import proofs.«900373_g7700000000000374_dist_matmul_silu_kshard_i_m512_n512_k256_v7x_i4_f32_1_alg».proof.Proof.V.Bits.Base
import Idealize.ShloMosaic.Lib.ValueIdx

/-! # What every buffer holds at the end, as functions of the devices' blocks

Device `d` stages its column block `a d` of the first matrix and its row block `b d` of the second. From these:
the second block in the narrow format; the three partial products a device sends, for the row blocks of its three
successors, and the one it keeps for its own rows; what lands in a device's first landing buffer (slice `k` from its
`(k+1)`-th predecessor); the sum of the four partial products of a device's own rows and its activation; what lands in
the second landing buffer (slice `k`: the activated rows of the `(k+1)`-th predecessor); and the result array, row
block by row block: a device's own rows from its own activation, every other row block from the slice its owner sent. -/

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (a : Dev nD → (cc0_stg0_0 : Ref sig .tc).ty.Contents (Elt F)) (b : Dev nD → (cc0_stg1_0 : Ref sig .tc).ty.Contents (Elt F))

/-- The second block in the narrow format. -/
def bbfV (d : Dev nD) : FVec F S256x512 .bf16 := k0_pay1 (b d)

/-- The rows of the first block that device `d` multiplies for its `(k+1)`-th successor: the row block of that successor. -/
def rowsA (d : Dev nD) (k : Fin 3) : Vec F S128x256 .f32 :=
  aM.view.readAt (Elt F) (Rect.unit (s := S512x256) (k0_off1 d (BitVec.ofNat 32 (1 + k.val))) S128x256.size (k0_off1_inb d k)).toLoadRect (a d)

/-- Its own rows. -/
def ownRows (d : Dev nD) : Vec F S128x256 .f32 :=
  aM.view.readAt (Elt F) (Rect.unit (s := S512x256) (k0_off4 d) S128x256.size (k0_off4_inb d)).toLoadRect (a d)

/-- The partial product device `d` sends to its `(k+1)`-th successor. -/
def sentV (d : Dev nD) : Fin 3 → FVec F S128x512 .bf16
  | 0 => k0_pay3 (k0_pay2 (rowsA a d 0)) (bbfV b d)
  | 1 => k0_pay5 (k0_pay4 (rowsA a d 1) (bbfV b d))
  | 2 => k0_pay6 (rowsA a d 2) (bbfV b d)

/-- The partial product of its own rows. -/
def ownV (d : Dev nD) : FVec F S128x512 .f32 := k0_pay7 (ownRows a d) (bbfV b d)

/-- A row block as one slice of a landing buffer. -/
def lift1 {e : EltTy} (x : Vec F S128x512 e) : Vec F S1x128x512 e :=
  fun i => x (ValueIdx.ix2 (⟨(i 1).val, (i 1).isLt⟩ : Fin 128) (⟨(i 2).val, (i 2).isLt⟩ : Fin 512))

/-- Slice `k` of device `c`'s first landing buffer: what its `(k+1)`-th predecessor sent it. -/
def commV (c : Dev nD) (k : Fin 3) : Vec F S1x128x512 .bf16 := lift1 (sentV a b (bwd k c) k)

/-- Device `c`'s activated rows, wide, -/
def resOwnV (c : Dev nD) : FVec F S128x512 .f32 := k0_pay9 (ownV a b c) (commV a b c 0) (commV a b c 1) (commV a b c 2)
/-- and narrow, as sent to its successors. -/
def gsV (c : Dev nD) : FVec F S128x512 .bf16 := k0_pay10 (ownV a b c) (commV a b c 0) (commV a b c 1) (commV a b c 2)

/-- Slice `k` of device `c`'s second landing buffer: the activated rows of its `(k+1)`-th predecessor. -/
def grV (c : Dev nD) (k : Fin 3) : Vec F S1x128x512 .bf16 := lift1 (gsV a b (bwd k c))

/-- The rows of the `(k+1)`-th predecessor as device `c` puts them in the result. -/
def backV (c : Dev nD) : Fin 3 → FVec F S128x512 .f32
  | 0 => k0_pay11 (grV a b c 0)
  | 1 => k0_pay12 (grV a b c 1)
  | 2 => k0_pay13 (grV a b c 2)

/-- Row block `t` of device `c`'s result. -/
def rowBlk (c t : Dev nD) : Vec F S128x512 .f32 :=
  if t = c then resOwnV a b c else if t = bwd 0 c then backV a b c 0 else if t = bwd 1 c then backV a b c 1 else backV a b c 2

/-- Device `c`'s result array. -/
def outV (c : Dev nD) : Vec F S512x512 .f32 := fun i =>
  rowBlk a b c (⟨(i 0).val / 128, by have := ValueIdx.idx2_lt0 i; show _ < 4; omega⟩ : Dev nD)
    (ValueIdx.ix2 (⟨(i 0).val % 128, Nat.mod_lt _ (by decide)⟩ : Fin 128) (⟨(i 1).val, ValueIdx.idx2_lt1 i⟩ : Fin 512))

end Cert.KernelProof

end
-- ==== Proof.V.Bits.Protocol.lean ====
import proofs.«900373_g7700000000000374_dist_matmul_silu_kshard_i_m512_n512_k256_v7x_i4_f32_1_alg».proof.Proof.V.Bits.Contents

/-! # The conversation, with what each unit hands over named

The schedule of the four devices' conversation as a function of the devices' staged blocks `a` and `b`: the duties and
amounts are those of the cells' roles; an arrival cell of the first exchange hands its owner slice `k` of the first
landing buffer holding the partial product its `(k+1)`-th predecessor computed for it, an arrival cell of the second
exchange slice `k` of the second landing buffer holding that predecessor's activated rows, and a result copy's cell the
rows of the result array holding the finished values. -/

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- All of a memref's elements on device `c`, reading as `V`. -/
def holdsV {sp : Space} {s : Shape} {e : EltTy} (c : Dev nD) (M : Memref sig .tc sp s e) (V : s.Idx → Elt F e) : sProp 𝕄 :=
  iprop(∃ f : Buf (Elt F) (M.view.loc (c : Thread nD τ)), ⌜M.view.read (Elt F) f = V⌝ ∗ (M.view.loc (c : Thread nD τ) ↦[M.view.set]{fullShare} f))

omit [FloatOps F] in
/-- Named contents are some contents. -/
theorem holdsV_holds {sp : Space} {s : Shape} {e : EltTy} (c : Dev nD) (M : Memref sig .tc sp s e) (V : s.Idx → Elt F e) :
    holdsV (F := F) c M V ⊢ holds (F := F) c M := by
  unfold holdsV holds
  iintro ⟨%f, -, H⟩
  iexists f; iexact H

variable (a : Dev nD → (cc0_stg0_0 : Ref sig .tc).ty.Contents (Elt F)) (b : Dev nD → (cc0_stg1_0 : Ref sig .tc).ty.Contents (Elt F))

/-- The conversation, one round per cell. -/
def conv : Rounds.Schedule (GSem nD τ sig) (Fin 3) 𝕄 where
  duties g r :=
    if r = 0 ∧ g.1.2 = .tc then
      (match roleOf g.2 with | .bar => Finset.univ | .none => ∅ | _ => {0})
    else ∅
  unitless _ := False
  amount g _ _ := match roleOf g.2 with | .bar => 1 | .cs _ => Nf | _ => Nb
  payload g _ d := match roleOf g.2 with
    | .bar => barPay g.1.1 d
    | .s1 k => holds (F := F) g.1.1 (sbSl g.1.1 k)
    | .r1 k => holdsV (F := F) g.1.1 (commSl k) (sentV a b (bwd k g.1.1) k)
    | .s2 k => holdsAt (F := F) (gsShare k) g.1.1 gsM
    | .r2 k => holdsV (F := F) g.1.1 (grSl k) (gsV a b (bwd k g.1.1))
    | .cs 0 => iprop(holdsV (F := F) g.1.1 (outOwn g.1.1) (resOwnV a b g.1.1) ∗ holds (F := F) g.1.1 (resOwn g.1.1))
    | .cs 1 => iprop(holdsV (F := F) g.1.1 (outSl g.1.1 0) (backV a b g.1.1 0) ∗ holds (F := F) g.1.1 (resSl g.1.1 0))
    | .cs 2 => iprop(holdsV (F := F) g.1.1 (outSl g.1.1 1) (backV a b g.1.1 1) ∗ holds (F := F) g.1.1 (resSl g.1.1 1))
    | .cs 3 => iprop(holdsV (F := F) g.1.1 (outSl g.1.1 2) (backV a b g.1.1 2) ∗ holds (F := F) g.1.1 (resSl g.1.1 2))
    | .none => iprop(emp)
  amount_pos g _ _ _ := by
    cases roleOf g.2 <;> first | exact Nat.one_pos | exact Nb_pos | exact Nf_pos

/-! ## The schedule's tables -/

section Tables
variable (c : Dev nD)

theorem duties_bar : (conv (F := F) a b).duties (barCell c) 0 = Finset.univ := by
  dsimp only [conv]; rw [if_pos ⟨rfl, rfl⟩, role_bar]
theorem duties_s1 (k : Fin 3) : (conv (F := F) a b).duties (s1Cell c k) 0 = {0} := by
  dsimp only [conv]; rw [if_pos ⟨rfl, rfl⟩, role_s1]
theorem duties_r1 (k : Fin 3) : (conv (F := F) a b).duties (r1Cell c k) 0 = {0} := by
  dsimp only [conv]; rw [if_pos ⟨rfl, rfl⟩, role_r1]
theorem duties_s2 (k : Fin 3) : (conv (F := F) a b).duties (s2Cell c k) 0 = {0} := by
  dsimp only [conv]; rw [if_pos ⟨rfl, rfl⟩, role_s2]
theorem duties_r2 (k : Fin 3) : (conv (F := F) a b).duties (r2Cell c k) 0 = {0} := by
  dsimp only [conv]; rw [if_pos ⟨rfl, rfl⟩, role_r2]
theorem duties_cs (j : Fin 4) : (conv (F := F) a b).duties (csCell c j) 0 = {0} := by
  dsimp only [conv]; rw [if_pos ⟨rfl, rfl⟩, role_cs]
theorem duties_later (g : GSem nD τ sig) : ∀ r, 1 ≤ r → (conv (F := F) a b).duties g r = ∅ :=
  fun r hr => by dsimp only [conv]; rw [if_neg fun h => by omega]

theorem amount_bar (d : Fin 3) : (conv (F := F) a b).amount (barCell c) 0 d = 1 := by dsimp only [conv]; rw [role_bar]
theorem amount_s1 (k d : Fin 3) : (conv (F := F) a b).amount (s1Cell c k) 0 d = Nb := by dsimp only [conv]; rw [role_s1]
theorem amount_r1 (k d : Fin 3) : (conv (F := F) a b).amount (r1Cell c k) 0 d = Nb := by dsimp only [conv]; rw [role_r1]
theorem amount_s2 (k d : Fin 3) : (conv (F := F) a b).amount (s2Cell c k) 0 d = Nb := by dsimp only [conv]; rw [role_s2]
theorem amount_r2 (k d : Fin 3) : (conv (F := F) a b).amount (r2Cell c k) 0 d = Nb := by dsimp only [conv]; rw [role_r2]
theorem amount_cs (j : Fin 4) (d : Fin 3) : (conv (F := F) a b).amount (csCell c j) 0 d = Nf := by dsimp only [conv]; rw [role_cs]

theorem expect_bar : (conv (F := F) a b).expect (barCell c) 0 = 3 := by
  unfold Schedule.expect Schedule.amountOf
  rw [duties_bar, Finset.sum_congr rfl fun d _ => amount_bar a b c d, Finset.sum_const, Finset.card_univ, Fintype.card_fin, smul_eq_mul]
theorem expect_s1 (k : Fin 3) : (conv (F := F) a b).expect (s1Cell c k) 0 = Nb := by
  unfold Schedule.expect Schedule.amountOf; rw [duties_s1, Finset.sum_singleton, amount_s1]
theorem expect_r1 (k : Fin 3) : (conv (F := F) a b).expect (r1Cell c k) 0 = Nb := by
  unfold Schedule.expect Schedule.amountOf; rw [duties_r1, Finset.sum_singleton, amount_r1]
theorem expect_s2 (k : Fin 3) : (conv (F := F) a b).expect (s2Cell c k) 0 = Nb := by
  unfold Schedule.expect Schedule.amountOf; rw [duties_s2, Finset.sum_singleton, amount_s2]
theorem expect_r2 (k : Fin 3) : (conv (F := F) a b).expect (r2Cell c k) 0 = Nb := by
  unfold Schedule.expect Schedule.amountOf; rw [duties_r2, Finset.sum_singleton, amount_r2]
theorem expect_cs (j : Fin 4) : (conv (F := F) a b).expect (csCell c j) 0 = Nf := by
  unfold Schedule.expect Schedule.amountOf; rw [duties_cs, Finset.sum_singleton, amount_cs]

theorem payload_bar (d : Fin 3) : (conv (F := F) a b).payload (barCell c) 0 d = barPay c d := by dsimp only [conv]; rw [role_bar]
theorem payload_s1 (k d : Fin 3) : (conv (F := F) a b).payload (s1Cell c k) 0 d = holds (F := F) c (sbSl c k) := by dsimp only [conv]; rw [role_s1]
theorem payload_r1 (k d : Fin 3) : (conv (F := F) a b).payload (r1Cell c k) 0 d = holdsV (F := F) c (commSl k) (sentV a b (bwd k c) k) := by
  dsimp only [conv]; rw [role_r1]
theorem payload_s2 (k d : Fin 3) : (conv (F := F) a b).payload (s2Cell c k) 0 d = holdsAt (F := F) (gsShare k) c gsM := by dsimp only [conv]; rw [role_s2]
theorem payload_r2 (k d : Fin 3) : (conv (F := F) a b).payload (r2Cell c k) 0 d = holdsV (F := F) c (grSl k) (gsV a b (bwd k c)) := by
  dsimp only [conv]; rw [role_r2]
theorem payload_cs0 (d : Fin 3) : (conv (F := F) a b).payload (csCell c 0) 0 d
    = iprop(holdsV (F := F) c (outOwn c) (resOwnV a b c) ∗ holds (F := F) c (resOwn c)) := by
  dsimp only [conv]; rw [role_cs]
theorem payload_cs (k d : Fin 3) : (conv (F := F) a b).payload (csCell c k.succ) 0 d
    = iprop(holdsV (F := F) c (outSl c k) (backV a b c k) ∗ holds (F := F) c (resSl c k)) := by
  dsimp only [conv]; rw [role_cs]; fin_cases k <;> rfl

end Tables

end Cert.KernelProof

end
-- ==== Proof.V.Bits.Data.lean ====
import proofs.«900373_g7700000000000374_dist_matmul_silu_kshard_i_m512_n512_k256_v7x_i4_f32_1_alg».proof.Proof.V.Bits.Protocol

/-! # What a device holds when its body starts, and the staging pipeline's proof data

The kernel has one grid point. Its two windows stage the device's column block of the first matrix and row block of the
second, both read only. Beside them a device starts with the result array and its seven scratch buffers at some contents,
the conversation's ghost state — the seventeen invariants of its own cells and the nine of the cells it pays into, its
position at the start of each of its cells, the tokens of the nineteen duties it pays, and the launch credit of the seven
cells its peers pay — and what it owes. It ends with the buffers at some contents again and its sixteen own cells closed
at zero. -/

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter zero. -/
def s₀ : MemSt nD τ sig (Elt F) := ⟨m, fun _ => 0, ρ⟩

/-- The device's block of each argument array, as staged. -/
def aS (c : Dev nD) : (cc0_stg0_0 : Ref sig .tc).ty.Contents (Elt F) :=
  (win0_0.blk (0 : Fin 1)).view.read (Elt F) ((s₀ m ρ).mem ((c : Thread nD τ).loc main_arg0))
def bS (c : Dev nD) : (cc0_stg1_0 : Ref sig .tc).ty.Contents (Elt F) :=
  (win0_1.blk (0 : Fin 1)).view.read (Elt F) ((s₀ m ρ).mem ((c : Thread nD τ).loc main_arg1))

/-! ## The cells by number -/

/-- A device's seventeen cells: 0 the entry cell, 1–3 and 4–6 the first exchange's departures and arrivals, 7–9 and
    10–12 the second's, 13–16 the result copies'. -/
abbrev csem : Fin 17 → SemLoc sig := fun
  | 0 => .reg barS
  | 1 => .dma (s1S 0) | 2 => .dma (s1S 1) | 3 => .dma (s1S 2)
  | 4 => .dma (r1S 0) | 5 => .dma (r1S 1) | 6 => .dma (r1S 2)
  | 7 => .dma (s2S 0) | 8 => .dma (s2S 1) | 9 => .dma (s2S 2)
  | 10 => .dma (r2S 0) | 11 => .dma (r2S 1) | 12 => .dma (r2S 2)
  | 13 => .dma (csS 0) | 14 => .dma (csS 1) | 15 => .dma (csS 2) | 16 => .dma (csS 3)
  | ⟨_ + 17, h⟩ => absurd h (Nat.not_lt.2 (Nat.le_add_left _ _))
abbrev kcell (ck : Dev nD × Fin 17) : GSem nD τ sig := ((ck.1 : Thread nD τ), csem ck.2)
/-- The kernel's own sixteen (scoped) semaphores, as the launch numbers them. -/
abbrev osem : Fin 16 → SemLoc sig := fun i => csem i.succ

/-! ## The ghost state -/

/-- The invariants of the cells device `c` touches: its own, and each successor's entry cell and the two arrival cells
    its transfers to that successor credit. -/
def invs (K : Dev nD × Fin 17 → ℕ) (c : Dev nD) : sProp 𝕄 :=
  iprop(cellInv ER (conv (F := F) (aS m ρ) (bS m ρ)) (K (c, 0)) (barCell c)
    ∗ cellInv ER (conv (F := F) (aS m ρ) (bS m ρ)) (K (c, 1)) (s1Cell c 0)
    ∗ cellInv ER (conv (F := F) (aS m ρ) (bS m ρ)) (K (c, 2)) (s1Cell c 1)
    ∗ cellInv ER (conv (F := F) (aS m ρ) (bS m ρ)) (K (c, 3)) (s1Cell c 2)
    ∗ cellInv ER (conv (F := F) (aS m ρ) (bS m ρ)) (K (c, 4)) (r1Cell c 0)
    ∗ cellInv ER (conv (F := F) (aS m ρ) (bS m ρ)) (K (c, 5)) (r1Cell c 1)
    ∗ cellInv ER (conv (F := F) (aS m ρ) (bS m ρ)) (K (c, 6)) (r1Cell c 2)
    ∗ cellInv ER (conv (F := F) (aS m ρ) (bS m ρ)) (K (c, 7)) (s2Cell c 0)
    ∗ cellInv ER (conv (F := F) (aS m ρ) (bS m ρ)) (K (c, 8)) (s2Cell c 1)
    ∗ cellInv ER (conv (F := F) (aS m ρ) (bS m ρ)) (K (c, 9)) (s2Cell c 2)
    ∗ cellInv ER (conv (F := F) (aS m ρ) (bS m ρ)) (K (c, 10)) (r2Cell c 0)
    ∗ cellInv ER (conv (F := F) (aS m ρ) (bS m ρ)) (K (c, 11)) (r2Cell c 1)
    ∗ cellInv ER (conv (F := F) (aS m ρ) (bS m ρ)) (K (c, 12)) (r2Cell c 2)
    ∗ cellInv ER (conv (F := F) (aS m ρ) (bS m ρ)) (K (c, 13)) (csCell c 0)
    ∗ cellInv ER (conv (F := F) (aS m ρ) (bS m ρ)) (K (c, 14)) (csCell c 1)
    ∗ cellInv ER (conv (F := F) (aS m ρ) (bS m ρ)) (K (c, 15)) (csCell c 2)
    ∗ cellInv ER (conv (F := F) (aS m ρ) (bS m ρ)) (K (c, 16)) (csCell c 3)
    ∗ cellInv ER (conv (F := F) (aS m ρ) (bS m ρ)) (K (fwd 0 c, 0)) (barCell (fwd 0 c))
    ∗ cellInv ER (conv (F := F) (aS m ρ) (bS m ρ)) (K (fwd 1 c, 0)) (barCell (fwd 1 c))
    ∗ cellInv ER (conv (F := F) (aS m ρ) (bS m ρ)) (K (fwd 2 c, 0)) (barCell (fwd 2 c))
    ∗ cellInv ER (conv (F := F) (aS m ρ) (bS m ρ)) (K (fwd 0 c, 4)) (r1Cell (fwd 0 c) 0)
    ∗ cellInv ER (conv (F := F) (aS m ρ) (bS m ρ)) (K (fwd 1 c, 5)) (r1Cell (fwd 1 c) 1)
    ∗ cellInv ER (conv (F := F) (aS m ρ) (bS m ρ)) (K (fwd 2 c, 6)) (r1Cell (fwd 2 c) 2)
    ∗ cellInv ER (conv (F := F) (aS m ρ) (bS m ρ)) (K (fwd 0 c, 10)) (r2Cell (fwd 0 c) 0)
    ∗ cellInv ER (conv (F := F) (aS m ρ) (bS m ρ)) (K (fwd 1 c, 11)) (r2Cell (fwd 1 c) 1)
    ∗ cellInv ER (conv (F := F) (aS m ρ) (bS m ρ)) (K (fwd 2 c, 12)) (r2Cell (fwd 2 c) 2))

instance invs_persistent (K : Dev nD × Fin 17 → ℕ) (c : Dev nD) : BI.Persistent (invs (F := F) m ρ K c) := by unfold invs; infer_instance

/-- Its position at the start of each of its cells. -/
def poss (c : Dev nD) : sProp 𝕄 :=
  iprop(atPos ER (barCell c) 0 ∅ 0
    ∗ atPos ER (s1Cell c 0) 0 ∅ 0
    ∗ atPos ER (s1Cell c 1) 0 ∅ 0
    ∗ atPos ER (s1Cell c 2) 0 ∅ 0
    ∗ atPos ER (r1Cell c 0) 0 ∅ 0
    ∗ atPos ER (r1Cell c 1) 0 ∅ 0
    ∗ atPos ER (r1Cell c 2) 0 ∅ 0
    ∗ atPos ER (s2Cell c 0) 0 ∅ 0
    ∗ atPos ER (s2Cell c 1) 0 ∅ 0
    ∗ atPos ER (s2Cell c 2) 0 ∅ 0
    ∗ atPos ER (r2Cell c 0) 0 ∅ 0
    ∗ atPos ER (r2Cell c 1) 0 ∅ 0
    ∗ atPos ER (r2Cell c 2) 0 ∅ 0
    ∗ atPos ER (csCell c 0) 0 ∅ 0
    ∗ atPos ER (csCell c 1) 0 ∅ 0
    ∗ atPos ER (csCell c 2) 0 ∅ 0
    ∗ atPos ER (csCell c 3) 0 ∅ 0)

/-- The rounds it knows reached: of the cells it pays into, of its own cells it pays itself, and of its own arrival cells
    (which it tells its peers). -/
def marks (c : Dev nD) : sProp 𝕄 :=
  iprop(reached ER (barCell (fwd 0 c)) 0
    ∗ reached ER (barCell (fwd 1 c)) 0
    ∗ reached ER (barCell (fwd 2 c)) 0
    ∗ reached ER (r1Cell (fwd 0 c) 0) 0
    ∗ reached ER (r1Cell (fwd 1 c) 1) 0
    ∗ reached ER (r1Cell (fwd 2 c) 2) 0
    ∗ reached ER (r2Cell (fwd 0 c) 0) 0
    ∗ reached ER (r2Cell (fwd 1 c) 1) 0
    ∗ reached ER (r2Cell (fwd 2 c) 2) 0
    ∗ reached ER (s1Cell c 0) 0
    ∗ reached ER (s1Cell c 1) 0
    ∗ reached ER (s1Cell c 2) 0
    ∗ reached ER (s2Cell c 0) 0
    ∗ reached ER (s2Cell c 1) 0
    ∗ reached ER (s2Cell c 2) 0
    ∗ reached ER (csCell c 0) 0
    ∗ reached ER (csCell c 1) 0
    ∗ reached ER (csCell c 2) 0
    ∗ reached ER (csCell c 3) 0
    ∗ reached ER (r1Cell c 0) 0
    ∗ reached ER (r1Cell c 1) 0
    ∗ reached ER (r1Cell c 2) 0
    ∗ reached ER (r2Cell c 0) 0
    ∗ reached ER (r2Cell c 1) 0
    ∗ reached ER (r2Cell c 2) 0)

instance marks_persistent (c : Dev nD) : BI.Persistent (marks (F := F) c) := by unfold marks; infer_instance

/-- The tokens of the duties it pays: one entry unit and two arrivals per successor, and its own departures and copies. -/
def payToks (c : Dev nD) : sProp 𝕄 :=
  iprop(dutyTok ER (barCell (fwd 0 c)) 0 0
    ∗ dutyTok ER (barCell (fwd 1 c)) 0 1
    ∗ dutyTok ER (barCell (fwd 2 c)) 0 2
    ∗ dutyTok ER (r1Cell (fwd 0 c) 0) 0 0
    ∗ dutyTok ER (r1Cell (fwd 1 c) 1) 0 0
    ∗ dutyTok ER (r1Cell (fwd 2 c) 2) 0 0
    ∗ dutyTok ER (r2Cell (fwd 0 c) 0) 0 0
    ∗ dutyTok ER (r2Cell (fwd 1 c) 1) 0 0
    ∗ dutyTok ER (r2Cell (fwd 2 c) 2) 0 0
    ∗ dutyTok ER (s1Cell c 0) 0 0
    ∗ dutyTok ER (s1Cell c 1) 0 0
    ∗ dutyTok ER (s1Cell c 2) 0 0
    ∗ dutyTok ER (s2Cell c 0) 0 0
    ∗ dutyTok ER (s2Cell c 1) 0 0
    ∗ dutyTok ER (s2Cell c 2) 0 0
    ∗ dutyTok ER (csCell c 0) 0 0
    ∗ dutyTok ER (csCell c 1) 0 0
    ∗ dutyTok ER (csCell c 2) 0 0
    ∗ dutyTok ER (csCell c 3) 0 0)

def ghost (K : Dev nD × Fin 17 → ℕ) (c : Dev nD) : sProp 𝕄 :=
  iprop(invs (F := F) m ρ K c ∗ poss (F := F) c ∗ marks (F := F) c ∗ payToks (F := F) c)

/-- The launch credit of the cells its peers pay. -/
def creds (c : Dev nD) : sProp 𝕄 :=
  iprop(cred (tallyAt (barCell c) () 3)
    ∗ cred (tallyAt (r1Cell c 0) () Nb)
    ∗ cred (tallyAt (r1Cell c 1) () Nb)
    ∗ cred (tallyAt (r1Cell c 2) () Nb)
    ∗ cred (tallyAt (r2Cell c 0) () Nb)
    ∗ cred (tallyAt (r2Cell c 1) () Nb)
    ∗ cred (tallyAt (r2Cell c 2) () Nb))

/-- The seven scratch buffers, each whole at some contents. -/
def scratch (c : Dev nD) : sProp 𝕄 :=
  iprop(holds (F := F) c bbfM
    ∗ holds (F := F) c ownM
    ∗ holds (F := F) c sbM
    ∗ holds (F := F) c commM
    ∗ holds (F := F) c gsM
    ∗ holds (F := F) c grM
    ∗ holds (F := F) c resM)

/-- What the launch hands the device before the scoped buffers: the ghost state at some names, the credit, the heights,
    and the result array. -/
def start (c : Dev nD) : sProp 𝕄 :=
  iprop((∃ K, ghost (F := F) m ρ K c) ∗ creds (F := F) c ∗ levAts L lv ∗ holds (F := F) c outM)

def Φ₀ (c : Dev nD) : sProp 𝕄 := iprop(start (F := F) m ρ c ∗ scratch (F := F) c)

/-- Its own sixteen cells closed, their counters at zero. -/
def closedSems (c : Dev nD) : sProp 𝕄 :=
  iprop(semVal (s1Cell c 0) 0
    ∗ semVal (s1Cell c 1) 0
    ∗ semVal (s1Cell c 2) 0
    ∗ semVal (r1Cell c 0) 0
    ∗ semVal (r1Cell c 1) 0
    ∗ semVal (r1Cell c 2) 0
    ∗ semVal (s2Cell c 0) 0
    ∗ semVal (s2Cell c 1) 0
    ∗ semVal (s2Cell c 2) 0
    ∗ semVal (r2Cell c 0) 0
    ∗ semVal (r2Cell c 1) 0
    ∗ semVal (r2Cell c 2) 0
    ∗ semVal (csCell c 0) 0
    ∗ semVal (csCell c 1) 0
    ∗ semVal (csCell c 2) 0
    ∗ semVal (csCell c 3) 0)

/-- The result array on device `c` holding its named end contents. -/
def holdsOut (c : Dev nD) : sProp 𝕄 := holdsV (F := F) c outM (outV (aS m ρ) (bS m ρ) c)

def Φ₁ (c : Dev nD) : sProp 𝕄 := iprop(holdsOut (F := F) m ρ c ∗ scratch (F := F) c ∗ closedSems (F := F) c)

/-! ## The staging pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => aS m ρ c
    | ⟨1, _⟩ => bS m ρ c
  Φ t := match t with
    | ⟨0, _⟩ => Φ₀ (F := F) m ρ c
    | ⟨_ + 1, _⟩ => Φ₁ (F := F) m ρ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.KernelProof

end
-- ==== Proof.V.Bits.PayloadStorable.lean ====
import proofs.«900373_g7700000000000374_dist_matmul_silu_kshard_i_m512_n512_k256_v7x_i4_f32_1_alg».proof.Proof.V.Bits.Protocol

/-! # What a unit hands over can be kept under an invariant

Every payload of the conversation — whole slices at some contents, a share of one, and the marks that a peer stands at
the start of a cell — is an assertion an invariant may hold. -/

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
instance holds_storable {sp : Space} {s : Shape} {e : EltTy} (c : Dev nD) (M : Memref sig .tc sp s e) :
    BI.Storable (upEmb : UEmb _ 𝕄) (holds (F := F) c M) := by unfold holds; infer_instance
omit [FloatOps F] in
instance holdsAt_storable {sp : Space} {s : Shape} {e : EltTy} (q : PosShare TreeShare) (c : Dev nD) (M : Memref sig .tc sp s e) :
    BI.Storable (upEmb : UEmb _ 𝕄) (holdsAt (F := F) q c M) := by unfold holdsAt; infer_instance
omit [FloatOps F] in
instance holdsV_storable {sp : Space} {s : Shape} {e : EltTy} (c : Dev nD) (M : Memref sig .tc sp s e) (V : s.Idx → Elt F e) :
    BI.Storable (upEmb : UEmb _ 𝕄) (holdsV (F := F) c M V) := by unfold holdsV; infer_instance
omit [FloatOps F] in
instance barPay_storable (c : Dev nD) (d : Fin 3) : BI.Storable (upEmb : UEmb _ 𝕄) (barPay (F := F) c d) := by
  unfold barPay; infer_instance

instance conv_payload_storable (a : Dev nD → (cc0_stg0_0 : Ref sig .tc).ty.Contents (Elt F)) (b : Dev nD → (cc0_stg1_0 : Ref sig .tc).ty.Contents (Elt F))
    (g : GSem nD τ sig) (r : ℕ) (d : Fin 3) :
    BI.Storable (upEmb : UEmb _ 𝕄) ((conv (F := F) a b).payload g r d) := by
  dsimp only [conv]
  split <;> infer_instance

end Cert.KernelProof

end
-- ==== Proof.V.Bits.LaunchGhost.lean ====
import proofs.«900373_g7700000000000374_dist_matmul_silu_kshard_i_m512_n512_k256_v7x_i4_f32_1_alg».proof.Proof.V.Bits.Data
import proofs.«900373_g7700000000000374_dist_matmul_silu_kshard_i_m512_n512_k256_v7x_i4_f32_1_alg».proof.Proof.V.Bits.PayloadStorable

/-! # The conversation's ghost state at launch

The launch element holds, beside the staging pipeline's cells, every device's seventeen cells at the start of their
first round and the tokens of their duties. One update over all devices puts each cell's counter, at zero, under an
invariant; each device then receives the invariants of the cells it touches, its positions, the marks that the first
round of every cell it needs is reached, and the tokens of the nineteen duties it pays — nine of them minted for its
successors' cells and dealt around the ring. -/

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens, enumerated -/

theorem ownSemFacts : Pipeline.OwnSemFacts cfg0.spec osem := by decide

theorem share_eq (c : Dev nD) (w : Fin cfg0.W) : (dats m ρ 0 c).share w = fullShare := by unfold Dat.share; split <;> rfl

/-- A number for each semaphore: the regular ones `0`, a DMA semaphore its own number. -/
def semCode : SemLoc sig → ℕ
  | .reg _ => 0
  | .dma q => q.val

theorem semCode_csem (k : Fin 17) : semCode (csem k) = if k.val = 0 then 0 else k.val + 1 := by
  fin_cases k <;> rfl

theorem csem_injective : Function.Injective csem := fun k k' h => by
  have := congrArg semCode h
  rw [semCode_csem, semCode_csem] at this
  refine Fin.ext ?_
  split_ifs at this <;> omega

theorem kcell_injective : Function.Injective (kcell : Dev nD × Fin 17 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

/-- A device's own cells' duty tokens as minted: (device, which token) — the entry cell's three, then one for each of
    the sixteen other cells. -/
abbrev tokOf (cj : Dev nD × Fin 19) : GSem nD τ sig × ℕ × Fin 3 := match cj.2 with
  | 0 => (barCell cj.1, 0, 0) | 1 => (barCell cj.1, 0, 1) | 2 => (barCell cj.1, 0, 2)
  | 3 => (s1Cell cj.1 0, 0, 0) | 4 => (s1Cell cj.1 1, 0, 0) | 5 => (s1Cell cj.1 2, 0, 0)
  | 6 => (r1Cell cj.1 0, 0, 0) | 7 => (r1Cell cj.1 1, 0, 0) | 8 => (r1Cell cj.1 2, 0, 0)
  | 9 => (s2Cell cj.1 0, 0, 0) | 10 => (s2Cell cj.1 1, 0, 0) | 11 => (s2Cell cj.1 2, 0, 0)
  | 12 => (r2Cell cj.1 0, 0, 0) | 13 => (r2Cell cj.1 1, 0, 0) | 14 => (r2Cell cj.1 2, 0, 0)
  | 15 => (csCell cj.1 0, 0, 0) | 16 => (csCell cj.1 1, 0, 0) | 17 => (csCell cj.1 2, 0, 0) | 18 => (csCell cj.1 3, 0, 0)
  | ⟨_ + 19, h⟩ => absurd h (Nat.not_lt.2 (Nat.le_add_left _ _))

theorem tokOf_dev (c : Dev nD) (j : Fin 19) : (tokOf (c, j)).1.1.1 = c := by fin_cases j <;> rfl
theorem tokOf_code (c : Dev nD) (j : Fin 19) :
    (semCode (tokOf (c, j)).1.2, (tokOf (c, j)).2.2.val) = if j.val < 3 then (0, j.val) else (j.val - 1, 0) := by
  fin_cases j <;> rfl

theorem tokOf_injective : Function.Injective (tokOf : Dev nD × Fin 19 → GSem nD τ sig × ℕ × Fin 3) := by
  rintro ⟨c, j⟩ ⟨c', j'⟩ h
  have h1 : c = c' := by
    have := congrArg (fun x : GSem nD τ sig × ℕ × Fin 3 => x.1.1.1) h
    simpa only [tokOf_dev] using this
  subst h1
  have h2 := congrArg (fun x : GSem nD τ sig × ℕ × Fin 3 => (semCode x.1.2, x.2.2.val)) h
  simp only [tokOf_code] at h2
  have : j = j' := by
    refine Fin.ext ?_
    split_ifs at h2 <;> simp only [Prod.mk.injEq] at h2 <;> omega
  subst this; rfl
def ringToks : Finset (GSem nD τ sig × ℕ × Fin 3) := Finset.univ.map ⟨tokOf, tokOf_injective⟩

/-- The launch element: the staging pipeline's cells and tokens beside the conversation's. -/
def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop(dutyTok ER (barCell c) 0 0 ∗ dutyTok ER (barCell c) 0 1 ∗ dutyTok ER (barCell c) 0 2
    ∗ dutyTok ER (s1Cell c 0) 0 0 ∗ dutyTok ER (s1Cell c 1) 0 0 ∗ dutyTok ER (s1Cell c 2) 0 0
    ∗ dutyTok ER (r1Cell c 0) 0 0 ∗ dutyTok ER (r1Cell c 1) 0 0 ∗ dutyTok ER (r1Cell c 2) 0 0
    ∗ dutyTok ER (s2Cell c 0) 0 0 ∗ dutyTok ER (s2Cell c 1) 0 0 ∗ dutyTok ER (s2Cell c 2) 0 0
    ∗ dutyTok ER (r2Cell c 0) 0 0 ∗ dutyTok ER (r2Cell c 1) 0 0 ∗ dutyTok ER (r2Cell c 2) 0 0
    ∗ dutyTok ER (csCell c 0) 0 0 ∗ dutyTok ER (csCell c 1) 0 0 ∗ dutyTok ER (csCell c 2) 0 0 ∗ dutyTok ER (csCell c 3) 0 0)

/-- What the launch element deals device `c`. -/
def G (c : Dev nD) : sProp 𝕄 :=
  iprop((bigSep Finset.univ fun k : Fin 17 => roundState ER (conv (F := F) (aS m ρ) (bS m ρ)) (kcell (c, k)) 0)
    ∗ (bigSep Finset.univ fun k : Fin 17 => iprop(atPos ER (kcell (c, k)) 0 ∅ 0 ∗ reached ER (kcell (c, k)) 0)) ∗ toks (F := F) c)

/-- What the global step makes of it. -/
def G' (c : Dev nD) : sProp 𝕄 := iprop(∃ K, ghost (F := F) m ρ K c)

theorem bigSep_fin16 (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
theorem bigSep_fin17 (Φ : Fin 17 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ
theorem bigSep_fin19 (Φ : Fin 19 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18) :=
  bigSep_univ_eq_bigSepL [0, 1, 2, 3, 4, 5, 6, 7, 8, 9, 10, 11, 12, 13, 14, 15, 16, 17, 18] (by decide) (by decide) Φ
theorem bigSep_fin3 (Φ : Fin 3 → sProp 𝕄) : bigSep Finset.univ Φ = iprop(Φ 0 ∗ Φ 1 ∗ Φ 2) :=
  bigSep_univ_eq_bigSepL [0, 1, 2] (by decide) (by decide) Φ

/-! ## Funding -/

theorem fund_ring : BI.own (ER (initOf ringCells ringToks)) ⊢ (|==> bigSep Finset.univ (G (F := F) m ρ) : sProp 𝕄) := by
  have hX (Φ : GSem nD τ sig → sProp 𝕄) : bigSep ringCells Φ = bigSep Finset.univ fun c : Dev nD => bigSep Finset.univ fun k : Fin 17 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]
    exact bigSep_congr fun c _ => by unfold toks; rw [bigSep_fin19]; rfl
  iintro HX
  imod (Rounds.fund ER (conv (F := F) (aS m ρ) (bS m ρ)) ringCells ringToks) $$ HX with ⟨Hst, Hr, Hat, Htok⟩
  imodintro
  ihave Hst' := (Entails.of_eq (hX fun g => roundState ER (conv (F := F) (aS m ρ) (bS m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters at zero -/

/-- The sixteen DMA semaphores are the kernel's own; -/
theorem ownSems0_eq (c : Dev nD) : (Pipeline.ownSems0 (Ix := Unit) (Name := ℕ) (U := UU) (Lvl := ℕ) (Val := Elt F) (τ := τ) osem c : sProp 𝕄)
    = closedSems (F := F) c := by
  rw [Pipeline.ownSems0_eq_of_list c osem [0, 1, 2, 3, 4, 5, 6, 7, 8, 9, 10, 11, 12, 13, 14, 15] (by decide) (by decide)]; rfl
/-- the entry semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 17 => semVal (kcell (c, k)) 0 : sProp 𝕄) := by
  rw [ownSems0_eq, unscopedSems0_eq, bigSep_fin17]
  unfold closedSems
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G (F := F) m ρ c)
      ⊢ |={Set.univ}=> iprop((bigSep Finset.univ fun k => iprop(∃ κ : ℕ, cellInv ER (conv (F := F) (aS m ρ) (bS m ρ)) κ (kcell (c, k))))
          ∗ (bigSep Finset.univ fun k : Fin 17 => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : Fin 17 => semVal (kcell (c, k)) 0) ∗ bigSep Finset.univ fun k : Fin 17 => roundState ER (conv (F := F) (aS m ρ) (bS m ρ)) (kcell (c, k)) 0)
      ⊢ (|={Set.univ}=> bigSep Finset.univ fun k => iprop(∃ κ : ℕ, cellInv ER (conv (F := F) (aS m ρ) (bS m ρ)) κ (kcell (c, k))) : sProp 𝕄) from by
        rw [← bigSep_sep']
        exact (bigSep_mono fun k _ => (Rounds.body_intro ER (conv (F := F) (aS m ρ) (bS m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the ghost state -/

def records (K : Dev nD × Fin 17 → ℕ) : sProp 𝕄 :=
  iprop((bigSep Finset.univ fun ck : Dev nD × Fin 17 => cellInv ER (conv (F := F) (aS m ρ) (bS m ρ)) (K ck) (kcell ck))
    ∗ bigSep Finset.univ fun ck : Dev nD × Fin 17 => reached ER (kcell ck) 0)

instance records_persistent (K : Dev nD × Fin 17 → ℕ) : BI.Persistent (records (F := F) m ρ K) := by unfold records; infer_instance

theorem inv_at (K : Dev nD × Fin 17 → ℕ) (ck : Dev nD × Fin 17) :
    (bigSep Finset.univ fun ck : Dev nD × Fin 17 => (cellInv ER (conv (F := F) (aS m ρ) (bS m ρ)) (K ck) (kcell ck) : sProp 𝕄)) ⊢ cellInv ER (conv (F := F) (aS m ρ) (bS m ρ)) (K ck) (kcell ck) :=
  bigSep_elim (Finset.mem_univ ck)
theorem reached_at (ck : Dev nD × Fin 17) :
    (bigSep Finset.univ fun ck : Dev nD × Fin 17 => (reached ER (kcell ck) 0 : sProp 𝕄)) ⊢ reached ER (kcell ck) 0 :=
  bigSep_elim (Finset.mem_univ ck)

/-- What stays with device `c`: its positions, and the tokens of the duties it pays. -/
def linear (c : Dev nD) : sProp 𝕄 := iprop(poss (F := F) c ∗ payToks (F := F) c)

theorem ghost_intro (K : Dev nD × Fin 17 → ℕ) (c : Dev nD) : iprop(records (F := F) m ρ K ∗ linear (F := F) c) ⊢ G' (F := F) m ρ c := by
  unfold records linear G' ghost
  iintro ⟨⟨#HI, #HR⟩, Hpos, Htok⟩
  iexists K
  isplitr
  · unfold invs
    isplitr; · iapply (inv_at (F := F) m ρ K (c, 0)); iexact HI
    isplitr; · iapply (inv_at (F := F) m ρ K (c, 1)); iexact HI
    isplitr; · iapply (inv_at (F := F) m ρ K (c, 2)); iexact HI
    isplitr; · iapply (inv_at (F := F) m ρ K (c, 3)); iexact HI
    isplitr; · iapply (inv_at (F := F) m ρ K (c, 4)); iexact HI
    isplitr; · iapply (inv_at (F := F) m ρ K (c, 5)); iexact HI
    isplitr; · iapply (inv_at (F := F) m ρ K (c, 6)); iexact HI
    isplitr; · iapply (inv_at (F := F) m ρ K (c, 7)); iexact HI
    isplitr; · iapply (inv_at (F := F) m ρ K (c, 8)); iexact HI
    isplitr; · iapply (inv_at (F := F) m ρ K (c, 9)); iexact HI
    isplitr; · iapply (inv_at (F := F) m ρ K (c, 10)); iexact HI
    isplitr; · iapply (inv_at (F := F) m ρ K (c, 11)); iexact HI
    isplitr; · iapply (inv_at (F := F) m ρ K (c, 12)); iexact HI
    isplitr; · iapply (inv_at (F := F) m ρ K (c, 13)); iexact HI
    isplitr; · iapply (inv_at (F := F) m ρ K (c, 14)); iexact HI
    isplitr; · iapply (inv_at (F := F) m ρ K (c, 15)); iexact HI
    isplitr; · iapply (inv_at (F := F) m ρ K (c, 16)); iexact HI
    isplitr; · iapply (inv_at (F := F) m ρ K (fwd 0 c, 0)); iexact HI
    isplitr; · iapply (inv_at (F := F) m ρ K (fwd 1 c, 0)); iexact HI
    isplitr; · iapply (inv_at (F := F) m ρ K (fwd 2 c, 0)); iexact HI
    isplitr; · iapply (inv_at (F := F) m ρ K (fwd 0 c, 4)); iexact HI
    isplitr; · iapply (inv_at (F := F) m ρ K (fwd 1 c, 5)); iexact HI
    isplitr; · iapply (inv_at (F := F) m ρ K (fwd 2 c, 6)); iexact HI
    isplitr; · iapply (inv_at (F := F) m ρ K (fwd 0 c, 10)); iexact HI
    isplitr; · iapply (inv_at (F := F) m ρ K (fwd 1 c, 11)); iexact HI
    iapply (inv_at (F := F) m ρ K (fwd 2 c, 12)); iexact HI
  isplitl [Hpos]; · iexact Hpos
  isplitr
  · unfold marks
    isplitr; · iapply (reached_at (F := F) (fwd 0 c, 0)); iexact HR
    isplitr; · iapply (reached_at (F := F) (fwd 1 c, 0)); iexact HR
    isplitr; · iapply (reached_at (F := F) (fwd 2 c, 0)); iexact HR
    isplitr; · iapply (reached_at (F := F) (fwd 0 c, 4)); iexact HR
    isplitr; · iapply (reached_at (F := F) (fwd 1 c, 5)); iexact HR
    isplitr; · iapply (reached_at (F := F) (fwd 2 c, 6)); iexact HR
    isplitr; · iapply (reached_at (F := F) (fwd 0 c, 10)); iexact HR
    isplitr; · iapply (reached_at (F := F) (fwd 1 c, 11)); iexact HR
    isplitr; · iapply (reached_at (F := F) (fwd 2 c, 12)); iexact HR
    isplitr; · iapply (reached_at (F := F) (c, 1)); iexact HR
    isplitr; · iapply (reached_at (F := F) (c, 2)); iexact HR
    isplitr; · iapply (reached_at (F := F) (c, 3)); iexact HR
    isplitr; · iapply (reached_at (F := F) (c, 7)); iexact HR
    isplitr; · iapply (reached_at (F := F) (c, 8)); iexact HR
    isplitr; · iapply (reached_at (F := F) (c, 9)); iexact HR
    isplitr; · iapply (reached_at (F := F) (c, 13)); iexact HR
    isplitr; · iapply (reached_at (F := F) (c, 14)); iexact HR
    isplitr; · iapply (reached_at (F := F) (c, 15)); iexact HR
    isplitr; · iapply (reached_at (F := F) (c, 16)); iexact HR
    isplitr; · iapply (reached_at (F := F) (c, 4)); iexact HR
    isplitr; · iapply (reached_at (F := F) (c, 5)); iexact HR
    isplitr; · iapply (reached_at (F := F) (c, 6)); iexact HR
    isplitr; · iapply (reached_at (F := F) (c, 10)); iexact HR
    isplitr; · iapply (reached_at (F := F) (c, 11)); iexact HR
    iapply (reached_at (F := F) (c, 12)); iexact HR
  iexact Htok

/-- The ring's shifts as bijections of the devices. -/
def fwdE (d : Fin 3) : Dev nD ≃ Dev nD := ⟨fwd d, bwd d, bwd_fwd d, fwd_bwd d⟩

/-- The tokens dealt around the ring: duty `d` of a device's entry cell, and the duty of its `d`-th arrival cells, go
    to the device's `(d+1)`-th predecessor, which pays them. -/
theorem toks_around : (bigSep Finset.univ fun c : Dev nD => (toks (F := F) c : sProp 𝕄)) ⊢ bigSep Finset.univ fun c : Dev nD => payToks (F := F) c := by
  unfold toks payToks
  rw [bigSep_sep', bigSep_sep', bigSep_sep', bigSep_sep', bigSep_sep', bigSep_sep', bigSep_sep', bigSep_sep', bigSep_sep',
    bigSep_sep', bigSep_sep', bigSep_sep', bigSep_sep', bigSep_sep', bigSep_sep', bigSep_sep', bigSep_sep', bigSep_sep',
    bigSep_sep', bigSep_sep', bigSep_sep', bigSep_sep', bigSep_sep', bigSep_sep', bigSep_sep', bigSep_sep', bigSep_sep',
    bigSep_sep', bigSep_sep', bigSep_sep', bigSep_sep', bigSep_sep', bigSep_sep', bigSep_sep', bigSep_sep', bigSep_sep',
    bigSep_univ_equiv (fwdE 0) (fun c : Dev nD => (dutyTok ER (barCell c) 0 0 : sProp 𝕄)),
    bigSep_univ_equiv (fwdE 1) (fun c : Dev nD => (dutyTok ER (barCell c) 0 1 : sProp 𝕄)),
    bigSep_univ_equiv (fwdE 2) (fun c : Dev nD => (dutyTok ER (barCell c) 0 2 : sProp 𝕄)),
    bigSep_univ_equiv (fwdE 0) (fun c : Dev nD => (dutyTok ER (r1Cell c 0) 0 0 : sProp 𝕄)),
    bigSep_univ_equiv (fwdE 1) (fun c : Dev nD => (dutyTok ER (r1Cell c 1) 0 0 : sProp 𝕄)),
    bigSep_univ_equiv (fwdE 2) (fun c : Dev nD => (dutyTok ER (r1Cell c 2) 0 0 : sProp 𝕄)),
    bigSep_univ_equiv (fwdE 0) (fun c : Dev nD => (dutyTok ER (r2Cell c 0) 0 0 : sProp 𝕄)),
    bigSep_univ_equiv (fwdE 1) (fun c : Dev nD => (dutyTok ER (r2Cell c 1) 0 0 : sProp 𝕄)),
    bigSep_univ_equiv (fwdE 2) (fun c : Dev nD => (dutyTok ER (r2Cell c 2) 0 0 : sProp 𝕄))]
  iintro ⟨T0, T1, T2, T3, T4, T5, T6, T7, T8, T9, T10, T11, T12, T13, T14, T15, T16, T17, T18⟩
  isplitl [T0]; · iexact T0
  isplitl [T1]; · iexact T1
  isplitl [T2]; · iexact T2
  isplitl [T6]; · iexact T6
  isplitl [T7]; · iexact T7
  isplitl [T8]; · iexact T8
  isplitl [T12]; · iexact T12
  isplitl [T13]; · iexact T13
  isplitl [T14]; · iexact T14
  isplitl [T3]; · iexact T3
  isplitl [T4]; · iexact T4
  isplitl [T5]; · iexact T5
  isplitl [T9]; · iexact T9
  isplitl [T10]; · iexact T10
  isplitl [T11]; · iexact T11
  isplitl [T15]; · iexact T15
  isplitl [T16]; · iexact T16
  isplitl [T17]; · iexact T17
  iexact T18

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem poss_eq (c : Dev nD) : (bigSep Finset.univ fun k : Fin 17 => (atPos ER (kcell (c, k)) 0 ∅ 0 : sProp 𝕄)) = poss (F := F) c := by
  rw [bigSep_fin17]; rfl

theorem regroup :
    (bigSep Finset.univ fun c : Dev nD => iprop((bigSep Finset.univ fun k => iprop(∃ κ : ℕ, cellInv ER (conv (F := F) (aS m ρ) (bS m ρ)) κ (kcell (c, k))))
          ∗ (bigSep Finset.univ fun k : Fin 17 => iprop(atPos ER (kcell (c, k)) 0 ∅ 0 ∗ reached ER (kcell (c, k)) 0)) ∗ toks (F := F) c) : sProp 𝕄)
      ⊢ bigSep Finset.univ (G' (F := F) m ρ) := by
  rw [bigSep_sep', bigSep_sep', ← bigSep_univ_prod (fun ck : Dev nD × Fin 17 => iprop(∃ κ : ℕ, cellInv ER (conv (F := F) (aS m ρ) (bS m ρ)) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (conv (F := F) (aS m ρ) (bS m ρ)) κ (kcell ck) : sProp 𝕄))) $$ HI
  icases HK with ⟨%K, #HI⟩
  ihave Htk := (toks_around (F := F)) $$ Htok
  iapply (bigSep_with_persistent (R := records (F := F) m ρ K) fun c _ => ghost_intro (F := F) m ρ K c)
  isplitr
  · unfold records; isplitl; · iexact HI
    iexact HR
  · iapply ((Entails.of_eq (bigSep_sep' Finset.univ (fun c : Dev nD => bigSep Finset.univ fun k : Fin 17 => (atPos ER (kcell (c, k)) 0 ∅ 0 : sProp 𝕄)) (payToks (F := F))).symm).trans
      (bigSep_mono fun c _ => show _ ⊢ linear (F := F) c from Entails.of_eq (by unfold linear; rw [poss_eq])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G (F := F) m ρ c) : sProp 𝕄)
    ⊢ |={Set.univ}=> bigSep Finset.univ (G' (F := F) m ρ) :=
  ((bigSep_mono fun c _ => core_alloc (F := F) m ρ c).trans (bigSep_fupd _ _)).trans (BI.fupd_mono (regroup (F := F) m ρ))

end Cert.KernelProof

end
-- ==== Proof.V.Bits.LaunchCredit.lean ====
import proofs.«900373_g7700000000000374_dist_matmul_silu_kshard_i_m512_n512_k256_v7x_i4_f32_1_alg».proof.Proof.V.Bits.Data

/-! # The launch credit and the heights

Device `c` owes one entry unit, a first arrival and a second arrival to each of its three successors; summed over the
devices, the units owed to `c`'s own cells are three entry units and the arrivals of its six arrival cells: that is the
credit the launch deals `c`. Everything a device owes sits at height one or more, the staging cells at height zero: a
device may wait on them whatever it still owes. -/

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The launch credit -/

omit [FloatOps F] in
theorem launchCred3 (A B C : Dev nD → CellTallies nD τ sig Unit) (c : Dev nD) :
    (Pipeline.launchCred (fun d => A d + B d + C d) c : sProp 𝕄)
      = iprop((Pipeline.launchCred A c ∗ Pipeline.launchCred B c) ∗ Pipeline.launchCred C c) := by
  rw [Pipeline.launchCred_add (fun d => A d + B d) C, Pipeline.launchCred_add A B]

omit [FloatOps F] in
/-- Each successor's unit on the entry cell: three units in all. -/
theorem cred_owedBar (c : Dev nD) : (Pipeline.launchCred owedBar c : sProp 𝕄) ⊢ cred (tallyAt (barCell c) () 3) := by
  have h : (owedBar : Dev nD → CellTallies nD τ sig Unit)
      = fun d => tallyAt (((fwd 2 d).tc : Thread nD τ), .reg barS) () 1 + tallyAt (((fwd 1 d).tc : Thread nD τ), .reg barS) () 1
          + tallyAt (((fwd 0 d).tc : Thread nD τ), .reg barS) () 1 := rfl
  have e : (tallyAt (barCell c) () 1 + tallyAt (barCell c) () 1 + tallyAt (barCell c) () 1 : CellTallies nD τ sig Unit)
      = tallyAt (barCell c) () 3 := by rw [tallyAt_add, tallyAt_add]
  rw [h, launchCred3, ← e]
  iintro ⟨⟨H2, H1⟩, H0⟩
  ihave C2 := (Pipeline.launchCred_tallyAt (.reg barS) (fwd 2) (bwd 2) (fwd_bwd 2) (bwd_fwd 2) () 1 c) $$ H2
  ihave C1 := (Pipeline.launchCred_tallyAt (.reg barS) (fwd 1) (bwd 1) (fwd_bwd 1) (bwd_fwd 1) () 1 c) $$ H1
  ihave C0 := (Pipeline.launchCred_tallyAt (.reg barS) (fwd 0) (bwd 0) (fwd_bwd 0) (bwd_fwd 0) () 1 c) $$ H0
  iapply (cred_add _ _).2
  isplitl [C2 C1]
  · iapply (cred_add _ _).2
    isplitl [C2] <;> iassumption
  iexact C0

omit [FloatOps F] in
/-- The first arrivals: each of the three arrival cells is paid by one predecessor. -/
theorem cred_owedR1 (c : Dev nD) : (Pipeline.launchCred owedR1 c : sProp 𝕄)
    ⊢ iprop(cred (tallyAt (r1Cell c 0) () Nb) ∗ cred (tallyAt (r1Cell c 1) () Nb) ∗ cred (tallyAt (r1Cell c 2) () Nb)) := by
  have h : (owedR1 : Dev nD → CellTallies nD τ sig Unit)
      = fun d => tallyAt (((fwd 2 d).tc : Thread nD τ), .dma (r1S 2)) () Nb + tallyAt (((fwd 1 d).tc : Thread nD τ), .dma (r1S 1)) () Nb
          + tallyAt (((fwd 0 d).tc : Thread nD τ), .dma (r1S 0)) () Nb := rfl
  rw [h, launchCred3]
  iintro ⟨⟨H2, H1⟩, H0⟩
  ihave C2 := (Pipeline.launchCred_tallyAt (.dma (r1S 2)) (fwd 2) (bwd 2) (fwd_bwd 2) (bwd_fwd 2) () Nb c) $$ H2
  ihave C1 := (Pipeline.launchCred_tallyAt (.dma (r1S 1)) (fwd 1) (bwd 1) (fwd_bwd 1) (bwd_fwd 1) () Nb c) $$ H1
  ihave C0 := (Pipeline.launchCred_tallyAt (.dma (r1S 0)) (fwd 0) (bwd 0) (fwd_bwd 0) (bwd_fwd 0) () Nb c) $$ H0
  isplitl [C0]; · iexact C0
  isplitl [C1]; · iexact C1
  iexact C2

omit [FloatOps F] in
/-- The second arrivals likewise. -/
theorem cred_owedR2 (c : Dev nD) : (Pipeline.launchCred owedR2 c : sProp 𝕄)
    ⊢ iprop(cred (tallyAt (r2Cell c 0) () Nb) ∗ cred (tallyAt (r2Cell c 1) () Nb) ∗ cred (tallyAt (r2Cell c 2) () Nb)) := by
  have h : (owedR2 : Dev nD → CellTallies nD τ sig Unit)
      = fun d => tallyAt (((fwd 2 d).tc : Thread nD τ), .dma (r2S 2)) () Nb + tallyAt (((fwd 1 d).tc : Thread nD τ), .dma (r2S 1)) () Nb
          + tallyAt (((fwd 0 d).tc : Thread nD τ), .dma (r2S 0)) () Nb := rfl
  rw [h, launchCred3]
  iintro ⟨⟨H2, H1⟩, H0⟩
  ihave C2 := (Pipeline.launchCred_tallyAt (.dma (r2S 2)) (fwd 2) (bwd 2) (fwd_bwd 2) (bwd_fwd 2) () Nb c) $$ H2
  ihave C1 := (Pipeline.launchCred_tallyAt (.dma (r2S 1)) (fwd 1) (bwd 1) (fwd_bwd 1) (bwd_fwd 1) () Nb c) $$ H1
  ihave C0 := (Pipeline.launchCred_tallyAt (.dma (r2S 0)) (fwd 0) (bwd 0) (fwd_bwd 0) (bwd_fwd 0) () Nb c) $$ H0
  isplitl [C0]; · iexact C0
  isplitl [C1]; · iexact C1
  iexact C2

omit [FloatOps F] in
/-- What the launch deals device `c` for what the devices owe its cells. -/
theorem creds_intro (c : Dev nD) : (Pipeline.launchCred O₀ c : sProp 𝕄) ⊢ creds (F := F) c := by
  have h : (O₀ : Dev nD → CellTallies nD τ sig Unit) = fun d => owedR2 d + owedR1 d + owedBar d := rfl
  rw [h, launchCred3]
  unfold creds
  iintro ⟨⟨H2, H1⟩, HB⟩
  ihave CB := (cred_owedBar (F := F) c) $$ HB
  ihave C1 := (cred_owedR1 (F := F) c) $$ H1
  ihave C2 := (cred_owedR2 (F := F) c) $$ H2
  icases C1 with ⟨A0, A1, A2⟩
  icases C2 with ⟨B0, B1, B2⟩
  isplitl [CB]; · iexact CB
  isplitl [A0]; · iexact A0
  isplitl [A1]; · iexact A1
  isplitl [A2]; · iexact A2
  isplitl [B0]; · iexact B0
  isplitl [B1]; · iexact B1
  iexact B2

/-! ## The heights -/

omit [FloatOps F] in
/-- Where a device owes anything: a successor's entry cell or one of the two arrival cells it pays there. -/
theorem O₀_pos {c : Dev nD} {g : GSem nD τ sig} {u : Unit} (h : 0 < O₀ c g u) :
    ∃ k : Fin 3, g = barCell (fwd k c) ∨ g = r1Cell (fwd k c) k ∨ g = r2Cell (fwd k c) k := by
  unfold O₀ owedR2 owedR1 owedBar at h
  rcases Pipeline.add_pos_cases h with h | h
  · rcases Pipeline.add_pos_cases h with h | h
    · rcases Pipeline.add_pos_cases h with h | h
      · rcases Pipeline.add_pos_cases h with h | h
        · exact ⟨2, .inr (.inr (Pipeline.tallyAt_pos h).1)⟩
        · exact ⟨1, .inr (.inr (Pipeline.tallyAt_pos h).1)⟩
      · exact ⟨0, .inr (.inr (Pipeline.tallyAt_pos h).1)⟩
    · rcases Pipeline.add_pos_cases h with h | h
      · rcases Pipeline.add_pos_cases h with h | h
        · exact ⟨2, .inr (.inl (Pipeline.tallyAt_pos h).1)⟩
        · exact ⟨1, .inr (.inl (Pipeline.tallyAt_pos h).1)⟩
      · exact ⟨0, .inr (.inl (Pipeline.tallyAt_pos h).1)⟩
  · rcases Pipeline.add_pos_cases h with h | h
    · rcases Pipeline.add_pos_cases h with h | h
      · exact ⟨2, .inl (Pipeline.tallyAt_pos h).1⟩
      · exact ⟨1, .inl (Pipeline.tallyAt_pos h).1⟩
    · exact ⟨0, .inl (Pipeline.tallyAt_pos h).1⟩

omit [FloatOps F] in
theorem lv_bar (c : Dev nD) (u : Unit) : lv (barCell c) u = 1 := by dsimp only [lv]; rw [role_bar]
omit [FloatOps F] in
theorem lv_r1 (c : Dev nD) (k : Fin 3) (u : Unit) : lv (r1Cell c k) u = 2 := by dsimp only [lv]; rw [role_r1]
omit [FloatOps F] in
theorem lv_r2 (c : Dev nD) (k : Fin 3) (u : Unit) : lv (r2Cell c k) u = 3 := by dsimp only [lv]; rw [role_r2]

omit [FloatOps F] in
/-- Everything a device owes at launch sits at height one or more. -/
theorem O₀_high {c : Dev nD} {g : GSem nD τ sig} {u : Unit} (h : 0 < O₀ c g u) : u ∈ L g ∧ 1 ≤ lv g u := by
  obtain ⟨k, rfl | rfl | rfl⟩ := O₀_pos h
  · exact ⟨by rw [L_tc]; exact Finset.mem_singleton_self _, by rw [lv_bar]⟩
  · exact ⟨by rw [L_tc]; exact Finset.mem_singleton_self _, by rw [lv_r1]; decide⟩
  · exact ⟨by rw [L_tc]; exact Finset.mem_singleton_self _, by rw [lv_r2]; decide⟩

omit [FloatOps F] in
/-- A cell that plays no part in the conversation sits at height zero: a device may wait on it owing what it owes at
    launch, or nothing. -/
theorem mayWait_stage (c : Dev nD) (q : DmaSem sig) (hq : roleOf (.dma q) = .none) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    obtain ⟨hL, hlv⟩ := O₀_high hg
    refine ⟨hL, ?_⟩
    have h0 : lv ((c : Thread nD τ), .dma q) () = 0 := by dsimp only [lv]; rw [hq]
    rw [h0]; exact hlv
  · rw [MayWait_zero]; iintro -; iempintro

end Cert.KernelProof

end
-- ==== Proof.V.Bits.Launch.lean ====
import proofs.«900373_g7700000000000374_dist_matmul_silu_kshard_i_m512_n512_k256_v7x_i4_f32_1_alg».proof.Proof.V.Bits.Data
import proofs.«900373_g7700000000000374_dist_matmul_silu_kshard_i_m512_n512_k256_v7x_i4_f32_1_alg».proof.Proof.V.Bits.LaunchGhost
import proofs.«900373_g7700000000000374_dist_matmul_silu_kshard_i_m512_n512_k256_v7x_i4_f32_1_alg».proof.Proof.V.Bits.LaunchCredit

/-! # The launch

From a proof of one device's body, the run of the whole program: the launch element is dealt, the cells' counters go
under their invariants in one update over all devices, each device takes the result array and its scratch buffers at
some contents, runs its body owing what the conversation says it owes, and hands back the result array, its scratch
buffers and its sixteen own cells closed at zero. Both argument arrays are read only, so they end as they began. -/

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Whole buffers -/

theorem holds_whole (c : Dev nD) (b : Ref sig .tc) :
    holds (F := F) c (Memref.whole b) = iprop(∃ f : Buf (Elt F) ((c : Thread nD τ).loc b), ((c : Thread nD τ).loc b) ↦{fullShare} f) := by
  have e : (Memref.whole b : Memref sig .tc _ _ _).view.set = Finset.univ := View.set_whole _
  unfold holds; rw [e]

theorem holds_outM (c : Dev nD) : holds (F := F) c outM
    = iprop(∃ f : Buf (Elt F) ((c : Thread nD τ).loc main_v1), ((c : Thread nD τ).loc main_v1) ↦{fullShare} f) := holds_whole c main_v1

/-- The seven scratch buffers are the device's scoped buffers beside the staging ones. -/
theorem scratch_eq (c : Dev nD) : scratch (F := F) c = Pipeline.scopedRest cfg0.spec c := by
  rw [scopedRest0_eq]
  unfold scratch
  rw [show holds (F := F) c bbfM = _ from holds_whole c cc0_scratch0, show holds (F := F) c ownM = _ from holds_whole c cc0_scratch1,
    show holds (F := F) c sbM = _ from holds_whole c cc0_scratch2, show holds (F := F) c commM = _ from holds_whole c cc0_scratch3,
    show holds (F := F) c gsM = _ from holds_whole c cc0_scratch4, show holds (F := F) c grM = _ from holds_whole c cc0_scratch5,
    show holds (F := F) c resM = _ from holds_whole c cc0_scratch6]

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (F := F) m ρ c)
      ⊢ |={Set.univ}=> iprop(start (F := F) m ρ c ∗ emp) := by
  rw [Pipeline.unscopedRestP_none, unscopedRest0_eq]
  iintro ⟨Hout, Hlev, Hcr, -, HG⟩
  ihave Hc := (creds_intro (F := F) c) $$ Hcr
  imodintro
  unfold start G'
  isplitl
  · isplitl [HG]; · iexact HG
    isplitl [Hc]; · iexact Hc
    isplitl [Hlev]; · iexact Hlev
    rw [holds_outM]; iexists _; iexact Hout
  · iempintro

theorem phi0_intro (c : Dev nD) :
    iprop(start (F := F) m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ (F := F) m ρ c from rfl, ← scratch_eq]
  unfold Φ₀
  iintro ⟨Hs, -, Hr⟩
  isplitl [Hs]; · iexact Hs
  iexact Hr

theorem phi1_exit (c : Dev nD) :
    (dats m ρ 0 c).Φ (Fin.last cfg0.N) ⊢ iprop(holdsOut (F := F) m ρ c ∗ Pipeline.ownSems0 osem c ∗ Pipeline.scopedRest cfg0.spec c) := by
  rw [show (dats m ρ 0 c).Φ (Fin.last cfg0.N) = Φ₁ (F := F) m ρ c from rfl, ← scratch_eq, ownSems0_eq]
  unfold Φ₁
  iintro ⟨Ho, Hs, Hz⟩
  isplitl [Ho]; · iexact Ho
  isplitl [Hz]; · iexact Hz
  iexact Hs

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The named result array, as a whole-buffer points-to. -/
theorem holdsOut_eq (c : Dev nD) : holdsOut (F := F) m ρ c
    = iprop(∃ f : Buf (Elt F) ((c : Thread nD τ).loc main_v1), ⌜f = outV (aS m ρ) (bS m ρ) c⌝ ∗ (((c : Thread nD τ).loc main_v1) ↦{fullShare} f)) := by
  have e : (Memref.whole main_v1 : Memref sig .tc _ _ _).view.set = Finset.univ := View.set_whole _
  unfold holdsOut holdsV; rw [e]; rfl

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_v1) = outV (aS m ρ) (bS m ρ) c

set_option maxRecDepth 8000 in
/-- At the compiled mesh of four devices, for any float values, from any memory with zero counters: given the body's
    proof at every device, every weakly fair execution of the program terminates, and every final state has each
    window's array at what the proof data say it ends at and every device's result array at its named contents. -/
theorem run_main (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (F := F) m ρ) (G' := G' (F := F) m ρ) (u₀ := u₀)
    (hu₀ := by
      unfold u₀
      iintro Hu
      ihave H := (ownU_pair _ _) $$ Hu
      icases H with ⟨HP, HX⟩
      imod (fund_ring (F := F) m ρ) $$ HX with HG
      imodintro
      isplitl [HP] <;> iassumption)
    (hglob := glob (F := F) m ρ)
    (hA := fun _ _ => rfl) (hpf := fun _ k => k.elim0)
    (X := start (F := F) m ρ) (Y := holdsOut (F := F) m ρ) (Z := fun _ => iprop(emp))
    (hX := start_intro m ρ) (hin := phi0_intro m ρ) (hout := phi1_exit m ρ)
    (QY := fun c s => s.mem ((c : Thread nD τ).loc main_v1) = outV (aS m ρ) (bS m ρ) c)
    (hY := fun c s' => by
      rw [holdsOut_eq]
      iintro ⟨⟨%f, %hf, H1⟩, -, HSI⟩
      icombine HSI H1 gives %h
      imodintro
      isplitr; · ipureintro; exact (Buf.eq_of_forall_mem_univ h).trans hf
      iexact HSI)
    (hQ := fun _ h c => ⟨fun w => (h c).1 w, (h c).2.2⟩)

/-- THE RUN WITH ITS VALUE: every device's result array ends at its named contents, and both argument arrays as they
    began. -/
theorem value_run (hbody : ∀ c, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outV (aS m ρ) (bS m ρ) c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2, ((h c).1 0).trans ((dats (F := F) m ρ 0 c).arrAt_in 0 rfl _), ((h c).1 1).trans ((dats (F := F) m ρ 0 c).arrAt_in 1 rfl _)⟩) (run_main m ρ hbody)

/-- Both argument arrays end as they began. -/
theorem frame_run (hbody : ∀ c, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (value_run m ρ hbody)

end Cert.KernelProof

end
-- ==== Proof.V.Regions.lean ====
import proofs.«900373_g7700000000000374_dist_matmul_silu_kshard_i_m512_n512_k256_v7x_i4_f32_1_alg».proof.Proof.V.Base

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! # The buffers, cut into their row blocks and slabs

Pure geometry of index sets and ownership of buffer elements; nothing here mentions the program's steps.

* A 512 × 512 buffer has four row blocks, `rowSet t` = rows `128 t ≤ r < 128 t + 128` for `t` among the four devices.
  They are pairwise disjoint (their rows are separated) and cover every index (row `r` lies in block `r / 128`).
  For a device `c`, its three successors `fwd 0 c, fwd 1 c, fwd 2 c` together with `c`, and equally `c` with its three
  predecessors `bwd 0 c, bwd 1 c, bwd 2 c`, are all four devices; so either family of row blocks partitions the buffer.
* A 3 × 128 × 512 buffer has three slabs, `slab k` = leading coordinate `k`; they partition the buffer.
* Every slice the conversation names is one of these: the element sets are computed from the closed forms of the
  printed offsets, and a squeezed slice has the elements of the slice it squeezes.
* A region that is a disjoint union, held at SOME contents, is the separating conjunction of its parts, each held at
  some contents: left to right one contents serves every part, right to left the parts' contents glue piecewise. -/

/-! ## Cutting a region into disjoint pieces, each at some contents -/

section Cuts
variable {ℓ : Loc nD τ sig} {q : PosShare TreeShare}

omit [FloatOps F] in
/-- A region that is the union of two disjoint parts, held at some contents, is the two parts, each held at some
    contents: one contents serves both parts, and two contents glue into a piecewise one. -/
theorem some_cut2 {A B : Finset (Idx ℓ)} (h : Disjoint A B) :
    (iprop(∃ f : Buf (Elt F) ℓ, ℓ ↦[A ∪ B]{q} f) : sProp 𝕄) ⊣⊢
      iprop((∃ f : Buf (Elt F) ℓ, ℓ ↦[A]{q} f) ∗ (∃ f : Buf (Elt F) ℓ, ℓ ↦[B]{q} f)) := by
  constructor
  · iintro ⟨%f, H⟩
    ihave H := (pointsTo_union h).1 $$ H
    icases H with ⟨HA, HB⟩
    isplitl [HA]
    · iexists f; iexact HA
    · iexists f; iexact HB
  · iintro ⟨⟨%f, HA⟩, ⟨%g, HB⟩⟩
    iexists (B.piecewise g f)
    iapply (pointsTo_join h)
    isplitl [HA]
    · iexact HA
    · iexact HB

omit [FloatOps F] in
/-- The same for three pairwise disjoint parts. -/
theorem some_cut3 {A B C : Finset (Idx ℓ)} (hAB : Disjoint A B) (hAC : Disjoint A C) (hBC : Disjoint B C) :
    (iprop(∃ f : Buf (Elt F) ℓ, ℓ ↦[A ∪ (B ∪ C)]{q} f) : sProp 𝕄) ⊣⊢
      iprop((∃ f : Buf (Elt F) ℓ, ℓ ↦[A]{q} f) ∗ (∃ f : Buf (Elt F) ℓ, ℓ ↦[B]{q} f)
        ∗ (∃ f : Buf (Elt F) ℓ, ℓ ↦[C]{q} f)) :=
  (some_cut2 (Finset.disjoint_union_right.mpr ⟨hAB, hAC⟩)).trans (sep_congr_right (some_cut2 hBC))

omit [FloatOps F] in
/-- The same for four pairwise disjoint parts. -/
theorem some_cut4 {A B C D : Finset (Idx ℓ)} (hAB : Disjoint A B) (hAC : Disjoint A C) (hAD : Disjoint A D)
    (hBC : Disjoint B C) (hBD : Disjoint B D) (hCD : Disjoint C D) :
    (iprop(∃ f : Buf (Elt F) ℓ, ℓ ↦[A ∪ (B ∪ (C ∪ D))]{q} f) : sProp 𝕄) ⊣⊢
      iprop((∃ f : Buf (Elt F) ℓ, ℓ ↦[A]{q} f) ∗ (∃ f : Buf (Elt F) ℓ, ℓ ↦[B]{q} f)
        ∗ (∃ f : Buf (Elt F) ℓ, ℓ ↦[C]{q} f) ∗ (∃ f : Buf (Elt F) ℓ, ℓ ↦[D]{q} f)) :=
  (some_cut2 (Finset.disjoint_union_right.mpr ⟨hAB, Finset.disjoint_union_right.mpr ⟨hAC, hAD⟩⟩)).trans
    (sep_congr_right (some_cut3 hBC hBD hCD))

end Cuts

/-! ## The ring's devices are the four devices -/

theorem fwd_all : ∀ c t : Dev nD, t = fwd 0 c ∨ t = fwd 1 c ∨ t = fwd 2 c ∨ t = c := by decide
theorem bwd_all : ∀ c t : Dev nD, t = c ∨ t = bwd 0 c ∨ t = bwd 1 c ∨ t = bwd 2 c := by decide
theorem fwd_distinct : ∀ c : Dev nD, fwd 0 c ≠ fwd 1 c ∧ fwd 0 c ≠ fwd 2 c ∧ fwd 0 c ≠ c
    ∧ fwd 1 c ≠ fwd 2 c ∧ fwd 1 c ≠ c ∧ fwd 2 c ≠ c := by decide
theorem bwd_distinct : ∀ c : Dev nD, c ≠ bwd 0 c ∧ c ≠ bwd 1 c ∧ c ≠ bwd 2 c
    ∧ bwd 0 c ≠ bwd 1 c ∧ bwd 0 c ≠ bwd 2 c ∧ bwd 1 c ≠ bwd 2 c := by decide

/-! ## The four row blocks of a 512 × 512 buffer -/

theorem rowSet_inb : ∀ t : Dev nD, ∀ a, (![128 * t.val, 0] : Fin 2 → ℕ) a + S128x512.size a ≤ S512x512.size a := by decide

/-- Row block `t` of a 512 × 512 index space: the rows `128 t ≤ r < 128 t + 128`, every column. -/
def rowSet (t : Dev nD) : Finset S512x512.Idx :=
  (Rect.unit (s := S512x512) ![128 * t.val, 0] S128x512.size (rowSet_inb t)).set

/-- An index lies in row block `t` exactly when its row does. -/
theorem mem_rowSet {t : Dev nD} {i : S512x512.Idx} :
    i ∈ rowSet t ↔ 128 * t.val ≤ (i 0).val ∧ (i 0).val < 128 * t.val + 128 := by
  unfold rowSet
  rw [Rect.mem_set_unit, Fin.forall_fin_two]
  have h1 : (i 1).val < 512 := (i 1).isLt
  show (128 * t.val ≤ (i 0).val ∧ (i 0).val < 128 * t.val + 128) ∧ (0 ≤ (i 1).val ∧ (i 1).val < 0 + 512) ↔ _
  exact ⟨fun h => h.1, fun h => ⟨h, Nat.zero_le _, by omega⟩⟩

/-- Different row blocks share no index: their rows are separated. -/
theorem rowSet_disjoint {t t' : Dev nD} (h : t ≠ t') : Disjoint (rowSet t) (rowSet t') := by
  have hv : t.val ≠ t'.val := fun e => h (Fin.ext e)
  refine Rect.unit_disjoint (0 : Fin 2) ?_
  show 128 * t.val + 128 ≤ 128 * t'.val ∨ 128 * t'.val + 128 ≤ 128 * t.val
  omega

/-- Four devices that are all the devices have row blocks covering every index: row `r` lies in block `r / 128`. -/
theorem rowSet_cover (a b c d : Dev nD) (h : ∀ t : Dev nD, t = a ∨ t = b ∨ t = c ∨ t = d) :
    (Finset.univ : Finset S512x512.Idx) = rowSet a ∪ (rowSet b ∪ (rowSet c ∪ rowSet d)) := by
  ext i
  simp only [Finset.mem_univ, Finset.mem_union, true_iff]
  have hi : (i 0).val < 512 := (i 0).isLt
  have hq : (i 0).val / 128 < 4 := by omega
  have ht : i ∈ rowSet (⟨(i 0).val / 128, hq⟩ : Dev nD) :=
    mem_rowSet.mpr ⟨by show 128 * ((i 0).val / 128) ≤ _; omega, by show _ < 128 * ((i 0).val / 128) + 128; omega⟩
  rcases h ⟨(i 0).val / 128, hq⟩ with e | e | e | e <;> rw [e] at ht
  · exact .inl ht
  · exact .inr (.inl ht)
  · exact .inr (.inr (.inl ht))
  · exact .inr (.inr (.inr ht))

/-! ## The three slabs of a 3 × 128 × 512 buffer -/

theorem slab_inb : ∀ k : Fin 3, ∀ a, (![k.val, 0, 0] : Fin 3 → ℕ) a + S1x128x512.size a ≤ S3x128x512.size a := by decide

/-- Slab `k` of a 3 × 128 × 512 index space: leading coordinate `k`, every row and column. -/
def slab (k : Fin 3) : Finset S3x128x512.Idx :=
  (Rect.unit (s := S3x128x512) ![k.val, 0, 0] S1x128x512.size (slab_inb k)).set

/-- An index lies in slab `k` exactly when its leading coordinate is `k`. -/
theorem mem_slab {k : Fin 3} {i : S3x128x512.Idx} : i ∈ slab k ↔ (i 0).val = k.val := by
  unfold slab
  rw [Rect.mem_set_unit, Fin.forall_fin_succ, Fin.forall_fin_two]
  have h1 : (i 1).val < 128 := (i 1).isLt
  have h2 : (i 2).val < 512 := (i 2).isLt
  show (k.val ≤ (i 0).val ∧ (i 0).val < k.val + 1) ∧ (0 ≤ (i 1).val ∧ (i 1).val < 0 + 128)
    ∧ (0 ≤ (i 2).val ∧ (i 2).val < 0 + 512) ↔ _
  exact ⟨fun h => by omega, fun h => ⟨by omega, ⟨Nat.zero_le _, by omega⟩, Nat.zero_le _, by omega⟩⟩

/-- Different slabs share no index. -/
theorem slab_disjoint {k k' : Fin 3} (h : k ≠ k') : Disjoint (slab k) (slab k') := by
  have hv : k.val ≠ k'.val := fun e => h (Fin.ext e)
  refine Rect.unit_disjoint (0 : Fin 3) ?_
  show k.val + 1 ≤ k'.val ∨ k'.val + 1 ≤ k.val
  omega

/-- The three slabs cover every index. -/
theorem slab_cover : (Finset.univ : Finset S3x128x512.Idx) = slab 0 ∪ (slab 1 ∪ slab 2) := by
  ext i
  simp only [Finset.mem_univ, Finset.mem_union, true_iff, mem_slab]
  have hi : (i 0).val < 3 := (i 0).isLt
  show (i 0).val = 0 ∨ (i 0).val = 1 ∨ (i 0).val = 2
  omega

/-! ## The element sets of the slices -/

/-- The rows transfer `k` of device `c` reads from the send buffer are row block `fwd k c`. -/
theorem sbSl_set (c : Dev nD) (k : Fin 3) : (sbSl c k).view.set = rowSet (fwd k c) :=
  (View.set_slice_whole _ _).trans
    (congrArg (fun r : Rect S512x512 => r.set) (Rect.unit_congr (off3_eq c k) _ _))

/-- The device's own rows of the send buffer are row block `c`. -/
theorem sbOwn_set (c : Dev nD) : (sbOwn c).view.set = rowSet c :=
  (View.set_slice_whole _ _).trans
    (congrArg (fun r : Rect S512x512 => r.set) (Rect.unit_congr (k0_off5_eq c) _ _))

/-- The device's own rows of the result scratch are row block `c`, -/
theorem resOwn_set (c : Dev nD) : (resOwn c).view.set = rowSet c :=
  (View.set_slice_whole _ _).trans
    (congrArg (fun r : Rect S512x512 => r.set) (Rect.unit_congr (k0_off6_eq c) _ _))

/-- and so are its own rows of the result array. -/
theorem outOwn_set (c : Dev nD) : (outOwn c).view.set = rowSet c :=
  (View.set_slice_whole _ _).trans
    (congrArg (fun r : Rect S512x512 => r.set) (Rect.unit_congr (k0_off6_eq c) _ _))

/-- The rows of the result scratch that came from the predecessor `bwd k c` are row block `bwd k c`, -/
theorem resSl_set (c : Dev nD) (k : Fin 3) : (resSl c k).view.set = rowSet (bwd k c) :=
  (View.set_slice_whole _ _).trans
    (congrArg (fun r : Rect S512x512 => r.set) (Rect.unit_congr (off8_eq c k) _ _))

/-- and so are those rows of the result array. -/
theorem outSl_set (c : Dev nD) (k : Fin 3) : (outSl c k).view.set = rowSet (bwd k c) :=
  (View.set_slice_whole _ _).trans
    (congrArg (fun r : Rect S512x512 => r.set) (Rect.unit_congr (off8_eq c k) _ _))

/-- Slice `k` of the first landing buffer is slab `k`: dropping the unit axis keeps the elements. -/
theorem commSl_set_0 : (commSl 0).view.set = slab 0 := (Memref.set_view_squeeze _ squeezes_S1x128x512_S128x512).trans (View.set_slice_whole _ _)
theorem commSl_set_1 : (commSl 1).view.set = slab 1 := (Memref.set_view_squeeze _ squeezes_S1x128x512_S128x512).trans (View.set_slice_whole _ _)
theorem commSl_set_2 : (commSl 2).view.set = slab 2 := (Memref.set_view_squeeze _ squeezes_S1x128x512_S128x512).trans (View.set_slice_whole _ _)

/-- Slice `k` of the second landing buffer is slab `k`. -/
theorem grSl_set_0 : (grSl 0).view.set = slab 0 := (Memref.set_view_squeeze _ squeezes_S1x128x512_S128x512).trans (View.set_slice_whole _ _)
theorem grSl_set_1 : (grSl 1).view.set = slab 1 := (Memref.set_view_squeeze _ squeezes_S1x128x512_S128x512).trans (View.set_slice_whole _ _)
theorem grSl_set_2 : (grSl 2).view.set = slab 2 := (Memref.set_view_squeeze _ squeezes_S1x128x512_S128x512).trans (View.set_slice_whole _ _)

/-! ### Membership, row by row -/

theorem mem_sbSl (c : Dev nD) (k : Fin 3) (i : S512x512.Idx) :
    i ∈ (sbSl c k).view.set ↔ 128 * (fwd k c).val ≤ (i 0).val ∧ (i 0).val < 128 * (fwd k c).val + 128 := by
  rw [sbSl_set]; exact mem_rowSet
theorem mem_sbOwn (c : Dev nD) (i : S512x512.Idx) :
    i ∈ (sbOwn c).view.set ↔ 128 * c.val ≤ (i 0).val ∧ (i 0).val < 128 * c.val + 128 := by
  rw [sbOwn_set]; exact mem_rowSet
theorem mem_resOwn (c : Dev nD) (i : S512x512.Idx) :
    i ∈ (resOwn c).view.set ↔ 128 * c.val ≤ (i 0).val ∧ (i 0).val < 128 * c.val + 128 := by
  rw [resOwn_set]; exact mem_rowSet
theorem mem_outOwn (c : Dev nD) (i : S512x512.Idx) :
    i ∈ (outOwn c).view.set ↔ 128 * c.val ≤ (i 0).val ∧ (i 0).val < 128 * c.val + 128 := by
  rw [outOwn_set]; exact mem_rowSet
theorem mem_resSl (c : Dev nD) (k : Fin 3) (i : S512x512.Idx) :
    i ∈ (resSl c k).view.set ↔ 128 * (bwd k c).val ≤ (i 0).val ∧ (i 0).val < 128 * (bwd k c).val + 128 := by
  rw [resSl_set]; exact mem_rowSet
theorem mem_outSl (c : Dev nD) (k : Fin 3) (i : S512x512.Idx) :
    i ∈ (outSl c k).view.set ↔ 128 * (bwd k c).val ≤ (i 0).val ∧ (i 0).val < 128 * (bwd k c).val + 128 := by
  rw [outSl_set]; exact mem_rowSet
theorem mem_commSl_0 (i : S3x128x512.Idx) : i ∈ (commSl 0).view.set ↔ (i 0).val = 0 := by rw [commSl_set_0]; exact mem_slab
theorem mem_commSl_1 (i : S3x128x512.Idx) : i ∈ (commSl 1).view.set ↔ (i 0).val = 1 := by rw [commSl_set_1]; exact mem_slab
theorem mem_commSl_2 (i : S3x128x512.Idx) : i ∈ (commSl 2).view.set ↔ (i 0).val = 2 := by rw [commSl_set_2]; exact mem_slab
theorem mem_grSl_0 (i : S3x128x512.Idx) : i ∈ (grSl 0).view.set ↔ (i 0).val = 0 := by rw [grSl_set_0]; exact mem_slab
theorem mem_grSl_1 (i : S3x128x512.Idx) : i ∈ (grSl 1).view.set ↔ (i 0).val = 1 := by rw [grSl_set_1]; exact mem_slab
theorem mem_grSl_2 (i : S3x128x512.Idx) : i ∈ (grSl 2).view.set ↔ (i 0).val = 2 := by rw [grSl_set_2]; exact mem_slab

/-! ### The rectangles the body loads and stores through -/

/-- The rows of the send buffer the body stores before transfer `k` are the rows that transfer reads. -/
theorem sb_store_set (c : Dev nD) (k : Fin 3) :
    (Rect.unit (s := S512x512) (k0_off2 c (BitVec.ofNat 32 (1 + k.val))) S128x512.size (k0_off2_inb c k)).set
      = (sbSl c k).view.set :=
  (congrArg (fun r : Rect S512x512 => r.set) (Rect.unit_congr (off2_eq c k) _ _)).trans (sbSl_set c k).symm

/-- The rows of the result scratch the body stores for itself are the device's own rows. -/
theorem res_own_store_set (c : Dev nD) :
    (Rect.unit (s := S512x512) (k0_off5 c) S128x512.size (k0_off5_inb c)).set = (resOwn c).view.set :=
  (congrArg (fun r : Rect S512x512 => r.set) (Rect.unit_congr (k0_off5_eq c) _ _)).trans (resOwn_set c).symm

/-- The rows of the result scratch the body stores from landing slice `k` are those of the predecessor `bwd k c`. -/
theorem res_store_set (c : Dev nD) (k : Fin 3) :
    (Rect.unit (s := S512x512) (k0_off7 c (BitVec.ofNat 32 (1 + k.val))) S128x512.size (k0_off7_inb c k)).set
      = (resSl c k).view.set :=
  (congrArg (fun r : Rect S512x512 => r.set) (Rect.unit_congr (off7_eq c k) _ _)).trans (resSl_set c k).symm

/-- The slab the body loads from a landing buffer is that buffer's slice. -/
theorem comm_load_set_0 : (Rect.unit (s := S3x128x512) ![0, 0, 0] S1x128x512.size inb_S3x128x512_S1x128x512_0_0_0).set = (commSl 0).view.set := commSl_set_0.symm
theorem comm_load_set_1 : (Rect.unit (s := S3x128x512) ![1, 0, 0] S1x128x512.size inb_S3x128x512_S1x128x512_1_0_0).set = (commSl 1).view.set := commSl_set_1.symm
theorem comm_load_set_2 : (Rect.unit (s := S3x128x512) ![2, 0, 0] S1x128x512.size inb_S3x128x512_S1x128x512_2_0_0).set = (commSl 2).view.set := commSl_set_2.symm
theorem gr_load_set_0 : (Rect.unit (s := S3x128x512) ![0, 0, 0] S1x128x512.size inb_S3x128x512_S1x128x512_0_0_0).set = (grSl 0).view.set := grSl_set_0.symm
theorem gr_load_set_1 : (Rect.unit (s := S3x128x512) ![1, 0, 0] S1x128x512.size inb_S3x128x512_S1x128x512_1_0_0).set = (grSl 1).view.set := grSl_set_1.symm
theorem gr_load_set_2 : (Rect.unit (s := S3x128x512) ![2, 0, 0] S1x128x512.size inb_S3x128x512_S1x128x512_2_0_0).set = (grSl 2).view.set := grSl_set_2.symm

/-! ## The five cuts -/

omit [FloatOps F] in
/-- A slice of the first landing buffer, held: slab `k` of that buffer at some contents. -/
theorem holds_commSl (c : Dev nD) : ∀ k : Fin 3, holds (F := F) c (commSl k)
    = iprop(∃ f : Buf (Elt F) (commM.view.loc (c : Thread nD τ)), commM.view.loc (c : Thread nD τ) ↦[slab k]{fullShare} f)
  | 0 => by unfold holds; rw [commSl_set_0]
  | 1 => by unfold holds; rw [commSl_set_1]
  | 2 => by unfold holds; rw [commSl_set_2]

omit [FloatOps F] in
/-- A slice of the second landing buffer, held: slab `k` of that buffer at some contents. -/
theorem holds_grSl (c : Dev nD) : ∀ k : Fin 3, holds (F := F) c (grSl k)
    = iprop(∃ f : Buf (Elt F) (grM.view.loc (c : Thread nD τ)), grM.view.loc (c : Thread nD τ) ↦[slab k]{fullShare} f)
  | 0 => by unfold holds; rw [grSl_set_0]
  | 1 => by unfold holds; rw [grSl_set_1]
  | 2 => by unfold holds; rw [grSl_set_2]

/-- A whole buffer's elements are all the indices of its shape. -/
theorem commM_set : commM.view.set = (Finset.univ : Finset S3x128x512.Idx) := View.set_whole _
theorem grM_set : grM.view.set = (Finset.univ : Finset S3x128x512.Idx) := View.set_whole _
theorem sbM_set : sbM.view.set = (Finset.univ : Finset S512x512.Idx) := View.set_whole _
theorem resM_set : resM.view.set = (Finset.univ : Finset S512x512.Idx) := View.set_whole _
theorem outM_set : outM.view.set = (Finset.univ : Finset S512x512.Idx) := View.set_whole _

omit [FloatOps F] in
/-- The first landing buffer is its three slices. -/
theorem comm_split (c : Dev nD) : holds (F := F) c commM ⊣⊢
    iprop(holds (F := F) c (commSl 0) ∗ holds (F := F) c (commSl 1) ∗ holds (F := F) c (commSl 2)) := by
  rw [holds_commSl, holds_commSl, holds_commSl]
  unfold holds
  rw [commM_set, slab_cover]
  exact some_cut3 (slab_disjoint (by decide)) (slab_disjoint (by decide)) (slab_disjoint (by decide))

omit [FloatOps F] in
/-- The second landing buffer is its three slices. -/
theorem gr_split (c : Dev nD) : holds (F := F) c grM ⊣⊢
    iprop(holds (F := F) c (grSl 0) ∗ holds (F := F) c (grSl 1) ∗ holds (F := F) c (grSl 2)) := by
  rw [holds_grSl, holds_grSl, holds_grSl]
  unfold holds
  rw [grM_set, slab_cover]
  exact some_cut3 (slab_disjoint (by decide)) (slab_disjoint (by decide)) (slab_disjoint (by decide))

omit [FloatOps F] in
/-- The send buffer is the three row blocks its transfers read and the device's own row block. -/
theorem sb_split (c : Dev nD) : holds (F := F) c sbM ⊣⊢
    iprop(holds (F := F) c (sbSl c 0) ∗ holds (F := F) c (sbSl c 1) ∗ holds (F := F) c (sbSl c 2)
      ∗ holds (F := F) c (sbOwn c)) := by
  obtain ⟨h01, h02, h0c, h12, h1c, h2c⟩ := fwd_distinct c
  unfold holds
  rw [sbSl_set, sbSl_set, sbSl_set, sbOwn_set, sbM_set,
    rowSet_cover (fwd 0 c) (fwd 1 c) (fwd 2 c) c (fwd_all c)]
  exact some_cut4 (rowSet_disjoint h01) (rowSet_disjoint h02) (rowSet_disjoint h0c) (rowSet_disjoint h12)
    (rowSet_disjoint h1c) (rowSet_disjoint h2c)

omit [FloatOps F] in
/-- The result scratch is the device's own row block and the three that came from its predecessors. -/
theorem res_split (c : Dev nD) : holds (F := F) c resM ⊣⊢
    iprop(holds (F := F) c (resOwn c) ∗ holds (F := F) c (resSl c 0) ∗ holds (F := F) c (resSl c 1)
      ∗ holds (F := F) c (resSl c 2)) := by
  obtain ⟨hc0, hc1, hc2, h01, h02, h12⟩ := bwd_distinct c
  unfold holds
  rw [resSl_set, resSl_set, resSl_set, resOwn_set, resM_set,
    rowSet_cover c (bwd 0 c) (bwd 1 c) (bwd 2 c) (bwd_all c)]
  exact some_cut4 (rowSet_disjoint hc0) (rowSet_disjoint hc1) (rowSet_disjoint hc2) (rowSet_disjoint h01)
    (rowSet_disjoint h02) (rowSet_disjoint h12)

omit [FloatOps F] in
/-- The result array is cut the same way. -/
theorem out_split (c : Dev nD) : holds (F := F) c outM ⊣⊢
    iprop(holds (F := F) c (outOwn c) ∗ holds (F := F) c (outSl c 0) ∗ holds (F := F) c (outSl c 1)
      ∗ holds (F := F) c (outSl c 2)) := by
  obtain ⟨hc0, hc1, hc2, h01, h02, h12⟩ := bwd_distinct c
  unfold holds
  rw [outSl_set, outSl_set, outSl_set, outOwn_set, outM_set,
    rowSet_cover c (bwd 0 c) (bwd 1 c) (bwd 2 c) (bwd_all c)]
  exact some_cut4 (rowSet_disjoint hc0) (rowSet_disjoint hc1) (rowSet_disjoint hc2) (rowSet_disjoint h01)
    (rowSet_disjoint h02) (rowSet_disjoint h12)

end Cert.KernelIdealProof

end
-- ==== Proof.V.Shares.lean ====
import proofs.«900373_g7700000000000374_dist_matmul_silu_kshard_i_m512_n512_k256_v7x_i4_f32_1_alg».proof.Proof.V.Base

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! # Three shares of one region

A share of a region splits into its left half and the two halves of its right half. Held at one contents the three
parts are the whole share at that contents; held each at SOME contents they are still the whole share at some
contents, because holders of a common element agree on its value. -/

/-! ## Three shares of one region -/

section Shares
variable {ℓ : Loc nD τ sig} {S : Finset (Idx ℓ)}

omit [FloatOps F] in
/-- A share of a region at contents `f` is its left half and the two halves of its right half, all at `f`. -/
theorem share_split3 (q : PosShare TreeShare) (f : Buf (Elt F) ℓ) :
    (ℓ ↦[S]{q} f : sProp 𝕄) ⊣⊢ iprop((ℓ ↦[S]{q.left} f) ∗ (ℓ ↦[S]{q.right.left} f) ∗ ℓ ↦[S]{q.right.right} f) :=
  (pointsTo_share (PosShare.mem_left_op_right q)).trans
    (sep_congr_right (pointsTo_share (PosShare.mem_left_op_right q.right)))

omit [FloatOps F] in
/-- The three parts, each held at some contents, make the whole share at some contents: holders of one element agree
    on its value, so the three contents coincide on the region and any one of them serves. -/
theorem share_join3 (q : PosShare TreeShare) :
    (iprop((∃ f : Buf (Elt F) ℓ, ℓ ↦[S]{q.left} f) ∗ (∃ f : Buf (Elt F) ℓ, ℓ ↦[S]{q.right.left} f)
      ∗ (∃ f : Buf (Elt F) ℓ, ℓ ↦[S]{q.right.right} f)) : sProp 𝕄) ⊢ iprop(∃ f : Buf (Elt F) ℓ, ℓ ↦[S]{q} f) := by
  iintro ⟨⟨%f0, H0⟩, ⟨%f1, H1⟩, ⟨%f2, H2⟩⟩
  icombine H0 H1 gives %h01
  icombine H0 H2 gives %h02
  have e1 : (ℓ ↦[S]{q.right.left} f1 : sProp 𝕄) = ℓ ↦[S]{q.right.left} f0 :=
    pointsTo_congr fun i hi => ((h01 i (Finset.mem_inter.mpr ⟨hi, hi⟩)).1).symm
  have e2 : (ℓ ↦[S]{q.right.right} f2 : sProp 𝕄) = ℓ ↦[S]{q.right.right} f0 :=
    pointsTo_congr fun i hi => ((h02 i (Finset.mem_inter.mpr ⟨hi, hi⟩)).1).symm
  iexists f0
  iapply (share_split3 q f0).2
  isplitl [H0]
  · iexact H0
  isplitl [H1]
  · iapply (Entails.of_eq e1); iexact H1
  · iapply (Entails.of_eq e2); iexact H2

end Shares

omit [FloatOps F] in
/-- The three shares through which the second exchange reads its source, each at some contents, are the source held. -/
theorem holdsAt_join3 (c : Dev nD) :
    iprop(holdsAt (F := F) (gsShare 0) c gsM ∗ holdsAt (F := F) (gsShare 1) c gsM ∗ holdsAt (F := F) (gsShare 2) c gsM)
      ⊢ holds (F := F) c gsM :=
  share_join3 fullShare

omit [FloatOps F] in
/-- The source at contents `f`, cut into those three shares. -/
theorem gs_split3 (c : Dev nD) (f : Buf (Elt F) (gsM.view.loc (c : Thread nD τ))) :
    (gsM.view.loc (c : Thread nD τ) ↦[gsM.view.set]{fullShare} f : sProp 𝕄) ⊣⊢
      iprop((gsM.view.loc (c : Thread nD τ) ↦[gsM.view.set]{gsShare 0} f)
        ∗ (gsM.view.loc (c : Thread nD τ) ↦[gsM.view.set]{gsShare 1} f)
        ∗ gsM.view.loc (c : Thread nD τ) ↦[gsM.view.set]{gsShare 2} f) :=
  share_split3 fullShare f

end Cert.KernelIdealProof

end
-- ==== Proof.V.ViewReads.lean ====
import proofs.«900373_g7700000000000374_dist_matmul_silu_kshard_i_m512_n512_k256_v7x_i4_f32_1_alg».proof.Proof.V.Regions
import Idealize.ShloMosaic.Lib.ValueLayout

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! # Reading the buffers through their slices

View arithmetic only: what a slice reads after a write through the same elements, what a load through the whole
buffer reads in terms of a slice's read, and the result array as its four row blocks.

* A squeezed slice of a 3 × 128 × 512 buffer reads the 128 × 512 block whose slab the load of that slice reads.
* Two rectangles of the same sizes whose offsets are equal numbers are the same rectangle, so a store or load at the
  offsets one chain of operations computes is seen through the slice at the offsets another chain computes.
* An index `(r, j)` of a 512 × 512 array lies in row block `r / 128`, at row `r % 128` of that block; the slice of the
  rows `128 t …` reads the array there. The four devices `c, bwd 0 c, bwd 1 c, bwd 2 c` are all the devices, so four
  slice reads determine the whole array.
* Disjoint parts of a region held at different contents glue into their union at a contents that agrees with each
  part's on that part; a view's read depends only on the contents under the view, so each slice still reads what it
  read before the gluing. -/

/-! ## A row block as the one slab of a landing slice -/

/-- A 128 × 512 block as a 1 × 128 × 512 value: the unit axis is ignored. -/
def slab1 {e : EltTy} (x : Vec F S128x512 e) : Vec F S1x128x512 e :=
  fun i => x (ValueIdx.ix2 (⟨(i 1).val, (i 1).isLt⟩ : Fin 128) (⟨(i 2).val, (i 2).isLt⟩ : Fin 512))

omit [FloatOps F] in
/-- Dropping the unit axis and putting it back is the identity: the index `(u, r, j)` of a 1 × 128 × 512 value has
    `u = 0`, and the squeezed value at `(r, j)` is the value at `(0, r, j)`. -/
theorem slab1_shapeCast {e : EltTy} (X : Vec F S1x128x512 e) (hc : S1x128x512.ShapeCasts S128x512) :
    slab1 (shapeCast S128x512 X hc) = X := by
  funext i
  show shapeCast S128x512 X hc
    (ValueIdx.ix2 (⟨(i 1).val, (i 1).isLt⟩ : Fin 128) (⟨(i 2).val, (i 2).isLt⟩ : Fin 512)) = X i
  rw [ValueIdx.shapeCast_1ab_ab_apply]
  refine congrArg X (funext fun d => ?_)
  have h0 : (i 0).val < 1 := (i 0).isLt
  match d with
  | ⟨0, _⟩ => exact Fin.ext (by show 0 = (i 0).val; omega)
  | ⟨1, _⟩ => rfl
  | ⟨2, _⟩ => rfl

/-! ## Loads through a whole memref, read as a slice reads -/

omit [FloatOps F] in
/-- A load through a memref at a unit-stride rectangle reads what the memref's slice at that rectangle reads, however
    the rectangle's offsets are spelt. -/
theorem readAt_unit_eq_read_slice {κ : Kind} {sp : Space} {s : Shape} {e : EltTy} (m : Memref sig κ sp s e)
    {off off' size : Fin s.rank → Nat} (h : off = off') (p : ∀ a, off a + size a ≤ s.size a)
    (p' : ∀ a, off' a + size a ≤ s.size a) (hs : ∀ a, (Rect.unit off' size p').stride a = 1)
    (f : m.view.ty.Contents (Elt F)) :
    m.view.readAt (Elt F) (Rect.unit off size p).toLoadRect f = (m.slice (Rect.unit off' size p') hs).view.read (Elt F) f := by
  subst h; rfl

omit [FloatOps F] in
/-- A load of slab `k` of the first landing buffer reads slice `k`'s block, as a slab. -/
theorem comm_load_0 (f : commM.view.ty.Contents (Elt F)) :
    commM.view.readAt (Elt F) (Rect.unit (s := S3x128x512) ![0, 0, 0] S1x128x512.size inb_S3x128x512_S1x128x512_0_0_0).toLoadRect f
      = slab1 ((commSl 0).view.read (Elt F) f) := (slab1_shapeCast _ shapeCasts_S1x128x512_S128x512).symm
omit [FloatOps F] in
theorem comm_load_1 (f : commM.view.ty.Contents (Elt F)) :
    commM.view.readAt (Elt F) (Rect.unit (s := S3x128x512) ![1, 0, 0] S1x128x512.size inb_S3x128x512_S1x128x512_1_0_0).toLoadRect f
      = slab1 ((commSl 1).view.read (Elt F) f) := (slab1_shapeCast _ shapeCasts_S1x128x512_S128x512).symm
omit [FloatOps F] in
theorem comm_load_2 (f : commM.view.ty.Contents (Elt F)) :
    commM.view.readAt (Elt F) (Rect.unit (s := S3x128x512) ![2, 0, 0] S1x128x512.size inb_S3x128x512_S1x128x512_2_0_0).toLoadRect f
      = slab1 ((commSl 2).view.read (Elt F) f) := (slab1_shapeCast _ shapeCasts_S1x128x512_S128x512).symm

omit [FloatOps F] in
/-- The same for the second landing buffer. -/
theorem gr_load_0 (f : grM.view.ty.Contents (Elt F)) :
    grM.view.readAt (Elt F) (Rect.unit (s := S3x128x512) ![0, 0, 0] S1x128x512.size inb_S3x128x512_S1x128x512_0_0_0).toLoadRect f
      = slab1 ((grSl 0).view.read (Elt F) f) := (slab1_shapeCast _ shapeCasts_S1x128x512_S128x512).symm
omit [FloatOps F] in
theorem gr_load_1 (f : grM.view.ty.Contents (Elt F)) :
    grM.view.readAt (Elt F) (Rect.unit (s := S3x128x512) ![1, 0, 0] S1x128x512.size inb_S3x128x512_S1x128x512_1_0_0).toLoadRect f
      = slab1 ((grSl 1).view.read (Elt F) f) := (slab1_shapeCast _ shapeCasts_S1x128x512_S128x512).symm
omit [FloatOps F] in
theorem gr_load_2 (f : grM.view.ty.Contents (Elt F)) :
    grM.view.readAt (Elt F) (Rect.unit (s := S3x128x512) ![2, 0, 0] S1x128x512.size inb_S3x128x512_S1x128x512_2_0_0).toLoadRect f
      = slab1 ((grSl 2).view.read (Elt F) f) := (slab1_shapeCast _ shapeCasts_S1x128x512_S128x512).symm

omit [FloatOps F] in
/-- A load of the send buffer at the rows the body stores before transfer `k` reads what that transfer's slice reads. -/
theorem sb_load (c : Dev nD) (k : Fin 3) (f : sbM.view.ty.Contents (Elt F)) :
    sbM.view.readAt (Elt F) (Rect.unit (s := S512x512) (k0_off2 c (BitVec.ofNat 32 (1 + k.val))) S128x512.size (k0_off2_inb c k)).toLoadRect f
      = (sbSl c k).view.read (Elt F) f :=
  readAt_unit_eq_read_slice sbM ((off2_eq c k).trans (off3_eq c k).symm) _ _ _ f

omit [FloatOps F] in
/-- A load of the device's own rows of the result scratch reads what their slice reads. -/
theorem res_own_load (c : Dev nD) (f : resM.view.ty.Contents (Elt F)) :
    resM.view.readAt (Elt F) (Rect.unit (s := S512x512) (k0_off5 c) S128x512.size (k0_off5_inb c)).toLoadRect f
      = (resOwn c).view.read (Elt F) f :=
  readAt_unit_eq_read_slice resM ((k0_off5_eq c).trans (k0_off6_eq c).symm) _ _ _ f

omit [FloatOps F] in
/-- A load of the result scratch at the rows of the predecessor `bwd k c` reads what their slice reads. -/
theorem res_load (c : Dev nD) (k : Fin 3) (f : resM.view.ty.Contents (Elt F)) :
    resM.view.readAt (Elt F) (Rect.unit (s := S512x512) (k0_off7 c (BitVec.ofNat 32 (1 + k.val))) S128x512.size (k0_off7_inb c k)).toLoadRect f
      = (resSl c k).view.read (Elt F) f :=
  readAt_unit_eq_read_slice resM ((off7_eq c k).trans (off8_eq c k).symm) _ _ _ f

/-! ## Reading a slice after a write -/

omit [FloatOps F] in
/-- Through one view: what was written everywhere is read back. (`View.read_write_univ`, at any view.) -/
theorem read_write_self {κ : Kind} {sp : Space} {s : Shape} {e : EltTy} (v : View sig κ sp s e)
    (f : v.ty.Contents (Elt F)) (w : s.Idx → Elt F e) : v.read (Elt F) (v.write (Elt F) f w Finset.univ) = w :=
  View.read_write_univ f w

omit [FloatOps F] in
/-- A store through a memref at a unit-stride rectangle, read through the memref's slice at that rectangle, however
    the offsets are spelt: the stored value. -/
theorem read_slice_write_access_unit {κ : Kind} {sp : Space} {s : Shape} {e : EltTy} (m : Memref sig κ sp s e)
    {off off' size : Fin s.rank → Nat} (h : off = off') (p : ∀ a, off a + size a ≤ s.size a)
    (p' : ∀ a, off' a + size a ≤ s.size a) (hs : ∀ a, (Rect.unit off' size p').stride a = 1)
    (f : m.view.ty.Contents (Elt F)) (w : (⟨s.rank, size⟩ : Shape).Idx → Elt F e) :
    (m.slice (Rect.unit off' size p') hs).view.read (Elt F)
      ((m.access (Rect.unit off size p)).write (Elt F) f w Finset.univ) = w := by
  subst h; exact View.read_write_univ (v := m.access (Rect.unit off size p)) f w

omit [FloatOps F] in
/-- The rows of the send buffer stored before transfer `k`, read through that transfer's slice. -/
theorem sb_read_store (c : Dev nD) (k : Fin 3) (f : sbM.view.ty.Contents (Elt F)) (w : Vec F S128x512 .bf16) :
    (sbSl c k).view.read (Elt F)
      ((sbM.access (Rect.unit (s := S512x512) (k0_off2 c (BitVec.ofNat 32 (1 + k.val))) S128x512.size (k0_off2_inb c k))).write
        (Elt F) f w Finset.univ) = w :=
  read_slice_write_access_unit sbM ((off2_eq c k).trans (off3_eq c k).symm) _ _ _ f w

omit [FloatOps F] in
/-- The device's own rows of the result scratch, stored and read through their slice. -/
theorem res_own_read_store (c : Dev nD) (f : resM.view.ty.Contents (Elt F)) (w : Vec F S128x512 .f32) :
    (resOwn c).view.read (Elt F)
      ((resM.access (Rect.unit (s := S512x512) (k0_off5 c) S128x512.size (k0_off5_inb c))).write (Elt F) f w Finset.univ) = w :=
  read_slice_write_access_unit resM ((k0_off5_eq c).trans (k0_off6_eq c).symm) _ _ _ f w

omit [FloatOps F] in
/-- The rows of the predecessor `bwd k c` in the result scratch, stored and read through their slice. -/
theorem res_read_store (c : Dev nD) (k : Fin 3) (f : resM.view.ty.Contents (Elt F)) (w : Vec F S128x512 .f32) :
    (resSl c k).view.read (Elt F)
      ((resM.access (Rect.unit (s := S512x512) (k0_off7 c (BitVec.ofNat 32 (1 + k.val))) S128x512.size (k0_off7_inb c k))).write
        (Elt F) f w Finset.univ) = w :=
  read_slice_write_access_unit resM ((off7_eq c k).trans (off8_eq c k).symm) _ _ _ f w

/-! ## The result array from its four row blocks -/

/-- The 512-row array whose row block `t` is `V0` for `t = c` and `V1, V2, V3` for the three predecessors of `c`: row
    `r` is row `r % 128` of block `r / 128`. -/
def ofRowBlks {e : EltTy} (c : Dev nD) (V0 V1 V2 V3 : Vec F S128x512 e) : Vec F S512x512 e := fun i =>
  (if (⟨(i 0).val / 128, by have := ValueIdx.idx2_lt0 i; show _ < 4; omega⟩ : Dev nD) = c then V0
    else if (⟨(i 0).val / 128, by have := ValueIdx.idx2_lt0 i; show _ < 4; omega⟩ : Dev nD) = bwd 0 c then V1
    else if (⟨(i 0).val / 128, by have := ValueIdx.idx2_lt0 i; show _ < 4; omega⟩ : Dev nD) = bwd 1 c then V2 else V3)
    (ValueIdx.ix2 (⟨(i 0).val % 128, Nat.mod_lt _ (by decide)⟩ : Fin 128) (⟨(i 1).val, ValueIdx.idx2_lt1 i⟩ : Fin 512))

omit [FloatOps F] in
/-- The contents of the result array at an index of row block `t` are what the slice of the rows `128 t …` reads at the
    row's position within the block. -/
theorem out_read_rows {off : Fin 2 → ℕ} (t : Dev nD) (h : off = ![128 * t.val, 0])
    (p : ∀ a, off a + S128x512.size a ≤ S512x512.size a) (f : outM.view.ty.Contents (Elt F)) (i : S512x512.Idx)
    (hi : (i 0).val / 128 = t.val) :
    f i = (outM.slice (Rect.unit (s := S512x512) off S128x512.size p) (fun _ => rfl)).view.read (Elt F) f
      (ValueIdx.ix2 (⟨(i 0).val % 128, Nat.mod_lt _ (by decide)⟩ : Fin 128) (⟨(i 1).val, ValueIdx.idx2_lt1 i⟩ : Fin 512)) := by
  subst h
  refine congrArg f (funext fun a => Fin.ext ?_)
  match a with
  | ⟨0, _⟩ => show (i 0).val = 128 * t.val + 1 * ((i 0).val % 128); omega
  | ⟨1, _⟩ => show (i 1).val = 0 + 1 * (i 1).val; omega

omit [FloatOps F] in
/-- Contents of the result array whose four slices read `V0, V1, V2, V3` are those four row blocks put together. -/
theorem out_eq_ofRowBlks (c : Dev nD) (f : outM.view.ty.Contents (Elt F)) (V0 V1 V2 V3 : Vec F S128x512 .f32)
    (h0 : (outOwn c).view.read (Elt F) f = V0) (h1 : (outSl c 0).view.read (Elt F) f = V1)
    (h2 : (outSl c 1).view.read (Elt F) f = V2) (h3 : (outSl c 2).view.read (Elt F) f = V3) :
    f = ofRowBlks c V0 V1 V2 V3 := by
  funext i
  unfold ofRowBlks
  have hq : (i 0).val / 128 < 4 := by have := ValueIdx.idx2_lt0 i; omega
  by_cases e0 : (⟨(i 0).val / 128, hq⟩ : Dev nD) = c
  · rw [if_pos e0, ← h0]
    exact out_read_rows c (k0_off6_eq c) _ f i (congrArg Fin.val e0)
  rw [if_neg e0]
  by_cases e1 : (⟨(i 0).val / 128, hq⟩ : Dev nD) = bwd 0 c
  · rw [if_pos e1, ← h1]
    exact out_read_rows (bwd 0 c) (off8_eq c 0) _ f i (congrArg Fin.val e1)
  rw [if_neg e1]
  by_cases e2 : (⟨(i 0).val / 128, hq⟩ : Dev nD) = bwd 1 c
  · rw [if_pos e2, ← h2]
    exact out_read_rows (bwd 1 c) (off8_eq c 1) _ f i (congrArg Fin.val e2)
  rw [if_neg e2]
  have e3 : (⟨(i 0).val / 128, hq⟩ : Dev nD) = bwd 2 c := by
    rcases bwd_all c ⟨(i 0).val / 128, hq⟩ with e | e | e | e
    · exact absurd e e0
    · exact absurd e e1
    · exact absurd e e2
    · exact e
  rw [← h3]
  exact out_read_rows (bwd 2 c) (off8_eq c 2) _ f i (congrArg Fin.val e3)

/-! ## Gluing four disjoint parts, remembering what each held -/

section Join
variable {ℓ : Loc nD τ sig} {q : PosShare TreeShare}

omit [FloatOps F] in
/-- Two disjoint parts at two contents are their union at a contents that agrees with each on its part. -/
theorem join2_agree {A B : Finset (Idx ℓ)} (h : Disjoint A B) (f g : Buf (Elt F) ℓ) :
    (iprop((ℓ ↦[A]{q} f) ∗ ℓ ↦[B]{q} g) : sProp 𝕄) ⊢
      iprop(∃ u : Buf (Elt F) ℓ, ⌜(∀ i ∈ A, u i = f i) ∧ (∀ i ∈ B, u i = g i)⌝ ∗ ℓ ↦[A ∪ B]{q} u) := by
  iintro ⟨HA, HB⟩
  iexists (B.piecewise g f)
  isplitr
  · ipureintro
    exact ⟨fun i hi => Finset.piecewise_eq_of_notMem _ _ _ (Finset.disjoint_left.mp h hi),
      fun i hi => Finset.piecewise_eq_of_mem _ _ _ hi⟩
  · iapply (pointsTo_join h)
    isplitl [HA]
    · iexact HA
    · iexact HB

omit [FloatOps F] in
/-- The same for four pairwise disjoint parts. -/
theorem join4_agree {A B C D : Finset (Idx ℓ)} (hAB : Disjoint A B) (hAC : Disjoint A C) (hAD : Disjoint A D)
    (hBC : Disjoint B C) (hBD : Disjoint B D) (hCD : Disjoint C D) (fA fB fC fD : Buf (Elt F) ℓ) :
    (iprop((ℓ ↦[A]{q} fA) ∗ (ℓ ↦[B]{q} fB) ∗ (ℓ ↦[C]{q} fC) ∗ ℓ ↦[D]{q} fD) : sProp 𝕄) ⊢
      iprop(∃ u : Buf (Elt F) ℓ, ⌜(∀ i ∈ A, u i = fA i) ∧ (∀ i ∈ B, u i = fB i) ∧ (∀ i ∈ C, u i = fC i)
        ∧ (∀ i ∈ D, u i = fD i)⌝ ∗ ℓ ↦[A ∪ (B ∪ (C ∪ D))]{q} u) := by
  iintro ⟨HA, HB, HC, HD⟩
  ihave H := (join2_agree hCD fC fD) $$ [HC HD]
  · isplitl [HC] <;> iassumption
  icases H with ⟨%u1, %h1, H⟩
  ihave H := (join2_agree (Finset.disjoint_union_right.mpr ⟨hBC, hBD⟩) fB u1) $$ [HB H]
  · isplitl [HB] <;> iassumption
  icases H with ⟨%u2, %h2, H⟩
  ihave H := (join2_agree (Finset.disjoint_union_right.mpr ⟨hAB, Finset.disjoint_union_right.mpr ⟨hAC, hAD⟩⟩) fA u2) $$ [HA H]
  · isplitl [HA] <;> iassumption
  icases H with ⟨%u3, %h3, H⟩
  iexists u3
  isplitr
  · ipureintro
    refine ⟨h3.1, fun i hi => ?_, fun i hi => ?_, fun i hi => ?_⟩
    · rw [h3.2 i (Finset.mem_union_left _ hi), h2.1 i hi]
    · rw [h3.2 i (Finset.mem_union_right _ (Finset.mem_union_left _ hi)), h2.2 i (Finset.mem_union_left _ hi), h1.1 i hi]
    · rw [h3.2 i (Finset.mem_union_right _ (Finset.mem_union_right _ hi)), h2.2 i (Finset.mem_union_right _ hi), h1.2 i hi]
  · iexact H

end Join

omit [FloatOps F] in
/-- The four slices of the result array, each at a contents whose read is known, are the result array at the contents
    made of those four reads. -/
theorem out_join (c : Dev nD) (V0 V1 V2 V3 : Vec F S128x512 .f32) :
    (iprop((∃ f : Buf (Elt F) (outM.view.loc (c : Thread nD τ)), ⌜(outOwn c).view.read (Elt F) f = V0⌝
          ∗ (outOwn c).view.loc (c : Thread nD τ) ↦[(outOwn c).view.set]{fullShare} f)
      ∗ (∃ f : Buf (Elt F) (outM.view.loc (c : Thread nD τ)), ⌜(outSl c 0).view.read (Elt F) f = V1⌝
          ∗ (outSl c 0).view.loc (c : Thread nD τ) ↦[(outSl c 0).view.set]{fullShare} f)
      ∗ (∃ f : Buf (Elt F) (outM.view.loc (c : Thread nD τ)), ⌜(outSl c 1).view.read (Elt F) f = V2⌝
          ∗ (outSl c 1).view.loc (c : Thread nD τ) ↦[(outSl c 1).view.set]{fullShare} f)
      ∗ (∃ f : Buf (Elt F) (outM.view.loc (c : Thread nD τ)), ⌜(outSl c 2).view.read (Elt F) f = V3⌝
          ∗ (outSl c 2).view.loc (c : Thread nD τ) ↦[(outSl c 2).view.set]{fullShare} f)) : sProp 𝕄) ⊢
      iprop(∃ f : Buf (Elt F) (outM.view.loc (c : Thread nD τ)), ⌜f = ofRowBlks c V0 V1 V2 V3⌝
        ∗ outM.view.loc (c : Thread nD τ) ↦[outM.view.set]{fullShare} f) := by
  obtain ⟨hc0, hc1, hc2, h01, h02, h12⟩ := bwd_distinct c
  have hset : outM.view.set = (outOwn c).view.set ∪ ((outSl c 0).view.set ∪ ((outSl c 1).view.set ∪ (outSl c 2).view.set)) := by
    rw [outSl_set, outSl_set, outSl_set, outOwn_set, outM_set]
    exact rowSet_cover c (bwd 0 c) (bwd 1 c) (bwd 2 c) (bwd_all c)
  iintro ⟨⟨%f0, %h0, H0⟩, ⟨%f1, %h1, H1⟩, ⟨%f2, %h2, H2⟩, ⟨%f3, %h3, H3⟩⟩
  ihave H := (join4_agree (A := (outOwn c).view.set) (B := (outSl c 0).view.set) (C := (outSl c 1).view.set)
      (D := (outSl c 2).view.set)
      (by rw [outOwn_set, outSl_set]; exact rowSet_disjoint hc0) (by rw [outOwn_set, outSl_set]; exact rowSet_disjoint hc1)
      (by rw [outOwn_set, outSl_set]; exact rowSet_disjoint hc2) (by rw [outSl_set, outSl_set]; exact rowSet_disjoint h01)
      (by rw [outSl_set, outSl_set]; exact rowSet_disjoint h02) (by rw [outSl_set, outSl_set]; exact rowSet_disjoint h12)
      f0 f1 f2 f3) $$ [H0 H1 H2 H3]
  · isplitl [H0]
    · iexact H0
    isplitl [H1]
    · iexact H1
    isplitl [H2]
    · iexact H2
    · iexact H3
  icases H with ⟨%u, %hu, H⟩
  iexists u
  isplitr
  · ipureintro
    exact out_eq_ofRowBlks c u V0 V1 V2 V3 ((View.read_congr hu.1).trans h0) ((View.read_congr hu.2.1).trans h1)
      ((View.read_congr hu.2.2.1).trans h2) ((View.read_congr hu.2.2.2).trans h3)
  · iapply (Entails.of_eq (congrArg (fun S => (outM.view.loc (c : Thread nD τ) ↦[S]{fullShare} u : sProp 𝕄)) hset.symm))
    iexact H

end Cert.KernelIdealProof

end
-- ==== Proof.V.OutJoin.lean ====
import proofs.«900373_g7700000000000374_dist_matmul_silu_kshard_i_m512_n512_k256_v7x_i4_f32_1_alg».proof.Proof.V.Data
import Idealize.ShloMosaic.Lib.ValueIdx

/-! # The result array from its four row blocks

A device's result array is written row block by row block: its own rows from its own activation, each other row block
from the slice that block's owner sent. Holding the four row blocks at those values is holding the whole array at its
named contents. -/

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

namespace OutJoin

variable (a : Dev nD → (cc0_stg0_0 : Ref sig .tc).ty.Contents (Elt F)) (b : Dev nD → (cc0_stg1_0 : Ref sig .tc).ty.Contents (Elt F))

/-- The result array's value at an element of row block `t`, by the element's place `y` in the block. -/
theorem outV_rows (c t : Dev nD) (i : S512x512.Idx) (y : S128x512.Idx)
    (h0 : (i 0).val = 128 * t.val + (y 0).val) (h1 : (i 1).val = (y 1).val) : outV a b c i = rowBlk a b c t y := by
  have hy0 := ValueIdx.idx2_lt0 y
  have ht : (⟨(i 0).val / 128, by have := ValueIdx.idx2_lt0 i; show _ < 4; omega⟩ : Dev nD) = t := Fin.ext (by show (i 0).val / 128 = t.val; omega)
  have hy : (ValueIdx.ix2 (⟨(i 0).val % 128, Nat.mod_lt _ (by decide)⟩ : Fin 128) (⟨(i 1).val, ValueIdx.idx2_lt1 i⟩ : Fin 512) : S128x512.Idx) = y :=
    funext fun x => by
      match x with
      | ⟨0, _⟩ => exact Fin.ext (by show (i 0).val % 128 = (y 0).val; omega)
      | ⟨1, _⟩ => exact Fin.ext h1
  show rowBlk a b c _ _ = _
  rw [ht, hy]

/-- The elements of the result array in row block `t`. -/
def rowSet (t : Dev nD) : Finset S512x512.Idx := Finset.univ.filter fun i => (i 0).val / 128 = t.val

omit [FloatOps F] in
/-- The slice of `128` rows from row `128 t` covers row block `t`. -/
theorem slice_set (t : Dev nD) {off : Fin 2 → ℕ} (h : off = ![128 * t.val, 0]) (inb : ∀ x, off x + S128x512.size x ≤ S512x512.size x) :
    (outM.slice (Rect.unit (s := S512x512) off S128x512.size inb) (fun _ => rfl)).view.set = rowSet t := by
  subst h
  have e : (outM.slice (Rect.unit (s := S512x512) ![128 * t.val, 0] S128x512.size inb) (fun _ => rfl)).view.set
      = (Rect.unit (s := S512x512) ![128 * t.val, 0] S128x512.size inb).set :=
    View.set_slice_whole main_v1 (Rect.unit (s := S512x512) ![128 * t.val, 0] S128x512.size inb)
  rw [e]
  ext i
  have h1 := ValueIdx.idx2_lt1 i
  have h0 := ValueIdx.idx2_lt0 i
  rw [Rect.mem_set_unit]
  unfold rowSet
  rw [Finset.mem_filter, Fin.forall_fin_two]
  constructor
  · rintro ⟨⟨ha, hb⟩, -⟩
    refine ⟨Finset.mem_univ _, ?_⟩
    have ha' : 128 * t.val ≤ (i 0).val := ha
    have hb' : (i 0).val < 128 * t.val + 128 := hb
    omega
  · rintro ⟨-, ht⟩
    refine ⟨⟨?_, ?_⟩, ⟨Nat.zero_le _, ?_⟩⟩
    · show 128 * t.val ≤ (i 0).val; omega
    · show (i 0).val < 128 * t.val + 128; omega
    · show (i 1).val < 0 + 512; omega

/-- A row block held at its named value is its elements of the whole array held at the array's named contents. -/
theorem holdsV_rows (c t : Dev nD) {off : Fin 2 → ℕ} (h : off = ![128 * t.val, 0]) (inb : ∀ x, off x + S128x512.size x ≤ S512x512.size x)
    (V : S128x512.Idx → Elt F .f32) (hV : rowBlk a b c t = V) :
    holdsV (F := F) c (outM.slice (Rect.unit (s := S512x512) off S128x512.size inb) (fun _ => rfl)) V
      ⊢ (((c : Thread nD τ).loc main_v1) ↦[rowSet t]{fullShare} (outV a b c : Buf (Elt F) ((c : Thread nD τ).loc main_v1)) : sProp 𝕄) := by
  have hc : ∀ (f : Buf (Elt F) ((c : Thread nD τ).loc main_v1))
      (hf : (outM.slice (Rect.unit (s := S512x512) off S128x512.size inb) (fun _ => rfl)).view.read (Elt F) f = V),
      ∀ i ∈ (rowSet t : Finset (Idx ((c : Thread nD τ).loc main_v1))), f i = (outV a b c : Buf (Elt F) ((c : Thread nD τ).loc main_v1)) i := fun f hf i hi => by
    have hi' : ((i : S512x512.Idx) 0).val / 128 = t.val := (Finset.mem_filter.mp hi).2
    have h0 := ValueIdx.idx2_lt0 (i : S512x512.Idx)
    subst h
    let y : S128x512.Idx := ValueIdx.ix2 (⟨((i : S512x512.Idx) 0).val % 128, Nat.mod_lt _ (by decide)⟩ : Fin 128) (⟨((i : S512x512.Idx) 1).val, ValueIdx.idx2_lt1 (i : S512x512.Idx)⟩ : Fin 512)
    have he : (outM.slice (Rect.unit (s := S512x512) ![128 * t.val, 0] S128x512.size inb) (fun _ => rfl)).view.emb y = i :=
      funext fun x => by
        match x with
        | ⟨0, _⟩ => exact Fin.ext (by show 128 * t.val + 1 * (((i : S512x512.Idx) 0).val % 128) = ((i : S512x512.Idx) 0).val; omega)
        | ⟨1, _⟩ => exact Fin.ext (by show 0 + 1 * ((i : S512x512.Idx) 1).val = ((i : S512x512.Idx) 1).val; omega)
    have e1 : f i = V y := by rw [← hf, ← he]; rfl
    have e2 : (outV a b c : S512x512.Idx → Elt F .f32) i = rowBlk a b c t y :=
      outV_rows a b c t i y (by show _ = 128 * t.val + ((i : S512x512.Idx) 0).val % 128; omega) rfl
    rw [e1, ← hV]; exact e2.symm
  unfold holdsV
  rw [slice_set t h inb]
  iintro ⟨%f, %hf, H⟩
  iapply (Entails.of_eq (pointsTo_congr (hc f hf)))
  iexact H

omit [FloatOps F] in
theorem bwd0_ne (c : Dev nD) : bwd 0 c ≠ c := by revert c; decide
omit [FloatOps F] in
theorem bwd1_ne (c : Dev nD) : bwd 1 c ≠ c ∧ bwd 1 c ≠ bwd 0 c := by revert c; decide
omit [FloatOps F] in
theorem bwd2_ne (c : Dev nD) : bwd 2 c ≠ c ∧ bwd 2 c ≠ bwd 0 c ∧ bwd 2 c ≠ bwd 1 c := by revert c; decide
omit [FloatOps F] in
theorem devs_list (c : Dev nD) : (Finset.univ : Finset (Dev nD)) = [c, bwd 0 c, bwd 1 c, bwd 2 c].toFinset ∧ [c, bwd 0 c, bwd 1 c, bwd 2 c].Nodup := by
  revert c; decide

theorem rowBlk_self (c : Dev nD) : rowBlk a b c c = resOwnV a b c := by unfold rowBlk; rw [if_pos rfl]
theorem rowBlk_bwd0 (c : Dev nD) : rowBlk a b c (bwd 0 c) = backV a b c 0 := by
  unfold rowBlk; rw [if_neg (bwd0_ne c), if_pos rfl]
theorem rowBlk_bwd1 (c : Dev nD) : rowBlk a b c (bwd 1 c) = backV a b c 1 := by
  unfold rowBlk; rw [if_neg (bwd1_ne c).1, if_neg (bwd1_ne c).2, if_pos rfl]
theorem rowBlk_bwd2 (c : Dev nD) : rowBlk a b c (bwd 2 c) = backV a b c 2 := by
  unfold rowBlk; rw [if_neg (bwd2_ne c).1, if_neg (bwd2_ne c).2.1, if_neg (bwd2_ne c).2.2]

omit [FloatOps F] in
/-- The four row blocks are the whole array. -/
theorem rows_cover : (Finset.univ : Finset (Dev nD)).biUnion rowSet = (Finset.univ : Finset S512x512.Idx) := by
  ext i
  simp only [Finset.mem_biUnion, Finset.mem_univ, true_and, iff_true]
  exact ⟨⟨(i 0).val / 128, by have := ValueIdx.idx2_lt0 i; show _ < 4; omega⟩, Finset.mem_filter.mpr ⟨Finset.mem_univ _, rfl⟩⟩

omit [FloatOps F] in
theorem rows_disjoint (t t' : Dev nD) (h : t ≠ t') : Disjoint (rowSet t) (rowSet t') :=
  Finset.disjoint_left.mpr fun i hi hi' =>
    h (Fin.ext (((Finset.mem_filter.mp hi).2).symm.trans (Finset.mem_filter.mp hi').2))

/-- THE JOIN: a device that holds its own rows of the result array at its activation and each other row block at what
    that block's owner sent holds the whole result array at its named contents. -/
theorem out_join (c : Dev nD) :
    iprop(holdsV (F := F) c (outOwn c) (resOwnV a b c) ∗ holdsV (F := F) c (outSl c 0) (backV a b c 0)
        ∗ holdsV (F := F) c (outSl c 1) (backV a b c 1) ∗ holdsV (F := F) c (outSl c 2) (backV a b c 2))
      ⊢ holdsV (F := F) c outM (outV a b c) := by
  have hwhole : (((c : Thread nD τ).loc main_v1) ↦{fullShare} (outV a b c : Buf (Elt F) ((c : Thread nD τ).loc main_v1)) : sProp 𝕄)
      = iprop((((c : Thread nD τ).loc main_v1) ↦[rowSet c]{fullShare} (outV a b c : Buf (Elt F) ((c : Thread nD τ).loc main_v1)))
          ∗ (((c : Thread nD τ).loc main_v1) ↦[rowSet (bwd 0 c)]{fullShare} (outV a b c : Buf (Elt F) ((c : Thread nD τ).loc main_v1)))
          ∗ (((c : Thread nD τ).loc main_v1) ↦[rowSet (bwd 1 c)]{fullShare} (outV a b c : Buf (Elt F) ((c : Thread nD τ).loc main_v1)))
          ∗ (((c : Thread nD τ).loc main_v1) ↦[rowSet (bwd 2 c)]{fullShare} (outV a b c : Buf (Elt F) ((c : Thread nD τ).loc main_v1)))) := by
    have hb : ((((c : Thread nD τ).loc main_v1) ↦[(Finset.univ : Finset (Dev nD)).biUnion rowSet]{fullShare}
          (outV a b c : Buf (Elt F) ((c : Thread nD τ).loc main_v1)) : sProp 𝕄)
        = bigSep Finset.univ fun t : Dev nD => (((c : Thread nD τ).loc main_v1) ↦[rowSet t]{fullShare}
            (outV a b c : Buf (Elt F) ((c : Thread nD τ).loc main_v1)))) :=
      pointsTo_biUnion _ _ (fun t _ t' _ h => rows_disjoint t t' h)
    rw [rows_cover] at hb
    rw [show (((c : Thread nD τ).loc main_v1) ↦{fullShare} (outV a b c : Buf (Elt F) ((c : Thread nD τ).loc main_v1)) : sProp 𝕄) = _ from hb,
      bigSep_univ_eq_bigSepL [c, bwd 0 c, bwd 1 c, bwd 2 c] (devs_list c).1 (devs_list c).2]
    rfl
  have e : (Memref.whole main_v1 : Memref sig .tc _ _ _).view.set = Finset.univ := View.set_whole _
  iintro ⟨H0, H1, H2, H3⟩
  ihave P0 := (holdsV_rows a b c c (k0_off6_eq c) (k0_off6_inb c) _ (rowBlk_self a b c)) $$ H0
  ihave P1 := (holdsV_rows a b c (bwd 0 c) (off8_eq c 0) (k0_off8_inb c 0) _ (rowBlk_bwd0 a b c)) $$ H1
  ihave P2 := (holdsV_rows a b c (bwd 1 c) (off8_eq c 1) (k0_off8_inb c 1) _ (rowBlk_bwd1 a b c)) $$ H2
  ihave P3 := (holdsV_rows a b c (bwd 2 c) (off8_eq c 2) (k0_off8_inb c 2) _ (rowBlk_bwd2 a b c)) $$ H3
  unfold holdsV
  iexists (outV a b c : Buf (Elt F) ((c : Thread nD τ).loc main_v1))
  isplitr
  · ipureintro; rfl
  · rw [e, hwhole]
    isplitl [P0]; · iexact P0
    isplitl [P1]; · iexact P1
    isplitl [P2]; · iexact P2
    iexact P3

end OutJoin

end Cert.KernelIdealProof

end
-- ==== Proof.V.Cuts.lean ====
import proofs.«900373_g7700000000000374_dist_matmul_silu_kshard_i_m512_n512_k256_v7x_i4_f32_1_alg».proof.Proof.V.Regions

/-! # Cutting a buffer into its slices at fixed contents

A region that is a disjoint union, held at contents `f`, is its parts, each held at the same `f`: the cuts of the send
buffer, the result scratch and the result array into row blocks, and of the two landing buffers into slices, that keep
the contents — so that what a slice reads after the cut is what the buffer's contents say. -/

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section CutsAt
variable {ℓ : Loc nD τ sig} {q : PosShare TreeShare}

omit [FloatOps F] in
theorem cut3_at {A B C : Finset (Idx ℓ)} (hAB : Disjoint A B) (hAC : Disjoint A C) (hBC : Disjoint B C) (f : Buf (Elt F) ℓ) :
    (ℓ ↦[A ∪ (B ∪ C)]{q} f : sProp 𝕄) ⊣⊢ iprop((ℓ ↦[A]{q} f) ∗ (ℓ ↦[B]{q} f) ∗ (ℓ ↦[C]{q} f)) :=
  (pointsTo_union (Finset.disjoint_union_right.mpr ⟨hAB, hAC⟩)).trans (sep_congr_right (pointsTo_union hBC))

omit [FloatOps F] in
theorem cut4_at {A B C D : Finset (Idx ℓ)} (hAB : Disjoint A B) (hAC : Disjoint A C) (hAD : Disjoint A D)
    (hBC : Disjoint B C) (hBD : Disjoint B D) (hCD : Disjoint C D) (f : Buf (Elt F) ℓ) :
    (ℓ ↦[A ∪ (B ∪ (C ∪ D))]{q} f : sProp 𝕄) ⊣⊢ iprop((ℓ ↦[A]{q} f) ∗ (ℓ ↦[B]{q} f) ∗ (ℓ ↦[C]{q} f) ∗ (ℓ ↦[D]{q} f)) :=
  (pointsTo_union (Finset.disjoint_union_right.mpr ⟨hAB, Finset.disjoint_union_right.mpr ⟨hAC, hAD⟩⟩)).trans
    (sep_congr_right (cut3_at hBC hBD hCD f))

end CutsAt

omit [FloatOps F] in
/-- The send buffer at contents `f` is its four row blocks at `f`. -/
theorem sb_cut (c : Dev nD) (f : Buf (Elt F) (sbM.view.loc (c : Thread nD τ))) :
    (sbM.view.loc (c : Thread nD τ) ↦[sbM.view.set]{fullShare} f : sProp 𝕄) ⊣⊢
      iprop(((sbSl c 0).view.loc (c : Thread nD τ) ↦[(sbSl c 0).view.set]{fullShare} f)
        ∗ ((sbSl c 1).view.loc (c : Thread nD τ) ↦[(sbSl c 1).view.set]{fullShare} f)
        ∗ ((sbSl c 2).view.loc (c : Thread nD τ) ↦[(sbSl c 2).view.set]{fullShare} f)
        ∗ ((sbOwn c).view.loc (c : Thread nD τ) ↦[(sbOwn c).view.set]{fullShare} f)) := by
  obtain ⟨h01, h02, h0c, h12, h1c, h2c⟩ := fwd_distinct c
  rw [sbSl_set, sbSl_set, sbSl_set, sbOwn_set, sbM_set, rowSet_cover (fwd 0 c) (fwd 1 c) (fwd 2 c) c (fwd_all c)]
  exact cut4_at (rowSet_disjoint h01) (rowSet_disjoint h02) (rowSet_disjoint h0c) (rowSet_disjoint h12)
    (rowSet_disjoint h1c) (rowSet_disjoint h2c) f

omit [FloatOps F] in
/-- The result scratch at contents `f` is its four row blocks at `f`. -/
theorem res_cut (c : Dev nD) (f : Buf (Elt F) (resM.view.loc (c : Thread nD τ))) :
    (resM.view.loc (c : Thread nD τ) ↦[resM.view.set]{fullShare} f : sProp 𝕄) ⊣⊢
      iprop(((resOwn c).view.loc (c : Thread nD τ) ↦[(resOwn c).view.set]{fullShare} f)
        ∗ ((resSl c 0).view.loc (c : Thread nD τ) ↦[(resSl c 0).view.set]{fullShare} f)
        ∗ ((resSl c 1).view.loc (c : Thread nD τ) ↦[(resSl c 1).view.set]{fullShare} f)
        ∗ ((resSl c 2).view.loc (c : Thread nD τ) ↦[(resSl c 2).view.set]{fullShare} f)) := by
  obtain ⟨hc0, hc1, hc2, h01, h02, h12⟩ := bwd_distinct c
  rw [resSl_set, resSl_set, resSl_set, resOwn_set, resM_set, rowSet_cover c (bwd 0 c) (bwd 1 c) (bwd 2 c) (bwd_all c)]
  exact cut4_at (rowSet_disjoint hc0) (rowSet_disjoint hc1) (rowSet_disjoint hc2) (rowSet_disjoint h01)
    (rowSet_disjoint h02) (rowSet_disjoint h12) f

omit [FloatOps F] in
/-- The result array likewise. -/
theorem out_cut (c : Dev nD) (f : Buf (Elt F) (outM.view.loc (c : Thread nD τ))) :
    (outM.view.loc (c : Thread nD τ) ↦[outM.view.set]{fullShare} f : sProp 𝕄) ⊣⊢
      iprop(((outOwn c).view.loc (c : Thread nD τ) ↦[(outOwn c).view.set]{fullShare} f)
        ∗ ((outSl c 0).view.loc (c : Thread nD τ) ↦[(outSl c 0).view.set]{fullShare} f)
        ∗ ((outSl c 1).view.loc (c : Thread nD τ) ↦[(outSl c 1).view.set]{fullShare} f)
        ∗ ((outSl c 2).view.loc (c : Thread nD τ) ↦[(outSl c 2).view.set]{fullShare} f)) := by
  obtain ⟨hc0, hc1, hc2, h01, h02, h12⟩ := bwd_distinct c
  rw [outSl_set, outSl_set, outSl_set, outOwn_set, outM_set, rowSet_cover c (bwd 0 c) (bwd 1 c) (bwd 2 c) (bwd_all c)]
  exact cut4_at (rowSet_disjoint hc0) (rowSet_disjoint hc1) (rowSet_disjoint hc2) (rowSet_disjoint h01)
    (rowSet_disjoint h02) (rowSet_disjoint h12) f

omit [FloatOps F] in
/-- The first landing buffer at contents `f` is its three slices at `f`. -/
theorem comm_cut (c : Dev nD) (f : Buf (Elt F) (commM.view.loc (c : Thread nD τ))) :
    (commM.view.loc (c : Thread nD τ) ↦[commM.view.set]{fullShare} f : sProp 𝕄) ⊣⊢
      iprop(((commSl 0).view.loc (c : Thread nD τ) ↦[(commSl 0).view.set]{fullShare} f)
        ∗ ((commSl 1).view.loc (c : Thread nD τ) ↦[(commSl 1).view.set]{fullShare} f)
        ∗ ((commSl 2).view.loc (c : Thread nD τ) ↦[(commSl 2).view.set]{fullShare} f)) := by
  rw [commSl_set_0, commSl_set_1, commSl_set_2, commM_set, slab_cover]
  exact cut3_at (slab_disjoint (by decide)) (slab_disjoint (by decide)) (slab_disjoint (by decide)) f

omit [FloatOps F] in
/-- The second landing buffer likewise. -/
theorem gr_cut (c : Dev nD) (f : Buf (Elt F) (grM.view.loc (c : Thread nD τ))) :
    (grM.view.loc (c : Thread nD τ) ↦[grM.view.set]{fullShare} f : sProp 𝕄) ⊣⊢
      iprop(((grSl 0).view.loc (c : Thread nD τ) ↦[(grSl 0).view.set]{fullShare} f)
        ∗ ((grSl 1).view.loc (c : Thread nD τ) ↦[(grSl 1).view.set]{fullShare} f)
        ∗ ((grSl 2).view.loc (c : Thread nD τ) ↦[(grSl 2).view.set]{fullShare} f)) := by
  rw [grSl_set_0, grSl_set_1, grSl_set_2, grM_set, slab_cover]
  exact cut3_at (slab_disjoint (by decide)) (slab_disjoint (by decide)) (slab_disjoint (by decide)) f

end Cert.KernelIdealProof

end
-- ==== Proof.V.Named.lean ====
import proofs.«900373_g7700000000000374_dist_matmul_silu_kshard_i_m512_n512_k256_v7x_i4_f32_1_alg».proof.Proof.V.ViewReads
import proofs.«900373_g7700000000000374_dist_matmul_silu_kshard_i_m512_n512_k256_v7x_i4_f32_1_alg».proof.Proof.V.Contents

/-! # Loads and stores by name

What a load reads from a buffer written whole is what was written; what a load reads from a staged block is the
block. With these the values the body computes are the named contents: the narrow copy of the second block, the three
partial products sent, the own partial product, the activation in its two formats, and the rows put back. -/

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (a : Dev nD → (cc0_stg0_0 : Ref sig .tc).ty.Contents (Elt F)) (b : Dev nD → (cc0_stg1_0 : Ref sig .tc).ty.Contents (Elt F))

omit [FloatOps F] in
theorem zero2 : (![0, 0] : Fin 2 → ℕ) = fun _ => 0 := funext fun x => by fin_cases x <;> rfl

omit [FloatOps F] in
/-- A load through the rectangle of the one store made reads what was stored. -/
theorem readAt_writes_single {κ : Kind} {sp : Space} {s : Shape} {e : EltTy} (v : View sig κ sp s e) (R : Rect s)
    (f : v.ty.Contents (Elt F)) (w : R.shape.Idx → Elt F e) :
    v.readAt (Elt F) R.toLoadRect (v.writes (Elt F) f [⟨R, w⟩]) = w :=
  View.read_write_univ (v := v.slice R) f w

omit [FloatOps F] in
/-- A whole load of the staged second block reads the block. -/
theorem b_load (x : (cc0_stg1_0 : Ref sig .tc).ty.Contents (Elt F)) :
    View.readAt (Elt F) (Memref.whole cc0_stg1_0 : Memref sig .tc _ _ _).view
      (Rect.unit (s := S256x512) ![0, 0] S256x512.size inb_S256x512_S256x512_0_0).toLoadRect x = x :=
  Memref.readAt_unit_zero (Elt F) cc0_stg1_0 zero2 _ x

/-- The narrow second block, loaded after its store. -/
theorem bbf_named (c : Dev nD) (fbbf : Buf (Elt F) (bbfM.view.loc (c : Thread nD τ))) :
    View.readAt (Elt F) bbfM.view (Rect.unit (s := S256x512) ![0, 0] S256x512.size inb_S256x512_S256x512_0_0).toLoadRect
      (bbfM.view.writes (Elt F) fbbf [⟨Rect.unit (s := S256x512) ![0, 0] S256x512.size inb_S256x512_S256x512_0_0,
        k0_pay1 (View.readAt (Elt F) (Memref.whole cc0_stg1_0 : Memref sig .tc _ _ _).view
          (Rect.unit (s := S256x512) ![0, 0] S256x512.size inb_S256x512_S256x512_0_0).toLoadRect (b c))⟩])
      = bbfV b c := by
  rw [readAt_writes_single, b_load]; rfl

omit [FloatOps F] in
theorem slab1_eq_lift1 {e : EltTy} (x : Vec F S128x512 e) : slab1 x = lift1 x := rfl

/-! ## The first exchange: what is stored into the send buffer before each transfer -/

theorem sent_named0 (c : Dev nD) (f : sbM.view.ty.Contents (Elt F)) (X : Vec F S256x512 .bf16) (hX : X = bbfV b c) :
    (sbSl c 0).view.read (Elt F) (sbM.view.writes (Elt F) f
      [⟨Rect.unit (s := S512x512) (k0_off2 c 1#32) S128x512.size (k0_off2_inb c 0), k0_pay3 (k0_pay2 (rowsA a c 0)) X⟩])
      = sentV a b c 0 := by
  subst hX; exact sb_read_store c 0 f _

theorem sent_named1 (c : Dev nD) (f : sbM.view.ty.Contents (Elt F)) (X : Vec F S256x512 .bf16) (hX : X = bbfV b c) :
    (sbSl c 1).view.read (Elt F) (sbM.view.writes (Elt F) f
      [⟨Rect.unit (s := S512x512) (k0_off2 c 2#32) S128x512.size (k0_off2_inb c 1), k0_pay5 (k0_pay4 (rowsA a c 1) X)⟩])
      = sentV a b c 1 := by
  subst hX; exact sb_read_store c 1 f _

theorem sent_named2 (c : Dev nD) (f : sbM.view.ty.Contents (Elt F)) (X : Vec F S256x512 .bf16) (hX : X = bbfV b c) :
    (sbSl c 2).view.read (Elt F) (sbM.view.writes (Elt F) f
      [⟨Rect.unit (s := S512x512) (k0_off2 c 3#32) S128x512.size (k0_off2_inb c 2), k0_pay6 (rowsA a c 2) X⟩])
      = sentV a b c 2 := by
  subst hX; exact sb_read_store c 2 f _

/-! ## The own partial product and the landed ones -/

/-- The own partial product, loaded after its store. -/
theorem own_load_named (c : Dev nD) (fown : ownM.view.ty.Contents (Elt F)) (X : Vec F S256x512 .bf16) (hX : X = bbfV b c) :
    View.readAt (Elt F) ownM.view (Rect.unit (s := S128x512) ![0, 0] S128x512.size inb_S128x512_S128x512_0_0).toLoadRect
      (ownM.view.writes (Elt F) fown [⟨Rect.unit (s := S128x512) ![0, 0] S128x512.size inb_S128x512_S128x512_0_0,
        k0_pay7 (ownRows a c) X⟩]) = ownV a b c := by
  subst hX; rw [readAt_writes_single]; rfl

omit [FloatOps F] in
theorem comm_load_named0 (V : Vec F S128x512 .bf16) (f : commM.view.ty.Contents (Elt F)) (hf : (commSl 0).view.read (Elt F) f = V) :
    commM.view.readAt (Elt F) (Rect.unit (s := S3x128x512) ![0, 0, 0] S1x128x512.size inb_S3x128x512_S1x128x512_0_0_0).toLoadRect f = lift1 V := by
  rw [comm_load_0, hf]; rfl
omit [FloatOps F] in
theorem comm_load_named1 (V : Vec F S128x512 .bf16) (f : commM.view.ty.Contents (Elt F)) (hf : (commSl 1).view.read (Elt F) f = V) :
    commM.view.readAt (Elt F) (Rect.unit (s := S3x128x512) ![1, 0, 0] S1x128x512.size inb_S3x128x512_S1x128x512_1_0_0).toLoadRect f = lift1 V := by
  rw [comm_load_1, hf]; rfl
omit [FloatOps F] in
theorem comm_load_named2 (V : Vec F S128x512 .bf16) (f : commM.view.ty.Contents (Elt F)) (hf : (commSl 2).view.read (Elt F) f = V) :
    commM.view.readAt (Elt F) (Rect.unit (s := S3x128x512) ![2, 0, 0] S1x128x512.size inb_S3x128x512_S1x128x512_2_0_0).toLoadRect f = lift1 V := by
  rw [comm_load_2, hf]; rfl
omit [FloatOps F] in
theorem gr_load_named0 (V : Vec F S128x512 .bf16) (f : grM.view.ty.Contents (Elt F)) (hf : (grSl 0).view.read (Elt F) f = V) :
    grM.view.readAt (Elt F) (Rect.unit (s := S3x128x512) ![0, 0, 0] S1x128x512.size inb_S3x128x512_S1x128x512_0_0_0).toLoadRect f = lift1 V := by
  rw [gr_load_0, hf]; rfl
omit [FloatOps F] in
theorem gr_load_named1 (V : Vec F S128x512 .bf16) (f : grM.view.ty.Contents (Elt F)) (hf : (grSl 1).view.read (Elt F) f = V) :
    grM.view.readAt (Elt F) (Rect.unit (s := S3x128x512) ![1, 0, 0] S1x128x512.size inb_S3x128x512_S1x128x512_1_0_0).toLoadRect f = lift1 V := by
  rw [gr_load_1, hf]; rfl
omit [FloatOps F] in
theorem gr_load_named2 (V : Vec F S128x512 .bf16) (f : grM.view.ty.Contents (Elt F)) (hf : (grSl 2).view.read (Elt F) f = V) :
    grM.view.readAt (Elt F) (Rect.unit (s := S3x128x512) ![2, 0, 0] S1x128x512.size inb_S3x128x512_S1x128x512_2_0_0).toLoadRect f = lift1 V := by
  rw [gr_load_2, hf]; rfl

/-! ## The activation, stored wide into the result scratch and narrow into the source of the second exchange -/

theorem own_named (c : Dev nD) (f : resM.view.ty.Contents (Elt F)) (O : Vec F S128x512 .f32) (C0 C1 C2 : Vec F S1x128x512 .bf16)
    (hO : O = ownV a b c) (h0 : C0 = commV a b c 0) (h1 : C1 = commV a b c 1) (h2 : C2 = commV a b c 2) :
    (resOwn c).view.read (Elt F) (resM.view.writes (Elt F) f
      [⟨Rect.unit (s := S512x512) (k0_off5 c) S128x512.size (k0_off5_inb c), k0_pay9 O C0 C1 C2⟩]) = resOwnV a b c := by
  subst hO h0 h1 h2; exact res_own_read_store c f _

theorem gs_named (c : Dev nD) (f : gsM.view.ty.Contents (Elt F)) (O : Vec F S128x512 .f32) (C0 C1 C2 : Vec F S1x128x512 .bf16)
    (hO : O = ownV a b c) (h0 : C0 = commV a b c 0) (h1 : C1 = commV a b c 1) (h2 : C2 = commV a b c 2) :
    gsM.view.read (Elt F) (gsM.view.writes (Elt F) f
      [⟨Rect.unit (s := S128x512) ![0, 0] S128x512.size inb_S128x512_S128x512_0_0, k0_pay10 O C0 C1 C2⟩]) = gsV a b c := by
  subst hO h0 h1 h2
  show ((Memref.whole cc0_scratch4 : Memref sig .tc _ _ _).access (Rect.unit (s := S128x512) ![0, 0] S128x512.size inb_S128x512_S128x512_0_0)).write
    (Elt F) f (k0_pay10 (ownV a b c) (commV a b c 0) (commV a b c 1) (commV a b c 2)) Finset.univ = gsV a b c
  exact Memref.write_access_unit_zero_univ (Elt F) cc0_scratch4 zero2 _ f _

/-! ## The rows put back from the second landing buffer -/

theorem back_named0 (c : Dev nD) (f : resM.view.ty.Contents (Elt F)) (G : Vec F S1x128x512 .bf16) (hG : G = grV a b c 0) :
    (resSl c 0).view.read (Elt F) (resM.view.writes (Elt F) f
      [⟨Rect.unit (s := S512x512) (k0_off7 c 1#32) S128x512.size (k0_off7_inb c 0), k0_pay11 G⟩]) = backV a b c 0 := by
  subst hG; exact res_read_store c 0 f _
theorem back_named1 (c : Dev nD) (f : resM.view.ty.Contents (Elt F)) (G : Vec F S1x128x512 .bf16) (hG : G = grV a b c 1) :
    (resSl c 1).view.read (Elt F) (resM.view.writes (Elt F) f
      [⟨Rect.unit (s := S512x512) (k0_off7 c 2#32) S128x512.size (k0_off7_inb c 1), k0_pay12 G⟩]) = backV a b c 1 := by
  subst hG; exact res_read_store c 1 f _
theorem back_named2 (c : Dev nD) (f : resM.view.ty.Contents (Elt F)) (G : Vec F S1x128x512 .bf16) (hG : G = grV a b c 2) :
    (resSl c 2).view.read (Elt F) (resM.view.writes (Elt F) f
      [⟨Rect.unit (s := S512x512) (k0_off7 c 3#32) S128x512.size (k0_off7_inb c 2), k0_pay13 G⟩]) = backV a b c 2 := by
  subst hG; exact res_read_store c 2 f _

end Cert.KernelIdealProof

end
-- ==== Proof.V.Body.lean ====
import proofs.«900373_g7700000000000374_dist_matmul_silu_kshard_i_m512_n512_k256_v7x_i4_f32_1_alg».proof.Proof.V.Data
import proofs.«900373_g7700000000000374_dist_matmul_silu_kshard_i_m512_n512_k256_v7x_i4_f32_1_alg».proof.Proof.Gen.KernelIdeal.Points
import proofs.«900373_g7700000000000374_dist_matmul_silu_kshard_i_m512_n512_k256_v7x_i4_f32_1_alg».proof.Proof.V.PayloadStorable
import proofs.«900373_g7700000000000374_dist_matmul_silu_kshard_i_m512_n512_k256_v7x_i4_f32_1_alg».proof.Proof.V.LaunchCredit
import proofs.«900373_g7700000000000374_dist_matmul_silu_kshard_i_m512_n512_k256_v7x_i4_f32_1_alg».proof.Proof.V.Regions
import proofs.«900373_g7700000000000374_dist_matmul_silu_kshard_i_m512_n512_k256_v7x_i4_f32_1_alg».proof.Proof.V.Shares
import proofs.«900373_g7700000000000374_dist_matmul_silu_kshard_i_m512_n512_k256_v7x_i4_f32_1_alg».proof.Proof.V.ViewReads
import proofs.«900373_g7700000000000374_dist_matmul_silu_kshard_i_m512_n512_k256_v7x_i4_f32_1_alg».proof.Proof.V.OutJoin
import proofs.«900373_g7700000000000374_dist_matmul_silu_kshard_i_m512_n512_k256_v7x_i4_f32_1_alg».proof.Proof.V.Cuts
import proofs.«900373_g7700000000000374_dist_matmul_silu_kshard_i_m512_n512_k256_v7x_i4_f32_1_alg».proof.Proof.V.Named

/-! # One device's body, stepped once at a symbolic device -/

noncomputable section

namespace Cert.KernelIdealProof

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] duties_bar duties_s1 duties_r1 duties_s2 duties_r2 duties_cs
  amount_bar amount_s1 amount_r1 amount_s2 amount_r2 amount_cs
  expect_bar expect_s1 expect_r1 expect_s2 expect_r2 expect_cs
  payload_bar payload_s1 payload_r1 payload_s2 payload_r2 payload_cs0 payload_cs
  dev1_eq dev2_eq dev3_eq dev4_eq dev5_eq dev6_eq dev7_eq dev8_eq dev9_eq

/-- The entry unit device `c` sends its successor `fwd d c`: the two landing slices `2 - d` on `c` itself, and that `c`
    stands at the start of the two arrival cells the successor's writes credit. -/
theorem barPay_fwd0 (c : Dev nD) : barPay (F := F) (fwd 0 c) 0 =
    iprop((∃ f : Buf (Elt F) ((commSl 2).view.loc (c : Thread nD τ)), (commSl 2).view.loc (c : Thread nD τ) ↦[(commSl 2).view.set]{fullShare} f)
      ∗ (∃ f : Buf (Elt F) ((grSl 2).view.loc (c : Thread nD τ)), (grSl 2).view.loc (c : Thread nD τ) ↦[(grSl 2).view.set]{fullShare} f)
      ∗ reached ER (r1Cell c 2) 0 ∗ reached ER (r2Cell c 2) 0) := by
  unfold barPay holds; rw [bwd_fwd]; rfl
theorem barPay_fwd1 (c : Dev nD) : barPay (F := F) (fwd 1 c) 1 =
    iprop((∃ f : Buf (Elt F) ((commSl 1).view.loc (c : Thread nD τ)), (commSl 1).view.loc (c : Thread nD τ) ↦[(commSl 1).view.set]{fullShare} f)
      ∗ (∃ f : Buf (Elt F) ((grSl 1).view.loc (c : Thread nD τ)), (grSl 1).view.loc (c : Thread nD τ) ↦[(grSl 1).view.set]{fullShare} f)
      ∗ reached ER (r1Cell c 1) 0 ∗ reached ER (r2Cell c 1) 0) := by
  unfold barPay holds; rw [bwd_fwd]; rfl
theorem barPay_fwd2 (c : Dev nD) : barPay (F := F) (fwd 2 c) 2 =
    iprop((∃ f : Buf (Elt F) ((commSl 0).view.loc (c : Thread nD τ)), (commSl 0).view.loc (c : Thread nD τ) ↦[(commSl 0).view.set]{fullShare} f)
      ∗ (∃ f : Buf (Elt F) ((grSl 0).view.loc (c : Thread nD τ)), (grSl 0).view.loc (c : Thread nD τ) ↦[(grSl 0).view.set]{fullShare} f)
      ∗ reached ER (r1Cell c 0) 0 ∗ reached ER (r2Cell c 0) 0) := by
  unfold barPay holds; rw [bwd_fwd]; rfl

attribute [local sl_rounds] barPay_fwd0 barPay_fwd1 barPay_fwd2

theorem O₀_flat (c : Dev nD) : O₀ c =
    tallyAt (r2Cell (fwd 2 c) 2) () Nb + tallyAt (r2Cell (fwd 1 c) 1) () Nb + tallyAt (r2Cell (fwd 0 c) 0) () Nb
    + tallyAt (r1Cell (fwd 2 c) 2) () Nb + tallyAt (r1Cell (fwd 1 c) 1) () Nb + tallyAt (r1Cell (fwd 0 c) 0) () Nb
    + tallyAt (barCell (fwd 2 c)) () 1 + tallyAt (barCell (fwd 1 c)) () 1 + tallyAt (barCell (fwd 0 c)) () 1 := by
  unfold O₀ owedR2 owedR1 owedBar; simp only [add_assoc]

/-- A whole buffer's points-to read through the whole-buffer memref. -/
theorem whole_pts (c : Dev nD) (b : Ref sig .tc) (q : PosShare TreeShare) (f : Buf (Elt F) ((c : Thread nD τ).loc b)) :
    ((Memref.whole b).view.loc (c : Thread nD τ) ↦[(Memref.whole b).view.set]{q} f : sProp 𝕄) = (((c : Thread nD τ).loc b) ↦{q} f) := by
  rw [show (Memref.whole b).view.set = Finset.univ from View.set_whole _]

/-- What is still owed after the entry signals: the six arrivals. -/
abbrev owedArr (c : Dev nD) : CellTallies nD τ sig Unit :=
  tallyAt (r2Cell (fwd 2 c) 2) () Nb + tallyAt (r2Cell (fwd 1 c) 1) () Nb + tallyAt (r2Cell (fwd 0 c) 0) () Nb
    + tallyAt (r1Cell (fwd 2 c) 2) () Nb + tallyAt (r1Cell (fwd 1 c) 1) () Nb + tallyAt (r1Cell (fwd 0 c) 0) () Nb

/-- Every cell among the six arrivals lies at height 2 or 3. -/
theorem owedArr_high {c : Dev nD} {g : GSem nD τ sig} {u : Unit} (h : 0 < owedArr c g u) : u ∈ L g ∧ 2 ≤ lv g u := by
  unfold owedArr at h
  rcases Pipeline.add_pos_cases h with h | h
  · rcases Pipeline.add_pos_cases h with h | h
    · rcases Pipeline.add_pos_cases h with h | h
      · rcases Pipeline.add_pos_cases h with h | h
        · rcases Pipeline.add_pos_cases h with h | h
          · obtain ⟨rfl, rfl⟩ := Pipeline.tallyAt_pos h; exact ⟨by rw [L_tc]; exact Finset.mem_singleton_self _, by rw [lv_r2]; decide⟩
          · obtain ⟨rfl, rfl⟩ := Pipeline.tallyAt_pos h; exact ⟨by rw [L_tc]; exact Finset.mem_singleton_self _, by rw [lv_r2]; decide⟩
        · obtain ⟨rfl, rfl⟩ := Pipeline.tallyAt_pos h; exact ⟨by rw [L_tc]; exact Finset.mem_singleton_self _, by rw [lv_r2]; decide⟩
      · obtain ⟨rfl, rfl⟩ := Pipeline.tallyAt_pos h; exact ⟨by rw [L_tc]; exact Finset.mem_singleton_self _, by rw [lv_r1]⟩
    · obtain ⟨rfl, rfl⟩ := Pipeline.tallyAt_pos h; exact ⟨by rw [L_tc]; exact Finset.mem_singleton_self _, by rw [lv_r1]⟩
  · obtain ⟨rfl, rfl⟩ := Pipeline.tallyAt_pos h; exact ⟨by rw [L_tc]; exact Finset.mem_singleton_self _, by rw [lv_r1]⟩

/-- The entry wait, with the six arrivals still owed: the entry cell lies below them all. -/
theorem mayWait_bar (c : Dev nD) : (levAts L lv : sProp 𝕄) ⊢ MayWait (c : Thread nD τ) (.reg barS) () (owedArr c) :=
  Pipeline.mayWait_of_levAts (by rw [L_tc]; exact Finset.mem_singleton_self _)
    (fun g i hg => ⟨(owedArr_high hg).1, by rw [lv_bar]; exact lt_of_lt_of_le (by decide) (owedArr_high hg).2⟩)

/-- The entry round's three units, none yet taken: one lending per predecessor. -/
theorem rest_bar (c : Dev nD) : bigSep ((conv (F := F) (aS m ρ) (bS m ρ)).duties (barCell c) 0 \ ∅) (fun d => (conv (F := F) (aS m ρ) (bS m ρ)).payload (barCell c) 0 d)
    = iprop(barPay (F := F) c 0 ∗ barPay (F := F) c 1 ∗ barPay (F := F) c 2) := by
  rw [Finset.sdiff_empty, duties_bar, bigSep_univ_eq_bigSepL [(0 : Fin 3), 1, 2] (by decide) (by decide), bigSepL_cons_cons, bigSepL_cons_cons, bigSepL_singleton,
    payload_bar, payload_bar, payload_bar]
  rfl

theorem bwd0 (c : Dev nD) : bwd 0 c = fwd 2 c := by revert c; decide
theorem bwd1 (c : Dev nD) : bwd 1 c = fwd 1 c := by revert c; decide
theorem bwd2 (c : Dev nD) : bwd 2 c = fwd 0 c := by revert c; decide
theorem rev0 : rev 0 = 2 := by decide
theorem rev1 : rev 1 = 1 := by decide
theorem rev2 : rev 2 = 0 := by decide

/-- What is still owed after the first exchange's transfers: the three second arrivals. -/
abbrev owedArr2 (c : Dev nD) : CellTallies nD τ sig Unit :=
  tallyAt (r2Cell (fwd 2 c) 2) () Nb + tallyAt (r2Cell (fwd 1 c) 1) () Nb + tallyAt (r2Cell (fwd 0 c) 0) () Nb

theorem owedArr2_high {c : Dev nD} {g : GSem nD τ sig} {u : Unit} (h : 0 < owedArr2 c g u) : u ∈ L g ∧ lv g u = 3 := by
  unfold owedArr2 at h
  rcases Pipeline.add_pos_cases h with h | h
  · rcases Pipeline.add_pos_cases h with h | h
    · obtain ⟨rfl, rfl⟩ := Pipeline.tallyAt_pos h; exact ⟨by rw [L_tc]; exact Finset.mem_singleton_self _, by rw [lv_r2]⟩
    · obtain ⟨rfl, rfl⟩ := Pipeline.tallyAt_pos h; exact ⟨by rw [L_tc]; exact Finset.mem_singleton_self _, by rw [lv_r2]⟩
  · obtain ⟨rfl, rfl⟩ := Pipeline.tallyAt_pos h; exact ⟨by rw [L_tc]; exact Finset.mem_singleton_self _, by rw [lv_r2]⟩

/-- A wait on a cell below height 3 while only second arrivals are owed. -/
theorem mayWait_mid (c : Dev nD) (s : SemLoc sig) (hs : lv ((c : Thread nD τ), s) () < 3) :
    (levAts L lv : sProp 𝕄) ⊢ MayWait (c : Thread nD τ) s () (owedArr2 c) :=
  Pipeline.mayWait_of_levAts (by rw [L_tc]; exact Finset.mem_singleton_self _)
    (fun g i hg => ⟨(owedArr2_high hg).1, by rw [(owedArr2_high hg).2]; exact hs⟩)

theorem lv_s1' (c : Dev nD) (k : Fin 3) : lv (s1Cell c k) () < 3 := by unfold lv; rw [role_s1]; exact (by decide : (0 : ℕ) < 3)
theorem lv_r1' (c : Dev nD) (k : Fin 3) : lv (r1Cell c k) () < 3 := by unfold lv; rw [role_r1]; exact (by decide : (2 : ℕ) < 3)

theorem rest_s1 (c : Dev nD) (k : Fin 3) : bigSep ((conv (F := F) (aS m ρ) (bS m ρ)).duties (s1Cell c k) 0 \ ∅) (fun d => (conv (F := F) (aS m ρ) (bS m ρ)).payload (s1Cell c k) 0 d) = holds (F := F) c (sbSl c k) := by
  rw [Finset.sdiff_empty, duties_s1, bigSep_singleton, payload_s1]
theorem rest_r1 (c : Dev nD) (k : Fin 3) : bigSep ((conv (F := F) (aS m ρ) (bS m ρ)).duties (r1Cell c k) 0 \ ∅) (fun d => (conv (F := F) (aS m ρ) (bS m ρ)).payload (r1Cell c k) 0 d) = holdsV (F := F) c (commSl k) (sentV (aS m ρ) (bS m ρ) (bwd k c) k) := by
  rw [Finset.sdiff_empty, duties_r1, bigSep_singleton, payload_r1]
theorem rest_s2 (c : Dev nD) (k : Fin 3) : bigSep ((conv (F := F) (aS m ρ) (bS m ρ)).duties (s2Cell c k) 0 \ ∅) (fun d => (conv (F := F) (aS m ρ) (bS m ρ)).payload (s2Cell c k) 0 d) = holdsAt (F := F) (gsShare k) c gsM := by
  rw [Finset.sdiff_empty, duties_s2, bigSep_singleton, payload_s2]
theorem rest_r2 (c : Dev nD) (k : Fin 3) : bigSep ((conv (F := F) (aS m ρ) (bS m ρ)).duties (r2Cell c k) 0 \ ∅) (fun d => (conv (F := F) (aS m ρ) (bS m ρ)).payload (r2Cell c k) 0 d) = holdsV (F := F) c (grSl k) (gsV (aS m ρ) (bS m ρ) (bwd k c)) := by
  rw [Finset.sdiff_empty, duties_r2, bigSep_singleton, payload_r2]
theorem rest_cs0 (c : Dev nD) : bigSep ((conv (F := F) (aS m ρ) (bS m ρ)).duties (csCell c 0) 0 \ ∅) (fun d => (conv (F := F) (aS m ρ) (bS m ρ)).payload (csCell c 0) 0 d) = iprop(holdsV (F := F) c (outOwn c) (resOwnV (aS m ρ) (bS m ρ) c) ∗ holds (F := F) c (resOwn c)) := by
  rw [Finset.sdiff_empty, duties_cs, bigSep_singleton, payload_cs0]
theorem rest_cs (c : Dev nD) (k : Fin 3) : bigSep ((conv (F := F) (aS m ρ) (bS m ρ)).duties (csCell c k.succ) 0 \ ∅) (fun d => (conv (F := F) (aS m ρ) (bS m ρ)).payload (csCell c k.succ) 0 d) = iprop(holdsV (F := F) c (outSl c k) (backV (aS m ρ) (bS m ρ) c k) ∗ holds (F := F) c (resSl c k)) := by
  rw [Finset.sdiff_empty, duties_cs, bigSep_singleton, payload_cs]

theorem full_s2 (c : Dev nD) (k : Fin 3) : bigSep ((conv (F := F) (aS m ρ) (bS m ρ)).duties (s2Cell c k) 0) (fun d => (conv (F := F) (aS m ρ) (bS m ρ)).payload (s2Cell c k) 0 d) = holdsAt (F := F) (gsShare k) c gsM := by
  rw [duties_s2, bigSep_singleton, payload_s2]
theorem full_r2 (c : Dev nD) (k : Fin 3) : bigSep ((conv (F := F) (aS m ρ) (bS m ρ)).duties (r2Cell c k) 0) (fun d => (conv (F := F) (aS m ρ) (bS m ρ)).payload (r2Cell c k) 0 d) = holdsV (F := F) c (grSl k) (gsV (aS m ρ) (bS m ρ) (bwd k c)) := by
  rw [duties_r2, bigSep_singleton, payload_r2]
theorem full_cs0 (c : Dev nD) : bigSep ((conv (F := F) (aS m ρ) (bS m ρ)).duties (csCell c 0) 0) (fun d => (conv (F := F) (aS m ρ) (bS m ρ)).payload (csCell c 0) 0 d) = iprop(holdsV (F := F) c (outOwn c) (resOwnV (aS m ρ) (bS m ρ) c) ∗ holds (F := F) c (resOwn c)) := by
  rw [duties_cs, bigSep_singleton, payload_cs0]
theorem full_cs (c : Dev nD) (k : Fin 3) : bigSep ((conv (F := F) (aS m ρ) (bS m ρ)).duties (csCell c k.succ) 0) (fun d => (conv (F := F) (aS m ρ) (bS m ρ)).payload (csCell c k.succ) 0 d) = iprop(holdsV (F := F) c (outSl c k) (backV (aS m ρ) (bS m ρ) c k) ∗ holds (F := F) c (resSl c k)) := by
  rw [duties_cs, bigSep_singleton, payload_cs]

theorem full_cs1 (c : Dev nD) : bigSep ((conv (F := F) (aS m ρ) (bS m ρ)).duties (csCell c 1) 0) (fun d => (conv (F := F) (aS m ρ) (bS m ρ)).payload (csCell c 1) 0 d) = iprop(holdsV (F := F) c (outSl c 0) (backV (aS m ρ) (bS m ρ) c 0) ∗ holds (F := F) c (resSl c 0)) := full_cs m ρ c 0

theorem full_cs2 (c : Dev nD) : bigSep ((conv (F := F) (aS m ρ) (bS m ρ)).duties (csCell c 2) 0) (fun d => (conv (F := F) (aS m ρ) (bS m ρ)).payload (csCell c 2) 0 d) = iprop(holdsV (F := F) c (outSl c 1) (backV (aS m ρ) (bS m ρ) c 1) ∗ holds (F := F) c (resSl c 1)) := full_cs m ρ c 1

theorem full_cs3 (c : Dev nD) : bigSep ((conv (F := F) (aS m ρ) (bS m ρ)).duties (csCell c 3) 0) (fun d => (conv (F := F) (aS m ρ) (bS m ρ)).payload (csCell c 3) 0 d) = iprop(holdsV (F := F) c (outSl c 2) (backV (aS m ρ) (bS m ρ) c 2) ∗ holds (F := F) c (resSl c 2)) := full_cs m ρ c 2

section Body

variable (K : Dev nD × Fin 17 → ℕ)

/-- Transfer `k` of the second exchange, addressed to `n = fwd k c`: the finished rows leave through share `k` of their
    one source. -/
theorem wp_send2 (c n : Dev nD) (k : Fin 3) (hn : n = fwd k c) (κ₁ κ₂ : ℕ)
    {hsc : (grSl k : Memref sig (Dev.tc n : Thread nD τ).2.kind .vmem S128x512 .bf16).view.ref.isScScratch = false}
    {hsrc : (gsM : Memref sig .tc .vmem S128x512 .bf16).view.WordExact} {hdst : (grSl k).view.WordExact}
    {hsem : DmaTarget.Typed .vmem (.dma (r2S k)) (.remote (Dev.tc n : Thread nD τ) (grSl k) (.dma (s2S k)) hsc)}
    {α : Type} {Q : α → sProp 𝕄} {k' : PUnit → Prog (TpuEff nD τ sig (Elt F) Λ₀ .tc) α}
    (fs : Buf (Elt F) ((gsM : Memref sig .tc .vmem S128x512 .bf16).view.loc (c : Thread nD τ))) (fn : Buf (Elt F) ((grSl k).view.loc (fwd k c : Thread nD τ)))
    (O₀ O : CellTallies nD τ sig Unit) (hO : O₀ = O + tallyAt (r2Cell (fwd k c) k) () Nb) (W : Waits sig Unit) :
    iprop(cellInv ER (conv (F := F) (aS m ρ) (bS m ρ)) κ₁ (s2Cell c k) ∗ cellInv ER (conv (F := F) (aS m ρ) (bS m ρ)) κ₂ (r2Cell (fwd k c) k)
        ∗ ((gsM : Memref sig .tc .vmem S128x512 .bf16).view.loc (c : Thread nD τ) ↦[(gsM : Memref sig .tc .vmem S128x512 .bf16).view.set]{gsShare k} fs)
        ∗ ((grSl k).view.loc (fwd k c : Thread nD τ) ↦[(grSl k).view.set]{fullShare} fn)
        ∗ owes (c : Thread nD τ) O₀ W
        ∗ dutyTok ER (s2Cell c k) 0 0 ∗ reached ER (s2Cell c k) 0
        ∗ dutyTok ER (r2Cell (fwd k c) k) 0 0 ∗ reached ER (r2Cell (fwd k c) k) 0
        ∗ ⌜(gsM : Memref sig .tc .vmem S128x512 .bf16).view.read (Elt F) fs = gsV (aS m ρ) (bS m ρ) c⌝)
      ⊢ iprop(((cred (tallyAt (s2Cell c k) () Nb) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma gsM (.remote (Dev.tc n : Thread nD τ) (grSl k) (.dma (s2S k)) hsc) (.dma (r2S k)) hsrc hdst hsem) k') Q) := by
  subst hn
  iintro ⟨J1, J2, Hs, Hd, HO, T1, R1, T2, R2, %hfs⟩
  iapply (Rounds.wp_send_pointsTo 𝒱₀ ER (conv (F := F) (aS m ρ) (bS m ρ)) (c : Thread nD τ) none (κ₁ := κ₁) (κ₂ := κ₂)
    (r₁ := 0) (r₂ := 0) (d₁ := 0) (d₂ := 0) (fd := fn)
    (by rw [duties_s2]; exact Finset.mem_singleton_self _) (by rw [duties_r2]; exact Finset.mem_singleton_self _)
    () () Nb (by fin_cases k <;> rfl) (amount_s2 (F := F) (aS m ρ) (bS m ρ) c k 0) (amount_r2 (F := F) (aS m ρ) (bS m ρ) (fwd k c) k 0) O hO (W := W)
    (by rw [payload_s2]; unfold holdsAt; iintro H; iexists fs; iexact H)
    (by rw [payload_r2, bwd_fwd]; unfold holdsV; iintro H; iexists _; isplitr
        · ipureintro; exact (read_write_self (grSl k).view fn _).trans hfs
        · iexact H))
  isplitl [J1]; · iexact J1
  isplitl [J2]; · iexact J2
  isplitl [Hs]; · iexact Hs
  isplitl [Hd]; · iexact Hd
  isplitl [HO]; · iexact HO
  isplitl [T1]; · iexact T1
  isplitl [R1]; · iexact R1
  isplitl [T2]; · iexact T2
  iexact R2

/-- The copy of the device's own finished rows from the result scratch to the result array, paid by the device itself. -/
theorem wp_copyOwn (c : Dev nD) (κ : ℕ)
    {hsrc : (resOwn c).view.WordExact} {hdst : (outOwn c).view.WordExact} {hsem : DmaTarget.Typed (nD := nD) .vmem (.dma (csS 0)) (DmaTarget.here (p := ((c : Dev nD) : Thread nD τ).2) (outOwn c))}
    {α : Type} {Q : α → sProp 𝕄} {k' : PUnit → Prog (TpuEff nD τ sig (Elt F) Λ₀ .tc) α}
    (fs : Buf (Elt F) ((resOwn c).view.loc (c : Thread nD τ))) (fd : Buf (Elt F) ((outOwn c).view.loc (c : Thread nD τ))) :
    iprop(cellInv ER (conv (F := F) (aS m ρ) (bS m ρ)) κ (csCell c 0)
        ∗ ((resOwn c).view.loc (c : Thread nD τ) ↦[(resOwn c).view.set]{fullShare} fs)
        ∗ ((outOwn c).view.loc (c : Thread nD τ) ↦[(outOwn c).view.set]{fullShare} fd)
        ∗ dutyTok ER (csCell c 0) 0 0 ∗ reached ER (csCell c 0) 0
        ∗ ⌜(resOwn c).view.read (Elt F) fs = resOwnV (aS m ρ) (bS m ρ) c⌝)
      ⊢ iprop((cred (tallyAt (csCell c 0) () Nf) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (resOwn c) (.here (outOwn c)) (.dma (csS 0)) hsrc hdst hsem) k') Q) := by
  iintro ⟨J1, Hs, Hd, T1, R1, %hfs⟩
  iapply (Rounds.wp_copy_pointsTo 𝒱₀ ER (conv (F := F) (aS m ρ) (bS m ρ)) (c : Thread nD τ) none (κ := κ) (r := 0) (d := 0) (q := fullShare) (fs := fs) (fd := fd)
    (by rw [duties_cs]; exact Finset.mem_singleton_self _) () Nf rfl (amount_cs (F := F) (aS m ρ) (bS m ρ) c 0 0)
    (by rw [payload_cs0]; unfold holds holdsV; iintro ⟨H1, H2⟩; isplitl [H1]
        · iexists _; isplitr
          · ipureintro; exact (read_write_self (outOwn c).view fd _).trans hfs
          · iexact H1
        iexists _; iexact H2))
  isplitl [J1]; · iexact J1
  isplitl [Hs]; · iexact Hs
  isplitl [Hd]; · iexact Hd
  isplitl [T1]; · iexact T1
  iexact R1

/-- The copy of the rows that came from `bwd k c`. -/
theorem wp_copyK (c : Dev nD) (k : Fin 3) (κ : ℕ)
    {hsrc : (resSl c k).view.WordExact} {hdst : (outSl c k).view.WordExact} {hsem : DmaTarget.Typed (nD := nD) .vmem (.dma (csS k.succ)) (DmaTarget.here (p := ((c : Dev nD) : Thread nD τ).2) (outSl c k))}
    {α : Type} {Q : α → sProp 𝕄} {k' : PUnit → Prog (TpuEff nD τ sig (Elt F) Λ₀ .tc) α}
    (fs : Buf (Elt F) ((resSl c k).view.loc (c : Thread nD τ))) (fd : Buf (Elt F) ((outSl c k).view.loc (c : Thread nD τ))) :
    iprop(cellInv ER (conv (F := F) (aS m ρ) (bS m ρ)) κ (csCell c k.succ)
        ∗ ((resSl c k).view.loc (c : Thread nD τ) ↦[(resSl c k).view.set]{fullShare} fs)
        ∗ ((outSl c k).view.loc (c : Thread nD τ) ↦[(outSl c k).view.set]{fullShare} fd)
        ∗ dutyTok ER (csCell c k.succ) 0 0 ∗ reached ER (csCell c k.succ) 0
        ∗ ⌜(resSl c k).view.read (Elt F) fs = backV (aS m ρ) (bS m ρ) c k⌝)
      ⊢ iprop((cred (tallyAt (csCell c k.succ) () Nf) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (resSl c k) (.here (outSl c k)) (.dma (csS k.succ)) hsrc hdst hsem) k') Q) := by
  iintro ⟨J1, Hs, Hd, T1, R1, %hfs⟩
  iapply (Rounds.wp_copy_pointsTo 𝒱₀ ER (conv (F := F) (aS m ρ) (bS m ρ)) (c : Thread nD τ) none (κ := κ) (r := 0) (d := 0) (q := fullShare) (fs := fs) (fd := fd)
    (by rw [duties_cs]; exact Finset.mem_singleton_self _) () Nf rfl (amount_cs (F := F) (aS m ρ) (bS m ρ) c k.succ 0)
    (by rw [payload_cs]; unfold holds holdsV; iintro ⟨H1, H2⟩; isplitl [H1]
        · iexists _; isplitr
          · ipureintro; exact (read_write_self (outSl c k).view fd _).trans hfs
          · iexact H1
        iexists _; iexact H2))
  isplitl [J1]; · iexact J1
  isplitl [Hs]; · iexact Hs
  isplitl [Hd]; · iexact Hd
  isplitl [T1]; · iexact T1
  iexact R1

/-- Transfer `k` of the first exchange, addressed to `n = fwd k c`: the rows leave through a departure duty of `c` and an
    arrival duty of the target, whose landing slice `c` holds on loan. -/
theorem wp_send1 (c n : Dev nD) (k : Fin 3) (hn : n = fwd k c) (κ₁ κ₂ : ℕ)
    {hsc : (commSl k : Memref sig (Dev.tc n : Thread nD τ).2.kind .vmem S128x512 .bf16).view.ref.isScScratch = false}
    {hsrc : (sbSl c k).view.WordExact} {hdst : (commSl k).view.WordExact}
    {hsem : DmaTarget.Typed .vmem (.dma (r1S k)) (.remote (Dev.tc n : Thread nD τ) (commSl k) (.dma (s1S k)) hsc)}
    {α : Type} {Q : α → sProp 𝕄} {k' : PUnit → Prog (TpuEff nD τ sig (Elt F) Λ₀ .tc) α}
    (fs : Buf (Elt F) ((sbSl c k).view.loc (c : Thread nD τ))) (fn : Buf (Elt F) ((commSl k).view.loc (fwd k c : Thread nD τ)))
    (O : CellTallies nD τ sig Unit) (W : Waits sig Unit) :
    iprop(cellInv ER (conv (F := F) (aS m ρ) (bS m ρ)) κ₁ (s1Cell c k) ∗ cellInv ER (conv (F := F) (aS m ρ) (bS m ρ)) κ₂ (r1Cell (fwd k c) k)
        ∗ ((sbSl c k).view.loc (c : Thread nD τ) ↦[(sbSl c k).view.set]{fullShare} fs)
        ∗ ((commSl k).view.loc (fwd k c : Thread nD τ) ↦[(commSl k).view.set]{fullShare} fn)
        ∗ owes (c : Thread nD τ) (O + tallyAt (r1Cell (fwd k c) k) () Nb) W
        ∗ dutyTok ER (s1Cell c k) 0 0 ∗ reached ER (s1Cell c k) 0
        ∗ dutyTok ER (r1Cell (fwd k c) k) 0 0 ∗ reached ER (r1Cell (fwd k c) k) 0
        ∗ ⌜(sbSl c k).view.read (Elt F) fs = sentV (aS m ρ) (bS m ρ) c k⌝)
      ⊢ iprop(((cred (tallyAt (s1Cell c k) () Nb) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (sbSl c k) (.remote (Dev.tc n : Thread nD τ) (commSl k) (.dma (s1S k)) hsc) (.dma (r1S k)) hsrc hdst hsem) k') Q) := by
  subst hn
  iintro ⟨J1, J2, Hs, Hd, HO, T1, R1, T2, R2, %hfs⟩
  iapply (Rounds.wp_send_pointsTo 𝒱₀ ER (conv (F := F) (aS m ρ) (bS m ρ)) (c : Thread nD τ) none (κ₁ := κ₁) (κ₂ := κ₂)
    (r₁ := 0) (r₂ := 0) (d₁ := 0) (d₂ := 0) (fd := fn)
    (by rw [duties_s1]; exact Finset.mem_singleton_self _) (by rw [duties_r1]; exact Finset.mem_singleton_self _)
    () () Nb (by fin_cases k <;> rfl) (amount_s1 (F := F) (aS m ρ) (bS m ρ) c k 0) (amount_r1 (F := F) (aS m ρ) (bS m ρ) (fwd k c) k 0) O rfl (W := W)
    (by rw [payload_s1]; unfold holds; iintro H; iexists fs; iexact H)
    (by rw [payload_r1, bwd_fwd]; unfold holdsV; iintro H; iexists _; isplitr
        · ipureintro; exact (read_write_self (commSl k).view fn _).trans hfs
        · iexact H))
  isplitl [J1]; · iexact J1
  isplitl [J2]; · iexact J2
  isplitl [Hs]; · iexact Hs
  isplitl [Hd]; · iexact Hd
  isplitl [HO]; · iexact HO
  isplitl [T1]; · iexact T1
  isplitl [R1]; · iexact R1
  isplitl [T2]; · iexact T2
  iexact R2

/-- An assertion under an opaque name: the same assertion, which unification does not unfold. -/
def stash (P : sProp 𝕄) : sProp 𝕄 := P
theorem stash_eq (P : sProp 𝕄) : stash (F := F) P = P := rfl
attribute [irreducible] stash

theorem rest_cs1 (c : Dev nD) : bigSep ((conv (F := F) (aS m ρ) (bS m ρ)).duties (csCell c 1) 0 \ ∅) (fun d => (conv (F := F) (aS m ρ) (bS m ρ)).payload (csCell c 1) 0 d) = iprop(holdsV (F := F) c (outSl c 0) (backV (aS m ρ) (bS m ρ) c 0) ∗ holds (F := F) c (resSl c 0)) := rest_cs m ρ c 0
theorem rest_cs2 (c : Dev nD) : bigSep ((conv (F := F) (aS m ρ) (bS m ρ)).duties (csCell c 2) 0 \ ∅) (fun d => (conv (F := F) (aS m ρ) (bS m ρ)).payload (csCell c 2) 0 d) = iprop(holdsV (F := F) c (outSl c 1) (backV (aS m ρ) (bS m ρ) c 1) ∗ holds (F := F) c (resSl c 1)) := rest_cs m ρ c 1
theorem rest_cs3 (c : Dev nD) : bigSep ((conv (F := F) (aS m ρ) (bS m ρ)).duties (csCell c 3) 0 \ ∅) (fun d => (conv (F := F) (aS m ρ) (bS m ρ)).payload (csCell c 3) 0 d) = iprop(holdsV (F := F) c (outSl c 2) (backV (aS m ρ) (bS m ρ) c 2) ∗ holds (F := F) c (resSl c 2)) := rest_cs m ρ c 2

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost (F := F) m ρ K c ∗ creds (F := F) c ∗ levAts L lv ∗ holds (F := F) c outM ∗ scratch (F := F) c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) m ρ c ∗ (dats m ρ 0 c).owesAt () t₀.succ ∗ stg c cc0_stg0_0 (aS m ρ c) ∗ stg c cc0_stg1_0 (bS m ρ c))

set_option maxHeartbeats 4000000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11) Kt := by
  unfold bodyPre ghost invs poss marks payToks creds scratch
  iintro ⟨⟨⟨⟨⟨#I0, #I1, #I2, #I3, #I4, #I5, #I6, #I7, #I8, #I9, #I10, #I11, #I12, #I13, #I14, #I15, #I16, #I17, #I18, #I19, #I20, #I21, #I22, #I23, #I24, #I25⟩, ⟨Hp0, Hp1, Hp2, Hp3, Hp4, Hp5, Hp6, Hp7, Hp8, Hp9, Hp10, Hp11, Hp12, Hp13, Hp14, Hp15, Hp16⟩, ⟨#R0, #R1, #R2, #R3, #R4, #R5, #R6, #R7, #R8, #R9, #R10, #R11, #R12, #R13, #R14, #R15, #R16, #R17, #R18, #R19, #R20, #R21, #R22, #R23, #R24⟩, ⟨T0, T1, T2, T3, T4, T5, T6, T7, T8, T9, T10, T11, T12, T13, T14, T15, T16, T17, T18⟩⟩, ⟨Hc0, Hc1, Hc2, Hc3, Hc4, Hc5, Hc6⟩, #Hlev, Hout, ⟨Hbbf, Hown, Hsb, Hcomm, Hgs, Hgr, Hres⟩⟩,
    Ho, ⟨%d0, %g0, %hg0, Hx⟩, ⟨%d1, %g1, %hg1, Hb⟩⟩, Hk⟩
  have hx : g0 = aS m ρ c := by rw [hg0]; unfold Dat.before; rw [if_pos (fetch0_0 t₀)]; rfl
  subst hx
  have hb : g1 = bS m ρ c := by rw [hg1]; unfold Dat.before; rw [if_pos (fetch0_1 t₀)]; rfl
  subst hb
  unfold Dat.owesAt Pipeline.owesWithin
  icases Ho with ⟨%W, %hW, HO⟩
  rw [show (dats m ρ 0 c).owed t₀.castSucc = O₀ c from rfl, O₀_flat]
  -- the two landing buffers by slices
  ihave Hcs := (comm_split (F := F) c).1 $$ Hcomm
  ihave Hgs' := (gr_split (F := F) c).1 $$ Hgr
  unfold holds
  icases Hcs with ⟨⟨%fc0, Hc_0⟩, ⟨%fc1, Hc_1⟩, ⟨%fc2, Hc_2⟩⟩
  icases Hgs' with ⟨⟨%fg0, Hg_0⟩, ⟨%fg1, Hg_1⟩, ⟨%fg2, Hg_2⟩⟩
  icases Hbbf with ⟨%fbbf, Hbbf⟩
  icases Hown with ⟨%fown, Hown⟩
  icases Hgs with ⟨%fgs, Hgs⟩
  icases Hsb with ⟨%fsb, Hsb⟩
  icases Hres with ⟨%fres, Hres⟩
  icases Hout with ⟨%fout, Hout⟩
  -- the two staged blocks read through their memrefs
  ihave Hx := (Entails.of_eq (whole_pts (F := F) c cc0_stg0_0 fullShare (aS m ρ c)).symm) $$ Hx
  ihave Hb := (Entails.of_eq (whole_pts (F := F) c cc0_stg1_0 fullShare (bS m ρ c)).symm) $$ Hb
  -- the rectangles the body loads and stores through are the slices' element sets
  have hsbI0 : ((Memref.whole cc0_scratch2 : Memref sig .tc .vmem S512x512 .bf16).access (Rect.unit (s := S512x512) (k0_off2 c 1#32) S128x512.size (k0_off2_inb c 0))).set ⊆ (sbSl c 0).view.set :=
    ((View.set_slice_whole _ _).trans (sb_store_set c 0)).le
  have hsbI1 : ((Memref.whole cc0_scratch2 : Memref sig .tc .vmem S512x512 .bf16).access (Rect.unit (s := S512x512) (k0_off2 c 2#32) S128x512.size (k0_off2_inb c 1))).set ⊆ (sbSl c 1).view.set :=
    ((View.set_slice_whole _ _).trans (sb_store_set c 1)).le
  have hsbI2 : ((Memref.whole cc0_scratch2 : Memref sig .tc .vmem S512x512 .bf16).access (Rect.unit (s := S512x512) (k0_off2 c 3#32) S128x512.size (k0_off2_inb c 2))).set ⊆ (sbSl c 2).view.set :=
    ((View.set_slice_whole _ _).trans (sb_store_set c 2)).le
  have hresI : ((Memref.whole cc0_scratch6 : Memref sig .tc .vmem S512x512 .f32).access (Rect.unit (s := S512x512) (k0_off5 c) S128x512.size (k0_off5_inb c))).set ⊆ (resOwn c).view.set :=
    ((View.set_slice_whole _ _).trans (res_own_store_set c)).le
  have hresI0 : ((Memref.whole cc0_scratch6 : Memref sig .tc .vmem S512x512 .f32).access (Rect.unit (s := S512x512) (k0_off7 c 1#32) S128x512.size (k0_off7_inb c 0))).set ⊆ (resSl c 0).view.set :=
    ((View.set_slice_whole _ _).trans (res_store_set c 0)).le
  have hresI1 : ((Memref.whole cc0_scratch6 : Memref sig .tc .vmem S512x512 .f32).access (Rect.unit (s := S512x512) (k0_off7 c 2#32) S128x512.size (k0_off7_inb c 1))).set ⊆ (resSl c 1).view.set :=
    ((View.set_slice_whole _ _).trans (res_store_set c 1)).le
  have hresI2 : ((Memref.whole cc0_scratch6 : Memref sig .tc .vmem S512x512 .f32).access (Rect.unit (s := S512x512) (k0_off7 c 3#32) S128x512.size (k0_off7_inb c 2))).set ⊆ (resSl c 2).view.set :=
    ((View.set_slice_whole _ _).trans (res_store_set c 2)).le
  have hcommI0 : ((Memref.whole cc0_scratch3 : Memref sig .tc .vmem S3x128x512 .bf16).access (Rect.unit (s := S3x128x512) ![0, 0, 0] S1x128x512.size inb_S3x128x512_S1x128x512_0_0_0)).set ⊆ (commSl 0).view.set :=
    ((View.set_slice_whole _ _).trans comm_load_set_0).le
  have hgrI0 : ((Memref.whole cc0_scratch5 : Memref sig .tc .vmem S3x128x512 .bf16).access (Rect.unit (s := S3x128x512) ![0, 0, 0] S1x128x512.size inb_S3x128x512_S1x128x512_0_0_0)).set ⊆ (grSl 0).view.set :=
    ((View.set_slice_whole _ _).trans gr_load_set_0).le
  have hcommI1 : ((Memref.whole cc0_scratch3 : Memref sig .tc .vmem S3x128x512 .bf16).access (Rect.unit (s := S3x128x512) ![1, 0, 0] S1x128x512.size inb_S3x128x512_S1x128x512_1_0_0)).set ⊆ (commSl 1).view.set :=
    ((View.set_slice_whole _ _).trans comm_load_set_1).le
  have hgrI1 : ((Memref.whole cc0_scratch5 : Memref sig .tc .vmem S3x128x512 .bf16).access (Rect.unit (s := S3x128x512) ![1, 0, 0] S1x128x512.size inb_S3x128x512_S1x128x512_1_0_0)).set ⊆ (grSl 1).view.set :=
    ((View.set_slice_whole _ _).trans gr_load_set_1).le
  have hcommI2 : ((Memref.whole cc0_scratch3 : Memref sig .tc .vmem S3x128x512 .bf16).access (Rect.unit (s := S3x128x512) ![2, 0, 0] S1x128x512.size inb_S3x128x512_S1x128x512_2_0_0)).set ⊆ (commSl 2).view.set :=
    ((View.set_slice_whole _ _).trans comm_load_set_2).le
  have hgrI2 : ((Memref.whole cc0_scratch5 : Memref sig .tc .vmem S3x128x512 .bf16).access (Rect.unit (s := S3x128x512) ![2, 0, 0] S1x128x512.size inb_S3x128x512_S1x128x512_2_0_0)).set ⊆ (grSl 2).view.set :=
    ((View.set_slice_whole _ _).trans gr_load_set_2).le
  have hsbS0 : ((Memref.whole cc0_scratch2 : Memref sig .tc .vmem S512x512 .bf16).access (Rect.unit (s := S512x512) (k0_off2 c 1#32) S128x512.size (k0_off2_inb c 0))).setOn Finset.univ ⊆ (sbSl c 0).view.set := hsbI0
  have hsbS1 : ((Memref.whole cc0_scratch2 : Memref sig .tc .vmem S512x512 .bf16).access (Rect.unit (s := S512x512) (k0_off2 c 2#32) S128x512.size (k0_off2_inb c 1))).setOn Finset.univ ⊆ (sbSl c 1).view.set := hsbI1
  have hsbS2 : ((Memref.whole cc0_scratch2 : Memref sig .tc .vmem S512x512 .bf16).access (Rect.unit (s := S512x512) (k0_off2 c 3#32) S128x512.size (k0_off2_inb c 2))).setOn Finset.univ ⊆ (sbSl c 2).view.set := hsbI2
  have hresS : ((Memref.whole cc0_scratch6 : Memref sig .tc .vmem S512x512 .f32).access (Rect.unit (s := S512x512) (k0_off5 c) S128x512.size (k0_off5_inb c))).setOn Finset.univ ⊆ (resOwn c).view.set := hresI
  have hresS0 : ((Memref.whole cc0_scratch6 : Memref sig .tc .vmem S512x512 .f32).access (Rect.unit (s := S512x512) (k0_off7 c 1#32) S128x512.size (k0_off7_inb c 0))).setOn Finset.univ ⊆ (resSl c 0).view.set := hresI0
  have hresS1 : ((Memref.whole cc0_scratch6 : Memref sig .tc .vmem S512x512 .f32).access (Rect.unit (s := S512x512) (k0_off7 c 2#32) S128x512.size (k0_off7_inb c 1))).setOn Finset.univ ⊆ (resSl c 1).view.set := hresI1
  have hresS2 : ((Memref.whole cc0_scratch6 : Memref sig .tc .vmem S512x512 .f32).access (Rect.unit (s := S512x512) (k0_off7 c 3#32) S128x512.size (k0_off7_inb c 2))).setOn Finset.univ ⊆ (resSl c 2).view.set := hresI2
  sl_exec_parts
  -- entry signal 1: to the successor fwd 0 c, lending it landing slices 2 of this device
  rw [show (⟨k0_dev1 (c : Thread nD τ).1, k0_dev1_lt _⟩ : Dev nD) = fwd 0 c from dev1_eq c]
  iapply (Rounds.wp_signal 𝒱₀ ER (conv (F := F) (aS m ρ) (bS m ρ)) (c : Thread nD τ) none (dst := ((fwd 0 c : Dev nD) : Thread nD τ)) (κ := K (fwd 0 c, 0))
      (d := 0) (by rw [duties_bar]; exact Finset.mem_univ _) ((amount_bar (F := F) (aS m ρ) (bS m ρ) (fwd 0 c) 0).trans (by decide)) ()
      (tallyAt (r2Cell (fwd 2 c) 2) () Nb + tallyAt (r2Cell (fwd 1 c) 1) () Nb + tallyAt (r2Cell (fwd 0 c) 0) () Nb + tallyAt (r1Cell (fwd 2 c) 2) () Nb + tallyAt (r1Cell (fwd 1 c) 1) () Nb + tallyAt (r1Cell (fwd 0 c) 0) () Nb + tallyAt (barCell (fwd 2 c)) () 1 + tallyAt (barCell (fwd 1 c)) () 1) rfl) $$ [HO T0 Hc_2 Hg_2]
  · isplitr; · iexact I17
    isplitl [HO]; · iexact HO
    isplitl [T0]; · iexact T0
    isplitl [Hc_2 Hg_2]
    · rw [payload_bar, barPay_fwd0]
      isplitl [Hc_2]; · iexists fc2; iexact Hc_2
      isplitl [Hg_2]; · iexists fg2; iexact Hg_2
      isplitr; · iexact R21
      iexact R24
    · iexact R0
  iintro HO
  sl_exec_parts
  -- entry signal 2: to the successor fwd 1 c, lending it landing slices 1 of this device
  rw [dev2_eq c]
  iapply (Rounds.wp_signal 𝒱₀ ER (conv (F := F) (aS m ρ) (bS m ρ)) (c : Thread nD τ) none (dst := ((fwd 1 c : Dev nD) : Thread nD τ)) (κ := K (fwd 1 c, 0))
      (d := 1) (by rw [duties_bar]; exact Finset.mem_univ _) ((amount_bar (F := F) (aS m ρ) (bS m ρ) (fwd 1 c) 1).trans (by decide)) ()
      (tallyAt (r2Cell (fwd 2 c) 2) () Nb + tallyAt (r2Cell (fwd 1 c) 1) () Nb + tallyAt (r2Cell (fwd 0 c) 0) () Nb + tallyAt (r1Cell (fwd 2 c) 2) () Nb + tallyAt (r1Cell (fwd 1 c) 1) () Nb + tallyAt (r1Cell (fwd 0 c) 0) () Nb + tallyAt (barCell (fwd 2 c)) () 1) rfl) $$ [HO T1 Hc_1 Hg_1]
  · isplitr; · iexact I18
    isplitl [HO]; · iexact HO
    isplitl [T1]; · iexact T1
    isplitl [Hc_1 Hg_1]
    · rw [payload_bar, barPay_fwd1]
      isplitl [Hc_1]; · iexists fc1; iexact Hc_1
      isplitl [Hg_1]; · iexists fg1; iexact Hg_1
      isplitr; · iexact R20
      iexact R23
    · iexact R1
  iintro HO
  sl_exec_parts
  -- entry signal 3: to the successor fwd 2 c, lending it landing slices 0 of this device
  rw [dev3_eq c]
  iapply (Rounds.wp_signal 𝒱₀ ER (conv (F := F) (aS m ρ) (bS m ρ)) (c : Thread nD τ) none (dst := ((fwd 2 c : Dev nD) : Thread nD τ)) (κ := K (fwd 2 c, 0))
      (d := 2) (by rw [duties_bar]; exact Finset.mem_univ _) ((amount_bar (F := F) (aS m ρ) (bS m ρ) (fwd 2 c) 2).trans (by decide)) ()
      (tallyAt (r2Cell (fwd 2 c) 2) () Nb + tallyAt (r2Cell (fwd 1 c) 1) () Nb + tallyAt (r2Cell (fwd 0 c) 0) () Nb + tallyAt (r1Cell (fwd 2 c) 2) () Nb + tallyAt (r1Cell (fwd 1 c) 1) () Nb + tallyAt (r1Cell (fwd 0 c) 0) () Nb) rfl) $$ [HO T2 Hc_0 Hg_0]
  · isplitr; · iexact I19
    isplitl [HO]; · iexact HO
    isplitl [T2]; · iexact T2
    isplitl [Hc_0 Hg_0]
    · rw [payload_bar, barPay_fwd2]
      isplitl [Hc_0]; · iexists fc0; iexact Hc_0
      isplitl [Hg_0]; · iexists fg0; iexact Hg_0
      isplitr; · iexact R19
      iexact R22
    · iexact R2
  iintro HO
  sl_exec_parts
  -- the entry wait: three units, the six arrivals still owed; the three predecessors' lendings come with it
  iapply (Rounds.wp_wait_rest_token 𝒱₀ ER (conv (F := F) (aS m ρ) (bS m ρ)) (c : Thread nD τ) none (κ := K (c, 0))
      (wpE_semWait_eq 𝒱₀ (c : Thread nD τ) none Set.univ) (Set.mem_univ _) () (O := owedArr c) (W := W) (R := 0) (m := 0) (T := ∅)
      (by rw [expect_bar]; decide)) $$ [Hc0 HO Hp0]
  · isplitr; · iexact I0
    isplitl [Hc0]; · iexact Hc0
    isplitl [HO]; · iexact HO
    isplitr; · iapply (mayWait_bar (F := F) c); iexact Hlev
    iexact Hp0
  iintro ⟨HO, Hp0, -, Hpay⟩
  ihave Hp := (Entails.of_eq (rest_bar (F := F) m ρ c)) $$ Hpay
  unfold barPay holds
  rw [bwd0, bwd1, bwd2, rev0, rev1, rev2]
  icases Hp with ⟨⟨⟨%fd2, Hd_2⟩, ⟨%fe2, He_2⟩, #Rq2, #Rs2⟩, ⟨⟨%fd1, Hd_1⟩, ⟨%fe1, He_1⟩, #Rq1, #Rs1⟩, ⟨⟨%fd0, Hd_0⟩, ⟨%fe0, He_0⟩, #Rq0, #Rs0⟩⟩
  sl_exec_parts
  -- the send buffer by row blocks
  ihave Hsbs := ((sb_cut (F := F) c _).1) $$ Hsb
  icases Hsbs with ⟨Hs_0, Hs_1, Hs_2, Hs_own⟩
  -- transfer 0 of the first exchange, to fwd 0 c
  iapply (wp_send1 (F := F) m ρ c _ 0 (dev4_eq c) (K (c, 1)) (K (fwd 0 c, 4)) _ _ (tallyAt (r2Cell (fwd 2 c) 2) () Nb + tallyAt (r2Cell (fwd 1 c) 1) () Nb + tallyAt (r2Cell (fwd 0 c) 0) () Nb + tallyAt (r1Cell (fwd 2 c) 2) () Nb + tallyAt (r1Cell (fwd 1 c) 1) () Nb) _) $$ [Hs_0 Hd_0 HO T9 T3]
  · isplitr; · iexact I1
    isplitr; · iexact I20
    isplitl [Hs_0]; · iexact Hs_0
    isplitl [Hd_0]; · iexact Hd_0
    isplitl [HO]; · iexact HO
    isplitl [T9]; · iexact T9
    isplitr; · iexact R9
    isplitl [T3]; · iexact T3
    isplitr; · iexact R3
    ipureintro
    exact sent_named0 (aS m ρ) (bS m ρ) c _ _ (bbf_named (bS m ρ) c _)
  iintro ⟨Hcs0, HO⟩
  sl_exec_parts
  -- transfer 1 of the first exchange, to fwd 1 c
  iapply (wp_send1 (F := F) m ρ c _ 1 (dev5_eq c) (K (c, 2)) (K (fwd 1 c, 5)) _ _ (tallyAt (r2Cell (fwd 2 c) 2) () Nb + tallyAt (r2Cell (fwd 1 c) 1) () Nb + tallyAt (r2Cell (fwd 0 c) 0) () Nb + tallyAt (r1Cell (fwd 2 c) 2) () Nb) _) $$ [Hs_1 Hd_1 HO T10 T4]
  · isplitr; · iexact I2
    isplitr; · iexact I21
    isplitl [Hs_1]; · iexact Hs_1
    isplitl [Hd_1]; · iexact Hd_1
    isplitl [HO]; · iexact HO
    isplitl [T10]; · iexact T10
    isplitr; · iexact R10
    isplitl [T4]; · iexact T4
    isplitr; · iexact R4
    ipureintro
    exact sent_named1 (aS m ρ) (bS m ρ) c _ _ (bbf_named (bS m ρ) c _)
  iintro ⟨Hcs1, HO⟩
  sl_exec_parts
  -- transfer 2 of the first exchange, to fwd 2 c
  iapply (wp_send1 (F := F) m ρ c _ 2 (dev6_eq c) (K (c, 3)) (K (fwd 2 c, 6)) _ _ (tallyAt (r2Cell (fwd 2 c) 2) () Nb + tallyAt (r2Cell (fwd 1 c) 1) () Nb + tallyAt (r2Cell (fwd 0 c) 0) () Nb) _) $$ [Hs_2 Hd_2 HO T11 T5]
  · isplitr; · iexact I3
    isplitr; · iexact I22
    isplitl [Hs_2]; · iexact Hs_2
    isplitl [Hd_2]; · iexact Hd_2
    isplitl [HO]; · iexact HO
    isplitl [T11]; · iexact T11
    isplitr; · iexact R11
    isplitl [T5]; · iexact T5
    isplitr; · iexact R5
    ipureintro
    exact sent_named2 (aS m ρ) (bS m ρ) c _ _ (bbf_named (bS m ρ) c _)
  iintro ⟨Hcs2, HO⟩
  sl_exec_parts
  -- departure 0 of the first exchange: the rows back
  iapply (Rounds.wp_wait_rest_token 𝒱₀ ER (conv (F := F) (aS m ρ) (bS m ρ)) (c : Thread nD τ) none (sm := .dma (s1S 0)) (κ := K (c, 1))
      (wpE_waitDma2_eq 𝒱₀ (c : Thread nD τ) none Set.univ) (Set.mem_univ _) () (O := owedArr2 c) (R := 0) (m := 0) (T := ∅)
      (by rw [Nat.zero_add]; exact (expect_s1 (F := F) (aS m ρ) (bS m ρ) c 0).symm)) $$ [Hcs0 HO Hp1]
  · isplitr; · iexact I1
    isplitl [Hcs0]; · iexact Hcs0
    isplitl [HO]; · iexact HO
    isplitr; · iapply (mayWait_mid (F := F) c _ (lv_s1' c 0)); iexact Hlev
    iexact Hp1
  iintro ⟨HO, Hp1, -, Hpay⟩
  ihave Hs_0 := (Entails.of_eq (rest_s1 (F := F) m ρ c 0)) $$ Hpay
  unfold holds
  icases Hs_0 with ⟨%fsr0, Hs_0⟩
  sl_exec_parts
  -- arrival 0 of the first exchange: landing slice 0 back, written
  iapply (Rounds.wp_wait_rest_token 𝒱₀ ER (conv (F := F) (aS m ρ) (bS m ρ)) (c : Thread nD τ) none (sm := .dma (r1S 0)) (κ := K (c, 4))
      (wpE_waitDma2_eq 𝒱₀ (c : Thread nD τ) none Set.univ) (Set.mem_univ _) () (O := owedArr2 c) (R := 0) (m := 0) (T := ∅)
      (by rw [Nat.zero_add]; exact (expect_r1 (F := F) (aS m ρ) (bS m ρ) c 0).symm)) $$ [Hc1 HO Hp4]
  · isplitr; · iexact I4
    isplitl [Hc1]; · iexact Hc1
    isplitl [HO]; · iexact HO
    isplitr; · iapply (mayWait_mid (F := F) c _ (lv_r1' c 0)); iexact Hlev
    iexact Hp4
  iintro ⟨HO, Hp4, -, Hpay⟩
  ihave Hc_0 := (Entails.of_eq (rest_r1 (F := F) m ρ c 0)) $$ Hpay
  unfold holdsV
  icases Hc_0 with ⟨%fcr0, %hcr0, Hc_0⟩
  sl_exec_parts
  -- departure 1 of the first exchange: the rows back
  iapply (Rounds.wp_wait_rest_token 𝒱₀ ER (conv (F := F) (aS m ρ) (bS m ρ)) (c : Thread nD τ) none (sm := .dma (s1S 1)) (κ := K (c, 2))
      (wpE_waitDma2_eq 𝒱₀ (c : Thread nD τ) none Set.univ) (Set.mem_univ _) () (O := owedArr2 c) (R := 0) (m := 0) (T := ∅)
      (by rw [Nat.zero_add]; exact (expect_s1 (F := F) (aS m ρ) (bS m ρ) c 1).symm)) $$ [Hcs1 HO Hp2]
  · isplitr; · iexact I2
    isplitl [Hcs1]; · iexact Hcs1
    isplitl [HO]; · iexact HO
    isplitr; · iapply (mayWait_mid (F := F) c _ (lv_s1' c 1)); iexact Hlev
    iexact Hp2
  iintro ⟨HO, Hp2, -, Hpay⟩
  ihave Hs_1 := (Entails.of_eq (rest_s1 (F := F) m ρ c 1)) $$ Hpay
  unfold holds
  icases Hs_1 with ⟨%fsr1, Hs_1⟩
  sl_exec_parts
  -- arrival 1 of the first exchange: landing slice 1 back, written
  iapply (Rounds.wp_wait_rest_token 𝒱₀ ER (conv (F := F) (aS m ρ) (bS m ρ)) (c : Thread nD τ) none (sm := .dma (r1S 1)) (κ := K (c, 5))
      (wpE_waitDma2_eq 𝒱₀ (c : Thread nD τ) none Set.univ) (Set.mem_univ _) () (O := owedArr2 c) (R := 0) (m := 0) (T := ∅)
      (by rw [Nat.zero_add]; exact (expect_r1 (F := F) (aS m ρ) (bS m ρ) c 1).symm)) $$ [Hc2 HO Hp5]
  · isplitr; · iexact I5
    isplitl [Hc2]; · iexact Hc2
    isplitl [HO]; · iexact HO
    isplitr; · iapply (mayWait_mid (F := F) c _ (lv_r1' c 1)); iexact Hlev
    iexact Hp5
  iintro ⟨HO, Hp5, -, Hpay⟩
  ihave Hc_1 := (Entails.of_eq (rest_r1 (F := F) m ρ c 1)) $$ Hpay
  unfold holdsV
  icases Hc_1 with ⟨%fcr1, %hcr1, Hc_1⟩
  sl_exec_parts
  -- departure 2 of the first exchange: the rows back
  iapply (Rounds.wp_wait_rest_token 𝒱₀ ER (conv (F := F) (aS m ρ) (bS m ρ)) (c : Thread nD τ) none (sm := .dma (s1S 2)) (κ := K (c, 3))
      (wpE_waitDma2_eq 𝒱₀ (c : Thread nD τ) none Set.univ) (Set.mem_univ _) () (O := owedArr2 c) (R := 0) (m := 0) (T := ∅)
      (by rw [Nat.zero_add]; exact (expect_s1 (F := F) (aS m ρ) (bS m ρ) c 2).symm)) $$ [Hcs2 HO Hp3]
  · isplitr; · iexact I3
    isplitl [Hcs2]; · iexact Hcs2
    isplitl [HO]; · iexact HO
    isplitr; · iapply (mayWait_mid (F := F) c _ (lv_s1' c 2)); iexact Hlev
    iexact Hp3
  iintro ⟨HO, Hp3, -, Hpay⟩
  ihave Hs_2 := (Entails.of_eq (rest_s1 (F := F) m ρ c 2)) $$ Hpay
  unfold holds
  icases Hs_2 with ⟨%fsr2, Hs_2⟩
  sl_exec_parts
  -- arrival 2 of the first exchange: landing slice 2 back, written
  iapply (Rounds.wp_wait_rest_token 𝒱₀ ER (conv (F := F) (aS m ρ) (bS m ρ)) (c : Thread nD τ) none (sm := .dma (r1S 2)) (κ := K (c, 6))
      (wpE_waitDma2_eq 𝒱₀ (c : Thread nD τ) none Set.univ) (Set.mem_univ _) () (O := owedArr2 c) (R := 0) (m := 0) (T := ∅)
      (by rw [Nat.zero_add]; exact (expect_r1 (F := F) (aS m ρ) (bS m ρ) c 2).symm)) $$ [Hc3 HO Hp6]
  · isplitr; · iexact I6
    isplitl [Hc3]; · iexact Hc3
    isplitl [HO]; · iexact HO
    isplitr; · iapply (mayWait_mid (F := F) c _ (lv_r1' c 2)); iexact Hlev
    iexact Hp6
  iintro ⟨HO, Hp6, -, Hpay⟩
  ihave Hc_2 := (Entails.of_eq (rest_r1 (F := F) m ρ c 2)) $$ Hpay
  unfold holdsV
  icases Hc_2 with ⟨%fcr2, %hcr2, Hc_2⟩
  sl_exec_parts
  -- the result scratch and the result array by row blocks
  ihave Hrs := ((res_cut (F := F) c _).1) $$ Hres
  ihave Hos := ((out_cut (F := F) c _).1) $$ Hout
  icases Hrs with ⟨Hr_own, Hr_0, Hr_1, Hr_2⟩
  icases Hos with ⟨Ho_own, Ho_0, Ho_1, Ho_2⟩
  -- the copy of the device's own finished rows into the result array
  iapply (wp_copyOwn (F := F) m ρ c (K (c, 13)) _ _) $$ [Hr_own Ho_own T15]
  · isplitr; · iexact I13
    isplitl [Hr_own]; · iexact Hr_own
    isplitl [Ho_own]; · iexact Ho_own
    isplitl [T15]; · iexact T15
    isplitr; · iexact R15
    ipureintro
    exact own_named (aS m ρ) (bS m ρ) c _ _ _ _ _ (own_load_named (aS m ρ) (bS m ρ) c _ _ (bbf_named (bS m ρ) c _)) (comm_load_named0 _ _ hcr0) (comm_load_named1 _ _ hcr1) (comm_load_named2 _ _ hcr2)
  iintro Hccs0
  ihave Hccs0 := (Entails.of_eq (stash_eq (F := F) _).symm) $$ Hccs0
  sl_exec_parts
  -- the one source of the second exchange in three shares
  ihave Hg2 := ((gs_split3 (F := F) c _).1) $$ Hgs
  icases Hg2 with ⟨Hgs_0, Hgs_1, Hgs_2⟩
  -- transfer 0 of the second exchange, to fwd 0 c
  iapply (wp_send2 (F := F) m ρ c _ 0 (dev7_eq c) (K (c, 7)) (K (fwd 0 c, 10)) _ _ _ (tallyAt (r2Cell (fwd 2 c) 2) () Nb + tallyAt (r2Cell (fwd 1 c) 1) () Nb) rfl _) $$ [Hgs_0 He_0 HO T12 T6]
  · isplitr; · iexact I7
    isplitr; · iexact I23
    isplitl [Hgs_0]; · iexact Hgs_0
    isplitl [He_0]; · iexact He_0
    isplitl [HO]; · iexact HO
    isplitl [T12]; · iexact T12
    isplitr; · iexact R12
    isplitl [T6]; · iexact T6
    isplitr; · iexact R6
    ipureintro
    exact gs_named (aS m ρ) (bS m ρ) c _ _ _ _ _ (own_load_named (aS m ρ) (bS m ρ) c _ _ (bbf_named (bS m ρ) c _)) (comm_load_named0 _ _ hcr0) (comm_load_named1 _ _ hcr1) (comm_load_named2 _ _ hcr2)
  iintro ⟨Hcs20, HO⟩
  sl_exec_parts
  -- transfer 1 of the second exchange, to fwd 1 c
  iapply (wp_send2 (F := F) m ρ c _ 1 (dev8_eq c) (K (c, 8)) (K (fwd 1 c, 11)) _ _ _ (tallyAt (r2Cell (fwd 2 c) 2) () Nb) rfl _) $$ [Hgs_1 He_1 HO T13 T7]
  · isplitr; · iexact I8
    isplitr; · iexact I24
    isplitl [Hgs_1]; · iexact Hgs_1
    isplitl [He_1]; · iexact He_1
    isplitl [HO]; · iexact HO
    isplitl [T13]; · iexact T13
    isplitr; · iexact R13
    isplitl [T7]; · iexact T7
    isplitr; · iexact R7
    ipureintro
    exact gs_named (aS m ρ) (bS m ρ) c _ _ _ _ _ (own_load_named (aS m ρ) (bS m ρ) c _ _ (bbf_named (bS m ρ) c _)) (comm_load_named0 _ _ hcr0) (comm_load_named1 _ _ hcr1) (comm_load_named2 _ _ hcr2)
  iintro ⟨Hcs21, HO⟩
  sl_exec_parts
  -- transfer 2 of the second exchange, to fwd 2 c
  iapply (wp_send2 (F := F) m ρ c _ 2 (dev9_eq c) (K (c, 9)) (K (fwd 2 c, 12)) _ _ _ 0 (zero_add _).symm _) $$ [Hgs_2 He_2 HO T14 T8]
  · isplitr; · iexact I9
    isplitr; · iexact I25
    isplitl [Hgs_2]; · iexact Hgs_2
    isplitl [He_2]; · iexact He_2
    isplitl [HO]; · iexact HO
    isplitl [T14]; · iexact T14
    isplitr; · iexact R14
    isplitl [T8]; · iexact T8
    isplitr; · iexact R8
    ipureintro
    exact gs_named (aS m ρ) (bS m ρ) c _ _ _ _ _ (own_load_named (aS m ρ) (bS m ρ) c _ _ (bbf_named (bS m ρ) c _)) (comm_load_named0 _ _ hcr0) (comm_load_named1 _ _ hcr1) (comm_load_named2 _ _ hcr2)
  iintro ⟨Hcs22, HO⟩
  sl_exec_parts
  -- what the two waits of transfer 0 of the second exchange handed back: share 0 of the source, landing slice 0 written
  ihave Hgs_0 := (Entails.of_eq (full_s2 (F := F) m ρ c 0)) $$ Hp7_pay1
  unfold holdsAt
  icases Hgs_0 with ⟨%fgsr0, Hgs_0⟩
  ihave Hg_0 := (Entails.of_eq (full_r2 (F := F) m ρ c 0)) $$ Hp10_pay1
  unfold holdsV
  icases Hg_0 with ⟨%fgr0, %hgr0, Hg_0⟩
  sl_exec_parts
  -- the copy of the rows that came from bwd 0 c
  iapply (wp_copyK (F := F) m ρ c 0 (K (c, 14)) _ _) $$ [Hr_0 Ho_0 T16]
  · isplitr; · iexact I14
    isplitl [Hr_0]; · iexact Hr_0
    isplitl [Ho_0]; · iexact Ho_0
    isplitl [T16]; · iexact T16
    isplitr; · iexact R16
    ipureintro
    exact back_named0 (aS m ρ) (bS m ρ) c _ _ (gr_load_named0 _ _ hgr0)
  iintro Hccs1
  ihave Hccs1 := (Entails.of_eq (stash_eq (F := F) _).symm) $$ Hccs1
  sl_exec_parts
  -- what the two waits of transfer 1 of the second exchange handed back: share 1 of the source, landing slice 1 written
  ihave Hgs_1 := (Entails.of_eq (full_s2 (F := F) m ρ c 1)) $$ Hp8_pay1
  unfold holdsAt
  icases Hgs_1 with ⟨%fgsr1, Hgs_1⟩
  ihave Hg_1 := (Entails.of_eq (full_r2 (F := F) m ρ c 1)) $$ Hp11_pay1
  unfold holdsV
  icases Hg_1 with ⟨%fgr1, %hgr1, Hg_1⟩
  sl_exec_parts
  -- the copy of the rows that came from bwd 1 c
  iapply (wp_copyK (F := F) m ρ c 1 (K (c, 15)) _ _) $$ [Hr_1 Ho_1 T17]
  · isplitr; · iexact I15
    isplitl [Hr_1]; · iexact Hr_1
    isplitl [Ho_1]; · iexact Ho_1
    isplitl [T17]; · iexact T17
    isplitr; · iexact R17
    ipureintro
    exact back_named1 (aS m ρ) (bS m ρ) c _ _ (gr_load_named1 _ _ hgr1)
  iintro Hccs2
  ihave Hccs2 := (Entails.of_eq (stash_eq (F := F) _).symm) $$ Hccs2
  sl_exec_parts
  -- what the two waits of transfer 2 of the second exchange handed back: share 2 of the source, landing slice 2 written
  ihave Hgs_2 := (Entails.of_eq (full_s2 (F := F) m ρ c 2)) $$ Hp9_pay1
  unfold holdsAt
  icases Hgs_2 with ⟨%fgsr2, Hgs_2⟩
  ihave Hg_2 := (Entails.of_eq (full_r2 (F := F) m ρ c 2)) $$ Hp12_pay1
  unfold holdsV
  icases Hg_2 with ⟨%fgr2, %hgr2, Hg_2⟩
  sl_exec_parts
  -- the copy of the rows that came from bwd 2 c
  iapply (wp_copyK (F := F) m ρ c 2 (K (c, 16)) _ _) $$ [Hr_2 Ho_2 T18]
  · isplitr; · iexact I16
    isplitl [Hr_2]; · iexact Hr_2
    isplitl [Ho_2]; · iexact Ho_2
    isplitl [T18]; · iexact T18
    isplitr; · iexact R18
    ipureintro
    exact back_named2 (aS m ρ) (bS m ρ) c _ _ (gr_load_named2 _ _ hgr2)
  iintro Hccs3
  ihave Hccs3 := (Entails.of_eq (stash_eq (F := F) _).symm) $$ Hccs3
  sl_exec_parts
  -- the wait for copy 0
  ihave Hccs0 := (Entails.of_eq (stash_eq (F := F) _)) $$ Hccs0
  iapply (Rounds.wp_wait_rest_token 𝒱₀ ER (conv (F := F) (aS m ρ) (bS m ρ)) (c : Thread nD τ) none (sm := .dma (csS 0)) (κ := K (c, 13))
      (wpE_waitDma2_eq 𝒱₀ (c : Thread nD τ) none Set.univ) (Set.mem_univ _) () (O := 0) (R := 0) (m := 0) (T := ∅)
      (by rw [Nat.zero_add]; exact (expect_cs (F := F) (aS m ρ) (bS m ρ) c 0).symm)) $$ [Hccs0 HO Hp13]
  · isplitr; · iexact I13
    isplitl [Hccs0]; · iexact Hccs0
    isplitl [HO]; · iexact HO
    isplitr; · rw [MayWait_zero]; iempintro
    iexact Hp13
  iintro ⟨HO, Hp13, -, Hpay⟩
  ihave Hb0 := (Entails.of_eq (rest_cs0 (F := F) m ρ c)) $$ Hpay
  unfold holds
  icases Hb0 with ⟨Ho_own, ⟨%frr3, Hr_own⟩⟩
  sl_exec_parts
  -- the wait for copy 1
  ihave Hccs1 := (Entails.of_eq (stash_eq (F := F) _)) $$ Hccs1
  iapply (Rounds.wp_wait_rest_token 𝒱₀ ER (conv (F := F) (aS m ρ) (bS m ρ)) (c : Thread nD τ) none (sm := .dma (csS 1)) (κ := K (c, 14))
      (wpE_waitDma2_eq 𝒱₀ (c : Thread nD τ) none Set.univ) (Set.mem_univ _) () (O := 0) (R := 0) (m := 0) (T := ∅)
      (by rw [Nat.zero_add]; exact (expect_cs (F := F) (aS m ρ) (bS m ρ) c 1).symm)) $$ [Hccs1 HO Hp14]
  · isplitr; · iexact I14
    isplitl [Hccs1]; · iexact Hccs1
    isplitl [HO]; · iexact HO
    isplitr; · rw [MayWait_zero]; iempintro
    iexact Hp14
  iintro ⟨HO, Hp14, -, Hpay⟩
  ihave Hb1 := (Entails.of_eq (rest_cs1 (F := F) m ρ c)) $$ Hpay
  unfold holds
  icases Hb1 with ⟨Ho_0, ⟨%frr0, Hr_0⟩⟩
  sl_exec_parts
  -- the wait for copy 2
  ihave Hccs2 := (Entails.of_eq (stash_eq (F := F) _)) $$ Hccs2
  iapply (Rounds.wp_wait_rest_token 𝒱₀ ER (conv (F := F) (aS m ρ) (bS m ρ)) (c : Thread nD τ) none (sm := .dma (csS 2)) (κ := K (c, 15))
      (wpE_waitDma2_eq 𝒱₀ (c : Thread nD τ) none Set.univ) (Set.mem_univ _) () (O := 0) (R := 0) (m := 0) (T := ∅)
      (by rw [Nat.zero_add]; exact (expect_cs (F := F) (aS m ρ) (bS m ρ) c 2).symm)) $$ [Hccs2 HO Hp15]
  · isplitr; · iexact I15
    isplitl [Hccs2]; · iexact Hccs2
    isplitl [HO]; · iexact HO
    isplitr; · rw [MayWait_zero]; iempintro
    iexact Hp15
  iintro ⟨HO, Hp15, -, Hpay⟩
  ihave Hb2 := (Entails.of_eq (rest_cs2 (F := F) m ρ c)) $$ Hpay
  unfold holds
  icases Hb2 with ⟨Ho_1, ⟨%frr1, Hr_1⟩⟩
  sl_exec_parts
  -- the wait for copy 3
  ihave Hccs3 := (Entails.of_eq (stash_eq (F := F) _)) $$ Hccs3
  iapply (Rounds.wp_wait_rest_token 𝒱₀ ER (conv (F := F) (aS m ρ) (bS m ρ)) (c : Thread nD τ) none (sm := .dma (csS 3)) (κ := K (c, 16))
      (wpE_waitDma2_eq 𝒱₀ (c : Thread nD τ) none Set.univ) (Set.mem_univ _) () (O := 0) (R := 0) (m := 0) (T := ∅)
      (by rw [Nat.zero_add]; exact (expect_cs (F := F) (aS m ρ) (bS m ρ) c 3).symm)) $$ [Hccs3 HO Hp16]
  · isplitr; · iexact I16
    isplitl [Hccs3]; · iexact Hccs3
    isplitl [HO]; · iexact HO
    isplitr; · rw [MayWait_zero]; iempintro
    iexact Hp16
  iintro ⟨HO, Hp16, -, Hpay⟩
  ihave Hb3 := (Entails.of_eq (rest_cs3 (F := F) m ρ c)) $$ Hpay
  unfold holds
  icases Hb3 with ⟨Ho_2, ⟨%frr2, Hr_2⟩⟩
  -- the sixteen own cells close: their counters, at zero, are the device's again
  imod (Rounds.cell_close ER (conv (F := F) (aS m ρ) (bS m ρ)) (Set.mem_univ (K (c, 1))) (fun h => h) (duties_later (F := F) (aS m ρ) (bS m ρ) (s1Cell c 0))) $$ [Hp1] with Hz1
  · isplitr; · iexact I1
    iexact Hp1
  imod (Rounds.cell_close ER (conv (F := F) (aS m ρ) (bS m ρ)) (Set.mem_univ (K (c, 2))) (fun h => h) (duties_later (F := F) (aS m ρ) (bS m ρ) (s1Cell c 1))) $$ [Hp2] with Hz2
  · isplitr; · iexact I2
    iexact Hp2
  imod (Rounds.cell_close ER (conv (F := F) (aS m ρ) (bS m ρ)) (Set.mem_univ (K (c, 3))) (fun h => h) (duties_later (F := F) (aS m ρ) (bS m ρ) (s1Cell c 2))) $$ [Hp3] with Hz3
  · isplitr; · iexact I3
    iexact Hp3
  imod (Rounds.cell_close ER (conv (F := F) (aS m ρ) (bS m ρ)) (Set.mem_univ (K (c, 4))) (fun h => h) (duties_later (F := F) (aS m ρ) (bS m ρ) (r1Cell c 0))) $$ [Hp4] with Hz4
  · isplitr; · iexact I4
    iexact Hp4
  imod (Rounds.cell_close ER (conv (F := F) (aS m ρ) (bS m ρ)) (Set.mem_univ (K (c, 5))) (fun h => h) (duties_later (F := F) (aS m ρ) (bS m ρ) (r1Cell c 1))) $$ [Hp5] with Hz5
  · isplitr; · iexact I5
    iexact Hp5
  imod (Rounds.cell_close ER (conv (F := F) (aS m ρ) (bS m ρ)) (Set.mem_univ (K (c, 6))) (fun h => h) (duties_later (F := F) (aS m ρ) (bS m ρ) (r1Cell c 2))) $$ [Hp6] with Hz6
  · isplitr; · iexact I6
    iexact Hp6
  imod (Rounds.cell_close ER (conv (F := F) (aS m ρ) (bS m ρ)) (Set.mem_univ (K (c, 7))) (fun h => h) (duties_later (F := F) (aS m ρ) (bS m ρ) (s2Cell c 0))) $$ [Hp7] with Hz7
  · isplitr; · iexact I7
    iexact Hp7
  imod (Rounds.cell_close ER (conv (F := F) (aS m ρ) (bS m ρ)) (Set.mem_univ (K (c, 8))) (fun h => h) (duties_later (F := F) (aS m ρ) (bS m ρ) (s2Cell c 1))) $$ [Hp8] with Hz8
  · isplitr; · iexact I8
    iexact Hp8
  imod (Rounds.cell_close ER (conv (F := F) (aS m ρ) (bS m ρ)) (Set.mem_univ (K (c, 9))) (fun h => h) (duties_later (F := F) (aS m ρ) (bS m ρ) (s2Cell c 2))) $$ [Hp9] with Hz9
  · isplitr; · iexact I9
    iexact Hp9
  imod (Rounds.cell_close ER (conv (F := F) (aS m ρ) (bS m ρ)) (Set.mem_univ (K (c, 10))) (fun h => h) (duties_later (F := F) (aS m ρ) (bS m ρ) (r2Cell c 0))) $$ [Hp10] with Hz10
  · isplitr; · iexact I10
    iexact Hp10
  imod (Rounds.cell_close ER (conv (F := F) (aS m ρ) (bS m ρ)) (Set.mem_univ (K (c, 11))) (fun h => h) (duties_later (F := F) (aS m ρ) (bS m ρ) (r2Cell c 1))) $$ [Hp11] with Hz11
  · isplitr; · iexact I11
    iexact Hp11
  imod (Rounds.cell_close ER (conv (F := F) (aS m ρ) (bS m ρ)) (Set.mem_univ (K (c, 12))) (fun h => h) (duties_later (F := F) (aS m ρ) (bS m ρ) (r2Cell c 2))) $$ [Hp12] with Hz12
  · isplitr; · iexact I12
    iexact Hp12
  imod (Rounds.cell_close ER (conv (F := F) (aS m ρ) (bS m ρ)) (Set.mem_univ (K (c, 13))) (fun h => h) (duties_later (F := F) (aS m ρ) (bS m ρ) (csCell c 0))) $$ [Hp13] with Hz13
  · isplitr; · iexact I13
    iexact Hp13
  imod (Rounds.cell_close ER (conv (F := F) (aS m ρ) (bS m ρ)) (Set.mem_univ (K (c, 14))) (fun h => h) (duties_later (F := F) (aS m ρ) (bS m ρ) (csCell c 1))) $$ [Hp14] with Hz14
  · isplitr; · iexact I14
    iexact Hp14
  imod (Rounds.cell_close ER (conv (F := F) (aS m ρ) (bS m ρ)) (Set.mem_univ (K (c, 15))) (fun h => h) (duties_later (F := F) (aS m ρ) (bS m ρ) (csCell c 2))) $$ [Hp15] with Hz15
  · isplitr; · iexact I15
    iexact Hp15
  imod (Rounds.cell_close ER (conv (F := F) (aS m ρ) (bS m ρ)) (Set.mem_univ (K (c, 16))) (fun h => h) (duties_later (F := F) (aS m ρ) (bS m ρ) (csCell c 3))) $$ [Hp16] with Hz16
  · isplitr; · iexact I16
    iexact Hp16
  -- the cut buffers whole again
  ihave Hcomm := ((comm_split (F := F) c).2) $$ [Hc_0 Hc_1 Hc_2]
  · unfold holds; isplitl [Hc_0]; · iexists _; iexact Hc_0
    isplitl [Hc_1]; · iexists _; iexact Hc_1
    iexists _; iexact Hc_2
  ihave Hgr := ((gr_split (F := F) c).2) $$ [Hg_0 Hg_1 Hg_2]
  · unfold holds; isplitl [Hg_0]; · iexists _; iexact Hg_0
    isplitl [Hg_1]; · iexists _; iexact Hg_1
    iexists _; iexact Hg_2
  ihave Hsb := ((sb_split (F := F) c).2) $$ [Hs_0 Hs_1 Hs_2 Hs_own]
  · unfold holds; isplitl [Hs_0]; · iexists _; iexact Hs_0
    isplitl [Hs_1]; · iexists _; iexact Hs_1
    isplitl [Hs_2]; · iexists _; iexact Hs_2
    iexists _; iexact Hs_own
  ihave Hres := ((res_split (F := F) c).2) $$ [Hr_own Hr_0 Hr_1 Hr_2]
  · unfold holds; isplitl [Hr_own]; · iexists _; iexact Hr_own
    isplitl [Hr_0]; · iexists _; iexact Hr_0
    isplitl [Hr_1]; · iexists _; iexact Hr_1
    iexists _; iexact Hr_2
  ihave Hout := (OutJoin.out_join (F := F) (aS m ρ) (bS m ρ) c) $$ [Ho_own Ho_0 Ho_1 Ho_2]
  · isplitl [Ho_own]; · iexact Ho_own
    isplitl [Ho_0]; · iexact Ho_0
    isplitl [Ho_1]; · iexact Ho_1
    iexact Ho_2
  ihave Hgs := (holdsAt_join3 (F := F) c) $$ [Hgs_0 Hgs_1 Hgs_2]
  · unfold holdsAt; isplitl [Hgs_0]; · iexists _; iexact Hgs_0
    isplitl [Hgs_1]; · iexists _; iexact Hgs_1
    iexists _; iexact Hgs_2
  ihave Hx := (Entails.of_eq (whole_pts (F := F) c cc0_stg0_0 fullShare (aS m ρ c))) $$ Hx
  ihave Hb := (Entails.of_eq (whole_pts (F := F) c cc0_stg1_0 fullShare (bS m ρ c))) $$ Hb
  -- the return, and the post
  sl_step
  iapply Hk
  unfold bodyPost Φ₁ holdsOut scratch closedSems Dat.owesAt Pipeline.owesWithin
  rw [show (dats m ρ 0 c).owed t₀.succ = 0 from rfl]
  isplitl [Hout Hbbf Hown Hsb Hcomm Hgs Hgr Hres Hz1 Hz2 Hz3 Hz4 Hz5 Hz6 Hz7 Hz8 Hz9 Hz10 Hz11 Hz12 Hz13 Hz14 Hz15 Hz16]
  · isplitl [Hout]; · iexact Hout
    isplitl [Hbbf Hown Hsb Hcomm Hgs Hgr Hres]
    · isplitl [Hbbf]; · unfold holds; iexists _; iexact Hbbf
      isplitl [Hown]; · unfold holds; iexists _; iexact Hown
      isplitl [Hsb]; · iexact Hsb
      isplitl [Hcomm]; · iexact Hcomm
      isplitl [Hgs]; · iexact Hgs
      isplitl [Hgr]; · iexact Hgr
      iexact Hres
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    isplitl [Hz14]; · iexact Hz14
    isplitl [Hz15]; · iexact Hz15
    iexact Hz16
  isplitl [HO]
  · iexists _
    isplitr
    swap
    · iexact HO
    · ipureintro; exact fun _ _ => Or.inl trivial
  isplitl [Hx]
  · iexists _; isplitr; · (ipureintro; rfl)
    iexact Hx
  iexists _; isplitr; · (ipureintro; rfl)
  iexact Hb

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- What the staging pipeline hands the body at the one grid point. -/
def bodyPre' (c : Dev nD) : sProp 𝕄 :=
  iprop(Φ₀ (F := F) m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The staging pipeline's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11) (fun _ => bodyPost m ρ c)
  unfold bodyPre' Φ₀ start
  iintro ⟨⟨⟨⟨%K, Hg⟩, Hcr, Hlev, Hout⟩, Hscr⟩, Ho, Hx, Hb⟩
  iapply (sound_body m ρ K c fun _ => bodyPost m ρ c)
  unfold bodyPre
  isplitr []
  · isplitl [Hg Hcr Hlev Hout Hscr]
    · isplitl [Hg]; · iexact Hg
      isplitl [Hcr]; · iexact Hcr
      isplitl [Hlev]; · iexact Hlev
      isplitl [Hout]; · iexact Hout
      iexact Hscr
    isplitl [Ho]; · iexact Ho
    isplitl [Hx] <;> iassumption
  · iintro H; iexact H

end Body

end Cert.KernelIdealProof

end
-- ==== Proof.V.Bits.Regions.lean ====
import proofs.«900373_g7700000000000374_dist_matmul_silu_kshard_i_m512_n512_k256_v7x_i4_f32_1_alg».proof.Proof.V.Bits.Base

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! # The buffers, cut into their row blocks and slabs

Pure geometry of index sets and ownership of buffer elements; nothing here mentions the program's steps.

* A 512 × 512 buffer has four row blocks, `rowSet t` = rows `128 t ≤ r < 128 t + 128` for `t` among the four devices.
  They are pairwise disjoint (their rows are separated) and cover every index (row `r` lies in block `r / 128`).
  For a device `c`, its three successors `fwd 0 c, fwd 1 c, fwd 2 c` together with `c`, and equally `c` with its three
  predecessors `bwd 0 c, bwd 1 c, bwd 2 c`, are all four devices; so either family of row blocks partitions the buffer.
* A 3 × 128 × 512 buffer has three slabs, `slab k` = leading coordinate `k`; they partition the buffer.
* Every slice the conversation names is one of these: the element sets are computed from the closed forms of the
  printed offsets, and a squeezed slice has the elements of the slice it squeezes.
* A region that is a disjoint union, held at SOME contents, is the separating conjunction of its parts, each held at
  some contents: left to right one contents serves every part, right to left the parts' contents glue piecewise. -/

/-! ## Cutting a region into disjoint pieces, each at some contents -/

section Cuts
variable {ℓ : Loc nD τ sig} {q : PosShare TreeShare}

omit [FloatOps F] in
/-- A region that is the union of two disjoint parts, held at some contents, is the two parts, each held at some
    contents: one contents serves both parts, and two contents glue into a piecewise one. -/
theorem some_cut2 {A B : Finset (Idx ℓ)} (h : Disjoint A B) :
    (iprop(∃ f : Buf (Elt F) ℓ, ℓ ↦[A ∪ B]{q} f) : sProp 𝕄) ⊣⊢
      iprop((∃ f : Buf (Elt F) ℓ, ℓ ↦[A]{q} f) ∗ (∃ f : Buf (Elt F) ℓ, ℓ ↦[B]{q} f)) := by
  constructor
  · iintro ⟨%f, H⟩
    ihave H := (pointsTo_union h).1 $$ H
    icases H with ⟨HA, HB⟩
    isplitl [HA]
    · iexists f; iexact HA
    · iexists f; iexact HB
  · iintro ⟨⟨%f, HA⟩, ⟨%g, HB⟩⟩
    iexists (B.piecewise g f)
    iapply (pointsTo_join h)
    isplitl [HA]
    · iexact HA
    · iexact HB

omit [FloatOps F] in
/-- The same for three pairwise disjoint parts. -/
theorem some_cut3 {A B C : Finset (Idx ℓ)} (hAB : Disjoint A B) (hAC : Disjoint A C) (hBC : Disjoint B C) :
    (iprop(∃ f : Buf (Elt F) ℓ, ℓ ↦[A ∪ (B ∪ C)]{q} f) : sProp 𝕄) ⊣⊢
      iprop((∃ f : Buf (Elt F) ℓ, ℓ ↦[A]{q} f) ∗ (∃ f : Buf (Elt F) ℓ, ℓ ↦[B]{q} f)
        ∗ (∃ f : Buf (Elt F) ℓ, ℓ ↦[C]{q} f)) :=
  (some_cut2 (Finset.disjoint_union_right.mpr ⟨hAB, hAC⟩)).trans (sep_congr_right (some_cut2 hBC))

omit [FloatOps F] in
/-- The same for four pairwise disjoint parts. -/
theorem some_cut4 {A B C D : Finset (Idx ℓ)} (hAB : Disjoint A B) (hAC : Disjoint A C) (hAD : Disjoint A D)
    (hBC : Disjoint B C) (hBD : Disjoint B D) (hCD : Disjoint C D) :
    (iprop(∃ f : Buf (Elt F) ℓ, ℓ ↦[A ∪ (B ∪ (C ∪ D))]{q} f) : sProp 𝕄) ⊣⊢
      iprop((∃ f : Buf (Elt F) ℓ, ℓ ↦[A]{q} f) ∗ (∃ f : Buf (Elt F) ℓ, ℓ ↦[B]{q} f)
        ∗ (∃ f : Buf (Elt F) ℓ, ℓ ↦[C]{q} f) ∗ (∃ f : Buf (Elt F) ℓ, ℓ ↦[D]{q} f)) :=
  (some_cut2 (Finset.disjoint_union_right.mpr ⟨hAB, Finset.disjoint_union_right.mpr ⟨hAC, hAD⟩⟩)).trans
    (sep_congr_right (some_cut3 hBC hBD hCD))

end Cuts

/-! ## The ring's devices are the four devices -/

theorem fwd_all : ∀ c t : Dev nD, t = fwd 0 c ∨ t = fwd 1 c ∨ t = fwd 2 c ∨ t = c := by decide
theorem bwd_all : ∀ c t : Dev nD, t = c ∨ t = bwd 0 c ∨ t = bwd 1 c ∨ t = bwd 2 c := by decide
theorem fwd_distinct : ∀ c : Dev nD, fwd 0 c ≠ fwd 1 c ∧ fwd 0 c ≠ fwd 2 c ∧ fwd 0 c ≠ c
    ∧ fwd 1 c ≠ fwd 2 c ∧ fwd 1 c ≠ c ∧ fwd 2 c ≠ c := by decide
theorem bwd_distinct : ∀ c : Dev nD, c ≠ bwd 0 c ∧ c ≠ bwd 1 c ∧ c ≠ bwd 2 c
    ∧ bwd 0 c ≠ bwd 1 c ∧ bwd 0 c ≠ bwd 2 c ∧ bwd 1 c ≠ bwd 2 c := by decide

/-! ## The four row blocks of a 512 × 512 buffer -/

theorem rowSet_inb : ∀ t : Dev nD, ∀ a, (![128 * t.val, 0] : Fin 2 → ℕ) a + S128x512.size a ≤ S512x512.size a := by decide

/-- Row block `t` of a 512 × 512 index space: the rows `128 t ≤ r < 128 t + 128`, every column. -/
def rowSet (t : Dev nD) : Finset S512x512.Idx :=
  (Rect.unit (s := S512x512) ![128 * t.val, 0] S128x512.size (rowSet_inb t)).set

/-- An index lies in row block `t` exactly when its row does. -/
theorem mem_rowSet {t : Dev nD} {i : S512x512.Idx} :
    i ∈ rowSet t ↔ 128 * t.val ≤ (i 0).val ∧ (i 0).val < 128 * t.val + 128 := by
  unfold rowSet
  rw [Rect.mem_set_unit, Fin.forall_fin_two]
  have h1 : (i 1).val < 512 := (i 1).isLt
  show (128 * t.val ≤ (i 0).val ∧ (i 0).val < 128 * t.val + 128) ∧ (0 ≤ (i 1).val ∧ (i 1).val < 0 + 512) ↔ _
  exact ⟨fun h => h.1, fun h => ⟨h, Nat.zero_le _, by omega⟩⟩

/-- Different row blocks share no index: their rows are separated. -/
theorem rowSet_disjoint {t t' : Dev nD} (h : t ≠ t') : Disjoint (rowSet t) (rowSet t') := by
  have hv : t.val ≠ t'.val := fun e => h (Fin.ext e)
  refine Rect.unit_disjoint (0 : Fin 2) ?_
  show 128 * t.val + 128 ≤ 128 * t'.val ∨ 128 * t'.val + 128 ≤ 128 * t.val
  omega

/-- Four devices that are all the devices have row blocks covering every index: row `r` lies in block `r / 128`. -/
theorem rowSet_cover (a b c d : Dev nD) (h : ∀ t : Dev nD, t = a ∨ t = b ∨ t = c ∨ t = d) :
    (Finset.univ : Finset S512x512.Idx) = rowSet a ∪ (rowSet b ∪ (rowSet c ∪ rowSet d)) := by
  ext i
  simp only [Finset.mem_univ, Finset.mem_union, true_iff]
  have hi : (i 0).val < 512 := (i 0).isLt
  have hq : (i 0).val / 128 < 4 := by omega
  have ht : i ∈ rowSet (⟨(i 0).val / 128, hq⟩ : Dev nD) :=
    mem_rowSet.mpr ⟨by show 128 * ((i 0).val / 128) ≤ _; omega, by show _ < 128 * ((i 0).val / 128) + 128; omega⟩
  rcases h ⟨(i 0).val / 128, hq⟩ with e | e | e | e <;> rw [e] at ht
  · exact .inl ht
  · exact .inr (.inl ht)
  · exact .inr (.inr (.inl ht))
  · exact .inr (.inr (.inr ht))

/-! ## The three slabs of a 3 × 128 × 512 buffer -/

theorem slab_inb : ∀ k : Fin 3, ∀ a, (![k.val, 0, 0] : Fin 3 → ℕ) a + S1x128x512.size a ≤ S3x128x512.size a := by decide

/-- Slab `k` of a 3 × 128 × 512 index space: leading coordinate `k`, every row and column. -/
def slab (k : Fin 3) : Finset S3x128x512.Idx :=
  (Rect.unit (s := S3x128x512) ![k.val, 0, 0] S1x128x512.size (slab_inb k)).set

/-- An index lies in slab `k` exactly when its leading coordinate is `k`. -/
theorem mem_slab {k : Fin 3} {i : S3x128x512.Idx} : i ∈ slab k ↔ (i 0).val = k.val := by
  unfold slab
  rw [Rect.mem_set_unit, Fin.forall_fin_succ, Fin.forall_fin_two]
  have h1 : (i 1).val < 128 := (i 1).isLt
  have h2 : (i 2).val < 512 := (i 2).isLt
  show (k.val ≤ (i 0).val ∧ (i 0).val < k.val + 1) ∧ (0 ≤ (i 1).val ∧ (i 1).val < 0 + 128)
    ∧ (0 ≤ (i 2).val ∧ (i 2).val < 0 + 512) ↔ _
  exact ⟨fun h => by omega, fun h => ⟨by omega, ⟨Nat.zero_le _, by omega⟩, Nat.zero_le _, by omega⟩⟩

/-- Different slabs share no index. -/
theorem slab_disjoint {k k' : Fin 3} (h : k ≠ k') : Disjoint (slab k) (slab k') := by
  have hv : k.val ≠ k'.val := fun e => h (Fin.ext e)
  refine Rect.unit_disjoint (0 : Fin 3) ?_
  show k.val + 1 ≤ k'.val ∨ k'.val + 1 ≤ k.val
  omega

/-- The three slabs cover every index. -/
theorem slab_cover : (Finset.univ : Finset S3x128x512.Idx) = slab 0 ∪ (slab 1 ∪ slab 2) := by
  ext i
  simp only [Finset.mem_univ, Finset.mem_union, true_iff, mem_slab]
  have hi : (i 0).val < 3 := (i 0).isLt
  show (i 0).val = 0 ∨ (i 0).val = 1 ∨ (i 0).val = 2
  omega

/-! ## The element sets of the slices -/

/-- The rows transfer `k` of device `c` reads from the send buffer are row block `fwd k c`. -/
theorem sbSl_set (c : Dev nD) (k : Fin 3) : (sbSl c k).view.set = rowSet (fwd k c) :=
  (View.set_slice_whole _ _).trans
    (congrArg (fun r : Rect S512x512 => r.set) (Rect.unit_congr (off3_eq c k) _ _))

/-- The device's own rows of the send buffer are row block `c`. -/
theorem sbOwn_set (c : Dev nD) : (sbOwn c).view.set = rowSet c :=
  (View.set_slice_whole _ _).trans
    (congrArg (fun r : Rect S512x512 => r.set) (Rect.unit_congr (k0_off5_eq c) _ _))

/-- The device's own rows of the result scratch are row block `c`, -/
theorem resOwn_set (c : Dev nD) : (resOwn c).view.set = rowSet c :=
  (View.set_slice_whole _ _).trans
    (congrArg (fun r : Rect S512x512 => r.set) (Rect.unit_congr (k0_off6_eq c) _ _))

/-- and so are its own rows of the result array. -/
theorem outOwn_set (c : Dev nD) : (outOwn c).view.set = rowSet c :=
  (View.set_slice_whole _ _).trans
    (congrArg (fun r : Rect S512x512 => r.set) (Rect.unit_congr (k0_off6_eq c) _ _))

/-- The rows of the result scratch that came from the predecessor `bwd k c` are row block `bwd k c`, -/
theorem resSl_set (c : Dev nD) (k : Fin 3) : (resSl c k).view.set = rowSet (bwd k c) :=
  (View.set_slice_whole _ _).trans
    (congrArg (fun r : Rect S512x512 => r.set) (Rect.unit_congr (off8_eq c k) _ _))

/-- and so are those rows of the result array. -/
theorem outSl_set (c : Dev nD) (k : Fin 3) : (outSl c k).view.set = rowSet (bwd k c) :=
  (View.set_slice_whole _ _).trans
    (congrArg (fun r : Rect S512x512 => r.set) (Rect.unit_congr (off8_eq c k) _ _))

/-- Slice `k` of the first landing buffer is slab `k`: dropping the unit axis keeps the elements. -/
theorem commSl_set_0 : (commSl 0).view.set = slab 0 := (Memref.set_view_squeeze _ squeezes_S1x128x512_S128x512).trans (View.set_slice_whole _ _)
theorem commSl_set_1 : (commSl 1).view.set = slab 1 := (Memref.set_view_squeeze _ squeezes_S1x128x512_S128x512).trans (View.set_slice_whole _ _)
theorem commSl_set_2 : (commSl 2).view.set = slab 2 := (Memref.set_view_squeeze _ squeezes_S1x128x512_S128x512).trans (View.set_slice_whole _ _)

/-- Slice `k` of the second landing buffer is slab `k`. -/
theorem grSl_set_0 : (grSl 0).view.set = slab 0 := (Memref.set_view_squeeze _ squeezes_S1x128x512_S128x512).trans (View.set_slice_whole _ _)
theorem grSl_set_1 : (grSl 1).view.set = slab 1 := (Memref.set_view_squeeze _ squeezes_S1x128x512_S128x512).trans (View.set_slice_whole _ _)
theorem grSl_set_2 : (grSl 2).view.set = slab 2 := (Memref.set_view_squeeze _ squeezes_S1x128x512_S128x512).trans (View.set_slice_whole _ _)

/-! ### Membership, row by row -/

theorem mem_sbSl (c : Dev nD) (k : Fin 3) (i : S512x512.Idx) :
    i ∈ (sbSl c k).view.set ↔ 128 * (fwd k c).val ≤ (i 0).val ∧ (i 0).val < 128 * (fwd k c).val + 128 := by
  rw [sbSl_set]; exact mem_rowSet
theorem mem_sbOwn (c : Dev nD) (i : S512x512.Idx) :
    i ∈ (sbOwn c).view.set ↔ 128 * c.val ≤ (i 0).val ∧ (i 0).val < 128 * c.val + 128 := by
  rw [sbOwn_set]; exact mem_rowSet
theorem mem_resOwn (c : Dev nD) (i : S512x512.Idx) :
    i ∈ (resOwn c).view.set ↔ 128 * c.val ≤ (i 0).val ∧ (i 0).val < 128 * c.val + 128 := by
  rw [resOwn_set]; exact mem_rowSet
theorem mem_outOwn (c : Dev nD) (i : S512x512.Idx) :
    i ∈ (outOwn c).view.set ↔ 128 * c.val ≤ (i 0).val ∧ (i 0).val < 128 * c.val + 128 := by
  rw [outOwn_set]; exact mem_rowSet
theorem mem_resSl (c : Dev nD) (k : Fin 3) (i : S512x512.Idx) :
    i ∈ (resSl c k).view.set ↔ 128 * (bwd k c).val ≤ (i 0).val ∧ (i 0).val < 128 * (bwd k c).val + 128 := by
  rw [resSl_set]; exact mem_rowSet
theorem mem_outSl (c : Dev nD) (k : Fin 3) (i : S512x512.Idx) :
    i ∈ (outSl c k).view.set ↔ 128 * (bwd k c).val ≤ (i 0).val ∧ (i 0).val < 128 * (bwd k c).val + 128 := by
  rw [outSl_set]; exact mem_rowSet
theorem mem_commSl_0 (i : S3x128x512.Idx) : i ∈ (commSl 0).view.set ↔ (i 0).val = 0 := by rw [commSl_set_0]; exact mem_slab
theorem mem_commSl_1 (i : S3x128x512.Idx) : i ∈ (commSl 1).view.set ↔ (i 0).val = 1 := by rw [commSl_set_1]; exact mem_slab
theorem mem_commSl_2 (i : S3x128x512.Idx) : i ∈ (commSl 2).view.set ↔ (i 0).val = 2 := by rw [commSl_set_2]; exact mem_slab
theorem mem_grSl_0 (i : S3x128x512.Idx) : i ∈ (grSl 0).view.set ↔ (i 0).val = 0 := by rw [grSl_set_0]; exact mem_slab
theorem mem_grSl_1 (i : S3x128x512.Idx) : i ∈ (grSl 1).view.set ↔ (i 0).val = 1 := by rw [grSl_set_1]; exact mem_slab
theorem mem_grSl_2 (i : S3x128x512.Idx) : i ∈ (grSl 2).view.set ↔ (i 0).val = 2 := by rw [grSl_set_2]; exact mem_slab

/-! ### The rectangles the body loads and stores through -/

/-- The rows of the send buffer the body stores before transfer `k` are the rows that transfer reads. -/
theorem sb_store_set (c : Dev nD) (k : Fin 3) :
    (Rect.unit (s := S512x512) (k0_off2 c (BitVec.ofNat 32 (1 + k.val))) S128x512.size (k0_off2_inb c k)).set
      = (sbSl c k).view.set :=
  (congrArg (fun r : Rect S512x512 => r.set) (Rect.unit_congr (off2_eq c k) _ _)).trans (sbSl_set c k).symm

/-- The rows of the result scratch the body stores for itself are the device's own rows. -/
theorem res_own_store_set (c : Dev nD) :
    (Rect.unit (s := S512x512) (k0_off5 c) S128x512.size (k0_off5_inb c)).set = (resOwn c).view.set :=
  (congrArg (fun r : Rect S512x512 => r.set) (Rect.unit_congr (k0_off5_eq c) _ _)).trans (resOwn_set c).symm

/-- The rows of the result scratch the body stores from landing slice `k` are those of the predecessor `bwd k c`. -/
theorem res_store_set (c : Dev nD) (k : Fin 3) :
    (Rect.unit (s := S512x512) (k0_off7 c (BitVec.ofNat 32 (1 + k.val))) S128x512.size (k0_off7_inb c k)).set
      = (resSl c k).view.set :=
  (congrArg (fun r : Rect S512x512 => r.set) (Rect.unit_congr (off7_eq c k) _ _)).trans (resSl_set c k).symm

/-- The slab the body loads from a landing buffer is that buffer's slice. -/
theorem comm_load_set_0 : (Rect.unit (s := S3x128x512) ![0, 0, 0] S1x128x512.size inb_S3x128x512_S1x128x512_0_0_0).set = (commSl 0).view.set := commSl_set_0.symm
theorem comm_load_set_1 : (Rect.unit (s := S3x128x512) ![1, 0, 0] S1x128x512.size inb_S3x128x512_S1x128x512_1_0_0).set = (commSl 1).view.set := commSl_set_1.symm
theorem comm_load_set_2 : (Rect.unit (s := S3x128x512) ![2, 0, 0] S1x128x512.size inb_S3x128x512_S1x128x512_2_0_0).set = (commSl 2).view.set := commSl_set_2.symm
theorem gr_load_set_0 : (Rect.unit (s := S3x128x512) ![0, 0, 0] S1x128x512.size inb_S3x128x512_S1x128x512_0_0_0).set = (grSl 0).view.set := grSl_set_0.symm
theorem gr_load_set_1 : (Rect.unit (s := S3x128x512) ![1, 0, 0] S1x128x512.size inb_S3x128x512_S1x128x512_1_0_0).set = (grSl 1).view.set := grSl_set_1.symm
theorem gr_load_set_2 : (Rect.unit (s := S3x128x512) ![2, 0, 0] S1x128x512.size inb_S3x128x512_S1x128x512_2_0_0).set = (grSl 2).view.set := grSl_set_2.symm

/-! ## The five cuts -/

omit [FloatOps F] in
/-- A slice of the first landing buffer, held: slab `k` of that buffer at some contents. -/
theorem holds_commSl (c : Dev nD) : ∀ k : Fin 3, holds (F := F) c (commSl k)
    = iprop(∃ f : Buf (Elt F) (commM.view.loc (c : Thread nD τ)), commM.view.loc (c : Thread nD τ) ↦[slab k]{fullShare} f)
  | 0 => by unfold holds; rw [commSl_set_0]
  | 1 => by unfold holds; rw [commSl_set_1]
  | 2 => by unfold holds; rw [commSl_set_2]

omit [FloatOps F] in
/-- A slice of the second landing buffer, held: slab `k` of that buffer at some contents. -/
theorem holds_grSl (c : Dev nD) : ∀ k : Fin 3, holds (F := F) c (grSl k)
    = iprop(∃ f : Buf (Elt F) (grM.view.loc (c : Thread nD τ)), grM.view.loc (c : Thread nD τ) ↦[slab k]{fullShare} f)
  | 0 => by unfold holds; rw [grSl_set_0]
  | 1 => by unfold holds; rw [grSl_set_1]
  | 2 => by unfold holds; rw [grSl_set_2]

/-- A whole buffer's elements are all the indices of its shape. -/
theorem commM_set : commM.view.set = (Finset.univ : Finset S3x128x512.Idx) := View.set_whole _
theorem grM_set : grM.view.set = (Finset.univ : Finset S3x128x512.Idx) := View.set_whole _
theorem sbM_set : sbM.view.set = (Finset.univ : Finset S512x512.Idx) := View.set_whole _
theorem resM_set : resM.view.set = (Finset.univ : Finset S512x512.Idx) := View.set_whole _
theorem outM_set : outM.view.set = (Finset.univ : Finset S512x512.Idx) := View.set_whole _

omit [FloatOps F] in
/-- The first landing buffer is its three slices. -/
theorem comm_split (c : Dev nD) : holds (F := F) c commM ⊣⊢
    iprop(holds (F := F) c (commSl 0) ∗ holds (F := F) c (commSl 1) ∗ holds (F := F) c (commSl 2)) := by
  rw [holds_commSl, holds_commSl, holds_commSl]
  unfold holds
  rw [commM_set, slab_cover]
  exact some_cut3 (slab_disjoint (by decide)) (slab_disjoint (by decide)) (slab_disjoint (by decide))

omit [FloatOps F] in
/-- The second landing buffer is its three slices. -/
theorem gr_split (c : Dev nD) : holds (F := F) c grM ⊣⊢
    iprop(holds (F := F) c (grSl 0) ∗ holds (F := F) c (grSl 1) ∗ holds (F := F) c (grSl 2)) := by
  rw [holds_grSl, holds_grSl, holds_grSl]
  unfold holds
  rw [grM_set, slab_cover]
  exact some_cut3 (slab_disjoint (by decide)) (slab_disjoint (by decide)) (slab_disjoint (by decide))

omit [FloatOps F] in
/-- The send buffer is the three row blocks its transfers read and the device's own row block. -/
theorem sb_split (c : Dev nD) : holds (F := F) c sbM ⊣⊢
    iprop(holds (F := F) c (sbSl c 0) ∗ holds (F := F) c (sbSl c 1) ∗ holds (F := F) c (sbSl c 2)
      ∗ holds (F := F) c (sbOwn c)) := by
  obtain ⟨h01, h02, h0c, h12, h1c, h2c⟩ := fwd_distinct c
  unfold holds
  rw [sbSl_set, sbSl_set, sbSl_set, sbOwn_set, sbM_set,
    rowSet_cover (fwd 0 c) (fwd 1 c) (fwd 2 c) c (fwd_all c)]
  exact some_cut4 (rowSet_disjoint h01) (rowSet_disjoint h02) (rowSet_disjoint h0c) (rowSet_disjoint h12)
    (rowSet_disjoint h1c) (rowSet_disjoint h2c)

omit [FloatOps F] in
/-- The result scratch is the device's own row block and the three that came from its predecessors. -/
theorem res_split (c : Dev nD) : holds (F := F) c resM ⊣⊢
    iprop(holds (F := F) c (resOwn c) ∗ holds (F := F) c (resSl c 0) ∗ holds (F := F) c (resSl c 1)
      ∗ holds (F := F) c (resSl c 2)) := by
  obtain ⟨hc0, hc1, hc2, h01, h02, h12⟩ := bwd_distinct c
  unfold holds
  rw [resSl_set, resSl_set, resSl_set, resOwn_set, resM_set,
    rowSet_cover c (bwd 0 c) (bwd 1 c) (bwd 2 c) (bwd_all c)]
  exact some_cut4 (rowSet_disjoint hc0) (rowSet_disjoint hc1) (rowSet_disjoint hc2) (rowSet_disjoint h01)
    (rowSet_disjoint h02) (rowSet_disjoint h12)

omit [FloatOps F] in
/-- The result array is cut the same way. -/
theorem out_split (c : Dev nD) : holds (F := F) c outM ⊣⊢
    iprop(holds (F := F) c (outOwn c) ∗ holds (F := F) c (outSl c 0) ∗ holds (F := F) c (outSl c 1)
      ∗ holds (F := F) c (outSl c 2)) := by
  obtain ⟨hc0, hc1, hc2, h01, h02, h12⟩ := bwd_distinct c
  unfold holds
  rw [outSl_set, outSl_set, outSl_set, outOwn_set, outM_set,
    rowSet_cover c (bwd 0 c) (bwd 1 c) (bwd 2 c) (bwd_all c)]
  exact some_cut4 (rowSet_disjoint hc0) (rowSet_disjoint hc1) (rowSet_disjoint hc2) (rowSet_disjoint h01)
    (rowSet_disjoint h02) (rowSet_disjoint h12)

end Cert.KernelProof

end
-- ==== Proof.V.Bits.Shares.lean ====
import proofs.«900373_g7700000000000374_dist_matmul_silu_kshard_i_m512_n512_k256_v7x_i4_f32_1_alg».proof.Proof.V.Bits.Base

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! # Three shares of one region

A share of a region splits into its left half and the two halves of its right half. Held at one contents the three
parts are the whole share at that contents; held each at SOME contents they are still the whole share at some
contents, because holders of a common element agree on its value. -/

/-! ## Three shares of one region -/

section Shares
variable {ℓ : Loc nD τ sig} {S : Finset (Idx ℓ)}

omit [FloatOps F] in
/-- A share of a region at contents `f` is its left half and the two halves of its right half, all at `f`. -/
theorem share_split3 (q : PosShare TreeShare) (f : Buf (Elt F) ℓ) :
    (ℓ ↦[S]{q} f : sProp 𝕄) ⊣⊢ iprop((ℓ ↦[S]{q.left} f) ∗ (ℓ ↦[S]{q.right.left} f) ∗ ℓ ↦[S]{q.right.right} f) :=
  (pointsTo_share (PosShare.mem_left_op_right q)).trans
    (sep_congr_right (pointsTo_share (PosShare.mem_left_op_right q.right)))

omit [FloatOps F] in
/-- The three parts, each held at some contents, make the whole share at some contents: holders of one element agree
    on its value, so the three contents coincide on the region and any one of them serves. -/
theorem share_join3 (q : PosShare TreeShare) :
    (iprop((∃ f : Buf (Elt F) ℓ, ℓ ↦[S]{q.left} f) ∗ (∃ f : Buf (Elt F) ℓ, ℓ ↦[S]{q.right.left} f)
      ∗ (∃ f : Buf (Elt F) ℓ, ℓ ↦[S]{q.right.right} f)) : sProp 𝕄) ⊢ iprop(∃ f : Buf (Elt F) ℓ, ℓ ↦[S]{q} f) := by
  iintro ⟨⟨%f0, H0⟩, ⟨%f1, H1⟩, ⟨%f2, H2⟩⟩
  icombine H0 H1 gives %h01
  icombine H0 H2 gives %h02
  have e1 : (ℓ ↦[S]{q.right.left} f1 : sProp 𝕄) = ℓ ↦[S]{q.right.left} f0 :=
    pointsTo_congr fun i hi => ((h01 i (Finset.mem_inter.mpr ⟨hi, hi⟩)).1).symm
  have e2 : (ℓ ↦[S]{q.right.right} f2 : sProp 𝕄) = ℓ ↦[S]{q.right.right} f0 :=
    pointsTo_congr fun i hi => ((h02 i (Finset.mem_inter.mpr ⟨hi, hi⟩)).1).symm
  iexists f0
  iapply (share_split3 q f0).2
  isplitl [H0]
  · iexact H0
  isplitl [H1]
  · iapply (Entails.of_eq e1); iexact H1
  · iapply (Entails.of_eq e2); iexact H2

end Shares

omit [FloatOps F] in
/-- The three shares through which the second exchange reads its source, each at some contents, are the source held. -/
theorem holdsAt_join3 (c : Dev nD) :
    iprop(holdsAt (F := F) (gsShare 0) c gsM ∗ holdsAt (F := F) (gsShare 1) c gsM ∗ holdsAt (F := F) (gsShare 2) c gsM)
      ⊢ holds (F := F) c gsM :=
  share_join3 fullShare

omit [FloatOps F] in
/-- The source at contents `f`, cut into those three shares. -/
theorem gs_split3 (c : Dev nD) (f : Buf (Elt F) (gsM.view.loc (c : Thread nD τ))) :
    (gsM.view.loc (c : Thread nD τ) ↦[gsM.view.set]{fullShare} f : sProp 𝕄) ⊣⊢
      iprop((gsM.view.loc (c : Thread nD τ) ↦[gsM.view.set]{gsShare 0} f)
        ∗ (gsM.view.loc (c : Thread nD τ) ↦[gsM.view.set]{gsShare 1} f)
        ∗ gsM.view.loc (c : Thread nD τ) ↦[gsM.view.set]{gsShare 2} f) :=
  share_split3 fullShare f

end Cert.KernelProof

end
-- ==== Proof.V.Bits.ViewReads.lean ====
import proofs.«900373_g7700000000000374_dist_matmul_silu_kshard_i_m512_n512_k256_v7x_i4_f32_1_alg».proof.Proof.V.Bits.Regions
import Idealize.ShloMosaic.Lib.ValueLayout

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! # Reading the buffers through their slices

View arithmetic only: what a slice reads after a write through the same elements, what a load through the whole
buffer reads in terms of a slice's read, and the result array as its four row blocks.

* A squeezed slice of a 3 × 128 × 512 buffer reads the 128 × 512 block whose slab the load of that slice reads.
* Two rectangles of the same sizes whose offsets are equal numbers are the same rectangle, so a store or load at the
  offsets one chain of operations computes is seen through the slice at the offsets another chain computes.
* An index `(r, j)` of a 512 × 512 array lies in row block `r / 128`, at row `r % 128` of that block; the slice of the
  rows `128 t …` reads the array there. The four devices `c, bwd 0 c, bwd 1 c, bwd 2 c` are all the devices, so four
  slice reads determine the whole array.
* Disjoint parts of a region held at different contents glue into their union at a contents that agrees with each
  part's on that part; a view's read depends only on the contents under the view, so each slice still reads what it
  read before the gluing. -/

/-! ## A row block as the one slab of a landing slice -/

/-- A 128 × 512 block as a 1 × 128 × 512 value: the unit axis is ignored. -/
def slab1 {e : EltTy} (x : Vec F S128x512 e) : Vec F S1x128x512 e :=
  fun i => x (ValueIdx.ix2 (⟨(i 1).val, (i 1).isLt⟩ : Fin 128) (⟨(i 2).val, (i 2).isLt⟩ : Fin 512))

omit [FloatOps F] in
/-- Dropping the unit axis and putting it back is the identity: the index `(u, r, j)` of a 1 × 128 × 512 value has
    `u = 0`, and the squeezed value at `(r, j)` is the value at `(0, r, j)`. -/
theorem slab1_shapeCast {e : EltTy} (X : Vec F S1x128x512 e) (hc : S1x128x512.ShapeCasts S128x512) :
    slab1 (shapeCast S128x512 X hc) = X := by
  funext i
  show shapeCast S128x512 X hc
    (ValueIdx.ix2 (⟨(i 1).val, (i 1).isLt⟩ : Fin 128) (⟨(i 2).val, (i 2).isLt⟩ : Fin 512)) = X i
  rw [ValueIdx.shapeCast_1ab_ab_apply]
  refine congrArg X (funext fun d => ?_)
  have h0 : (i 0).val < 1 := (i 0).isLt
  match d with
  | ⟨0, _⟩ => exact Fin.ext (by show 0 = (i 0).val; omega)
  | ⟨1, _⟩ => rfl
  | ⟨2, _⟩ => rfl

/-! ## Loads through a whole memref, read as a slice reads -/

omit [FloatOps F] in
/-- A load through a memref at a unit-stride rectangle reads what the memref's slice at that rectangle reads, however
    the rectangle's offsets are spelt. -/
theorem readAt_unit_eq_read_slice {κ : Kind} {sp : Space} {s : Shape} {e : EltTy} (m : Memref sig κ sp s e)
    {off off' size : Fin s.rank → Nat} (h : off = off') (p : ∀ a, off a + size a ≤ s.size a)
    (p' : ∀ a, off' a + size a ≤ s.size a) (hs : ∀ a, (Rect.unit off' size p').stride a = 1)
    (f : m.view.ty.Contents (Elt F)) :
    m.view.readAt (Elt F) (Rect.unit off size p).toLoadRect f = (m.slice (Rect.unit off' size p') hs).view.read (Elt F) f := by
  subst h; rfl

omit [FloatOps F] in
/-- A load of slab `k` of the first landing buffer reads slice `k`'s block, as a slab. -/
theorem comm_load_0 (f : commM.view.ty.Contents (Elt F)) :
    commM.view.readAt (Elt F) (Rect.unit (s := S3x128x512) ![0, 0, 0] S1x128x512.size inb_S3x128x512_S1x128x512_0_0_0).toLoadRect f
      = slab1 ((commSl 0).view.read (Elt F) f) := (slab1_shapeCast _ shapeCasts_S1x128x512_S128x512).symm
omit [FloatOps F] in
theorem comm_load_1 (f : commM.view.ty.Contents (Elt F)) :
    commM.view.readAt (Elt F) (Rect.unit (s := S3x128x512) ![1, 0, 0] S1x128x512.size inb_S3x128x512_S1x128x512_1_0_0).toLoadRect f
      = slab1 ((commSl 1).view.read (Elt F) f) := (slab1_shapeCast _ shapeCasts_S1x128x512_S128x512).symm
omit [FloatOps F] in
theorem comm_load_2 (f : commM.view.ty.Contents (Elt F)) :
    commM.view.readAt (Elt F) (Rect.unit (s := S3x128x512) ![2, 0, 0] S1x128x512.size inb_S3x128x512_S1x128x512_2_0_0).toLoadRect f
      = slab1 ((commSl 2).view.read (Elt F) f) := (slab1_shapeCast _ shapeCasts_S1x128x512_S128x512).symm

omit [FloatOps F] in
/-- The same for the second landing buffer. -/
theorem gr_load_0 (f : grM.view.ty.Contents (Elt F)) :
    grM.view.readAt (Elt F) (Rect.unit (s := S3x128x512) ![0, 0, 0] S1x128x512.size inb_S3x128x512_S1x128x512_0_0_0).toLoadRect f
      = slab1 ((grSl 0).view.read (Elt F) f) := (slab1_shapeCast _ shapeCasts_S1x128x512_S128x512).symm
omit [FloatOps F] in
theorem gr_load_1 (f : grM.view.ty.Contents (Elt F)) :
    grM.view.readAt (Elt F) (Rect.unit (s := S3x128x512) ![1, 0, 0] S1x128x512.size inb_S3x128x512_S1x128x512_1_0_0).toLoadRect f
      = slab1 ((grSl 1).view.read (Elt F) f) := (slab1_shapeCast _ shapeCasts_S1x128x512_S128x512).symm
omit [FloatOps F] in
theorem gr_load_2 (f : grM.view.ty.Contents (Elt F)) :
    grM.view.readAt (Elt F) (Rect.unit (s := S3x128x512) ![2, 0, 0] S1x128x512.size inb_S3x128x512_S1x128x512_2_0_0).toLoadRect f
      = slab1 ((grSl 2).view.read (Elt F) f) := (slab1_shapeCast _ shapeCasts_S1x128x512_S128x512).symm

omit [FloatOps F] in
/-- A load of the send buffer at the rows the body stores before transfer `k` reads what that transfer's slice reads. -/
theorem sb_load (c : Dev nD) (k : Fin 3) (f : sbM.view.ty.Contents (Elt F)) :
    sbM.view.readAt (Elt F) (Rect.unit (s := S512x512) (k0_off2 c (BitVec.ofNat 32 (1 + k.val))) S128x512.size (k0_off2_inb c k)).toLoadRect f
      = (sbSl c k).view.read (Elt F) f :=
  readAt_unit_eq_read_slice sbM ((off2_eq c k).trans (off3_eq c k).symm) _ _ _ f

omit [FloatOps F] in
/-- A load of the device's own rows of the result scratch reads what their slice reads. -/
theorem res_own_load (c : Dev nD) (f : resM.view.ty.Contents (Elt F)) :
    resM.view.readAt (Elt F) (Rect.unit (s := S512x512) (k0_off5 c) S128x512.size (k0_off5_inb c)).toLoadRect f
      = (resOwn c).view.read (Elt F) f :=
  readAt_unit_eq_read_slice resM ((k0_off5_eq c).trans (k0_off6_eq c).symm) _ _ _ f

omit [FloatOps F] in
/-- A load of the result scratch at the rows of the predecessor `bwd k c` reads what their slice reads. -/
theorem res_load (c : Dev nD) (k : Fin 3) (f : resM.view.ty.Contents (Elt F)) :
    resM.view.readAt (Elt F) (Rect.unit (s := S512x512) (k0_off7 c (BitVec.ofNat 32 (1 + k.val))) S128x512.size (k0_off7_inb c k)).toLoadRect f
      = (resSl c k).view.read (Elt F) f :=
  readAt_unit_eq_read_slice resM ((off7_eq c k).trans (off8_eq c k).symm) _ _ _ f

/-! ## Reading a slice after a write -/

omit [FloatOps F] in
/-- Through one view: what was written everywhere is read back. (`View.read_write_univ`, at any view.) -/
theorem read_write_self {κ : Kind} {sp : Space} {s : Shape} {e : EltTy} (v : View sig κ sp s e)
    (f : v.ty.Contents (Elt F)) (w : s.Idx → Elt F e) : v.read (Elt F) (v.write (Elt F) f w Finset.univ) = w :=
  View.read_write_univ f w

omit [FloatOps F] in
/-- A store through a memref at a unit-stride rectangle, read through the memref's slice at that rectangle, however
    the offsets are spelt: the stored value. -/
theorem read_slice_write_access_unit {κ : Kind} {sp : Space} {s : Shape} {e : EltTy} (m : Memref sig κ sp s e)
    {off off' size : Fin s.rank → Nat} (h : off = off') (p : ∀ a, off a + size a ≤ s.size a)
    (p' : ∀ a, off' a + size a ≤ s.size a) (hs : ∀ a, (Rect.unit off' size p').stride a = 1)
    (f : m.view.ty.Contents (Elt F)) (w : (⟨s.rank, size⟩ : Shape).Idx → Elt F e) :
    (m.slice (Rect.unit off' size p') hs).view.read (Elt F)
      ((m.access (Rect.unit off size p)).write (Elt F) f w Finset.univ) = w := by
  subst h; exact View.read_write_univ (v := m.access (Rect.unit off size p)) f w

omit [FloatOps F] in
/-- The rows of the send buffer stored before transfer `k`, read through that transfer's slice. -/
theorem sb_read_store (c : Dev nD) (k : Fin 3) (f : sbM.view.ty.Contents (Elt F)) (w : Vec F S128x512 .bf16) :
    (sbSl c k).view.read (Elt F)
      ((sbM.access (Rect.unit (s := S512x512) (k0_off2 c (BitVec.ofNat 32 (1 + k.val))) S128x512.size (k0_off2_inb c k))).write
        (Elt F) f w Finset.univ) = w :=
  read_slice_write_access_unit sbM ((off2_eq c k).trans (off3_eq c k).symm) _ _ _ f w

omit [FloatOps F] in
/-- The device's own rows of the result scratch, stored and read through their slice. -/
theorem res_own_read_store (c : Dev nD) (f : resM.view.ty.Contents (Elt F)) (w : Vec F S128x512 .f32) :
    (resOwn c).view.read (Elt F)
      ((resM.access (Rect.unit (s := S512x512) (k0_off5 c) S128x512.size (k0_off5_inb c))).write (Elt F) f w Finset.univ) = w :=
  read_slice_write_access_unit resM ((k0_off5_eq c).trans (k0_off6_eq c).symm) _ _ _ f w

omit [FloatOps F] in
/-- The rows of the predecessor `bwd k c` in the result scratch, stored and read through their slice. -/
theorem res_read_store (c : Dev nD) (k : Fin 3) (f : resM.view.ty.Contents (Elt F)) (w : Vec F S128x512 .f32) :
    (resSl c k).view.read (Elt F)
      ((resM.access (Rect.unit (s := S512x512) (k0_off7 c (BitVec.ofNat 32 (1 + k.val))) S128x512.size (k0_off7_inb c k))).write
        (Elt F) f w Finset.univ) = w :=
  read_slice_write_access_unit resM ((off7_eq c k).trans (off8_eq c k).symm) _ _ _ f w

/-! ## The result array from its four row blocks -/

/-- The 512-row array whose row block `t` is `V0` for `t = c` and `V1, V2, V3` for the three predecessors of `c`: row
    `r` is row `r % 128` of block `r / 128`. -/
def ofRowBlks {e : EltTy} (c : Dev nD) (V0 V1 V2 V3 : Vec F S128x512 e) : Vec F S512x512 e := fun i =>
  (if (⟨(i 0).val / 128, by have := ValueIdx.idx2_lt0 i; show _ < 4; omega⟩ : Dev nD) = c then V0
    else if (⟨(i 0).val / 128, by have := ValueIdx.idx2_lt0 i; show _ < 4; omega⟩ : Dev nD) = bwd 0 c then V1
    else if (⟨(i 0).val / 128, by have := ValueIdx.idx2_lt0 i; show _ < 4; omega⟩ : Dev nD) = bwd 1 c then V2 else V3)
    (ValueIdx.ix2 (⟨(i 0).val % 128, Nat.mod_lt _ (by decide)⟩ : Fin 128) (⟨(i 1).val, ValueIdx.idx2_lt1 i⟩ : Fin 512))

omit [FloatOps F] in
/-- The contents of the result array at an index of row block `t` are what the slice of the rows `128 t …` reads at the
    row's position within the block. -/
theorem out_read_rows {off : Fin 2 → ℕ} (t : Dev nD) (h : off = ![128 * t.val, 0])
    (p : ∀ a, off a + S128x512.size a ≤ S512x512.size a) (f : outM.view.ty.Contents (Elt F)) (i : S512x512.Idx)
    (hi : (i 0).val / 128 = t.val) :
    f i = (outM.slice (Rect.unit (s := S512x512) off S128x512.size p) (fun _ => rfl)).view.read (Elt F) f
      (ValueIdx.ix2 (⟨(i 0).val % 128, Nat.mod_lt _ (by decide)⟩ : Fin 128) (⟨(i 1).val, ValueIdx.idx2_lt1 i⟩ : Fin 512)) := by
  subst h
  refine congrArg f (funext fun a => Fin.ext ?_)
  match a with
  | ⟨0, _⟩ => show (i 0).val = 128 * t.val + 1 * ((i 0).val % 128); omega
  | ⟨1, _⟩ => show (i 1).val = 0 + 1 * (i 1).val; omega

omit [FloatOps F] in
/-- Contents of the result array whose four slices read `V0, V1, V2, V3` are those four row blocks put together. -/
theorem out_eq_ofRowBlks (c : Dev nD) (f : outM.view.ty.Contents (Elt F)) (V0 V1 V2 V3 : Vec F S128x512 .f32)
    (h0 : (outOwn c).view.read (Elt F) f = V0) (h1 : (outSl c 0).view.read (Elt F) f = V1)
    (h2 : (outSl c 1).view.read (Elt F) f = V2) (h3 : (outSl c 2).view.read (Elt F) f = V3) :
    f = ofRowBlks c V0 V1 V2 V3 := by
  funext i
  unfold ofRowBlks
  have hq : (i 0).val / 128 < 4 := by have := ValueIdx.idx2_lt0 i; omega
  by_cases e0 : (⟨(i 0).val / 128, hq⟩ : Dev nD) = c
  · rw [if_pos e0, ← h0]
    exact out_read_rows c (k0_off6_eq c) _ f i (congrArg Fin.val e0)
  rw [if_neg e0]
  by_cases e1 : (⟨(i 0).val / 128, hq⟩ : Dev nD) = bwd 0 c
  · rw [if_pos e1, ← h1]
    exact out_read_rows (bwd 0 c) (off8_eq c 0) _ f i (congrArg Fin.val e1)
  rw [if_neg e1]
  by_cases e2 : (⟨(i 0).val / 128, hq⟩ : Dev nD) = bwd 1 c
  · rw [if_pos e2, ← h2]
    exact out_read_rows (bwd 1 c) (off8_eq c 1) _ f i (congrArg Fin.val e2)
  rw [if_neg e2]
  have e3 : (⟨(i 0).val / 128, hq⟩ : Dev nD) = bwd 2 c := by
    rcases bwd_all c ⟨(i 0).val / 128, hq⟩ with e | e | e | e
    · exact absurd e e0
    · exact absurd e e1
    · exact absurd e e2
    · exact e
  rw [← h3]
  exact out_read_rows (bwd 2 c) (off8_eq c 2) _ f i (congrArg Fin.val e3)

/-! ## Gluing four disjoint parts, remembering what each held -/

section Join
variable {ℓ : Loc nD τ sig} {q : PosShare TreeShare}

omit [FloatOps F] in
/-- Two disjoint parts at two contents are their union at a contents that agrees with each on its part. -/
theorem join2_agree {A B : Finset (Idx ℓ)} (h : Disjoint A B) (f g : Buf (Elt F) ℓ) :
    (iprop((ℓ ↦[A]{q} f) ∗ ℓ ↦[B]{q} g) : sProp 𝕄) ⊢
      iprop(∃ u : Buf (Elt F) ℓ, ⌜(∀ i ∈ A, u i = f i) ∧ (∀ i ∈ B, u i = g i)⌝ ∗ ℓ ↦[A ∪ B]{q} u) := by
  iintro ⟨HA, HB⟩
  iexists (B.piecewise g f)
  isplitr
  · ipureintro
    exact ⟨fun i hi => Finset.piecewise_eq_of_notMem _ _ _ (Finset.disjoint_left.mp h hi),
      fun i hi => Finset.piecewise_eq_of_mem _ _ _ hi⟩
  · iapply (pointsTo_join h)
    isplitl [HA]
    · iexact HA
    · iexact HB

omit [FloatOps F] in
/-- The same for four pairwise disjoint parts. -/
theorem join4_agree {A B C D : Finset (Idx ℓ)} (hAB : Disjoint A B) (hAC : Disjoint A C) (hAD : Disjoint A D)
    (hBC : Disjoint B C) (hBD : Disjoint B D) (hCD : Disjoint C D) (fA fB fC fD : Buf (Elt F) ℓ) :
    (iprop((ℓ ↦[A]{q} fA) ∗ (ℓ ↦[B]{q} fB) ∗ (ℓ ↦[C]{q} fC) ∗ ℓ ↦[D]{q} fD) : sProp 𝕄) ⊢
      iprop(∃ u : Buf (Elt F) ℓ, ⌜(∀ i ∈ A, u i = fA i) ∧ (∀ i ∈ B, u i = fB i) ∧ (∀ i ∈ C, u i = fC i)
        ∧ (∀ i ∈ D, u i = fD i)⌝ ∗ ℓ ↦[A ∪ (B ∪ (C ∪ D))]{q} u) := by
  iintro ⟨HA, HB, HC, HD⟩
  ihave H := (join2_agree hCD fC fD) $$ [HC HD]
  · isplitl [HC] <;> iassumption
  icases H with ⟨%u1, %h1, H⟩
  ihave H := (join2_agree (Finset.disjoint_union_right.mpr ⟨hBC, hBD⟩) fB u1) $$ [HB H]
  · isplitl [HB] <;> iassumption
  icases H with ⟨%u2, %h2, H⟩
  ihave H := (join2_agree (Finset.disjoint_union_right.mpr ⟨hAB, Finset.disjoint_union_right.mpr ⟨hAC, hAD⟩⟩) fA u2) $$ [HA H]
  · isplitl [HA] <;> iassumption
  icases H with ⟨%u3, %h3, H⟩
  iexists u3
  isplitr
  · ipureintro
    refine ⟨h3.1, fun i hi => ?_, fun i hi => ?_, fun i hi => ?_⟩
    · rw [h3.2 i (Finset.mem_union_left _ hi), h2.1 i hi]
    · rw [h3.2 i (Finset.mem_union_right _ (Finset.mem_union_left _ hi)), h2.2 i (Finset.mem_union_left _ hi), h1.1 i hi]
    · rw [h3.2 i (Finset.mem_union_right _ (Finset.mem_union_right _ hi)), h2.2 i (Finset.mem_union_right _ hi), h1.2 i hi]
  · iexact H

end Join

omit [FloatOps F] in
/-- The four slices of the result array, each at a contents whose read is known, are the result array at the contents
    made of those four reads. -/
theorem out_join (c : Dev nD) (V0 V1 V2 V3 : Vec F S128x512 .f32) :
    (iprop((∃ f : Buf (Elt F) (outM.view.loc (c : Thread nD τ)), ⌜(outOwn c).view.read (Elt F) f = V0⌝
          ∗ (outOwn c).view.loc (c : Thread nD τ) ↦[(outOwn c).view.set]{fullShare} f)
      ∗ (∃ f : Buf (Elt F) (outM.view.loc (c : Thread nD τ)), ⌜(outSl c 0).view.read (Elt F) f = V1⌝
          ∗ (outSl c 0).view.loc (c : Thread nD τ) ↦[(outSl c 0).view.set]{fullShare} f)
      ∗ (∃ f : Buf (Elt F) (outM.view.loc (c : Thread nD τ)), ⌜(outSl c 1).view.read (Elt F) f = V2⌝
          ∗ (outSl c 1).view.loc (c : Thread nD τ) ↦[(outSl c 1).view.set]{fullShare} f)
      ∗ (∃ f : Buf (Elt F) (outM.view.loc (c : Thread nD τ)), ⌜(outSl c 2).view.read (Elt F) f = V3⌝
          ∗ (outSl c 2).view.loc (c : Thread nD τ) ↦[(outSl c 2).view.set]{fullShare} f)) : sProp 𝕄) ⊢
      iprop(∃ f : Buf (Elt F) (outM.view.loc (c : Thread nD τ)), ⌜f = ofRowBlks c V0 V1 V2 V3⌝
        ∗ outM.view.loc (c : Thread nD τ) ↦[outM.view.set]{fullShare} f) := by
  obtain ⟨hc0, hc1, hc2, h01, h02, h12⟩ := bwd_distinct c
  have hset : outM.view.set = (outOwn c).view.set ∪ ((outSl c 0).view.set ∪ ((outSl c 1).view.set ∪ (outSl c 2).view.set)) := by
    rw [outSl_set, outSl_set, outSl_set, outOwn_set, outM_set]
    exact rowSet_cover c (bwd 0 c) (bwd 1 c) (bwd 2 c) (bwd_all c)
  iintro ⟨⟨%f0, %h0, H0⟩, ⟨%f1, %h1, H1⟩, ⟨%f2, %h2, H2⟩, ⟨%f3, %h3, H3⟩⟩
  ihave H := (join4_agree (A := (outOwn c).view.set) (B := (outSl c 0).view.set) (C := (outSl c 1).view.set)
      (D := (outSl c 2).view.set)
      (by rw [outOwn_set, outSl_set]; exact rowSet_disjoint hc0) (by rw [outOwn_set, outSl_set]; exact rowSet_disjoint hc1)
      (by rw [outOwn_set, outSl_set]; exact rowSet_disjoint hc2) (by rw [outSl_set, outSl_set]; exact rowSet_disjoint h01)
      (by rw [outSl_set, outSl_set]; exact rowSet_disjoint h02) (by rw [outSl_set, outSl_set]; exact rowSet_disjoint h12)
      f0 f1 f2 f3) $$ [H0 H1 H2 H3]
  · isplitl [H0]
    · iexact H0
    isplitl [H1]
    · iexact H1
    isplitl [H2]
    · iexact H2
    · iexact H3
  icases H with ⟨%u, %hu, H⟩
  iexists u
  isplitr
  · ipureintro
    exact out_eq_ofRowBlks c u V0 V1 V2 V3 ((View.read_congr hu.1).trans h0) ((View.read_congr hu.2.1).trans h1)
      ((View.read_congr hu.2.2.1).trans h2) ((View.read_congr hu.2.2.2).trans h3)
  · iapply (Entails.of_eq (congrArg (fun S => (outM.view.loc (c : Thread nD τ) ↦[S]{fullShare} u : sProp 𝕄)) hset.symm))
    iexact H

end Cert.KernelProof

end
-- ==== Proof.V.Bits.OutJoin.lean ====
import proofs.«900373_g7700000000000374_dist_matmul_silu_kshard_i_m512_n512_k256_v7x_i4_f32_1_alg».proof.Proof.V.Bits.Data
import Idealize.ShloMosaic.Lib.ValueIdx

/-! # The result array from its four row blocks

A device's result array is written row block by row block: its own rows from its own activation, each other row block
from the slice that block's owner sent. Holding the four row blocks at those values is holding the whole array at its
named contents. -/

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

namespace OutJoin

variable (a : Dev nD → (cc0_stg0_0 : Ref sig .tc).ty.Contents (Elt F)) (b : Dev nD → (cc0_stg1_0 : Ref sig .tc).ty.Contents (Elt F))

/-- The result array's value at an element of row block `t`, by the element's place `y` in the block. -/
theorem outV_rows (c t : Dev nD) (i : S512x512.Idx) (y : S128x512.Idx)
    (h0 : (i 0).val = 128 * t.val + (y 0).val) (h1 : (i 1).val = (y 1).val) : outV a b c i = rowBlk a b c t y := by
  have hy0 := ValueIdx.idx2_lt0 y
  have ht : (⟨(i 0).val / 128, by have := ValueIdx.idx2_lt0 i; show _ < 4; omega⟩ : Dev nD) = t := Fin.ext (by show (i 0).val / 128 = t.val; omega)
  have hy : (ValueIdx.ix2 (⟨(i 0).val % 128, Nat.mod_lt _ (by decide)⟩ : Fin 128) (⟨(i 1).val, ValueIdx.idx2_lt1 i⟩ : Fin 512) : S128x512.Idx) = y :=
    funext fun x => by
      match x with
      | ⟨0, _⟩ => exact Fin.ext (by show (i 0).val % 128 = (y 0).val; omega)
      | ⟨1, _⟩ => exact Fin.ext h1
  show rowBlk a b c _ _ = _
  rw [ht, hy]

/-- The elements of the result array in row block `t`. -/
def rowSet (t : Dev nD) : Finset S512x512.Idx := Finset.univ.filter fun i => (i 0).val / 128 = t.val

omit [FloatOps F] in
/-- The slice of `128` rows from row `128 t` covers row block `t`. -/
theorem slice_set (t : Dev nD) {off : Fin 2 → ℕ} (h : off = ![128 * t.val, 0]) (inb : ∀ x, off x + S128x512.size x ≤ S512x512.size x) :
    (outM.slice (Rect.unit (s := S512x512) off S128x512.size inb) (fun _ => rfl)).view.set = rowSet t := by
  subst h
  have e : (outM.slice (Rect.unit (s := S512x512) ![128 * t.val, 0] S128x512.size inb) (fun _ => rfl)).view.set
      = (Rect.unit (s := S512x512) ![128 * t.val, 0] S128x512.size inb).set :=
    View.set_slice_whole main_v1 (Rect.unit (s := S512x512) ![128 * t.val, 0] S128x512.size inb)
  rw [e]
  ext i
  have h1 := ValueIdx.idx2_lt1 i
  have h0 := ValueIdx.idx2_lt0 i
  rw [Rect.mem_set_unit]
  unfold rowSet
  rw [Finset.mem_filter, Fin.forall_fin_two]
  constructor
  · rintro ⟨⟨ha, hb⟩, -⟩
    refine ⟨Finset.mem_univ _, ?_⟩
    have ha' : 128 * t.val ≤ (i 0).val := ha
    have hb' : (i 0).val < 128 * t.val + 128 := hb
    omega
  · rintro ⟨-, ht⟩
    refine ⟨⟨?_, ?_⟩, ⟨Nat.zero_le _, ?_⟩⟩
    · show 128 * t.val ≤ (i 0).val; omega
    · show (i 0).val < 128 * t.val + 128; omega
    · show (i 1).val < 0 + 512; omega

/-- A row block held at its named value is its elements of the whole array held at the array's named contents. -/
theorem holdsV_rows (c t : Dev nD) {off : Fin 2 → ℕ} (h : off = ![128 * t.val, 0]) (inb : ∀ x, off x + S128x512.size x ≤ S512x512.size x)
    (V : S128x512.Idx → Elt F .f32) (hV : rowBlk a b c t = V) :
    holdsV (F := F) c (outM.slice (Rect.unit (s := S512x512) off S128x512.size inb) (fun _ => rfl)) V
      ⊢ (((c : Thread nD τ).loc main_v1) ↦[rowSet t]{fullShare} (outV a b c : Buf (Elt F) ((c : Thread nD τ).loc main_v1)) : sProp 𝕄) := by
  have hc : ∀ (f : Buf (Elt F) ((c : Thread nD τ).loc main_v1))
      (hf : (outM.slice (Rect.unit (s := S512x512) off S128x512.size inb) (fun _ => rfl)).view.read (Elt F) f = V),
      ∀ i ∈ (rowSet t : Finset (Idx ((c : Thread nD τ).loc main_v1))), f i = (outV a b c : Buf (Elt F) ((c : Thread nD τ).loc main_v1)) i := fun f hf i hi => by
    have hi' : ((i : S512x512.Idx) 0).val / 128 = t.val := (Finset.mem_filter.mp hi).2
    have h0 := ValueIdx.idx2_lt0 (i : S512x512.Idx)
    subst h
    let y : S128x512.Idx := ValueIdx.ix2 (⟨((i : S512x512.Idx) 0).val % 128, Nat.mod_lt _ (by decide)⟩ : Fin 128) (⟨((i : S512x512.Idx) 1).val, ValueIdx.idx2_lt1 (i : S512x512.Idx)⟩ : Fin 512)
    have he : (outM.slice (Rect.unit (s := S512x512) ![128 * t.val, 0] S128x512.size inb) (fun _ => rfl)).view.emb y = i :=
      funext fun x => by
        match x with
        | ⟨0, _⟩ => exact Fin.ext (by show 128 * t.val + 1 * (((i : S512x512.Idx) 0).val % 128) = ((i : S512x512.Idx) 0).val; omega)
        | ⟨1, _⟩ => exact Fin.ext (by show 0 + 1 * ((i : S512x512.Idx) 1).val = ((i : S512x512.Idx) 1).val; omega)
    have e1 : f i = V y := by rw [← hf, ← he]; rfl
    have e2 : (outV a b c : S512x512.Idx → Elt F .f32) i = rowBlk a b c t y :=
      outV_rows a b c t i y (by show _ = 128 * t.val + ((i : S512x512.Idx) 0).val % 128; omega) rfl
    rw [e1, ← hV]; exact e2.symm
  unfold holdsV
  rw [slice_set t h inb]
  iintro ⟨%f, %hf, H⟩
  iapply (Entails.of_eq (pointsTo_congr (hc f hf)))
  iexact H

omit [FloatOps F] in
theorem bwd0_ne (c : Dev nD) : bwd 0 c ≠ c := by revert c; decide
omit [FloatOps F] in
theorem bwd1_ne (c : Dev nD) : bwd 1 c ≠ c ∧ bwd 1 c ≠ bwd 0 c := by revert c; decide
omit [FloatOps F] in
theorem bwd2_ne (c : Dev nD) : bwd 2 c ≠ c ∧ bwd 2 c ≠ bwd 0 c ∧ bwd 2 c ≠ bwd 1 c := by revert c; decide
omit [FloatOps F] in
theorem devs_list (c : Dev nD) : (Finset.univ : Finset (Dev nD)) = [c, bwd 0 c, bwd 1 c, bwd 2 c].toFinset ∧ [c, bwd 0 c, bwd 1 c, bwd 2 c].Nodup := by
  revert c; decide

theorem rowBlk_self (c : Dev nD) : rowBlk a b c c = resOwnV a b c := by unfold rowBlk; rw [if_pos rfl]
theorem rowBlk_bwd0 (c : Dev nD) : rowBlk a b c (bwd 0 c) = backV a b c 0 := by
  unfold rowBlk; rw [if_neg (bwd0_ne c), if_pos rfl]
theorem rowBlk_bwd1 (c : Dev nD) : rowBlk a b c (bwd 1 c) = backV a b c 1 := by
  unfold rowBlk; rw [if_neg (bwd1_ne c).1, if_neg (bwd1_ne c).2, if_pos rfl]
theorem rowBlk_bwd2 (c : Dev nD) : rowBlk a b c (bwd 2 c) = backV a b c 2 := by
  unfold rowBlk; rw [if_neg (bwd2_ne c).1, if_neg (bwd2_ne c).2.1, if_neg (bwd2_ne c).2.2]

omit [FloatOps F] in
/-- The four row blocks are the whole array. -/
theorem rows_cover : (Finset.univ : Finset (Dev nD)).biUnion rowSet = (Finset.univ : Finset S512x512.Idx) := by
  ext i
  simp only [Finset.mem_biUnion, Finset.mem_univ, true_and, iff_true]
  exact ⟨⟨(i 0).val / 128, by have := ValueIdx.idx2_lt0 i; show _ < 4; omega⟩, Finset.mem_filter.mpr ⟨Finset.mem_univ _, rfl⟩⟩

omit [FloatOps F] in
theorem rows_disjoint (t t' : Dev nD) (h : t ≠ t') : Disjoint (rowSet t) (rowSet t') :=
  Finset.disjoint_left.mpr fun i hi hi' =>
    h (Fin.ext (((Finset.mem_filter.mp hi).2).symm.trans (Finset.mem_filter.mp hi').2))

/-- THE JOIN: a device that holds its own rows of the result array at its activation and each other row block at what
    that block's owner sent holds the whole result array at its named contents. -/
theorem out_join (c : Dev nD) :
    iprop(holdsV (F := F) c (outOwn c) (resOwnV a b c) ∗ holdsV (F := F) c (outSl c 0) (backV a b c 0)
        ∗ holdsV (F := F) c (outSl c 1) (backV a b c 1) ∗ holdsV (F := F) c (outSl c 2) (backV a b c 2))
      ⊢ holdsV (F := F) c outM (outV a b c) := by
  have hwhole : (((c : Thread nD τ).loc main_v1) ↦{fullShare} (outV a b c : Buf (Elt F) ((c : Thread nD τ).loc main_v1)) : sProp 𝕄)
      = iprop((((c : Thread nD τ).loc main_v1) ↦[rowSet c]{fullShare} (outV a b c : Buf (Elt F) ((c : Thread nD τ).loc main_v1)))
          ∗ (((c : Thread nD τ).loc main_v1) ↦[rowSet (bwd 0 c)]{fullShare} (outV a b c : Buf (Elt F) ((c : Thread nD τ).loc main_v1)))
          ∗ (((c : Thread nD τ).loc main_v1) ↦[rowSet (bwd 1 c)]{fullShare} (outV a b c : Buf (Elt F) ((c : Thread nD τ).loc main_v1)))
          ∗ (((c : Thread nD τ).loc main_v1) ↦[rowSet (bwd 2 c)]{fullShare} (outV a b c : Buf (Elt F) ((c : Thread nD τ).loc main_v1)))) := by
    have hb : ((((c : Thread nD τ).loc main_v1) ↦[(Finset.univ : Finset (Dev nD)).biUnion rowSet]{fullShare}
          (outV a b c : Buf (Elt F) ((c : Thread nD τ).loc main_v1)) : sProp 𝕄)
        = bigSep Finset.univ fun t : Dev nD => (((c : Thread nD τ).loc main_v1) ↦[rowSet t]{fullShare}
            (outV a b c : Buf (Elt F) ((c : Thread nD τ).loc main_v1)))) :=
      pointsTo_biUnion _ _ (fun t _ t' _ h => rows_disjoint t t' h)
    rw [rows_cover] at hb
    rw [show (((c : Thread nD τ).loc main_v1) ↦{fullShare} (outV a b c : Buf (Elt F) ((c : Thread nD τ).loc main_v1)) : sProp 𝕄) = _ from hb,
      bigSep_univ_eq_bigSepL [c, bwd 0 c, bwd 1 c, bwd 2 c] (devs_list c).1 (devs_list c).2]
    rfl
  have e : (Memref.whole main_v1 : Memref sig .tc _ _ _).view.set = Finset.univ := View.set_whole _
  iintro ⟨H0, H1, H2, H3⟩
  ihave P0 := (holdsV_rows a b c c (k0_off6_eq c) (k0_off6_inb c) _ (rowBlk_self a b c)) $$ H0
  ihave P1 := (holdsV_rows a b c (bwd 0 c) (off8_eq c 0) (k0_off8_inb c 0) _ (rowBlk_bwd0 a b c)) $$ H1
  ihave P2 := (holdsV_rows a b c (bwd 1 c) (off8_eq c 1) (k0_off8_inb c 1) _ (rowBlk_bwd1 a b c)) $$ H2
  ihave P3 := (holdsV_rows a b c (bwd 2 c) (off8_eq c 2) (k0_off8_inb c 2) _ (rowBlk_bwd2 a b c)) $$ H3
  unfold holdsV
  iexists (outV a b c : Buf (Elt F) ((c : Thread nD τ).loc main_v1))
  isplitr
  · ipureintro; rfl
  · rw [e, hwhole]
    isplitl [P0]; · iexact P0
    isplitl [P1]; · iexact P1
    isplitl [P2]; · iexact P2
    iexact P3

end OutJoin

end Cert.KernelProof

end
-- ==== Proof.V.Bits.Cuts.lean ====
import proofs.«900373_g7700000000000374_dist_matmul_silu_kshard_i_m512_n512_k256_v7x_i4_f32_1_alg».proof.Proof.V.Bits.Regions

/-! # Cutting a buffer into its slices at fixed contents

A region that is a disjoint union, held at contents `f`, is its parts, each held at the same `f`: the cuts of the send
buffer, the result scratch and the result array into row blocks, and of the two landing buffers into slices, that keep
the contents — so that what a slice reads after the cut is what the buffer's contents say. -/

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section CutsAt
variable {ℓ : Loc nD τ sig} {q : PosShare TreeShare}

omit [FloatOps F] in
theorem cut3_at {A B C : Finset (Idx ℓ)} (hAB : Disjoint A B) (hAC : Disjoint A C) (hBC : Disjoint B C) (f : Buf (Elt F) ℓ) :
    (ℓ ↦[A ∪ (B ∪ C)]{q} f : sProp 𝕄) ⊣⊢ iprop((ℓ ↦[A]{q} f) ∗ (ℓ ↦[B]{q} f) ∗ (ℓ ↦[C]{q} f)) :=
  (pointsTo_union (Finset.disjoint_union_right.mpr ⟨hAB, hAC⟩)).trans (sep_congr_right (pointsTo_union hBC))

omit [FloatOps F] in
theorem cut4_at {A B C D : Finset (Idx ℓ)} (hAB : Disjoint A B) (hAC : Disjoint A C) (hAD : Disjoint A D)
    (hBC : Disjoint B C) (hBD : Disjoint B D) (hCD : Disjoint C D) (f : Buf (Elt F) ℓ) :
    (ℓ ↦[A ∪ (B ∪ (C ∪ D))]{q} f : sProp 𝕄) ⊣⊢ iprop((ℓ ↦[A]{q} f) ∗ (ℓ ↦[B]{q} f) ∗ (ℓ ↦[C]{q} f) ∗ (ℓ ↦[D]{q} f)) :=
  (pointsTo_union (Finset.disjoint_union_right.mpr ⟨hAB, Finset.disjoint_union_right.mpr ⟨hAC, hAD⟩⟩)).trans
    (sep_congr_right (cut3_at hBC hBD hCD f))

end CutsAt

omit [FloatOps F] in
/-- The send buffer at contents `f` is its four row blocks at `f`. -/
theorem sb_cut (c : Dev nD) (f : Buf (Elt F) (sbM.view.loc (c : Thread nD τ))) :
    (sbM.view.loc (c : Thread nD τ) ↦[sbM.view.set]{fullShare} f : sProp 𝕄) ⊣⊢
      iprop(((sbSl c 0).view.loc (c : Thread nD τ) ↦[(sbSl c 0).view.set]{fullShare} f)
        ∗ ((sbSl c 1).view.loc (c : Thread nD τ) ↦[(sbSl c 1).view.set]{fullShare} f)
        ∗ ((sbSl c 2).view.loc (c : Thread nD τ) ↦[(sbSl c 2).view.set]{fullShare} f)
        ∗ ((sbOwn c).view.loc (c : Thread nD τ) ↦[(sbOwn c).view.set]{fullShare} f)) := by
  obtain ⟨h01, h02, h0c, h12, h1c, h2c⟩ := fwd_distinct c
  rw [sbSl_set, sbSl_set, sbSl_set, sbOwn_set, sbM_set, rowSet_cover (fwd 0 c) (fwd 1 c) (fwd 2 c) c (fwd_all c)]
  exact cut4_at (rowSet_disjoint h01) (rowSet_disjoint h02) (rowSet_disjoint h0c) (rowSet_disjoint h12)
    (rowSet_disjoint h1c) (rowSet_disjoint h2c) f

omit [FloatOps F] in
/-- The result scratch at contents `f` is its four row blocks at `f`. -/
theorem res_cut (c : Dev nD) (f : Buf (Elt F) (resM.view.loc (c : Thread nD τ))) :
    (resM.view.loc (c : Thread nD τ) ↦[resM.view.set]{fullShare} f : sProp 𝕄) ⊣⊢
      iprop(((resOwn c).view.loc (c : Thread nD τ) ↦[(resOwn c).view.set]{fullShare} f)
        ∗ ((resSl c 0).view.loc (c : Thread nD τ) ↦[(resSl c 0).view.set]{fullShare} f)
        ∗ ((resSl c 1).view.loc (c : Thread nD τ) ↦[(resSl c 1).view.set]{fullShare} f)
        ∗ ((resSl c 2).view.loc (c : Thread nD τ) ↦[(resSl c 2).view.set]{fullShare} f)) := by
  obtain ⟨hc0, hc1, hc2, h01, h02, h12⟩ := bwd_distinct c
  rw [resSl_set, resSl_set, resSl_set, resOwn_set, resM_set, rowSet_cover c (bwd 0 c) (bwd 1 c) (bwd 2 c) (bwd_all c)]
  exact cut4_at (rowSet_disjoint hc0) (rowSet_disjoint hc1) (rowSet_disjoint hc2) (rowSet_disjoint h01)
    (rowSet_disjoint h02) (rowSet_disjoint h12) f

omit [FloatOps F] in
/-- The result array likewise. -/
theorem out_cut (c : Dev nD) (f : Buf (Elt F) (outM.view.loc (c : Thread nD τ))) :
    (outM.view.loc (c : Thread nD τ) ↦[outM.view.set]{fullShare} f : sProp 𝕄) ⊣⊢
      iprop(((outOwn c).view.loc (c : Thread nD τ) ↦[(outOwn c).view.set]{fullShare} f)
        ∗ ((outSl c 0).view.loc (c : Thread nD τ) ↦[(outSl c 0).view.set]{fullShare} f)
        ∗ ((outSl c 1).view.loc (c : Thread nD τ) ↦[(outSl c 1).view.set]{fullShare} f)
        ∗ ((outSl c 2).view.loc (c : Thread nD τ) ↦[(outSl c 2).view.set]{fullShare} f)) := by
  obtain ⟨hc0, hc1, hc2, h01, h02, h12⟩ := bwd_distinct c
  rw [outSl_set, outSl_set, outSl_set, outOwn_set, outM_set, rowSet_cover c (bwd 0 c) (bwd 1 c) (bwd 2 c) (bwd_all c)]
  exact cut4_at (rowSet_disjoint hc0) (rowSet_disjoint hc1) (rowSet_disjoint hc2) (rowSet_disjoint h01)
    (rowSet_disjoint h02) (rowSet_disjoint h12) f

omit [FloatOps F] in
/-- The first landing buffer at contents `f` is its three slices at `f`. -/
theorem comm_cut (c : Dev nD) (f : Buf (Elt F) (commM.view.loc (c : Thread nD τ))) :
    (commM.view.loc (c : Thread nD τ) ↦[commM.view.set]{fullShare} f : sProp 𝕄) ⊣⊢
      iprop(((commSl 0).view.loc (c : Thread nD τ) ↦[(commSl 0).view.set]{fullShare} f)
        ∗ ((commSl 1).view.loc (c : Thread nD τ) ↦[(commSl 1).view.set]{fullShare} f)
        ∗ ((commSl 2).view.loc (c : Thread nD τ) ↦[(commSl 2).view.set]{fullShare} f)) := by
  rw [commSl_set_0, commSl_set_1, commSl_set_2, commM_set, slab_cover]
  exact cut3_at (slab_disjoint (by decide)) (slab_disjoint (by decide)) (slab_disjoint (by decide)) f

omit [FloatOps F] in
/-- The second landing buffer likewise. -/
theorem gr_cut (c : Dev nD) (f : Buf (Elt F) (grM.view.loc (c : Thread nD τ))) :
    (grM.view.loc (c : Thread nD τ) ↦[grM.view.set]{fullShare} f : sProp 𝕄) ⊣⊢
      iprop(((grSl 0).view.loc (c : Thread nD τ) ↦[(grSl 0).view.set]{fullShare} f)
        ∗ ((grSl 1).view.loc (c : Thread nD τ) ↦[(grSl 1).view.set]{fullShare} f)
        ∗ ((grSl 2).view.loc (c : Thread nD τ) ↦[(grSl 2).view.set]{fullShare} f)) := by
  rw [grSl_set_0, grSl_set_1, grSl_set_2, grM_set, slab_cover]
  exact cut3_at (slab_disjoint (by decide)) (slab_disjoint (by decide)) (slab_disjoint (by decide)) f

end Cert.KernelProof

end
-- ==== Proof.V.Bits.Named.lean ====
import proofs.«900373_g7700000000000374_dist_matmul_silu_kshard_i_m512_n512_k256_v7x_i4_f32_1_alg».proof.Proof.V.Bits.ViewReads
import proofs.«900373_g7700000000000374_dist_matmul_silu_kshard_i_m512_n512_k256_v7x_i4_f32_1_alg».proof.Proof.V.Bits.Contents

/-! # Loads and stores by name

What a load reads from a buffer written whole is what was written; what a load reads from a staged block is the
block. With these the values the body computes are the named contents: the narrow copy of the second block, the three
partial products sent, the own partial product, the activation in its two formats, and the rows put back. -/

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (a : Dev nD → (cc0_stg0_0 : Ref sig .tc).ty.Contents (Elt F)) (b : Dev nD → (cc0_stg1_0 : Ref sig .tc).ty.Contents (Elt F))

omit [FloatOps F] in
theorem zero2 : (![0, 0] : Fin 2 → ℕ) = fun _ => 0 := funext fun x => by fin_cases x <;> rfl

omit [FloatOps F] in
/-- A load through the rectangle of the one store made reads what was stored. -/
theorem readAt_writes_single {κ : Kind} {sp : Space} {s : Shape} {e : EltTy} (v : View sig κ sp s e) (R : Rect s)
    (f : v.ty.Contents (Elt F)) (w : R.shape.Idx → Elt F e) :
    v.readAt (Elt F) R.toLoadRect (v.writes (Elt F) f [⟨R, w⟩]) = w :=
  View.read_write_univ (v := v.slice R) f w

omit [FloatOps F] in
/-- A whole load of the staged second block reads the block. -/
theorem b_load (x : (cc0_stg1_0 : Ref sig .tc).ty.Contents (Elt F)) :
    View.readAt (Elt F) (Memref.whole cc0_stg1_0 : Memref sig .tc _ _ _).view
      (Rect.unit (s := S256x512) ![0, 0] S256x512.size inb_S256x512_S256x512_0_0).toLoadRect x = x :=
  Memref.readAt_unit_zero (Elt F) cc0_stg1_0 zero2 _ x

/-- The narrow second block, loaded after its store. -/
theorem bbf_named (c : Dev nD) (fbbf : Buf (Elt F) (bbfM.view.loc (c : Thread nD τ))) :
    View.readAt (Elt F) bbfM.view (Rect.unit (s := S256x512) ![0, 0] S256x512.size inb_S256x512_S256x512_0_0).toLoadRect
      (bbfM.view.writes (Elt F) fbbf [⟨Rect.unit (s := S256x512) ![0, 0] S256x512.size inb_S256x512_S256x512_0_0,
        k0_pay1 (View.readAt (Elt F) (Memref.whole cc0_stg1_0 : Memref sig .tc _ _ _).view
          (Rect.unit (s := S256x512) ![0, 0] S256x512.size inb_S256x512_S256x512_0_0).toLoadRect (b c))⟩])
      = bbfV b c := by
  rw [readAt_writes_single, b_load]; rfl

omit [FloatOps F] in
theorem slab1_eq_lift1 {e : EltTy} (x : Vec F S128x512 e) : slab1 x = lift1 x := rfl

/-! ## The first exchange: what is stored into the send buffer before each transfer -/

theorem sent_named0 (c : Dev nD) (f : sbM.view.ty.Contents (Elt F)) (X : Vec F S256x512 .bf16) (hX : X = bbfV b c) :
    (sbSl c 0).view.read (Elt F) (sbM.view.writes (Elt F) f
      [⟨Rect.unit (s := S512x512) (k0_off2 c 1#32) S128x512.size (k0_off2_inb c 0), k0_pay3 (k0_pay2 (rowsA a c 0)) X⟩])
      = sentV a b c 0 := by
  subst hX; exact sb_read_store c 0 f _

theorem sent_named1 (c : Dev nD) (f : sbM.view.ty.Contents (Elt F)) (X : Vec F S256x512 .bf16) (hX : X = bbfV b c) :
    (sbSl c 1).view.read (Elt F) (sbM.view.writes (Elt F) f
      [⟨Rect.unit (s := S512x512) (k0_off2 c 2#32) S128x512.size (k0_off2_inb c 1), k0_pay5 (k0_pay4 (rowsA a c 1) X)⟩])
      = sentV a b c 1 := by
  subst hX; exact sb_read_store c 1 f _

theorem sent_named2 (c : Dev nD) (f : sbM.view.ty.Contents (Elt F)) (X : Vec F S256x512 .bf16) (hX : X = bbfV b c) :
    (sbSl c 2).view.read (Elt F) (sbM.view.writes (Elt F) f
      [⟨Rect.unit (s := S512x512) (k0_off2 c 3#32) S128x512.size (k0_off2_inb c 2), k0_pay6 (rowsA a c 2) X⟩])
      = sentV a b c 2 := by
  subst hX; exact sb_read_store c 2 f _

/-! ## The own partial product and the landed ones -/

/-- The own partial product, loaded after its store. -/
theorem own_load_named (c : Dev nD) (fown : ownM.view.ty.Contents (Elt F)) (X : Vec F S256x512 .bf16) (hX : X = bbfV b c) :
    View.readAt (Elt F) ownM.view (Rect.unit (s := S128x512) ![0, 0] S128x512.size inb_S128x512_S128x512_0_0).toLoadRect
      (ownM.view.writes (Elt F) fown [⟨Rect.unit (s := S128x512) ![0, 0] S128x512.size inb_S128x512_S128x512_0_0,
        k0_pay7 (ownRows a c) X⟩]) = ownV a b c := by
  subst hX; rw [readAt_writes_single]; rfl

omit [FloatOps F] in
theorem comm_load_named0 (V : Vec F S128x512 .bf16) (f : commM.view.ty.Contents (Elt F)) (hf : (commSl 0).view.read (Elt F) f = V) :
    commM.view.readAt (Elt F) (Rect.unit (s := S3x128x512) ![0, 0, 0] S1x128x512.size inb_S3x128x512_S1x128x512_0_0_0).toLoadRect f = lift1 V := by
  rw [comm_load_0, hf]; rfl
omit [FloatOps F] in
theorem comm_load_named1 (V : Vec F S128x512 .bf16) (f : commM.view.ty.Contents (Elt F)) (hf : (commSl 1).view.read (Elt F) f = V) :
    commM.view.readAt (Elt F) (Rect.unit (s := S3x128x512) ![1, 0, 0] S1x128x512.size inb_S3x128x512_S1x128x512_1_0_0).toLoadRect f = lift1 V := by
  rw [comm_load_1, hf]; rfl
omit [FloatOps F] in
theorem comm_load_named2 (V : Vec F S128x512 .bf16) (f : commM.view.ty.Contents (Elt F)) (hf : (commSl 2).view.read (Elt F) f = V) :
    commM.view.readAt (Elt F) (Rect.unit (s := S3x128x512) ![2, 0, 0] S1x128x512.size inb_S3x128x512_S1x128x512_2_0_0).toLoadRect f = lift1 V := by
  rw [comm_load_2, hf]; rfl
omit [FloatOps F] in
theorem gr_load_named0 (V : Vec F S128x512 .bf16) (f : grM.view.ty.Contents (Elt F)) (hf : (grSl 0).view.read (Elt F) f = V) :
    grM.view.readAt (Elt F) (Rect.unit (s := S3x128x512) ![0, 0, 0] S1x128x512.size inb_S3x128x512_S1x128x512_0_0_0).toLoadRect f = lift1 V := by
  rw [gr_load_0, hf]; rfl
omit [FloatOps F] in
theorem gr_load_named1 (V : Vec F S128x512 .bf16) (f : grM.view.ty.Contents (Elt F)) (hf : (grSl 1).view.read (Elt F) f = V) :
    grM.view.readAt (Elt F) (Rect.unit (s := S3x128x512) ![1, 0, 0] S1x128x512.size inb_S3x128x512_S1x128x512_1_0_0).toLoadRect f = lift1 V := by
  rw [gr_load_1, hf]; rfl
omit [FloatOps F] in
theorem gr_load_named2 (V : Vec F S128x512 .bf16) (f : grM.view.ty.Contents (Elt F)) (hf : (grSl 2).view.read (Elt F) f = V) :
    grM.view.readAt (Elt F) (Rect.unit (s := S3x128x512) ![2, 0, 0] S1x128x512.size inb_S3x128x512_S1x128x512_2_0_0).toLoadRect f = lift1 V := by
  rw [gr_load_2, hf]; rfl

/-! ## The activation, stored wide into the result scratch and narrow into the source of the second exchange -/

theorem own_named (c : Dev nD) (f : resM.view.ty.Contents (Elt F)) (O : Vec F S128x512 .f32) (C0 C1 C2 : Vec F S1x128x512 .bf16)
    (hO : O = ownV a b c) (h0 : C0 = commV a b c 0) (h1 : C1 = commV a b c 1) (h2 : C2 = commV a b c 2) :
    (resOwn c).view.read (Elt F) (resM.view.writes (Elt F) f
      [⟨Rect.unit (s := S512x512) (k0_off5 c) S128x512.size (k0_off5_inb c), k0_pay9 O C0 C1 C2⟩]) = resOwnV a b c := by
  subst hO h0 h1 h2; exact res_own_read_store c f _

theorem gs_named (c : Dev nD) (f : gsM.view.ty.Contents (Elt F)) (O : Vec F S128x512 .f32) (C0 C1 C2 : Vec F S1x128x512 .bf16)
    (hO : O = ownV a b c) (h0 : C0 = commV a b c 0) (h1 : C1 = commV a b c 1) (h2 : C2 = commV a b c 2) :
    gsM.view.read (Elt F) (gsM.view.writes (Elt F) f
      [⟨Rect.unit (s := S128x512) ![0, 0] S128x512.size inb_S128x512_S128x512_0_0, k0_pay10 O C0 C1 C2⟩]) = gsV a b c := by
  subst hO h0 h1 h2
  show ((Memref.whole cc0_scratch4 : Memref sig .tc _ _ _).access (Rect.unit (s := S128x512) ![0, 0] S128x512.size inb_S128x512_S128x512_0_0)).write
    (Elt F) f (k0_pay10 (ownV a b c) (commV a b c 0) (commV a b c 1) (commV a b c 2)) Finset.univ = gsV a b c
  exact Memref.write_access_unit_zero_univ (Elt F) cc0_scratch4 zero2 _ f _

/-! ## The rows put back from the second landing buffer -/

theorem back_named0 (c : Dev nD) (f : resM.view.ty.Contents (Elt F)) (G : Vec F S1x128x512 .bf16) (hG : G = grV a b c 0) :
    (resSl c 0).view.read (Elt F) (resM.view.writes (Elt F) f
      [⟨Rect.unit (s := S512x512) (k0_off7 c 1#32) S128x512.size (k0_off7_inb c 0), k0_pay11 G⟩]) = backV a b c 0 := by
  subst hG; exact res_read_store c 0 f _
theorem back_named1 (c : Dev nD) (f : resM.view.ty.Contents (Elt F)) (G : Vec F S1x128x512 .bf16) (hG : G = grV a b c 1) :
    (resSl c 1).view.read (Elt F) (resM.view.writes (Elt F) f
      [⟨Rect.unit (s := S512x512) (k0_off7 c 2#32) S128x512.size (k0_off7_inb c 1), k0_pay12 G⟩]) = backV a b c 1 := by
  subst hG; exact res_read_store c 1 f _
theorem back_named2 (c : Dev nD) (f : resM.view.ty.Contents (Elt F)) (G : Vec F S1x128x512 .bf16) (hG : G = grV a b c 2) :
    (resSl c 2).view.read (Elt F) (resM.view.writes (Elt F) f
      [⟨Rect.unit (s := S512x512) (k0_off7 c 3#32) S128x512.size (k0_off7_inb c 2), k0_pay13 G⟩]) = backV a b c 2 := by
  subst hG; exact res_read_store c 2 f _

end Cert.KernelProof

end
-- ==== Proof.V.Bits.Body.lean ====
import proofs.«900373_g7700000000000374_dist_matmul_silu_kshard_i_m512_n512_k256_v7x_i4_f32_1_alg».proof.Proof.V.Bits.Data
import proofs.«900373_g7700000000000374_dist_matmul_silu_kshard_i_m512_n512_k256_v7x_i4_f32_1_alg».proof.Proof.Gen.Kernel.Points
import proofs.«900373_g7700000000000374_dist_matmul_silu_kshard_i_m512_n512_k256_v7x_i4_f32_1_alg».proof.Proof.V.Bits.PayloadStorable
import proofs.«900373_g7700000000000374_dist_matmul_silu_kshard_i_m512_n512_k256_v7x_i4_f32_1_alg».proof.Proof.V.Bits.LaunchCredit
import proofs.«900373_g7700000000000374_dist_matmul_silu_kshard_i_m512_n512_k256_v7x_i4_f32_1_alg».proof.Proof.V.Bits.Regions
import proofs.«900373_g7700000000000374_dist_matmul_silu_kshard_i_m512_n512_k256_v7x_i4_f32_1_alg».proof.Proof.V.Bits.Shares
import proofs.«900373_g7700000000000374_dist_matmul_silu_kshard_i_m512_n512_k256_v7x_i4_f32_1_alg».proof.Proof.V.Bits.ViewReads
import proofs.«900373_g7700000000000374_dist_matmul_silu_kshard_i_m512_n512_k256_v7x_i4_f32_1_alg».proof.Proof.V.Bits.OutJoin
import proofs.«900373_g7700000000000374_dist_matmul_silu_kshard_i_m512_n512_k256_v7x_i4_f32_1_alg».proof.Proof.V.Bits.Cuts
import proofs.«900373_g7700000000000374_dist_matmul_silu_kshard_i_m512_n512_k256_v7x_i4_f32_1_alg».proof.Proof.V.Bits.Named

/-! # One device's body, stepped once at a symbolic device -/

noncomputable section

namespace Cert.KernelProof

open Cert.Kernel Cert.Kernel.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] duties_bar duties_s1 duties_r1 duties_s2 duties_r2 duties_cs
  amount_bar amount_s1 amount_r1 amount_s2 amount_r2 amount_cs
  expect_bar expect_s1 expect_r1 expect_s2 expect_r2 expect_cs
  payload_bar payload_s1 payload_r1 payload_s2 payload_r2 payload_cs0 payload_cs
  dev1_eq dev2_eq dev3_eq dev4_eq dev5_eq dev6_eq dev7_eq dev8_eq dev9_eq

/-- The entry unit device `c` sends its successor `fwd d c`: the two landing slices `2 - d` on `c` itself, and that `c`
    stands at the start of the two arrival cells the successor's writes credit. -/
theorem barPay_fwd0 (c : Dev nD) : barPay (F := F) (fwd 0 c) 0 =
    iprop((∃ f : Buf (Elt F) ((commSl 2).view.loc (c : Thread nD τ)), (commSl 2).view.loc (c : Thread nD τ) ↦[(commSl 2).view.set]{fullShare} f)
      ∗ (∃ f : Buf (Elt F) ((grSl 2).view.loc (c : Thread nD τ)), (grSl 2).view.loc (c : Thread nD τ) ↦[(grSl 2).view.set]{fullShare} f)
      ∗ reached ER (r1Cell c 2) 0 ∗ reached ER (r2Cell c 2) 0) := by
  unfold barPay holds; rw [bwd_fwd]; rfl
theorem barPay_fwd1 (c : Dev nD) : barPay (F := F) (fwd 1 c) 1 =
    iprop((∃ f : Buf (Elt F) ((commSl 1).view.loc (c : Thread nD τ)), (commSl 1).view.loc (c : Thread nD τ) ↦[(commSl 1).view.set]{fullShare} f)
      ∗ (∃ f : Buf (Elt F) ((grSl 1).view.loc (c : Thread nD τ)), (grSl 1).view.loc (c : Thread nD τ) ↦[(grSl 1).view.set]{fullShare} f)
      ∗ reached ER (r1Cell c 1) 0 ∗ reached ER (r2Cell c 1) 0) := by
  unfold barPay holds; rw [bwd_fwd]; rfl
theorem barPay_fwd2 (c : Dev nD) : barPay (F := F) (fwd 2 c) 2 =
    iprop((∃ f : Buf (Elt F) ((commSl 0).view.loc (c : Thread nD τ)), (commSl 0).view.loc (c : Thread nD τ) ↦[(commSl 0).view.set]{fullShare} f)
      ∗ (∃ f : Buf (Elt F) ((grSl 0).view.loc (c : Thread nD τ)), (grSl 0).view.loc (c : Thread nD τ) ↦[(grSl 0).view.set]{fullShare} f)
      ∗ reached ER (r1Cell c 0) 0 ∗ reached ER (r2Cell c 0) 0) := by
  unfold barPay holds; rw [bwd_fwd]; rfl

attribute [local sl_rounds] barPay_fwd0 barPay_fwd1 barPay_fwd2

theorem O₀_flat (c : Dev nD) : O₀ c =
    tallyAt (r2Cell (fwd 2 c) 2) () Nb + tallyAt (r2Cell (fwd 1 c) 1) () Nb + tallyAt (r2Cell (fwd 0 c) 0) () Nb
    + tallyAt (r1Cell (fwd 2 c) 2) () Nb + tallyAt (r1Cell (fwd 1 c) 1) () Nb + tallyAt (r1Cell (fwd 0 c) 0) () Nb
    + tallyAt (barCell (fwd 2 c)) () 1 + tallyAt (barCell (fwd 1 c)) () 1 + tallyAt (barCell (fwd 0 c)) () 1 := by
  unfold O₀ owedR2 owedR1 owedBar; simp only [add_assoc]

/-- A whole buffer's points-to read through the whole-buffer memref. -/
theorem whole_pts (c : Dev nD) (b : Ref sig .tc) (q : PosShare TreeShare) (f : Buf (Elt F) ((c : Thread nD τ).loc b)) :
    ((Memref.whole b).view.loc (c : Thread nD τ) ↦[(Memref.whole b).view.set]{q} f : sProp 𝕄) = (((c : Thread nD τ).loc b) ↦{q} f) := by
  rw [show (Memref.whole b).view.set = Finset.univ from View.set_whole _]

/-- What is still owed after the entry signals: the six arrivals. -/
abbrev owedArr (c : Dev nD) : CellTallies nD τ sig Unit :=
  tallyAt (r2Cell (fwd 2 c) 2) () Nb + tallyAt (r2Cell (fwd 1 c) 1) () Nb + tallyAt (r2Cell (fwd 0 c) 0) () Nb
    + tallyAt (r1Cell (fwd 2 c) 2) () Nb + tallyAt (r1Cell (fwd 1 c) 1) () Nb + tallyAt (r1Cell (fwd 0 c) 0) () Nb

/-- Every cell among the six arrivals lies at height 2 or 3. -/
theorem owedArr_high {c : Dev nD} {g : GSem nD τ sig} {u : Unit} (h : 0 < owedArr c g u) : u ∈ L g ∧ 2 ≤ lv g u := by
  unfold owedArr at h
  rcases Pipeline.add_pos_cases h with h | h
  · rcases Pipeline.add_pos_cases h with h | h
    · rcases Pipeline.add_pos_cases h with h | h
      · rcases Pipeline.add_pos_cases h with h | h
        · rcases Pipeline.add_pos_cases h with h | h
          · obtain ⟨rfl, rfl⟩ := Pipeline.tallyAt_pos h; exact ⟨by rw [L_tc]; exact Finset.mem_singleton_self _, by rw [lv_r2]; decide⟩
          · obtain ⟨rfl, rfl⟩ := Pipeline.tallyAt_pos h; exact ⟨by rw [L_tc]; exact Finset.mem_singleton_self _, by rw [lv_r2]; decide⟩
        · obtain ⟨rfl, rfl⟩ := Pipeline.tallyAt_pos h; exact ⟨by rw [L_tc]; exact Finset.mem_singleton_self _, by rw [lv_r2]; decide⟩
      · obtain ⟨rfl, rfl⟩ := Pipeline.tallyAt_pos h; exact ⟨by rw [L_tc]; exact Finset.mem_singleton_self _, by rw [lv_r1]⟩
    · obtain ⟨rfl, rfl⟩ := Pipeline.tallyAt_pos h; exact ⟨by rw [L_tc]; exact Finset.mem_singleton_self _, by rw [lv_r1]⟩
  · obtain ⟨rfl, rfl⟩ := Pipeline.tallyAt_pos h; exact ⟨by rw [L_tc]; exact Finset.mem_singleton_self _, by rw [lv_r1]⟩

/-- The entry wait, with the six arrivals still owed: the entry cell lies below them all. -/
theorem mayWait_bar (c : Dev nD) : (levAts L lv : sProp 𝕄) ⊢ MayWait (c : Thread nD τ) (.reg barS) () (owedArr c) :=
  Pipeline.mayWait_of_levAts (by rw [L_tc]; exact Finset.mem_singleton_self _)
    (fun g i hg => ⟨(owedArr_high hg).1, by rw [lv_bar]; exact lt_of_lt_of_le (by decide) (owedArr_high hg).2⟩)

/-- The entry round's three units, none yet taken: one lending per predecessor. -/
theorem rest_bar (c : Dev nD) : bigSep ((conv (F := F) (aS m ρ) (bS m ρ)).duties (barCell c) 0 \ ∅) (fun d => (conv (F := F) (aS m ρ) (bS m ρ)).payload (barCell c) 0 d)
    = iprop(barPay (F := F) c 0 ∗ barPay (F := F) c 1 ∗ barPay (F := F) c 2) := by
  rw [Finset.sdiff_empty, duties_bar, bigSep_univ_eq_bigSepL [(0 : Fin 3), 1, 2] (by decide) (by decide), bigSepL_cons_cons, bigSepL_cons_cons, bigSepL_singleton,
    payload_bar, payload_bar, payload_bar]
  rfl

theorem bwd0 (c : Dev nD) : bwd 0 c = fwd 2 c := by revert c; decide
theorem bwd1 (c : Dev nD) : bwd 1 c = fwd 1 c := by revert c; decide
theorem bwd2 (c : Dev nD) : bwd 2 c = fwd 0 c := by revert c; decide
theorem rev0 : rev 0 = 2 := by decide
theorem rev1 : rev 1 = 1 := by decide
theorem rev2 : rev 2 = 0 := by decide

/-- What is still owed after the first exchange's transfers: the three second arrivals. -/
abbrev owedArr2 (c : Dev nD) : CellTallies nD τ sig Unit :=
  tallyAt (r2Cell (fwd 2 c) 2) () Nb + tallyAt (r2Cell (fwd 1 c) 1) () Nb + tallyAt (r2Cell (fwd 0 c) 0) () Nb

theorem owedArr2_high {c : Dev nD} {g : GSem nD τ sig} {u : Unit} (h : 0 < owedArr2 c g u) : u ∈ L g ∧ lv g u = 3 := by
  unfold owedArr2 at h
  rcases Pipeline.add_pos_cases h with h | h
  · rcases Pipeline.add_pos_cases h with h | h
    · obtain ⟨rfl, rfl⟩ := Pipeline.tallyAt_pos h; exact ⟨by rw [L_tc]; exact Finset.mem_singleton_self _, by rw [lv_r2]⟩
    · obtain ⟨rfl, rfl⟩ := Pipeline.tallyAt_pos h; exact ⟨by rw [L_tc]; exact Finset.mem_singleton_self _, by rw [lv_r2]⟩
  · obtain ⟨rfl, rfl⟩ := Pipeline.tallyAt_pos h; exact ⟨by rw [L_tc]; exact Finset.mem_singleton_self _, by rw [lv_r2]⟩

/-- A wait on a cell below height 3 while only second arrivals are owed. -/
theorem mayWait_mid (c : Dev nD) (s : SemLoc sig) (hs : lv ((c : Thread nD τ), s) () < 3) :
    (levAts L lv : sProp 𝕄) ⊢ MayWait (c : Thread nD τ) s () (owedArr2 c) :=
  Pipeline.mayWait_of_levAts (by rw [L_tc]; exact Finset.mem_singleton_self _)
    (fun g i hg => ⟨(owedArr2_high hg).1, by rw [(owedArr2_high hg).2]; exact hs⟩)

theorem lv_s1' (c : Dev nD) (k : Fin 3) : lv (s1Cell c k) () < 3 := by unfold lv; rw [role_s1]; exact (by decide : (0 : ℕ) < 3)
theorem lv_r1' (c : Dev nD) (k : Fin 3) : lv (r1Cell c k) () < 3 := by unfold lv; rw [role_r1]; exact (by decide : (2 : ℕ) < 3)

theorem rest_s1 (c : Dev nD) (k : Fin 3) : bigSep ((conv (F := F) (aS m ρ) (bS m ρ)).duties (s1Cell c k) 0 \ ∅) (fun d => (conv (F := F) (aS m ρ) (bS m ρ)).payload (s1Cell c k) 0 d) = holds (F := F) c (sbSl c k) := by
  rw [Finset.sdiff_empty, duties_s1, bigSep_singleton, payload_s1]
theorem rest_r1 (c : Dev nD) (k : Fin 3) : bigSep ((conv (F := F) (aS m ρ) (bS m ρ)).duties (r1Cell c k) 0 \ ∅) (fun d => (conv (F := F) (aS m ρ) (bS m ρ)).payload (r1Cell c k) 0 d) = holdsV (F := F) c (commSl k) (sentV (aS m ρ) (bS m ρ) (bwd k c) k) := by
  rw [Finset.sdiff_empty, duties_r1, bigSep_singleton, payload_r1]
theorem rest_s2 (c : Dev nD) (k : Fin 3) : bigSep ((conv (F := F) (aS m ρ) (bS m ρ)).duties (s2Cell c k) 0 \ ∅) (fun d => (conv (F := F) (aS m ρ) (bS m ρ)).payload (s2Cell c k) 0 d) = holdsAt (F := F) (gsShare k) c gsM := by
  rw [Finset.sdiff_empty, duties_s2, bigSep_singleton, payload_s2]
theorem rest_r2 (c : Dev nD) (k : Fin 3) : bigSep ((conv (F := F) (aS m ρ) (bS m ρ)).duties (r2Cell c k) 0 \ ∅) (fun d => (conv (F := F) (aS m ρ) (bS m ρ)).payload (r2Cell c k) 0 d) = holdsV (F := F) c (grSl k) (gsV (aS m ρ) (bS m ρ) (bwd k c)) := by
  rw [Finset.sdiff_empty, duties_r2, bigSep_singleton, payload_r2]
theorem rest_cs0 (c : Dev nD) : bigSep ((conv (F := F) (aS m ρ) (bS m ρ)).duties (csCell c 0) 0 \ ∅) (fun d => (conv (F := F) (aS m ρ) (bS m ρ)).payload (csCell c 0) 0 d) = iprop(holdsV (F := F) c (outOwn c) (resOwnV (aS m ρ) (bS m ρ) c) ∗ holds (F := F) c (resOwn c)) := by
  rw [Finset.sdiff_empty, duties_cs, bigSep_singleton, payload_cs0]
theorem rest_cs (c : Dev nD) (k : Fin 3) : bigSep ((conv (F := F) (aS m ρ) (bS m ρ)).duties (csCell c k.succ) 0 \ ∅) (fun d => (conv (F := F) (aS m ρ) (bS m ρ)).payload (csCell c k.succ) 0 d) = iprop(holdsV (F := F) c (outSl c k) (backV (aS m ρ) (bS m ρ) c k) ∗ holds (F := F) c (resSl c k)) := by
  rw [Finset.sdiff_empty, duties_cs, bigSep_singleton, payload_cs]

theorem full_s2 (c : Dev nD) (k : Fin 3) : bigSep ((conv (F := F) (aS m ρ) (bS m ρ)).duties (s2Cell c k) 0) (fun d => (conv (F := F) (aS m ρ) (bS m ρ)).payload (s2Cell c k) 0 d) = holdsAt (F := F) (gsShare k) c gsM := by
  rw [duties_s2, bigSep_singleton, payload_s2]
theorem full_r2 (c : Dev nD) (k : Fin 3) : bigSep ((conv (F := F) (aS m ρ) (bS m ρ)).duties (r2Cell c k) 0) (fun d => (conv (F := F) (aS m ρ) (bS m ρ)).payload (r2Cell c k) 0 d) = holdsV (F := F) c (grSl k) (gsV (aS m ρ) (bS m ρ) (bwd k c)) := by
  rw [duties_r2, bigSep_singleton, payload_r2]
theorem full_cs0 (c : Dev nD) : bigSep ((conv (F := F) (aS m ρ) (bS m ρ)).duties (csCell c 0) 0) (fun d => (conv (F := F) (aS m ρ) (bS m ρ)).payload (csCell c 0) 0 d) = iprop(holdsV (F := F) c (outOwn c) (resOwnV (aS m ρ) (bS m ρ) c) ∗ holds (F := F) c (resOwn c)) := by
  rw [duties_cs, bigSep_singleton, payload_cs0]
theorem full_cs (c : Dev nD) (k : Fin 3) : bigSep ((conv (F := F) (aS m ρ) (bS m ρ)).duties (csCell c k.succ) 0) (fun d => (conv (F := F) (aS m ρ) (bS m ρ)).payload (csCell c k.succ) 0 d) = iprop(holdsV (F := F) c (outSl c k) (backV (aS m ρ) (bS m ρ) c k) ∗ holds (F := F) c (resSl c k)) := by
  rw [duties_cs, bigSep_singleton, payload_cs]

theorem full_cs1 (c : Dev nD) : bigSep ((conv (F := F) (aS m ρ) (bS m ρ)).duties (csCell c 1) 0) (fun d => (conv (F := F) (aS m ρ) (bS m ρ)).payload (csCell c 1) 0 d) = iprop(holdsV (F := F) c (outSl c 0) (backV (aS m ρ) (bS m ρ) c 0) ∗ holds (F := F) c (resSl c 0)) := full_cs m ρ c 0

theorem full_cs2 (c : Dev nD) : bigSep ((conv (F := F) (aS m ρ) (bS m ρ)).duties (csCell c 2) 0) (fun d => (conv (F := F) (aS m ρ) (bS m ρ)).payload (csCell c 2) 0 d) = iprop(holdsV (F := F) c (outSl c 1) (backV (aS m ρ) (bS m ρ) c 1) ∗ holds (F := F) c (resSl c 1)) := full_cs m ρ c 1

theorem full_cs3 (c : Dev nD) : bigSep ((conv (F := F) (aS m ρ) (bS m ρ)).duties (csCell c 3) 0) (fun d => (conv (F := F) (aS m ρ) (bS m ρ)).payload (csCell c 3) 0 d) = iprop(holdsV (F := F) c (outSl c 2) (backV (aS m ρ) (bS m ρ) c 2) ∗ holds (F := F) c (resSl c 2)) := full_cs m ρ c 2

section Body

variable (K : Dev nD × Fin 17 → ℕ)

/-- Transfer `k` of the second exchange, addressed to `n = fwd k c`: the finished rows leave through share `k` of their
    one source. -/
theorem wp_send2 (c n : Dev nD) (k : Fin 3) (hn : n = fwd k c) (κ₁ κ₂ : ℕ)
    {hsc : (grSl k : Memref sig (Dev.tc n : Thread nD τ).2.kind .vmem S128x512 .bf16).view.ref.isScScratch = false}
    {hsrc : (gsM : Memref sig .tc .vmem S128x512 .bf16).view.WordExact} {hdst : (grSl k).view.WordExact}
    {hsem : DmaTarget.Typed .vmem (.dma (r2S k)) (.remote (Dev.tc n : Thread nD τ) (grSl k) (.dma (s2S k)) hsc)}
    {α : Type} {Q : α → sProp 𝕄} {k' : PUnit → Prog (TpuEff nD τ sig (Elt F) Λ₀ .tc) α}
    (fs : Buf (Elt F) ((gsM : Memref sig .tc .vmem S128x512 .bf16).view.loc (c : Thread nD τ))) (fn : Buf (Elt F) ((grSl k).view.loc (fwd k c : Thread nD τ)))
    (O₀ O : CellTallies nD τ sig Unit) (hO : O₀ = O + tallyAt (r2Cell (fwd k c) k) () Nb) (W : Waits sig Unit) :
    iprop(cellInv ER (conv (F := F) (aS m ρ) (bS m ρ)) κ₁ (s2Cell c k) ∗ cellInv ER (conv (F := F) (aS m ρ) (bS m ρ)) κ₂ (r2Cell (fwd k c) k)
        ∗ ((gsM : Memref sig .tc .vmem S128x512 .bf16).view.loc (c : Thread nD τ) ↦[(gsM : Memref sig .tc .vmem S128x512 .bf16).view.set]{gsShare k} fs)
        ∗ ((grSl k).view.loc (fwd k c : Thread nD τ) ↦[(grSl k).view.set]{fullShare} fn)
        ∗ owes (c : Thread nD τ) O₀ W
        ∗ dutyTok ER (s2Cell c k) 0 0 ∗ reached ER (s2Cell c k) 0
        ∗ dutyTok ER (r2Cell (fwd k c) k) 0 0 ∗ reached ER (r2Cell (fwd k c) k) 0
        ∗ ⌜(gsM : Memref sig .tc .vmem S128x512 .bf16).view.read (Elt F) fs = gsV (aS m ρ) (bS m ρ) c⌝)
      ⊢ iprop(((cred (tallyAt (s2Cell c k) () Nb) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma gsM (.remote (Dev.tc n : Thread nD τ) (grSl k) (.dma (s2S k)) hsc) (.dma (r2S k)) hsrc hdst hsem) k') Q) := by
  subst hn
  iintro ⟨J1, J2, Hs, Hd, HO, T1, R1, T2, R2, %hfs⟩
  iapply (Rounds.wp_send_pointsTo 𝒱₀ ER (conv (F := F) (aS m ρ) (bS m ρ)) (c : Thread nD τ) none (κ₁ := κ₁) (κ₂ := κ₂)
    (r₁ := 0) (r₂ := 0) (d₁ := 0) (d₂ := 0) (fd := fn)
    (by rw [duties_s2]; exact Finset.mem_singleton_self _) (by rw [duties_r2]; exact Finset.mem_singleton_self _)
    () () Nb (by fin_cases k <;> rfl) (amount_s2 (F := F) (aS m ρ) (bS m ρ) c k 0) (amount_r2 (F := F) (aS m ρ) (bS m ρ) (fwd k c) k 0) O hO (W := W)
    (by rw [payload_s2]; unfold holdsAt; iintro H; iexists fs; iexact H)
    (by rw [payload_r2, bwd_fwd]; unfold holdsV; iintro H; iexists _; isplitr
        · ipureintro; exact (read_write_self (grSl k).view fn _).trans hfs
        · iexact H))
  isplitl [J1]; · iexact J1
  isplitl [J2]; · iexact J2
  isplitl [Hs]; · iexact Hs
  isplitl [Hd]; · iexact Hd
  isplitl [HO]; · iexact HO
  isplitl [T1]; · iexact T1
  isplitl [R1]; · iexact R1
  isplitl [T2]; · iexact T2
  iexact R2

/-- The copy of the device's own finished rows from the result scratch to the result array, paid by the device itself. -/
theorem wp_copyOwn (c : Dev nD) (κ : ℕ)
    {hsrc : (resOwn c).view.WordExact} {hdst : (outOwn c).view.WordExact} {hsem : DmaTarget.Typed (nD := nD) .vmem (.dma (csS 0)) (DmaTarget.here (p := ((c : Dev nD) : Thread nD τ).2) (outOwn c))}
    {α : Type} {Q : α → sProp 𝕄} {k' : PUnit → Prog (TpuEff nD τ sig (Elt F) Λ₀ .tc) α}
    (fs : Buf (Elt F) ((resOwn c).view.loc (c : Thread nD τ))) (fd : Buf (Elt F) ((outOwn c).view.loc (c : Thread nD τ))) :
    iprop(cellInv ER (conv (F := F) (aS m ρ) (bS m ρ)) κ (csCell c 0)
        ∗ ((resOwn c).view.loc (c : Thread nD τ) ↦[(resOwn c).view.set]{fullShare} fs)
        ∗ ((outOwn c).view.loc (c : Thread nD τ) ↦[(outOwn c).view.set]{fullShare} fd)
        ∗ dutyTok ER (csCell c 0) 0 0 ∗ reached ER (csCell c 0) 0
        ∗ ⌜(resOwn c).view.read (Elt F) fs = resOwnV (aS m ρ) (bS m ρ) c⌝)
      ⊢ iprop((cred (tallyAt (csCell c 0) () Nf) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (resOwn c) (.here (outOwn c)) (.dma (csS 0)) hsrc hdst hsem) k') Q) := by
  iintro ⟨J1, Hs, Hd, T1, R1, %hfs⟩
  iapply (Rounds.wp_copy_pointsTo 𝒱₀ ER (conv (F := F) (aS m ρ) (bS m ρ)) (c : Thread nD τ) none (κ := κ) (r := 0) (d := 0) (q := fullShare) (fs := fs) (fd := fd)
    (by rw [duties_cs]; exact Finset.mem_singleton_self _) () Nf rfl (amount_cs (F := F) (aS m ρ) (bS m ρ) c 0 0)
    (by rw [payload_cs0]; unfold holds holdsV; iintro ⟨H1, H2⟩; isplitl [H1]
        · iexists _; isplitr
          · ipureintro; exact (read_write_self (outOwn c).view fd _).trans hfs
          · iexact H1
        iexists _; iexact H2))
  isplitl [J1]; · iexact J1
  isplitl [Hs]; · iexact Hs
  isplitl [Hd]; · iexact Hd
  isplitl [T1]; · iexact T1
  iexact R1

/-- The copy of the rows that came from `bwd k c`. -/
theorem wp_copyK (c : Dev nD) (k : Fin 3) (κ : ℕ)
    {hsrc : (resSl c k).view.WordExact} {hdst : (outSl c k).view.WordExact} {hsem : DmaTarget.Typed (nD := nD) .vmem (.dma (csS k.succ)) (DmaTarget.here (p := ((c : Dev nD) : Thread nD τ).2) (outSl c k))}
    {α : Type} {Q : α → sProp 𝕄} {k' : PUnit → Prog (TpuEff nD τ sig (Elt F) Λ₀ .tc) α}
    (fs : Buf (Elt F) ((resSl c k).view.loc (c : Thread nD τ))) (fd : Buf (Elt F) ((outSl c k).view.loc (c : Thread nD τ))) :
    iprop(cellInv ER (conv (F := F) (aS m ρ) (bS m ρ)) κ (csCell c k.succ)
        ∗ ((resSl c k).view.loc (c : Thread nD τ) ↦[(resSl c k).view.set]{fullShare} fs)
        ∗ ((outSl c k).view.loc (c : Thread nD τ) ↦[(outSl c k).view.set]{fullShare} fd)
        ∗ dutyTok ER (csCell c k.succ) 0 0 ∗ reached ER (csCell c k.succ) 0
        ∗ ⌜(resSl c k).view.read (Elt F) fs = backV (aS m ρ) (bS m ρ) c k⌝)
      ⊢ iprop((cred (tallyAt (csCell c k.succ) () Nf) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (resSl c k) (.here (outSl c k)) (.dma (csS k.succ)) hsrc hdst hsem) k') Q) := by
  iintro ⟨J1, Hs, Hd, T1, R1, %hfs⟩
  iapply (Rounds.wp_copy_pointsTo 𝒱₀ ER (conv (F := F) (aS m ρ) (bS m ρ)) (c : Thread nD τ) none (κ := κ) (r := 0) (d := 0) (q := fullShare) (fs := fs) (fd := fd)
    (by rw [duties_cs]; exact Finset.mem_singleton_self _) () Nf rfl (amount_cs (F := F) (aS m ρ) (bS m ρ) c k.succ 0)
    (by rw [payload_cs]; unfold holds holdsV; iintro ⟨H1, H2⟩; isplitl [H1]
        · iexists _; isplitr
          · ipureintro; exact (read_write_self (outSl c k).view fd _).trans hfs
          · iexact H1
        iexists _; iexact H2))
  isplitl [J1]; · iexact J1
  isplitl [Hs]; · iexact Hs
  isplitl [Hd]; · iexact Hd
  isplitl [T1]; · iexact T1
  iexact R1

/-- Transfer `k` of the first exchange, addressed to `n = fwd k c`: the rows leave through a departure duty of `c` and an
    arrival duty of the target, whose landing slice `c` holds on loan. -/
theorem wp_send1 (c n : Dev nD) (k : Fin 3) (hn : n = fwd k c) (κ₁ κ₂ : ℕ)
    {hsc : (commSl k : Memref sig (Dev.tc n : Thread nD τ).2.kind .vmem S128x512 .bf16).view.ref.isScScratch = false}
    {hsrc : (sbSl c k).view.WordExact} {hdst : (commSl k).view.WordExact}
    {hsem : DmaTarget.Typed .vmem (.dma (r1S k)) (.remote (Dev.tc n : Thread nD τ) (commSl k) (.dma (s1S k)) hsc)}
    {α : Type} {Q : α → sProp 𝕄} {k' : PUnit → Prog (TpuEff nD τ sig (Elt F) Λ₀ .tc) α}
    (fs : Buf (Elt F) ((sbSl c k).view.loc (c : Thread nD τ))) (fn : Buf (Elt F) ((commSl k).view.loc (fwd k c : Thread nD τ)))
    (O : CellTallies nD τ sig Unit) (W : Waits sig Unit) :
    iprop(cellInv ER (conv (F := F) (aS m ρ) (bS m ρ)) κ₁ (s1Cell c k) ∗ cellInv ER (conv (F := F) (aS m ρ) (bS m ρ)) κ₂ (r1Cell (fwd k c) k)
        ∗ ((sbSl c k).view.loc (c : Thread nD τ) ↦[(sbSl c k).view.set]{fullShare} fs)
        ∗ ((commSl k).view.loc (fwd k c : Thread nD τ) ↦[(commSl k).view.set]{fullShare} fn)
        ∗ owes (c : Thread nD τ) (O + tallyAt (r1Cell (fwd k c) k) () Nb) W
        ∗ dutyTok ER (s1Cell c k) 0 0 ∗ reached ER (s1Cell c k) 0
        ∗ dutyTok ER (r1Cell (fwd k c) k) 0 0 ∗ reached ER (r1Cell (fwd k c) k) 0
        ∗ ⌜(sbSl c k).view.read (Elt F) fs = sentV (aS m ρ) (bS m ρ) c k⌝)
      ⊢ iprop(((cred (tallyAt (s1Cell c k) () Nb) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (sbSl c k) (.remote (Dev.tc n : Thread nD τ) (commSl k) (.dma (s1S k)) hsc) (.dma (r1S k)) hsrc hdst hsem) k') Q) := by
  subst hn
  iintro ⟨J1, J2, Hs, Hd, HO, T1, R1, T2, R2, %hfs⟩
  iapply (Rounds.wp_send_pointsTo 𝒱₀ ER (conv (F := F) (aS m ρ) (bS m ρ)) (c : Thread nD τ) none (κ₁ := κ₁) (κ₂ := κ₂)
    (r₁ := 0) (r₂ := 0) (d₁ := 0) (d₂ := 0) (fd := fn)
    (by rw [duties_s1]; exact Finset.mem_singleton_self _) (by rw [duties_r1]; exact Finset.mem_singleton_self _)
    () () Nb (by fin_cases k <;> rfl) (amount_s1 (F := F) (aS m ρ) (bS m ρ) c k 0) (amount_r1 (F := F) (aS m ρ) (bS m ρ) (fwd k c) k 0) O rfl (W := W)
    (by rw [payload_s1]; unfold holds; iintro H; iexists fs; iexact H)
    (by rw [payload_r1, bwd_fwd]; unfold holdsV; iintro H; iexists _; isplitr
        · ipureintro; exact (read_write_self (commSl k).view fn _).trans hfs
        · iexact H))
  isplitl [J1]; · iexact J1
  isplitl [J2]; · iexact J2
  isplitl [Hs]; · iexact Hs
  isplitl [Hd]; · iexact Hd
  isplitl [HO]; · iexact HO
  isplitl [T1]; · iexact T1
  isplitl [R1]; · iexact R1
  isplitl [T2]; · iexact T2
  iexact R2

/-- An assertion under an opaque name: the same assertion, which unification does not unfold. -/
def stash (P : sProp 𝕄) : sProp 𝕄 := P
theorem stash_eq (P : sProp 𝕄) : stash (F := F) P = P := rfl
attribute [irreducible] stash

theorem rest_cs1 (c : Dev nD) : bigSep ((conv (F := F) (aS m ρ) (bS m ρ)).duties (csCell c 1) 0 \ ∅) (fun d => (conv (F := F) (aS m ρ) (bS m ρ)).payload (csCell c 1) 0 d) = iprop(holdsV (F := F) c (outSl c 0) (backV (aS m ρ) (bS m ρ) c 0) ∗ holds (F := F) c (resSl c 0)) := rest_cs m ρ c 0
theorem rest_cs2 (c : Dev nD) : bigSep ((conv (F := F) (aS m ρ) (bS m ρ)).duties (csCell c 2) 0 \ ∅) (fun d => (conv (F := F) (aS m ρ) (bS m ρ)).payload (csCell c 2) 0 d) = iprop(holdsV (F := F) c (outSl c 1) (backV (aS m ρ) (bS m ρ) c 1) ∗ holds (F := F) c (resSl c 1)) := rest_cs m ρ c 1
theorem rest_cs3 (c : Dev nD) : bigSep ((conv (F := F) (aS m ρ) (bS m ρ)).duties (csCell c 3) 0 \ ∅) (fun d => (conv (F := F) (aS m ρ) (bS m ρ)).payload (csCell c 3) 0 d) = iprop(holdsV (F := F) c (outSl c 2) (backV (aS m ρ) (bS m ρ) c 2) ∗ holds (F := F) c (resSl c 2)) := rest_cs m ρ c 2

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost (F := F) m ρ K c ∗ creds (F := F) c ∗ levAts L lv ∗ holds (F := F) c outM ∗ scratch (F := F) c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) m ρ c ∗ (dats m ρ 0 c).owesAt () t₀.succ ∗ stg c cc0_stg0_0 (aS m ρ c) ∗ stg c cc0_stg1_0 (bS m ρ c))

set_option maxHeartbeats 4000000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11) Kt := by
  unfold bodyPre ghost invs poss marks payToks creds scratch
  iintro ⟨⟨⟨⟨⟨#I0, #I1, #I2, #I3, #I4, #I5, #I6, #I7, #I8, #I9, #I10, #I11, #I12, #I13, #I14, #I15, #I16, #I17, #I18, #I19, #I20, #I21, #I22, #I23, #I24, #I25⟩, ⟨Hp0, Hp1, Hp2, Hp3, Hp4, Hp5, Hp6, Hp7, Hp8, Hp9, Hp10, Hp11, Hp12, Hp13, Hp14, Hp15, Hp16⟩, ⟨#R0, #R1, #R2, #R3, #R4, #R5, #R6, #R7, #R8, #R9, #R10, #R11, #R12, #R13, #R14, #R15, #R16, #R17, #R18, #R19, #R20, #R21, #R22, #R23, #R24⟩, ⟨T0, T1, T2, T3, T4, T5, T6, T7, T8, T9, T10, T11, T12, T13, T14, T15, T16, T17, T18⟩⟩, ⟨Hc0, Hc1, Hc2, Hc3, Hc4, Hc5, Hc6⟩, #Hlev, Hout, ⟨Hbbf, Hown, Hsb, Hcomm, Hgs, Hgr, Hres⟩⟩,
    Ho, ⟨%d0, %g0, %hg0, Hx⟩, ⟨%d1, %g1, %hg1, Hb⟩⟩, Hk⟩
  have hx : g0 = aS m ρ c := by rw [hg0]; unfold Dat.before; rw [if_pos (fetch0_0 t₀)]; rfl
  subst hx
  have hb : g1 = bS m ρ c := by rw [hg1]; unfold Dat.before; rw [if_pos (fetch0_1 t₀)]; rfl
  subst hb
  unfold Dat.owesAt Pipeline.owesWithin
  icases Ho with ⟨%W, %hW, HO⟩
  rw [show (dats m ρ 0 c).owed t₀.castSucc = O₀ c from rfl, O₀_flat]
  -- the two landing buffers by slices
  ihave Hcs := (comm_split (F := F) c).1 $$ Hcomm
  ihave Hgs' := (gr_split (F := F) c).1 $$ Hgr
  unfold holds
  icases Hcs with ⟨⟨%fc0, Hc_0⟩, ⟨%fc1, Hc_1⟩, ⟨%fc2, Hc_2⟩⟩
  icases Hgs' with ⟨⟨%fg0, Hg_0⟩, ⟨%fg1, Hg_1⟩, ⟨%fg2, Hg_2⟩⟩
  icases Hbbf with ⟨%fbbf, Hbbf⟩
  icases Hown with ⟨%fown, Hown⟩
  icases Hgs with ⟨%fgs, Hgs⟩
  icases Hsb with ⟨%fsb, Hsb⟩
  icases Hres with ⟨%fres, Hres⟩
  icases Hout with ⟨%fout, Hout⟩
  -- the two staged blocks read through their memrefs
  ihave Hx := (Entails.of_eq (whole_pts (F := F) c cc0_stg0_0 fullShare (aS m ρ c)).symm) $$ Hx
  ihave Hb := (Entails.of_eq (whole_pts (F := F) c cc0_stg1_0 fullShare (bS m ρ c)).symm) $$ Hb
  -- the rectangles the body loads and stores through are the slices' element sets
  have hsbI0 : ((Memref.whole cc0_scratch2 : Memref sig .tc .vmem S512x512 .bf16).access (Rect.unit (s := S512x512) (k0_off2 c 1#32) S128x512.size (k0_off2_inb c 0))).set ⊆ (sbSl c 0).view.set :=
    ((View.set_slice_whole _ _).trans (sb_store_set c 0)).le
  have hsbI1 : ((Memref.whole cc0_scratch2 : Memref sig .tc .vmem S512x512 .bf16).access (Rect.unit (s := S512x512) (k0_off2 c 2#32) S128x512.size (k0_off2_inb c 1))).set ⊆ (sbSl c 1).view.set :=
    ((View.set_slice_whole _ _).trans (sb_store_set c 1)).le
  have hsbI2 : ((Memref.whole cc0_scratch2 : Memref sig .tc .vmem S512x512 .bf16).access (Rect.unit (s := S512x512) (k0_off2 c 3#32) S128x512.size (k0_off2_inb c 2))).set ⊆ (sbSl c 2).view.set :=
    ((View.set_slice_whole _ _).trans (sb_store_set c 2)).le
  have hresI : ((Memref.whole cc0_scratch6 : Memref sig .tc .vmem S512x512 .f32).access (Rect.unit (s := S512x512) (k0_off5 c) S128x512.size (k0_off5_inb c))).set ⊆ (resOwn c).view.set :=
    ((View.set_slice_whole _ _).trans (res_own_store_set c)).le
  have hresI0 : ((Memref.whole cc0_scratch6 : Memref sig .tc .vmem S512x512 .f32).access (Rect.unit (s := S512x512) (k0_off7 c 1#32) S128x512.size (k0_off7_inb c 0))).set ⊆ (resSl c 0).view.set :=
    ((View.set_slice_whole _ _).trans (res_store_set c 0)).le
  have hresI1 : ((Memref.whole cc0_scratch6 : Memref sig .tc .vmem S512x512 .f32).access (Rect.unit (s := S512x512) (k0_off7 c 2#32) S128x512.size (k0_off7_inb c 1))).set ⊆ (resSl c 1).view.set :=
    ((View.set_slice_whole _ _).trans (res_store_set c 1)).le
  have hresI2 : ((Memref.whole cc0_scratch6 : Memref sig .tc .vmem S512x512 .f32).access (Rect.unit (s := S512x512) (k0_off7 c 3#32) S128x512.size (k0_off7_inb c 2))).set ⊆ (resSl c 2).view.set :=
    ((View.set_slice_whole _ _).trans (res_store_set c 2)).le
  have hcommI0 : ((Memref.whole cc0_scratch3 : Memref sig .tc .vmem S3x128x512 .bf16).access (Rect.unit (s := S3x128x512) ![0, 0, 0] S1x128x512.size inb_S3x128x512_S1x128x512_0_0_0)).set ⊆ (commSl 0).view.set :=
    ((View.set_slice_whole _ _).trans comm_load_set_0).le
  have hgrI0 : ((Memref.whole cc0_scratch5 : Memref sig .tc .vmem S3x128x512 .bf16).access (Rect.unit (s := S3x128x512) ![0, 0, 0] S1x128x512.size inb_S3x128x512_S1x128x512_0_0_0)).set ⊆ (grSl 0).view.set :=
    ((View.set_slice_whole _ _).trans gr_load_set_0).le
  have hcommI1 : ((Memref.whole cc0_scratch3 : Memref sig .tc .vmem S3x128x512 .bf16).access (Rect.unit (s := S3x128x512) ![1, 0, 0] S1x128x512.size inb_S3x128x512_S1x128x512_1_0_0)).set ⊆ (commSl 1).view.set :=
    ((View.set_slice_whole _ _).trans comm_load_set_1).le
  have hgrI1 : ((Memref.whole cc0_scratch5 : Memref sig .tc .vmem S3x128x512 .bf16).access (Rect.unit (s := S3x128x512) ![1, 0, 0] S1x128x512.size inb_S3x128x512_S1x128x512_1_0_0)).set ⊆ (grSl 1).view.set :=
    ((View.set_slice_whole _ _).trans gr_load_set_1).le
  have hcommI2 : ((Memref.whole cc0_scratch3 : Memref sig .tc .vmem S3x128x512 .bf16).access (Rect.unit (s := S3x128x512) ![2, 0, 0] S1x128x512.size inb_S3x128x512_S1x128x512_2_0_0)).set ⊆ (commSl 2).view.set :=
    ((View.set_slice_whole _ _).trans comm_load_set_2).le
  have hgrI2 : ((Memref.whole cc0_scratch5 : Memref sig .tc .vmem S3x128x512 .bf16).access (Rect.unit (s := S3x128x512) ![2, 0, 0] S1x128x512.size inb_S3x128x512_S1x128x512_2_0_0)).set ⊆ (grSl 2).view.set :=
    ((View.set_slice_whole _ _).trans gr_load_set_2).le
  have hsbS0 : ((Memref.whole cc0_scratch2 : Memref sig .tc .vmem S512x512 .bf16).access (Rect.unit (s := S512x512) (k0_off2 c 1#32) S128x512.size (k0_off2_inb c 0))).setOn Finset.univ ⊆ (sbSl c 0).view.set := hsbI0
  have hsbS1 : ((Memref.whole cc0_scratch2 : Memref sig .tc .vmem S512x512 .bf16).access (Rect.unit (s := S512x512) (k0_off2 c 2#32) S128x512.size (k0_off2_inb c 1))).setOn Finset.univ ⊆ (sbSl c 1).view.set := hsbI1
  have hsbS2 : ((Memref.whole cc0_scratch2 : Memref sig .tc .vmem S512x512 .bf16).access (Rect.unit (s := S512x512) (k0_off2 c 3#32) S128x512.size (k0_off2_inb c 2))).setOn Finset.univ ⊆ (sbSl c 2).view.set := hsbI2
  have hresS : ((Memref.whole cc0_scratch6 : Memref sig .tc .vmem S512x512 .f32).access (Rect.unit (s := S512x512) (k0_off5 c) S128x512.size (k0_off5_inb c))).setOn Finset.univ ⊆ (resOwn c).view.set := hresI
  have hresS0 : ((Memref.whole cc0_scratch6 : Memref sig .tc .vmem S512x512 .f32).access (Rect.unit (s := S512x512) (k0_off7 c 1#32) S128x512.size (k0_off7_inb c 0))).setOn Finset.univ ⊆ (resSl c 0).view.set := hresI0
  have hresS1 : ((Memref.whole cc0_scratch6 : Memref sig .tc .vmem S512x512 .f32).access (Rect.unit (s := S512x512) (k0_off7 c 2#32) S128x512.size (k0_off7_inb c 1))).setOn Finset.univ ⊆ (resSl c 1).view.set := hresI1
  have hresS2 : ((Memref.whole cc0_scratch6 : Memref sig .tc .vmem S512x512 .f32).access (Rect.unit (s := S512x512) (k0_off7 c 3#32) S128x512.size (k0_off7_inb c 2))).setOn Finset.univ ⊆ (resSl c 2).view.set := hresI2
  sl_exec_parts
  -- entry signal 1: to the successor fwd 0 c, lending it landing slices 2 of this device
  rw [show (⟨k0_dev1 (c : Thread nD τ).1, k0_dev1_lt _⟩ : Dev nD) = fwd 0 c from dev1_eq c]
  iapply (Rounds.wp_signal 𝒱₀ ER (conv (F := F) (aS m ρ) (bS m ρ)) (c : Thread nD τ) none (dst := ((fwd 0 c : Dev nD) : Thread nD τ)) (κ := K (fwd 0 c, 0))
      (d := 0) (by rw [duties_bar]; exact Finset.mem_univ _) ((amount_bar (F := F) (aS m ρ) (bS m ρ) (fwd 0 c) 0).trans (by decide)) ()
      (tallyAt (r2Cell (fwd 2 c) 2) () Nb + tallyAt (r2Cell (fwd 1 c) 1) () Nb + tallyAt (r2Cell (fwd 0 c) 0) () Nb + tallyAt (r1Cell (fwd 2 c) 2) () Nb + tallyAt (r1Cell (fwd 1 c) 1) () Nb + tallyAt (r1Cell (fwd 0 c) 0) () Nb + tallyAt (barCell (fwd 2 c)) () 1 + tallyAt (barCell (fwd 1 c)) () 1) rfl) $$ [HO T0 Hc_2 Hg_2]
  · isplitr; · iexact I17
    isplitl [HO]; · iexact HO
    isplitl [T0]; · iexact T0
    isplitl [Hc_2 Hg_2]
    · rw [payload_bar, barPay_fwd0]
      isplitl [Hc_2]; · iexists fc2; iexact Hc_2
      isplitl [Hg_2]; · iexists fg2; iexact Hg_2
      isplitr; · iexact R21
      iexact R24
    · iexact R0
  iintro HO
  sl_exec_parts
  -- entry signal 2: to the successor fwd 1 c, lending it landing slices 1 of this device
  rw [dev2_eq c]
  iapply (Rounds.wp_signal 𝒱₀ ER (conv (F := F) (aS m ρ) (bS m ρ)) (c : Thread nD τ) none (dst := ((fwd 1 c : Dev nD) : Thread nD τ)) (κ := K (fwd 1 c, 0))
      (d := 1) (by rw [duties_bar]; exact Finset.mem_univ _) ((amount_bar (F := F) (aS m ρ) (bS m ρ) (fwd 1 c) 1).trans (by decide)) ()
      (tallyAt (r2Cell (fwd 2 c) 2) () Nb + tallyAt (r2Cell (fwd 1 c) 1) () Nb + tallyAt (r2Cell (fwd 0 c) 0) () Nb + tallyAt (r1Cell (fwd 2 c) 2) () Nb + tallyAt (r1Cell (fwd 1 c) 1) () Nb + tallyAt (r1Cell (fwd 0 c) 0) () Nb + tallyAt (barCell (fwd 2 c)) () 1) rfl) $$ [HO T1 Hc_1 Hg_1]
  · isplitr; · iexact I18
    isplitl [HO]; · iexact HO
    isplitl [T1]; · iexact T1
    isplitl [Hc_1 Hg_1]
    · rw [payload_bar, barPay_fwd1]
      isplitl [Hc_1]; · iexists fc1; iexact Hc_1
      isplitl [Hg_1]; · iexists fg1; iexact Hg_1
      isplitr; · iexact R20
      iexact R23
    · iexact R1
  iintro HO
  sl_exec_parts
  -- entry signal 3: to the successor fwd 2 c, lending it landing slices 0 of this device
  rw [dev3_eq c]
  iapply (Rounds.wp_signal 𝒱₀ ER (conv (F := F) (aS m ρ) (bS m ρ)) (c : Thread nD τ) none (dst := ((fwd 2 c : Dev nD) : Thread nD τ)) (κ := K (fwd 2 c, 0))
      (d := 2) (by rw [duties_bar]; exact Finset.mem_univ _) ((amount_bar (F := F) (aS m ρ) (bS m ρ) (fwd 2 c) 2).trans (by decide)) ()
      (tallyAt (r2Cell (fwd 2 c) 2) () Nb + tallyAt (r2Cell (fwd 1 c) 1) () Nb + tallyAt (r2Cell (fwd 0 c) 0) () Nb + tallyAt (r1Cell (fwd 2 c) 2) () Nb + tallyAt (r1Cell (fwd 1 c) 1) () Nb + tallyAt (r1Cell (fwd 0 c) 0) () Nb) rfl) $$ [HO T2 Hc_0 Hg_0]
  · isplitr; · iexact I19
    isplitl [HO]; · iexact HO
    isplitl [T2]; · iexact T2
    isplitl [Hc_0 Hg_0]
    · rw [payload_bar, barPay_fwd2]
      isplitl [Hc_0]; · iexists fc0; iexact Hc_0
      isplitl [Hg_0]; · iexists fg0; iexact Hg_0
      isplitr; · iexact R19
      iexact R22
    · iexact R2
  iintro HO
  sl_exec_parts
  -- the entry wait: three units, the six arrivals still owed; the three predecessors' lendings come with it
  iapply (Rounds.wp_wait_rest_token 𝒱₀ ER (conv (F := F) (aS m ρ) (bS m ρ)) (c : Thread nD τ) none (κ := K (c, 0))
      (wpE_semWait_eq 𝒱₀ (c : Thread nD τ) none Set.univ) (Set.mem_univ _) () (O := owedArr c) (W := W) (R := 0) (m := 0) (T := ∅)
      (by rw [expect_bar]; decide)) $$ [Hc0 HO Hp0]
  · isplitr; · iexact I0
    isplitl [Hc0]; · iexact Hc0
    isplitl [HO]; · iexact HO
    isplitr; · iapply (mayWait_bar (F := F) c); iexact Hlev
    iexact Hp0
  iintro ⟨HO, Hp0, -, Hpay⟩
  ihave Hp := (Entails.of_eq (rest_bar (F := F) m ρ c)) $$ Hpay
  unfold barPay holds
  rw [bwd0, bwd1, bwd2, rev0, rev1, rev2]
  icases Hp with ⟨⟨⟨%fd2, Hd_2⟩, ⟨%fe2, He_2⟩, #Rq2, #Rs2⟩, ⟨⟨%fd1, Hd_1⟩, ⟨%fe1, He_1⟩, #Rq1, #Rs1⟩, ⟨⟨%fd0, Hd_0⟩, ⟨%fe0, He_0⟩, #Rq0, #Rs0⟩⟩
  sl_exec_parts
  -- the send buffer by row blocks
  ihave Hsbs := ((sb_cut (F := F) c _).1) $$ Hsb
  icases Hsbs with ⟨Hs_0, Hs_1, Hs_2, Hs_own⟩
  -- transfer 0 of the first exchange, to fwd 0 c
  iapply (wp_send1 (F := F) m ρ c _ 0 (dev4_eq c) (K (c, 1)) (K (fwd 0 c, 4)) _ _ (tallyAt (r2Cell (fwd 2 c) 2) () Nb + tallyAt (r2Cell (fwd 1 c) 1) () Nb + tallyAt (r2Cell (fwd 0 c) 0) () Nb + tallyAt (r1Cell (fwd 2 c) 2) () Nb + tallyAt (r1Cell (fwd 1 c) 1) () Nb) _) $$ [Hs_0 Hd_0 HO T9 T3]
  · isplitr; · iexact I1
    isplitr; · iexact I20
    isplitl [Hs_0]; · iexact Hs_0
    isplitl [Hd_0]; · iexact Hd_0
    isplitl [HO]; · iexact HO
    isplitl [T9]; · iexact T9
    isplitr; · iexact R9
    isplitl [T3]; · iexact T3
    isplitr; · iexact R3
    ipureintro
    exact sent_named0 (aS m ρ) (bS m ρ) c _ _ (bbf_named (bS m ρ) c _)
  iintro ⟨Hcs0, HO⟩
  sl_exec_parts
  -- transfer 1 of the first exchange, to fwd 1 c
  iapply (wp_send1 (F := F) m ρ c _ 1 (dev5_eq c) (K (c, 2)) (K (fwd 1 c, 5)) _ _ (tallyAt (r2Cell (fwd 2 c) 2) () Nb + tallyAt (r2Cell (fwd 1 c) 1) () Nb + tallyAt (r2Cell (fwd 0 c) 0) () Nb + tallyAt (r1Cell (fwd 2 c) 2) () Nb) _) $$ [Hs_1 Hd_1 HO T10 T4]
  · isplitr; · iexact I2
    isplitr; · iexact I21
    isplitl [Hs_1]; · iexact Hs_1
    isplitl [Hd_1]; · iexact Hd_1
    isplitl [HO]; · iexact HO
    isplitl [T10]; · iexact T10
    isplitr; · iexact R10
    isplitl [T4]; · iexact T4
    isplitr; · iexact R4
    ipureintro
    exact sent_named1 (aS m ρ) (bS m ρ) c _ _ (bbf_named (bS m ρ) c _)
  iintro ⟨Hcs1, HO⟩
  sl_exec_parts
  -- transfer 2 of the first exchange, to fwd 2 c
  iapply (wp_send1 (F := F) m ρ c _ 2 (dev6_eq c) (K (c, 3)) (K (fwd 2 c, 6)) _ _ (tallyAt (r2Cell (fwd 2 c) 2) () Nb + tallyAt (r2Cell (fwd 1 c) 1) () Nb + tallyAt (r2Cell (fwd 0 c) 0) () Nb) _) $$ [Hs_2 Hd_2 HO T11 T5]
  · isplitr; · iexact I3
    isplitr; · iexact I22
    isplitl [Hs_2]; · iexact Hs_2
    isplitl [Hd_2]; · iexact Hd_2
    isplitl [HO]; · iexact HO
    isplitl [T11]; · iexact T11
    isplitr; · iexact R11
    isplitl [T5]; · iexact T5
    isplitr; · iexact R5
    ipureintro
    exact sent_named2 (aS m ρ) (bS m ρ) c _ _ (bbf_named (bS m ρ) c _)
  iintro ⟨Hcs2, HO⟩
  sl_exec_parts
  -- departure 0 of the first exchange: the rows back
  iapply (Rounds.wp_wait_rest_token 𝒱₀ ER (conv (F := F) (aS m ρ) (bS m ρ)) (c : Thread nD τ) none (sm := .dma (s1S 0)) (κ := K (c, 1))
      (wpE_waitDma2_eq 𝒱₀ (c : Thread nD τ) none Set.univ) (Set.mem_univ _) () (O := owedArr2 c) (R := 0) (m := 0) (T := ∅)
      (by rw [Nat.zero_add]; exact (expect_s1 (F := F) (aS m ρ) (bS m ρ) c 0).symm)) $$ [Hcs0 HO Hp1]
  · isplitr; · iexact I1
    isplitl [Hcs0]; · iexact Hcs0
    isplitl [HO]; · iexact HO
    isplitr; · iapply (mayWait_mid (F := F) c _ (lv_s1' c 0)); iexact Hlev
    iexact Hp1
  iintro ⟨HO, Hp1, -, Hpay⟩
  ihave Hs_0 := (Entails.of_eq (rest_s1 (F := F) m ρ c 0)) $$ Hpay
  unfold holds
  icases Hs_0 with ⟨%fsr0, Hs_0⟩
  sl_exec_parts
  -- arrival 0 of the first exchange: landing slice 0 back, written
  iapply (Rounds.wp_wait_rest_token 𝒱₀ ER (conv (F := F) (aS m ρ) (bS m ρ)) (c : Thread nD τ) none (sm := .dma (r1S 0)) (κ := K (c, 4))
      (wpE_waitDma2_eq 𝒱₀ (c : Thread nD τ) none Set.univ) (Set.mem_univ _) () (O := owedArr2 c) (R := 0) (m := 0) (T := ∅)
      (by rw [Nat.zero_add]; exact (expect_r1 (F := F) (aS m ρ) (bS m ρ) c 0).symm)) $$ [Hc1 HO Hp4]
  · isplitr; · iexact I4
    isplitl [Hc1]; · iexact Hc1
    isplitl [HO]; · iexact HO
    isplitr; · iapply (mayWait_mid (F := F) c _ (lv_r1' c 0)); iexact Hlev
    iexact Hp4
  iintro ⟨HO, Hp4, -, Hpay⟩
  ihave Hc_0 := (Entails.of_eq (rest_r1 (F := F) m ρ c 0)) $$ Hpay
  unfold holdsV
  icases Hc_0 with ⟨%fcr0, %hcr0, Hc_0⟩
  sl_exec_parts
  -- departure 1 of the first exchange: the rows back
  iapply (Rounds.wp_wait_rest_token 𝒱₀ ER (conv (F := F) (aS m ρ) (bS m ρ)) (c : Thread nD τ) none (sm := .dma (s1S 1)) (κ := K (c, 2))
      (wpE_waitDma2_eq 𝒱₀ (c : Thread nD τ) none Set.univ) (Set.mem_univ _) () (O := owedArr2 c) (R := 0) (m := 0) (T := ∅)
      (by rw [Nat.zero_add]; exact (expect_s1 (F := F) (aS m ρ) (bS m ρ) c 1).symm)) $$ [Hcs1 HO Hp2]
  · isplitr; · iexact I2
    isplitl [Hcs1]; · iexact Hcs1
    isplitl [HO]; · iexact HO
    isplitr; · iapply (mayWait_mid (F := F) c _ (lv_s1' c 1)); iexact Hlev
    iexact Hp2
  iintro ⟨HO, Hp2, -, Hpay⟩
  ihave Hs_1 := (Entails.of_eq (rest_s1 (F := F) m ρ c 1)) $$ Hpay
  unfold holds
  icases Hs_1 with ⟨%fsr1, Hs_1⟩
  sl_exec_parts
  -- arrival 1 of the first exchange: landing slice 1 back, written
  iapply (Rounds.wp_wait_rest_token 𝒱₀ ER (conv (F := F) (aS m ρ) (bS m ρ)) (c : Thread nD τ) none (sm := .dma (r1S 1)) (κ := K (c, 5))
      (wpE_waitDma2_eq 𝒱₀ (c : Thread nD τ) none Set.univ) (Set.mem_univ _) () (O := owedArr2 c) (R := 0) (m := 0) (T := ∅)
      (by rw [Nat.zero_add]; exact (expect_r1 (F := F) (aS m ρ) (bS m ρ) c 1).symm)) $$ [Hc2 HO Hp5]
  · isplitr; · iexact I5
    isplitl [Hc2]; · iexact Hc2
    isplitl [HO]; · iexact HO
    isplitr; · iapply (mayWait_mid (F := F) c _ (lv_r1' c 1)); iexact Hlev
    iexact Hp5
  iintro ⟨HO, Hp5, -, Hpay⟩
  ihave Hc_1 := (Entails.of_eq (rest_r1 (F := F) m ρ c 1)) $$ Hpay
  unfold holdsV
  icases Hc_1 with ⟨%fcr1, %hcr1, Hc_1⟩
  sl_exec_parts
  -- departure 2 of the first exchange: the rows back
  iapply (Rounds.wp_wait_rest_token 𝒱₀ ER (conv (F := F) (aS m ρ) (bS m ρ)) (c : Thread nD τ) none (sm := .dma (s1S 2)) (κ := K (c, 3))
      (wpE_waitDma2_eq 𝒱₀ (c : Thread nD τ) none Set.univ) (Set.mem_univ _) () (O := owedArr2 c) (R := 0) (m := 0) (T := ∅)
      (by rw [Nat.zero_add]; exact (expect_s1 (F := F) (aS m ρ) (bS m ρ) c 2).symm)) $$ [Hcs2 HO Hp3]
  · isplitr; · iexact I3
    isplitl [Hcs2]; · iexact Hcs2
    isplitl [HO]; · iexact HO
    isplitr; · iapply (mayWait_mid (F := F) c _ (lv_s1' c 2)); iexact Hlev
    iexact Hp3
  iintro ⟨HO, Hp3, -, Hpay⟩
  ihave Hs_2 := (Entails.of_eq (rest_s1 (F := F) m ρ c 2)) $$ Hpay
  unfold holds
  icases Hs_2 with ⟨%fsr2, Hs_2⟩
  sl_exec_parts
  -- arrival 2 of the first exchange: landing slice 2 back, written
  iapply (Rounds.wp_wait_rest_token 𝒱₀ ER (conv (F := F) (aS m ρ) (bS m ρ)) (c : Thread nD τ) none (sm := .dma (r1S 2)) (κ := K (c, 6))
      (wpE_waitDma2_eq 𝒱₀ (c : Thread nD τ) none Set.univ) (Set.mem_univ _) () (O := owedArr2 c) (R := 0) (m := 0) (T := ∅)
      (by rw [Nat.zero_add]; exact (expect_r1 (F := F) (aS m ρ) (bS m ρ) c 2).symm)) $$ [Hc3 HO Hp6]
  · isplitr; · iexact I6
    isplitl [Hc3]; · iexact Hc3
    isplitl [HO]; · iexact HO
    isplitr; · iapply (mayWait_mid (F := F) c _ (lv_r1' c 2)); iexact Hlev
    iexact Hp6
  iintro ⟨HO, Hp6, -, Hpay⟩
  ihave Hc_2 := (Entails.of_eq (rest_r1 (F := F) m ρ c 2)) $$ Hpay
  unfold holdsV
  icases Hc_2 with ⟨%fcr2, %hcr2, Hc_2⟩
  sl_exec_parts
  -- the result scratch and the result array by row blocks
  ihave Hrs := ((res_cut (F := F) c _).1) $$ Hres
  ihave Hos := ((out_cut (F := F) c _).1) $$ Hout
  icases Hrs with ⟨Hr_own, Hr_0, Hr_1, Hr_2⟩
  icases Hos with ⟨Ho_own, Ho_0, Ho_1, Ho_2⟩
  -- the copy of the device's own finished rows into the result array
  iapply (wp_copyOwn (F := F) m ρ c (K (c, 13)) _ _) $$ [Hr_own Ho_own T15]
  · isplitr; · iexact I13
    isplitl [Hr_own]; · iexact Hr_own
    isplitl [Ho_own]; · iexact Ho_own
    isplitl [T15]; · iexact T15
    isplitr; · iexact R15
    ipureintro
    exact own_named (aS m ρ) (bS m ρ) c _ _ _ _ _ (own_load_named (aS m ρ) (bS m ρ) c _ _ (bbf_named (bS m ρ) c _)) (comm_load_named0 _ _ hcr0) (comm_load_named1 _ _ hcr1) (comm_load_named2 _ _ hcr2)
  iintro Hccs0
  ihave Hccs0 := (Entails.of_eq (stash_eq (F := F) _).symm) $$ Hccs0
  sl_exec_parts
  -- the one source of the second exchange in three shares
  ihave Hg2 := ((gs_split3 (F := F) c _).1) $$ Hgs
  icases Hg2 with ⟨Hgs_0, Hgs_1, Hgs_2⟩
  -- transfer 0 of the second exchange, to fwd 0 c
  iapply (wp_send2 (F := F) m ρ c _ 0 (dev7_eq c) (K (c, 7)) (K (fwd 0 c, 10)) _ _ _ (tallyAt (r2Cell (fwd 2 c) 2) () Nb + tallyAt (r2Cell (fwd 1 c) 1) () Nb) rfl _) $$ [Hgs_0 He_0 HO T12 T6]
  · isplitr; · iexact I7
    isplitr; · iexact I23
    isplitl [Hgs_0]; · iexact Hgs_0
    isplitl [He_0]; · iexact He_0
    isplitl [HO]; · iexact HO
    isplitl [T12]; · iexact T12
    isplitr; · iexact R12
    isplitl [T6]; · iexact T6
    isplitr; · iexact R6
    ipureintro
    exact gs_named (aS m ρ) (bS m ρ) c _ _ _ _ _ (own_load_named (aS m ρ) (bS m ρ) c _ _ (bbf_named (bS m ρ) c _)) (comm_load_named0 _ _ hcr0) (comm_load_named1 _ _ hcr1) (comm_load_named2 _ _ hcr2)
  iintro ⟨Hcs20, HO⟩
  sl_exec_parts
  -- transfer 1 of the second exchange, to fwd 1 c
  iapply (wp_send2 (F := F) m ρ c _ 1 (dev8_eq c) (K (c, 8)) (K (fwd 1 c, 11)) _ _ _ (tallyAt (r2Cell (fwd 2 c) 2) () Nb) rfl _) $$ [Hgs_1 He_1 HO T13 T7]
  · isplitr; · iexact I8
    isplitr; · iexact I24
    isplitl [Hgs_1]; · iexact Hgs_1
    isplitl [He_1]; · iexact He_1
    isplitl [HO]; · iexact HO
    isplitl [T13]; · iexact T13
    isplitr; · iexact R13
    isplitl [T7]; · iexact T7
    isplitr; · iexact R7
    ipureintro
    exact gs_named (aS m ρ) (bS m ρ) c _ _ _ _ _ (own_load_named (aS m ρ) (bS m ρ) c _ _ (bbf_named (bS m ρ) c _)) (comm_load_named0 _ _ hcr0) (comm_load_named1 _ _ hcr1) (comm_load_named2 _ _ hcr2)
  iintro ⟨Hcs21, HO⟩
  sl_exec_parts
  -- transfer 2 of the second exchange, to fwd 2 c
  iapply (wp_send2 (F := F) m ρ c _ 2 (dev9_eq c) (K (c, 9)) (K (fwd 2 c, 12)) _ _ _ 0 (zero_add _).symm _) $$ [Hgs_2 He_2 HO T14 T8]
  · isplitr; · iexact I9
    isplitr; · iexact I25
    isplitl [Hgs_2]; · iexact Hgs_2
    isplitl [He_2]; · iexact He_2
    isplitl [HO]; · iexact HO
    isplitl [T14]; · iexact T14
    isplitr; · iexact R14
    isplitl [T8]; · iexact T8
    isplitr; · iexact R8
    ipureintro
    exact gs_named (aS m ρ) (bS m ρ) c _ _ _ _ _ (own_load_named (aS m ρ) (bS m ρ) c _ _ (bbf_named (bS m ρ) c _)) (comm_load_named0 _ _ hcr0) (comm_load_named1 _ _ hcr1) (comm_load_named2 _ _ hcr2)
  iintro ⟨Hcs22, HO⟩
  sl_exec_parts
  -- what the two waits of transfer 0 of the second exchange handed back: share 0 of the source, landing slice 0 written
  ihave Hgs_0 := (Entails.of_eq (full_s2 (F := F) m ρ c 0)) $$ Hp7_pay1
  unfold holdsAt
  icases Hgs_0 with ⟨%fgsr0, Hgs_0⟩
  ihave Hg_0 := (Entails.of_eq (full_r2 (F := F) m ρ c 0)) $$ Hp10_pay1
  unfold holdsV
  icases Hg_0 with ⟨%fgr0, %hgr0, Hg_0⟩
  sl_exec_parts
  -- the copy of the rows that came from bwd 0 c
  iapply (wp_copyK (F := F) m ρ c 0 (K (c, 14)) _ _) $$ [Hr_0 Ho_0 T16]
  · isplitr; · iexact I14
    isplitl [Hr_0]; · iexact Hr_0
    isplitl [Ho_0]; · iexact Ho_0
    isplitl [T16]; · iexact T16
    isplitr; · iexact R16
    ipureintro
    exact back_named0 (aS m ρ) (bS m ρ) c _ _ (gr_load_named0 _ _ hgr0)
  iintro Hccs1
  ihave Hccs1 := (Entails.of_eq (stash_eq (F := F) _).symm) $$ Hccs1
  sl_exec_parts
  -- what the two waits of transfer 1 of the second exchange handed back: share 1 of the source, landing slice 1 written
  ihave Hgs_1 := (Entails.of_eq (full_s2 (F := F) m ρ c 1)) $$ Hp8_pay1
  unfold holdsAt
  icases Hgs_1 with ⟨%fgsr1, Hgs_1⟩
  ihave Hg_1 := (Entails.of_eq (full_r2 (F := F) m ρ c 1)) $$ Hp11_pay1
  unfold holdsV
  icases Hg_1 with ⟨%fgr1, %hgr1, Hg_1⟩
  sl_exec_parts
  -- the copy of the rows that came from bwd 1 c
  iapply (wp_copyK (F := F) m ρ c 1 (K (c, 15)) _ _) $$ [Hr_1 Ho_1 T17]
  · isplitr; · iexact I15
    isplitl [Hr_1]; · iexact Hr_1
    isplitl [Ho_1]; · iexact Ho_1
    isplitl [T17]; · iexact T17
    isplitr; · iexact R17
    ipureintro
    exact back_named1 (aS m ρ) (bS m ρ) c _ _ (gr_load_named1 _ _ hgr1)
  iintro Hccs2
  ihave Hccs2 := (Entails.of_eq (stash_eq (F := F) _).symm) $$ Hccs2
  sl_exec_parts
  -- what the two waits of transfer 2 of the second exchange handed back: share 2 of the source, landing slice 2 written
  ihave Hgs_2 := (Entails.of_eq (full_s2 (F := F) m ρ c 2)) $$ Hp9_pay1
  unfold holdsAt
  icases Hgs_2 with ⟨%fgsr2, Hgs_2⟩
  ihave Hg_2 := (Entails.of_eq (full_r2 (F := F) m ρ c 2)) $$ Hp12_pay1
  unfold holdsV
  icases Hg_2 with ⟨%fgr2, %hgr2, Hg_2⟩
  sl_exec_parts
  -- the copy of the rows that came from bwd 2 c
  iapply (wp_copyK (F := F) m ρ c 2 (K (c, 16)) _ _) $$ [Hr_2 Ho_2 T18]
  · isplitr; · iexact I16
    isplitl [Hr_2]; · iexact Hr_2
    isplitl [Ho_2]; · iexact Ho_2
    isplitl [T18]; · iexact T18
    isplitr; · iexact R18
    ipureintro
    exact back_named2 (aS m ρ) (bS m ρ) c _ _ (gr_load_named2 _ _ hgr2)
  iintro Hccs3
  ihave Hccs3 := (Entails.of_eq (stash_eq (F := F) _).symm) $$ Hccs3
  sl_exec_parts
  -- the wait for copy 0
  ihave Hccs0 := (Entails.of_eq (stash_eq (F := F) _)) $$ Hccs0
  iapply (Rounds.wp_wait_rest_token 𝒱₀ ER (conv (F := F) (aS m ρ) (bS m ρ)) (c : Thread nD τ) none (sm := .dma (csS 0)) (κ := K (c, 13))
      (wpE_waitDma2_eq 𝒱₀ (c : Thread nD τ) none Set.univ) (Set.mem_univ _) () (O := 0) (R := 0) (m := 0) (T := ∅)
      (by rw [Nat.zero_add]; exact (expect_cs (F := F) (aS m ρ) (bS m ρ) c 0).symm)) $$ [Hccs0 HO Hp13]
  · isplitr; · iexact I13
    isplitl [Hccs0]; · iexact Hccs0
    isplitl [HO]; · iexact HO
    isplitr; · rw [MayWait_zero]; iempintro
    iexact Hp13
  iintro ⟨HO, Hp13, -, Hpay⟩
  ihave Hb0 := (Entails.of_eq (rest_cs0 (F := F) m ρ c)) $$ Hpay
  unfold holds
  icases Hb0 with ⟨Ho_own, ⟨%frr3, Hr_own⟩⟩
  sl_exec_parts
  -- the wait for copy 1
  ihave Hccs1 := (Entails.of_eq (stash_eq (F := F) _)) $$ Hccs1
  iapply (Rounds.wp_wait_rest_token 𝒱₀ ER (conv (F := F) (aS m ρ) (bS m ρ)) (c : Thread nD τ) none (sm := .dma (csS 1)) (κ := K (c, 14))
      (wpE_waitDma2_eq 𝒱₀ (c : Thread nD τ) none Set.univ) (Set.mem_univ _) () (O := 0) (R := 0) (m := 0) (T := ∅)
      (by rw [Nat.zero_add]; exact (expect_cs (F := F) (aS m ρ) (bS m ρ) c 1).symm)) $$ [Hccs1 HO Hp14]
  · isplitr; · iexact I14
    isplitl [Hccs1]; · iexact Hccs1
    isplitl [HO]; · iexact HO
    isplitr; · rw [MayWait_zero]; iempintro
    iexact Hp14
  iintro ⟨HO, Hp14, -, Hpay⟩
  ihave Hb1 := (Entails.of_eq (rest_cs1 (F := F) m ρ c)) $$ Hpay
  unfold holds
  icases Hb1 with ⟨Ho_0, ⟨%frr0, Hr_0⟩⟩
  sl_exec_parts
  -- the wait for copy 2
  ihave Hccs2 := (Entails.of_eq (stash_eq (F := F) _)) $$ Hccs2
  iapply (Rounds.wp_wait_rest_token 𝒱₀ ER (conv (F := F) (aS m ρ) (bS m ρ)) (c : Thread nD τ) none (sm := .dma (csS 2)) (κ := K (c, 15))
      (wpE_waitDma2_eq 𝒱₀ (c : Thread nD τ) none Set.univ) (Set.mem_univ _) () (O := 0) (R := 0) (m := 0) (T := ∅)
      (by rw [Nat.zero_add]; exact (expect_cs (F := F) (aS m ρ) (bS m ρ) c 2).symm)) $$ [Hccs2 HO Hp15]
  · isplitr; · iexact I15
    isplitl [Hccs2]; · iexact Hccs2
    isplitl [HO]; · iexact HO
    isplitr; · rw [MayWait_zero]; iempintro
    iexact Hp15
  iintro ⟨HO, Hp15, -, Hpay⟩
  ihave Hb2 := (Entails.of_eq (rest_cs2 (F := F) m ρ c)) $$ Hpay
  unfold holds
  icases Hb2 with ⟨Ho_1, ⟨%frr1, Hr_1⟩⟩
  sl_exec_parts
  -- the wait for copy 3
  ihave Hccs3 := (Entails.of_eq (stash_eq (F := F) _)) $$ Hccs3
  iapply (Rounds.wp_wait_rest_token 𝒱₀ ER (conv (F := F) (aS m ρ) (bS m ρ)) (c : Thread nD τ) none (sm := .dma (csS 3)) (κ := K (c, 16))
      (wpE_waitDma2_eq 𝒱₀ (c : Thread nD τ) none Set.univ) (Set.mem_univ _) () (O := 0) (R := 0) (m := 0) (T := ∅)
      (by rw [Nat.zero_add]; exact (expect_cs (F := F) (aS m ρ) (bS m ρ) c 3).symm)) $$ [Hccs3 HO Hp16]
  · isplitr; · iexact I16
    isplitl [Hccs3]; · iexact Hccs3
    isplitl [HO]; · iexact HO
    isplitr; · rw [MayWait_zero]; iempintro
    iexact Hp16
  iintro ⟨HO, Hp16, -, Hpay⟩
  ihave Hb3 := (Entails.of_eq (rest_cs3 (F := F) m ρ c)) $$ Hpay
  unfold holds
  icases Hb3 with ⟨Ho_2, ⟨%frr2, Hr_2⟩⟩
  -- the sixteen own cells close: their counters, at zero, are the device's again
  imod (Rounds.cell_close ER (conv (F := F) (aS m ρ) (bS m ρ)) (Set.mem_univ (K (c, 1))) (fun h => h) (duties_later (F := F) (aS m ρ) (bS m ρ) (s1Cell c 0))) $$ [Hp1] with Hz1
  · isplitr; · iexact I1
    iexact Hp1
  imod (Rounds.cell_close ER (conv (F := F) (aS m ρ) (bS m ρ)) (Set.mem_univ (K (c, 2))) (fun h => h) (duties_later (F := F) (aS m ρ) (bS m ρ) (s1Cell c 1))) $$ [Hp2] with Hz2
  · isplitr; · iexact I2
    iexact Hp2
  imod (Rounds.cell_close ER (conv (F := F) (aS m ρ) (bS m ρ)) (Set.mem_univ (K (c, 3))) (fun h => h) (duties_later (F := F) (aS m ρ) (bS m ρ) (s1Cell c 2))) $$ [Hp3] with Hz3
  · isplitr; · iexact I3
    iexact Hp3
  imod (Rounds.cell_close ER (conv (F := F) (aS m ρ) (bS m ρ)) (Set.mem_univ (K (c, 4))) (fun h => h) (duties_later (F := F) (aS m ρ) (bS m ρ) (r1Cell c 0))) $$ [Hp4] with Hz4
  · isplitr; · iexact I4
    iexact Hp4
  imod (Rounds.cell_close ER (conv (F := F) (aS m ρ) (bS m ρ)) (Set.mem_univ (K (c, 5))) (fun h => h) (duties_later (F := F) (aS m ρ) (bS m ρ) (r1Cell c 1))) $$ [Hp5] with Hz5
  · isplitr; · iexact I5
    iexact Hp5
  imod (Rounds.cell_close ER (conv (F := F) (aS m ρ) (bS m ρ)) (Set.mem_univ (K (c, 6))) (fun h => h) (duties_later (F := F) (aS m ρ) (bS m ρ) (r1Cell c 2))) $$ [Hp6] with Hz6
  · isplitr; · iexact I6
    iexact Hp6
  imod (Rounds.cell_close ER (conv (F := F) (aS m ρ) (bS m ρ)) (Set.mem_univ (K (c, 7))) (fun h => h) (duties_later (F := F) (aS m ρ) (bS m ρ) (s2Cell c 0))) $$ [Hp7] with Hz7
  · isplitr; · iexact I7
    iexact Hp7
  imod (Rounds.cell_close ER (conv (F := F) (aS m ρ) (bS m ρ)) (Set.mem_univ (K (c, 8))) (fun h => h) (duties_later (F := F) (aS m ρ) (bS m ρ) (s2Cell c 1))) $$ [Hp8] with Hz8
  · isplitr; · iexact I8
    iexact Hp8
  imod (Rounds.cell_close ER (conv (F := F) (aS m ρ) (bS m ρ)) (Set.mem_univ (K (c, 9))) (fun h => h) (duties_later (F := F) (aS m ρ) (bS m ρ) (s2Cell c 2))) $$ [Hp9] with Hz9
  · isplitr; · iexact I9
    iexact Hp9
  imod (Rounds.cell_close ER (conv (F := F) (aS m ρ) (bS m ρ)) (Set.mem_univ (K (c, 10))) (fun h => h) (duties_later (F := F) (aS m ρ) (bS m ρ) (r2Cell c 0))) $$ [Hp10] with Hz10
  · isplitr; · iexact I10
    iexact Hp10
  imod (Rounds.cell_close ER (conv (F := F) (aS m ρ) (bS m ρ)) (Set.mem_univ (K (c, 11))) (fun h => h) (duties_later (F := F) (aS m ρ) (bS m ρ) (r2Cell c 1))) $$ [Hp11] with Hz11
  · isplitr; · iexact I11
    iexact Hp11
  imod (Rounds.cell_close ER (conv (F := F) (aS m ρ) (bS m ρ)) (Set.mem_univ (K (c, 12))) (fun h => h) (duties_later (F := F) (aS m ρ) (bS m ρ) (r2Cell c 2))) $$ [Hp12] with Hz12
  · isplitr; · iexact I12
    iexact Hp12
  imod (Rounds.cell_close ER (conv (F := F) (aS m ρ) (bS m ρ)) (Set.mem_univ (K (c, 13))) (fun h => h) (duties_later (F := F) (aS m ρ) (bS m ρ) (csCell c 0))) $$ [Hp13] with Hz13
  · isplitr; · iexact I13
    iexact Hp13
  imod (Rounds.cell_close ER (conv (F := F) (aS m ρ) (bS m ρ)) (Set.mem_univ (K (c, 14))) (fun h => h) (duties_later (F := F) (aS m ρ) (bS m ρ) (csCell c 1))) $$ [Hp14] with Hz14
  · isplitr; · iexact I14
    iexact Hp14
  imod (Rounds.cell_close ER (conv (F := F) (aS m ρ) (bS m ρ)) (Set.mem_univ (K (c, 15))) (fun h => h) (duties_later (F := F) (aS m ρ) (bS m ρ) (csCell c 2))) $$ [Hp15] with Hz15
  · isplitr; · iexact I15
    iexact Hp15
  imod (Rounds.cell_close ER (conv (F := F) (aS m ρ) (bS m ρ)) (Set.mem_univ (K (c, 16))) (fun h => h) (duties_later (F := F) (aS m ρ) (bS m ρ) (csCell c 3))) $$ [Hp16] with Hz16
  · isplitr; · iexact I16
    iexact Hp16
  -- the cut buffers whole again
  ihave Hcomm := ((comm_split (F := F) c).2) $$ [Hc_0 Hc_1 Hc_2]
  · unfold holds; isplitl [Hc_0]; · iexists _; iexact Hc_0
    isplitl [Hc_1]; · iexists _; iexact Hc_1
    iexists _; iexact Hc_2
  ihave Hgr := ((gr_split (F := F) c).2) $$ [Hg_0 Hg_1 Hg_2]
  · unfold holds; isplitl [Hg_0]; · iexists _; iexact Hg_0
    isplitl [Hg_1]; · iexists _; iexact Hg_1
    iexists _; iexact Hg_2
  ihave Hsb := ((sb_split (F := F) c).2) $$ [Hs_0 Hs_1 Hs_2 Hs_own]
  · unfold holds; isplitl [Hs_0]; · iexists _; iexact Hs_0
    isplitl [Hs_1]; · iexists _; iexact Hs_1
    isplitl [Hs_2]; · iexists _; iexact Hs_2
    iexists _; iexact Hs_own
  ihave Hres := ((res_split (F := F) c).2) $$ [Hr_own Hr_0 Hr_1 Hr_2]
  · unfold holds; isplitl [Hr_own]; · iexists _; iexact Hr_own
    isplitl [Hr_0]; · iexists _; iexact Hr_0
    isplitl [Hr_1]; · iexists _; iexact Hr_1
    iexists _; iexact Hr_2
  ihave Hout := (OutJoin.out_join (F := F) (aS m ρ) (bS m ρ) c) $$ [Ho_own Ho_0 Ho_1 Ho_2]
  · isplitl [Ho_own]; · iexact Ho_own
    isplitl [Ho_0]; · iexact Ho_0
    isplitl [Ho_1]; · iexact Ho_1
    iexact Ho_2
  ihave Hgs := (holdsAt_join3 (F := F) c) $$ [Hgs_0 Hgs_1 Hgs_2]
  · unfold holdsAt; isplitl [Hgs_0]; · iexists _; iexact Hgs_0
    isplitl [Hgs_1]; · iexists _; iexact Hgs_1
    iexists _; iexact Hgs_2
  ihave Hx := (Entails.of_eq (whole_pts (F := F) c cc0_stg0_0 fullShare (aS m ρ c))) $$ Hx
  ihave Hb := (Entails.of_eq (whole_pts (F := F) c cc0_stg1_0 fullShare (bS m ρ c))) $$ Hb
  -- the return, and the post
  sl_step
  iapply Hk
  unfold bodyPost Φ₁ holdsOut scratch closedSems Dat.owesAt Pipeline.owesWithin
  rw [show (dats m ρ 0 c).owed t₀.succ = 0 from rfl]
  isplitl [Hout Hbbf Hown Hsb Hcomm Hgs Hgr Hres Hz1 Hz2 Hz3 Hz4 Hz5 Hz6 Hz7 Hz8 Hz9 Hz10 Hz11 Hz12 Hz13 Hz14 Hz15 Hz16]
  · isplitl [Hout]; · iexact Hout
    isplitl [Hbbf Hown Hsb Hcomm Hgs Hgr Hres]
    · isplitl [Hbbf]; · unfold holds; iexists _; iexact Hbbf
      isplitl [Hown]; · unfold holds; iexists _; iexact Hown
      isplitl [Hsb]; · iexact Hsb
      isplitl [Hcomm]; · iexact Hcomm
      isplitl [Hgs]; · iexact Hgs
      isplitl [Hgr]; · iexact Hgr
      iexact Hres
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    isplitl [Hz14]; · iexact Hz14
    isplitl [Hz15]; · iexact Hz15
    iexact Hz16
  isplitl [HO]
  · iexists _
    isplitr
    swap
    · iexact HO
    · ipureintro; exact fun _ _ => Or.inl trivial
  isplitl [Hx]
  · iexists _; isplitr; · (ipureintro; rfl)
    iexact Hx
  iexists _; isplitr; · (ipureintro; rfl)
  iexact Hb

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- What the staging pipeline hands the body at the one grid point. -/
def bodyPre' (c : Dev nD) : sProp 𝕄 :=
  iprop(Φ₀ (F := F) m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The staging pipeline's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11) (fun _ => bodyPost m ρ c)
  unfold bodyPre' Φ₀ start
  iintro ⟨⟨⟨⟨%K, Hg⟩, Hcr, Hlev, Hout⟩, Hscr⟩, Ho, Hx, Hb⟩
  iapply (sound_body m ρ K c fun _ => bodyPost m ρ c)
  unfold bodyPre
  isplitr []
  · isplitl [Hg Hcr Hlev Hout Hscr]
    · isplitl [Hg]; · iexact Hg
      isplitl [Hcr]; · iexact Hcr
      isplitl [Hlev]; · iexact Hlev
      isplitl [Hout]; · iexact Hout
      iexact Hscr
    isplitl [Ho]; · iexact Ho
    isplitl [Hx] <;> iassumption
  · iintro H; iexact H

end Body

end Cert.KernelProof

end
-- ==== Proof.RefRun.lean ====
import proofs.«900373_g7700000000000374_dist_matmul_silu_kshard_i_m512_n512_k256_v7x_i4_f32_1_alg».proof.Defs
import proofs.«900373_g7700000000000374_dist_matmul_silu_kshard_i_m512_n512_k256_v7x_i4_f32_1_alg».proof.Proof.Gen.ReferenceIdeal
import proofs.«900373_g7700000000000374_dist_matmul_silu_kshard_i_m512_n512_k256_v7x_i4_f32_1_alg».proof.Proof.Gen.Pre_finite_inputs_ReferenceIdeal
import proofs.«900373_g7700000000000374_dist_matmul_silu_kshard_i_m512_n512_k256_v7x_i4_f32_1_alg».proof.Proof.Gen.ReferenceIdeal.Read

/-! The reference program is one device running seven host operations in a row: a matrix product, a negation,
an exponential, the constant one broadcast, a sum and a quotient. Its run ends with every buffer at the
operations' composed term of the two argument arrays, and the arguments untouched; dropping the value
leaves the frame. -/

noncomputable section

namespace Cert.Proof.RefSide

open Idealize.ShloMosaic Idealize.SL.Sem

/-- The reference terminates, faults nowhere and leaves its two argument arrays as they were. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefSide

end
-- ==== Proof.ValueMatmul.lean ====
import proofs.«900373_g7700000000000374_dist_matmul_silu_kshard_i_m512_n512_k256_v7x_i4_f32_1_alg».proof.Proof.Gen.KernelIdeal.Skeleton
import Idealize.ShloMosaic.Lib.Pipeline.Value
import Idealize.ShloMosaic.Lib.ValueIdx
import Idealize.ShloMosaic.PureOps.Ideal.Laws

/-! # The kernel's matrix product at an index

At the extended reals the matrix unit's product of a `128 × 256` and a `256 × 512` operand into a zero accumulator is,
at row `r` and column `j`, the sum over the `256` contraction indices of the products. -/

noncomputable section

namespace Cert.Proof.KernelValue

open Cert.KernelIdeal Cert.KernelIdeal.Gen
open Idealize.ShloMosaic Idealize.ShloMosaic.TcCoe Idealize.SL.Sem
open scoped BigOperators

theorem mm_lhs0 (i : S128x512.Idx) (q : dot_S128x256_S256x512_S128x512_1_0_0_1_n_n.contr.Idx) :
    (dot_S128x256_S256x512_S128x512_1_0_0_1_n_n.lhsIdx i q 0).val = (i 0).val := by
  unfold DotDims.lhsIdx
  rw [dif_neg (show ¬(0 : Fin S128x256.rank) ∈ dot_S128x256_S256x512_S128x512_1_0_0_1_n_n.lhsBatch by decide), dif_pos (show (0 : Fin S128x256.rank) ∈ dot_S128x256_S256x512_S128x512_1_0_0_1_n_n.lhsNonContracting by decide)]
  rfl
theorem mm_lhs1 (i : S128x512.Idx) (q : dot_S128x256_S256x512_S128x512_1_0_0_1_n_n.contr.Idx) :
    (dot_S128x256_S256x512_S128x512_1_0_0_1_n_n.lhsIdx i q 1).val = (q ⟨0, by decide⟩).val :=
  dot_S128x256_S256x512_S128x512_1_0_0_1_n_n.lhsIdx_val_of_single rfl i q
theorem mm_rhs0 (i : S128x512.Idx) (q : dot_S128x256_S256x512_S128x512_1_0_0_1_n_n.contr.Idx) :
    (dot_S128x256_S256x512_S128x512_1_0_0_1_n_n.rhsIdx i q 0).val = (q ⟨0, by decide⟩).val :=
  dot_S128x256_S256x512_S128x512_1_0_0_1_n_n.rhsIdx_val_of_single rfl i q
theorem mm_rhs1 (i : S128x512.Idx) (q : dot_S128x256_S256x512_S128x512_1_0_0_1_n_n.contr.Idx) :
    (dot_S128x256_S256x512_S128x512_1_0_0_1_n_n.rhsIdx i q 1).val = (i 1).val := by
  unfold DotDims.rhsIdx
  rw [dif_neg (show ¬(1 : Fin S256x512.rank) ∈ dot_S128x256_S256x512_S128x512_1_0_0_1_n_n.rhsBatch by decide), dif_pos (show (1 : Fin S256x512.rank) ∈ dot_S128x256_S256x512_S128x512_1_0_0_1_n_n.rhsNonContracting by decide)]
  rfl

/-- The product into a zero accumulator, at row `r` and column `j`. -/
theorem matmul_at (x : FVec Ideal S128x256 .bf16) (y : FVec Ideal S256x512 .bf16) (r : Fin 128) (j : Fin 512) :
    matmul (F := Ideal) dot_S128x256_S256x512_S128x512_1_0_0_1_n_n none x y (constant (F := Ideal) S128x512 .f32 0x00000000#32) (ValueIdx.ix2 r j)
      = ∑ k : Fin 256, x (ValueIdx.ix2 r k) * y (ValueIdx.ix2 k j) := by
  simp only [matmul]
  rw [Ideal.matmul_constant_zero_apply, ← Equiv.sum_comp (ValueIdx.contrEquiv1 dot_S128x256_S256x512_S128x512_1_0_0_1_n_n 256 rfl rfl).symm]
  refine Finset.sum_congr rfl fun k _ => ?_
  have hk := ValueIdx.contrEquiv1_symm_val dot_S128x256_S256x512_S128x512_1_0_0_1_n_n 256 rfl rfl k
  have el : dot_S128x256_S256x512_S128x512_1_0_0_1_n_n.lhsIdx (ValueIdx.ix2 r j) ((ValueIdx.contrEquiv1 dot_S128x256_S256x512_S128x512_1_0_0_1_n_n 256 rfl rfl).symm k) = ValueIdx.ix2 r k := funext fun a => Fin.ext (by
    match a with
    | ⟨0, _⟩ => exact mm_lhs0 _ _
    | ⟨1, _⟩ => exact (mm_lhs1 _ _).trans hk)
  have er : dot_S128x256_S256x512_S128x512_1_0_0_1_n_n.rhsIdx (ValueIdx.ix2 r j) ((ValueIdx.contrEquiv1 dot_S128x256_S256x512_S128x512_1_0_0_1_n_n 256 rfl rfl).symm k) = ValueIdx.ix2 k j := funext fun a => Fin.ext (by
    match a with
    | ⟨0, _⟩ => exact (mm_rhs0 _ _).trans hk
    | ⟨1, _⟩ => exact mm_rhs1 _ _)
  rw [el, er]

/-! # The payloads at an index

At the extended reals a change of format and a cast to the same shape are the identity, so each payload is the
arithmetic it contains. -/

/-- The narrow copy of a `256 × 512` block is the block. -/
theorem pay1_eq (x : Vec Ideal S256x512 .f32) : (k0_pay1 (F := Ideal) x : S256x512.Idx → EReal) = x := by
  unfold k0_pay1
  simp only [shapeCast_self]
  rfl

/-- The narrow copy of a `128 × 256` row block is the row block. -/
theorem pay2_eq (x : Vec Ideal S128x256 .f32) : (k0_pay2 (F := Ideal) x : S128x256.Idx → EReal) = x := by
  unfold k0_pay2
  simp only [shapeCast_self]
  rfl

theorem pay3_at (x : FVec Ideal S128x256 .bf16) (y : Vec Ideal S256x512 .bf16) (r : Fin 128) (j : Fin 512) :
    k0_pay3 (F := Ideal) x y (ValueIdx.ix2 r j) = ∑ k : Fin 256, x (ValueIdx.ix2 r k) * y (ValueIdx.ix2 k j) := by
  unfold k0_pay3
  simp only [shapeCast_self]
  exact matmul_at x y r j

theorem pay4_at (x : Vec Ideal S128x256 .f32) (y : Vec Ideal S256x512 .bf16) (r : Fin 128) (j : Fin 512) :
    k0_pay4 (F := Ideal) x y (ValueIdx.ix2 r j) = ∑ k : Fin 256, x (ValueIdx.ix2 r k) * y (ValueIdx.ix2 k j) := by
  unfold k0_pay4
  simp only [shapeCast_self]
  exact matmul_at _ y r j

theorem pay5_eq (x : FVec Ideal S128x512 .bf16) : (k0_pay5 (F := Ideal) x : S128x512.Idx → EReal) = x := by
  unfold k0_pay5
  simp only [shapeCast_self]

theorem pay6_at (x : Vec Ideal S128x256 .f32) (y : Vec Ideal S256x512 .bf16) (r : Fin 128) (j : Fin 512) :
    k0_pay6 (F := Ideal) x y (ValueIdx.ix2 r j) = ∑ k : Fin 256, x (ValueIdx.ix2 r k) * y (ValueIdx.ix2 k j) := by
  unfold k0_pay6
  simp only [shapeCast_self]
  exact matmul_at _ y r j

theorem pay7_at (x : Vec Ideal S128x256 .f32) (y : Vec Ideal S256x512 .bf16) (r : Fin 128) (j : Fin 512) :
    k0_pay7 (F := Ideal) x y (ValueIdx.ix2 r j) = ∑ k : Fin 256, x (ValueIdx.ix2 r k) * y (ValueIdx.ix2 k j) := by
  unfold k0_pay7
  simp only [shapeCast_self]
  exact matmul_at _ y r j

/-- A `1 × 128 × 512` slice viewed as `128 × 512`, at row `r` and column `j`. -/
theorem drop1_at {α : Type} (x : S1x128x512.Idx → α) (h : S1x128x512.ShapeCasts S128x512) (r : Fin 128) (j : Fin 512) :
    shapeCast S128x512 x h (ValueIdx.ix2 r j) = x (ValueIdx.ix3 (0 : Fin 1) r j) :=
  shapeCast_apply x h _ _ (by rw [Shape.rowMajor_val_three, Shape.rowMajor_val_two]; show ((0 : ℕ) * 128 + r.val) * 512 + j.val = r.val * 512 + j.val; omega)

/-- An exponential at an index is the exponential of the element. -/
theorem exp_at {s : Shape} {φ : FTy} (v : FVec Ideal s φ) (i : s.Idx) : exp v i = Ideal.exp (v i) := rfl

/-- The activation: with `z` the sum of the own partial product and the three landed ones, `z · (1 / (1 + e^(0 - z)))`,
    the constants as the program's words. -/
theorem pay8_at (o : Vec Ideal S128x512 .f32) (c0 c1 c2 : Vec Ideal S1x128x512 .bf16) (r : Fin 128) (j : Fin 512) :
    k0_pay8 (F := Ideal) o c0 c1 c2 (ValueIdx.ix2 r j)
      = (((o (ValueIdx.ix2 r j) + c0 (ValueIdx.ix3 (0 : Fin 1) r j)) + c1 (ValueIdx.ix3 (0 : Fin 1) r j)) + c2 (ValueIdx.ix3 (0 : Fin 1) r j))
          * Ideal.div (Ideal.ofBits .f32 0x3F800000#32)
              (Ideal.ofBits .f32 0x3F800000#32 + Ideal.exp (Ideal.ofBits .f32 0x00000000#32
                - (((o (ValueIdx.ix2 r j) + c0 (ValueIdx.ix3 (0 : Fin 1) r j)) + c1 (ValueIdx.ix3 (0 : Fin 1) r j)) + c2 (ValueIdx.ix3 (0 : Fin 1) r j)))) := by
  unfold k0_pay8
  simp only [ValueIdx.mulf_apply, ValueIdx.divf_apply, ValueIdx.addf_apply, ValueIdx.subf_apply, ValueIdx.broadcast_apply,
    ValueIdx.extf_apply, exp_at, drop1_at]
  rfl

theorem pay9_eq (o : Vec Ideal S128x512 .f32) (c0 c1 c2 : Vec Ideal S1x128x512 .bf16) :
    (k0_pay9 (F := Ideal) o c0 c1 c2 : S128x512.Idx → EReal) = k0_pay8 (F := Ideal) o c0 c1 c2 := by
  unfold k0_pay9
  simp only [shapeCast_self]

theorem pay10_eq (o : Vec Ideal S128x512 .f32) (c0 c1 c2 : Vec Ideal S1x128x512 .bf16) :
    (k0_pay10 (F := Ideal) o c0 c1 c2 : S128x512.Idx → EReal) = k0_pay8 (F := Ideal) o c0 c1 c2 := by
  unfold k0_pay10
  simp only [shapeCast_self]
  rfl

theorem pay11_at (x : Vec Ideal S1x128x512 .bf16) (r : Fin 128) (j : Fin 512) :
    k0_pay11 (F := Ideal) x (ValueIdx.ix2 r j) = x (ValueIdx.ix3 (0 : Fin 1) r j) := by
  unfold k0_pay11
  simp only [shapeCast_self, ValueIdx.extf_apply, drop1_at]
theorem pay12_at (x : Vec Ideal S1x128x512 .bf16) (r : Fin 128) (j : Fin 512) :
    k0_pay12 (F := Ideal) x (ValueIdx.ix2 r j) = x (ValueIdx.ix3 (0 : Fin 1) r j) := by
  unfold k0_pay12
  simp only [shapeCast_self, ValueIdx.extf_apply, drop1_at]
theorem pay13_at (x : Vec Ideal S1x128x512 .bf16) (r : Fin 128) (j : Fin 512) :
    k0_pay13 (F := Ideal) x (ValueIdx.ix2 r j) = x (ValueIdx.ix3 (0 : Fin 1) r j) := by
  unfold k0_pay13
  simp only [shapeCast_self, ValueIdx.extf_apply, drop1_at]

end Cert.Proof.KernelValue

end
-- ==== Proof.LibSiluShards.lean ====
import Idealize.ShloMosaic.PureOps.Ideal
import Idealize.ShloMosaic.PureOps.Ideal.Laws
import Mathlib.Algebra.BigOperators.Fin
import Mathlib.Data.EReal.Inv

/-! Extended-real algebra of a sharded matrix product followed by `x · σ(x)`.

Two facts, both valid at every extended real (no finiteness is assumed):

* a sum over `1024` indices is the sum of its four blocks of `256`, added in any cyclic order starting at
  any block (addition on the extended reals is a commutative monoid);
* `z · (1 / (1 + e^(0 - z)))` and `z / (1 + e^(-z))` are the same extended real: `e^x` is `0`, a positive real or
  `⊤`, so `1 + e^x` is never `0` and the quotient by it is the product with its inverse. -/

noncomputable section

namespace Cert.Proof.SiluMath

open Idealize.ShloMosaic
open scoped BigOperators

/-! ### The literal one -/

/-- The f32 pattern `0x3F800000` denotes the extended real `1`. -/
theorem one_word : Ideal.ofBits .f32 0x3F800000#32 = (1 : EReal) := by
  simp [Ideal.ofBits, Ideal.ieee, -EReal.coe_mul]; norm_num

/-! ### `1 + e^x` is never zero -/

/-- The exponential of an extended real is nonnegative: `0` at `⊥`, `⊤` at `⊤`, a positive real between. -/
theorem exp_nonneg (x : EReal) : 0 ≤ Ideal.exp x := by
  induction x using EReal.rec with
  | bot => rw [Ideal.exp_bot]
  | coe r => rw [Ideal.exp_coe]; exact_mod_cast (Real.exp_pos r).le
  | top => rw [Ideal.exp_top]; exact le_top

/-- `1 + e^x` is positive. -/
theorem one_add_exp_pos (x : EReal) : (0 : EReal) < 1 + Ideal.exp x :=
  lt_of_lt_of_le zero_lt_one (le_add_of_nonneg_right (exp_nonneg x))

/-- `1 + e^x` is not zero, at any extended real `x`. -/
theorem one_add_exp_ne_zero (x : EReal) : (1 : EReal) + Ideal.exp x ≠ 0 :=
  (one_add_exp_pos x).ne'

/-- A quotient by `1 + e^x` is the product with its inverse. -/
theorem div_one_add_exp (a x : EReal) : Ideal.div a (1 + Ideal.exp x) = a * (1 + Ideal.exp x)⁻¹ := by
  rw [Ideal.div, if_neg (one_add_exp_ne_zero x)]

/-! ### The two spellings of `z · σ(z)` -/

/-- `z · (1 / (1 + e^(0 - z))) = z / (1 + e^(-z))`, at every extended real `z`. -/
theorem silu_forms (z : EReal) :
    z * Ideal.div 1 (1 + Ideal.exp (0 - z)) = Ideal.div z (1 + Ideal.exp (-z)) := by
  rw [zero_sub, div_one_add_exp, div_one_add_exp, one_mul]

/-! ### A sum over `1024` indices by blocks of `256` -/

/-- The `k`-th index of block `s`: `256 s + k`. -/
def shardIdx (s : Fin 4) (k : Fin 256) : Fin 1024 := ⟨256 * s.val + k.val, by omega⟩

@[simp] theorem shardIdx_val (s : Fin 4) (k : Fin 256) : (shardIdx s k).val = 256 * s.val + k.val := rfl

/-- The sum over `1024` indices is the sum over the four blocks of the blocks' sums. -/
theorem sum_eq_sum_shards (f : Fin 1024 → EReal) :
    ∑ k : Fin 1024, f k = ∑ s : Fin 4, ∑ k : Fin 256, f (shardIdx s k) := by
  rw [← Fintype.sum_prod_type']
  refine (Fintype.sum_equiv (finProdFinEquiv (m := 4) (n := 256)) _ _ fun x => ?_).symm
  exact congrArg f (Fin.ext (by simp [shardIdx, finProdFinEquiv, Nat.add_comm]))

/-- Four terms added cyclically from any starting point, nested to the left, are the sum of the four. -/
theorem cyclic_sum (P : Fin 4 → EReal) (t : Fin 4) :
    ((P t + P (t + 3)) + P (t + 2)) + P (t + 1) = ∑ s : Fin 4, P s := by
  rw [Fin.sum_univ_four]
  match t with
  | 0 => show ((P 0 + P 3) + P 2) + P 1 = _; ac_rfl
  | 1 => show ((P 1 + P 0) + P 3) + P 2 = _; ac_rfl
  | 2 => show ((P 2 + P 1) + P 0) + P 3 = _; ac_rfl
  | 3 => show ((P 3 + P 2) + P 1) + P 0 = _; ac_rfl

/-- The four block sums of `f`, taken in the order `t, t+3, t+2, t+1` (mod `4`) and added nested to the left,
    are the whole sum. -/
theorem shards_sum (f : Fin 1024 → EReal) (t : Fin 4) :
    (((∑ k : Fin 256, f (shardIdx t k)) + (∑ k : Fin 256, f (shardIdx (t + 3) k)))
        + (∑ k : Fin 256, f (shardIdx (t + 2) k))) + (∑ k : Fin 256, f (shardIdx (t + 1) k))
      = ∑ k : Fin 1024, f k := by
  rw [sum_eq_sum_shards]
  exact cyclic_sum (fun s => ∑ k : Fin 256, f (shardIdx s k)) t

end Cert.Proof.SiluMath

end
-- ==== Proof.RefValue.lean ====
import proofs.«900373_g7700000000000374_dist_matmul_silu_kshard_i_m512_n512_k256_v7x_i4_f32_1_alg».proof.Proof.Gen.ReferenceIdeal.Read
import proofs.«900373_g7700000000000374_dist_matmul_silu_kshard_i_m512_n512_k256_v7x_i4_f32_1_alg».proof.Proof.LibSiluShards

/-! The reference's result at one output index, in closed form, and the value a four-way split of the
contraction gives there.

With `Z = ∑_{k<1024} A[r,k] · B[k,j]` the reference's element at `(r, j)` is `Z / (1 + e^(-Z))`. If the contraction
index is cut into four blocks of `256`, the four partial products are added cyclically from block `t` and the
total `z` is multiplied by `1 / (1 + e^(0 - z))`, the result is the same extended real. -/

noncomputable section

namespace Cert.Proof.RefSide

open Idealize.ShloMosaic Idealize.SL.Sem
open Cert.ReferenceIdeal (S512x1024 S1024x512 S512x512)
open Cert.ReferenceIdeal.Read (lidx_main_v0 ridx_main_v0 val_main_v0 val_main_v5)
open scoped BigOperators

/-- The matrix product at an output index: the sum over the contraction index of the products. -/
def dotAt (A : (⟨S512x1024, .f32⟩ : BufTy).Contents (Elt Ideal)) (B : (⟨S1024x512, .f32⟩ : BufTy).Contents (Elt Ideal))
    (i : S512x512.Idx) : EReal :=
  ∑ k : Fin 1024, A (lidx_main_v0 i k) * B (ridx_main_v0 i k)

/-- The reference's element at `i` is `Z / (1 + e^(-Z))` with `Z` the matrix product there. -/
theorem ref_at (A : (⟨S512x1024, .f32⟩ : BufTy).Contents (Elt Ideal)) (B : (⟨S1024x512, .f32⟩ : BufTy).Contents (Elt Ideal))
    (i : S512x512.Idx) :
    val_main_v5 (F := Ideal) A B i = Ideal.div (dotAt A B i) (1 + Ideal.exp (-(dotAt A B i))) := by
  rw [Cert.ReferenceIdeal.Read.val_main_v5_apply, Cert.ReferenceIdeal.Read.val_main_v4_apply,
    Cert.ReferenceIdeal.Read.val_main_v3_apply, Cert.ReferenceIdeal.Read.val_main_cst_apply,
    Cert.ReferenceIdeal.Read.val_main_v2_apply, Cert.ReferenceIdeal.Read.val_main_v1_apply,
    Cert.ReferenceIdeal.Read.val_main_v0_apply]
  simp only [Ideal.hostDivf_def, Ideal.hostUnary_exp_def, Ideal.addf_def, Ideal.hostNegf_def, Ideal.negf_def,
    Ideal.ofBits_def, SiluMath.one_word]
  rfl

/-- The output index of row `r` of row block `t` (rows `128 t … 128 t + 127`) and column `j`. -/
def outIdx (t : Fin 4) (r : Fin 128) (j : Fin 512) : S512x512.Idx :=
  ValueIdx.ix2 (⟨128 * t.val + r.val, by omega⟩ : Fin 512) j

/-- The partial product of contraction block `s` (indices `256 s … 256 s + 255`) at row `128 t + r`, column `j`. -/
def partAt (A : (⟨S512x1024, .f32⟩ : BufTy).Contents (Elt Ideal)) (B : (⟨S1024x512, .f32⟩ : BufTy).Contents (Elt Ideal))
    (t : Fin 4) (r : Fin 128) (j : Fin 512) (s : Fin 4) : EReal :=
  ∑ k : Fin 256,
    A (ValueIdx.ix2 (⟨128 * t.val + r.val, by omega⟩ : Fin 512) (⟨256 * s.val + k.val, by omega⟩ : Fin 1024))
      * B (ValueIdx.ix2 (⟨256 * s.val + k.val, by omega⟩ : Fin 1024) j)

/-- The left operand's index of the reference's product at `outIdx t r j`: row `128 t + r`, column `k`. -/
theorem lidx_outIdx (t : Fin 4) (r : Fin 128) (j : Fin 512) (k : Fin 1024) :
    lidx_main_v0 (outIdx t r j) k = ValueIdx.ix2 (⟨128 * t.val + r.val, by omega⟩ : Fin 512) k := by
  funext a; match a with | ⟨0, _⟩ => rfl | ⟨1, _⟩ => rfl

/-- The right operand's index of the reference's product at `outIdx t r j`: row `k`, column `j`. -/
theorem ridx_outIdx (t : Fin 4) (r : Fin 128) (j : Fin 512) (k : Fin 1024) :
    ridx_main_v0 (outIdx t r j) k = ValueIdx.ix2 k j := by
  funext a; match a with | ⟨0, _⟩ => rfl | ⟨1, _⟩ => rfl

/-- A partial product is the block sum of the reference's summand. -/
theorem partAt_eq (A : (⟨S512x1024, .f32⟩ : BufTy).Contents (Elt Ideal)) (B : (⟨S1024x512, .f32⟩ : BufTy).Contents (Elt Ideal))
    (t : Fin 4) (r : Fin 128) (j : Fin 512) (s : Fin 4) :
    partAt A B t r j s
      = ∑ k : Fin 256, (fun k : Fin 1024 => A (lidx_main_v0 (outIdx t r j) k) * B (ridx_main_v0 (outIdx t r j) k))
          (SiluMath.shardIdx s k) := by
  refine Finset.sum_congr rfl fun k _ => ?_
  show _ = A (lidx_main_v0 (outIdx t r j) (SiluMath.shardIdx s k)) * B (ridx_main_v0 (outIdx t r j) (SiluMath.shardIdx s k))
  rw [lidx_outIdx, ridx_outIdx]
  rfl

/-- The four partial products added cyclically from block `t` are the whole matrix product. -/
theorem parts_sum (A : (⟨S512x1024, .f32⟩ : BufTy).Contents (Elt Ideal)) (B : (⟨S1024x512, .f32⟩ : BufTy).Contents (Elt Ideal))
    (t : Fin 4) (r : Fin 128) (j : Fin 512) :
    ((partAt A B t r j t + partAt A B t r j (t + 3)) + partAt A B t r j (t + 2)) + partAt A B t r j (t + 1)
      = dotAt A B (outIdx t r j) := by
  rw [partAt_eq, partAt_eq, partAt_eq, partAt_eq]
  exact SiluMath.shards_sum
    (fun k : Fin 1024 => A (lidx_main_v0 (outIdx t r j) k) * B (ridx_main_v0 (outIdx t r j) k)) t

/-- The split computation's value is the reference's: with `z` the cyclic sum of the four partial products,
    `z · (1 / (1 + e^(0 - z)))` is the reference's element at row `128 t + r`, column `j`. -/
theorem kernel_form_eq_ref (A : (⟨S512x1024, .f32⟩ : BufTy).Contents (Elt Ideal)) (B : (⟨S1024x512, .f32⟩ : BufTy).Contents (Elt Ideal))
    (t : Fin 4) (r : Fin 128) (j : Fin 512) :
    (((partAt A B t r j t + partAt A B t r j (t + 3)) + partAt A B t r j (t + 2)) + partAt A B t r j (t + 1))
        * Ideal.div 1 (1 + Ideal.exp (0 -
          (((partAt A B t r j t + partAt A B t r j (t + 3)) + partAt A B t r j (t + 2)) + partAt A B t r j (t + 1))))
      = val_main_v5 (F := Ideal) A B (outIdx t r j) := by
  rw [parts_sum, SiluMath.silu_forms, ref_at]

/-- The same with the total named: any `z` equal to the cyclic sum of the four partial products. -/
theorem kernel_form_eq_ref_of_eq (A : (⟨S512x1024, .f32⟩ : BufTy).Contents (Elt Ideal)) (B : (⟨S1024x512, .f32⟩ : BufTy).Contents (Elt Ideal))
    (t : Fin 4) (r : Fin 128) (j : Fin 512) (z : EReal)
    (hz : z = ((partAt A B t r j t + partAt A B t r j (t + 3)) + partAt A B t r j (t + 2)) + partAt A B t r j (t + 1)) :
    z * Ideal.div 1 (1 + Ideal.exp (0 - z)) = val_main_v5 (F := Ideal) A B (outIdx t r j) := by
  rw [hz]; exact kernel_form_eq_ref A B t r j

/-- The same with the constants written as the f32 patterns of `1` and `0`. -/
theorem kernel_words_eq_ref (A : (⟨S512x1024, .f32⟩ : BufTy).Contents (Elt Ideal)) (B : (⟨S1024x512, .f32⟩ : BufTy).Contents (Elt Ideal))
    (t : Fin 4) (r : Fin 128) (j : Fin 512) (z : EReal)
    (hz : z = ((partAt A B t r j t + partAt A B t r j (t + 3)) + partAt A B t r j (t + 2)) + partAt A B t r j (t + 1)) :
    z * Ideal.div (Ideal.ofBits .f32 0x3F800000#32)
          (Ideal.ofBits .f32 0x3F800000#32 + Ideal.exp (Ideal.ofBits .f32 0x00000000#32 - z))
      = val_main_v5 (F := Ideal) A B (outIdx t r j) := by
  rw [SiluMath.one_word, Ideal.ofBits_zero_f32]; exact kernel_form_eq_ref_of_eq A B t r j z hz

end Cert.Proof.RefSide

end
-- ==== Proof.V.ValueParts.lean ====
import proofs.«900373_g7700000000000374_dist_matmul_silu_kshard_i_m512_n512_k256_v7x_i4_f32_1_alg».proof.Proof.V.Data
import proofs.«900373_g7700000000000374_dist_matmul_silu_kshard_i_m512_n512_k256_v7x_i4_f32_1_alg».proof.Proof.ValueMatmul
import proofs.«900373_g7700000000000374_dist_matmul_silu_kshard_i_m512_n512_k256_v7x_i4_f32_1_alg».proof.Proof.RefValue
import Idealize.ShloMosaic.Lib.Pipeline.Value
import Idealize.ShloMosaic.Lib.ValueIdx
import Idealize.ShloMosaic.PureOps.Ideal.Laws

noncomputable section

namespace Cert.Proof.KernelValue

open Cert.KernelIdeal Cert.KernelIdeal.Gen
open Idealize.ShloMosaic Idealize.ShloMosaic.TcCoe Idealize.SL.Sem
open Cert.KernelIdealProof
open scoped BigOperators

/-! # The result array is the reference's

Let the four devices' blocks be the column blocks of `A` and the row blocks of `B`. A partial product of device `s` for
row block `t` is the sum over `s`'s `256` contraction indices; the own one and the three landed ones of device `t` add, in
the order `t, t+3, t+2, t+1`, to the whole product, and the activation of that sum is the reference's element. Every
row block of every device's result array is some device's activated rows, unchanged by the narrow format. -/

variable (a : Dev nD → (cc0_stg0_0 : Ref sig .tc).ty.Contents (Elt Ideal)) (b : Dev nD → (cc0_stg1_0 : Ref sig .tc).ty.Contents (Elt Ideal))
variable (A : (⟨Cert.ReferenceIdeal.S512x1024, .f32⟩ : BufTy).Contents (Elt Ideal)) (B : (⟨Cert.ReferenceIdeal.S1024x512, .f32⟩ : BufTy).Contents (Elt Ideal))

section Blocks
variable (hA : ∀ d : Dev nD, a d = Layout.block ⟨2, ![512, 256]⟩ ⟨2, ![512, 1024]⟩ 1 4 d A)
variable (hB : ∀ d : Dev nD, b d = Layout.block ⟨2, ![256, 512]⟩ ⟨2, ![1024, 512]⟩ 0 4 d B)

include hA in
/-- Device `d`'s column `k` is column `256 d + k` of `A`. -/
theorem a_at (d : Dev nD) (R : Fin 512) (k : Fin 256) :
    a d (ValueIdx.ix2 R k) = A (ValueIdx.ix2 R (⟨256 * d.val + k.val, by have := d.isLt; have : d.val < 4 := this; omega⟩ : Fin 1024)) := by
  rw [hA]
  refine congrArg A (funext fun x => Fin.ext ?_)
  match x with
  | ⟨0, _⟩ => rfl
  | ⟨1, _⟩ => show d.val * 256 + k.val = 256 * d.val + k.val; omega

include hB in
/-- Device `d`'s row `k` is row `256 d + k` of `B`. -/
theorem b_at (d : Dev nD) (k : Fin 256) (j : Fin 512) :
    b d (ValueIdx.ix2 k j) = B (ValueIdx.ix2 (⟨256 * d.val + k.val, by have := d.isLt; have : d.val < 4 := this; omega⟩ : Fin 1024) j) := by
  rw [hB]
  refine congrArg B (funext fun x => Fin.ext ?_)
  match x with
  | ⟨0, _⟩ => show d.val * 256 + k.val = 256 * d.val + k.val; omega
  | ⟨1, _⟩ => rfl

end Blocks

/-- A load of `128` rows from row `R0` of a `512 × 256` block, at row `r` and column `k`. -/
theorem rows_read (x : S512x256.Idx → EReal) {off : Fin 2 → ℕ} (R0 : ℕ) (h : off = ![R0, 0]) (inb : ∀ a, off a + S128x256.size a ≤ S512x256.size a)
    (r : Fin 128) (k : Fin 256) (hR : R0 + r.val < 512) :
    aM.view.readAt (Elt Ideal) (Rect.unit (s := S512x256) off S128x256.size inb).toLoadRect x (ValueIdx.ix2 r k)
      = x (ValueIdx.ix2 (⟨R0 + r.val, hR⟩ : Fin 512) k) := by
  subst h
  refine congrArg x (funext fun a' => Fin.ext ?_)
  match a' with
  | ⟨0, _⟩ => show R0 + 1 * r.val = R0 + r.val; omega
  | ⟨1, _⟩ => show 0 + 1 * k.val = k.val; omega

theorem rowsA_at (d : Dev nD) (k : Fin 3) (r : Fin 128) (k' : Fin 256) :
    rowsA a d k (ValueIdx.ix2 r k')
      = a d (ValueIdx.ix2 (⟨128 * (fwd k d).val + r.val, by have := (fwd k d).isLt; have : (fwd k d).val < 4 := this; omega⟩ : Fin 512) k') :=
  rows_read (a d) _ (off1_eq d k) _ r k' _

theorem ownRows_at (d : Dev nD) (r : Fin 128) (k' : Fin 256) :
    ownRows a d (ValueIdx.ix2 r k')
      = a d (ValueIdx.ix2 (⟨128 * d.val + r.val, by have := d.isLt; have : d.val < 4 := this; omega⟩ : Fin 512) k') :=
  rows_read (a d) _ (k0_off4_eq d) _ r k' _

section Value
variable (hA : ∀ d : Dev nD, a d = Layout.block ⟨2, ![512, 256]⟩ ⟨2, ![512, 1024]⟩ 1 4 d A)
variable (hB : ∀ d : Dev nD, b d = Layout.block ⟨2, ![256, 512]⟩ ⟨2, ![1024, 512]⟩ 0 4 d B)

open Cert.Proof.RefSide (partAt outIdx kernel_words_eq_ref)

include hB in
theorem bbf_at (d : Dev nD) (k : Fin 256) (j : Fin 512) :
    bbfV b d (ValueIdx.ix2 k j) = B (ValueIdx.ix2 (⟨256 * d.val + k.val, by have := d.isLt; have : d.val < 4 := this; omega⟩ : Fin 1024) j) := by
  unfold bbfV; rw [pay1_eq]; exact b_at b B hB d k j

/-- What device `s` sends its `(k+1)`-th successor, at an index: the product of that successor's rows of its first block
    with its second block. -/
theorem sentV_at (s : Dev nD) (k : Fin 3) (r : Fin 128) (j : Fin 512) :
    sentV a b s k (ValueIdx.ix2 r j) = ∑ k' : Fin 256, rowsA a s k (ValueIdx.ix2 r k') * bbfV b s (ValueIdx.ix2 k' j) := by
  match k with
  | 0 =>
    show k0_pay3 (F := Ideal) (k0_pay2 (rowsA a s 0)) (bbfV b s) (ValueIdx.ix2 r j) = _
    rw [pay3_at, pay2_eq]
  | 1 =>
    show k0_pay5 (F := Ideal) (k0_pay4 (rowsA a s 1) (bbfV b s)) (ValueIdx.ix2 r j) = _
    rw [pay5_eq, pay4_at]
  | 2 =>
    show k0_pay6 (F := Ideal) (rowsA a s 2) (bbfV b s) (ValueIdx.ix2 r j) = _
    rw [pay6_at]

include hA hB in
/-- The partial product device `s` sends its `(k+1)`-th successor is its share of that successor's rows. -/
theorem sent_eq (s : Dev nD) (k : Fin 3) (r : Fin 128) (j : Fin 512) :
    sentV a b s k (ValueIdx.ix2 r j) = partAt A B (fwd k s) r j s := by
  rw [sentV_at]
  unfold partAt
  exact Finset.sum_congr rfl fun k' _ => by rw [rowsA_at, a_at a A hA, bbf_at b B hB]

include hA hB in
/-- The partial product a device keeps is its share of its own rows. -/
theorem own_eq (t : Dev nD) (r : Fin 128) (j : Fin 512) : ownV a b t (ValueIdx.ix2 r j) = partAt A B t r j t := by
  unfold ownV partAt
  rw [pay7_at]
  exact Finset.sum_congr rfl fun k' _ => by rw [ownRows_at, a_at a A hA, bbf_at b B hB]

include hA hB in
/-- Slice `k` of device `c`'s first landing buffer is its `(k+1)`-th predecessor's share of `c`'s rows. -/
theorem comm_at (c : Dev nD) (k : Fin 3) (r : Fin 128) (j : Fin 512) :
    commV a b c k (ValueIdx.ix3 (0 : Fin 1) r j) = partAt A B c r j (bwd k c) := by
  show sentV a b (bwd k c) k (ValueIdx.ix2 r j) = _
  rw [sent_eq a b A B hA hB, fwd_bwd]

theorem bwd0_eq (c : Dev nD) : bwd 0 c = c + 3 := by revert c; decide
theorem bwd1_eq (c : Dev nD) : bwd 1 c = c + 2 := by revert c; decide
theorem bwd2_eq (c : Dev nD) : bwd 2 c = c + 1 := by revert c; decide
theorem dev_cover (c t : Dev nD) : t = c ∨ t = bwd 0 c ∨ t = bwd 1 c ∨ t = bwd 2 c := by revert c t; decide

include hA hB in
/-- Device `t`'s activated rows are the reference's rows `128 t … 128 t + 127`. -/
theorem act_eq (t : Dev nD) (r : Fin 128) (j : Fin 512) :
    k0_pay8 (F := Ideal) (ownV a b t) (commV a b t 0) (commV a b t 1) (commV a b t 2) (ValueIdx.ix2 r j)
      = Cert.ReferenceIdeal.Read.val_main_v5 (F := Ideal) A B (outIdx t r j) := by
  rw [pay8_at, own_eq a b A B hA hB, comm_at a b A B hA hB, comm_at a b A B hA hB, comm_at a b A B hA hB]
  exact kernel_words_eq_ref A B t r j _ (by rw [bwd0_eq, bwd1_eq, bwd2_eq])

include hA hB in
/-- Row block `t` of device `c`'s result is device `t`'s activated rows. -/
theorem rowBlk_eq (c t : Dev nD) (r : Fin 128) (j : Fin 512) :
    rowBlk a b c t (ValueIdx.ix2 r j) = Cert.ReferenceIdeal.Read.val_main_v5 (F := Ideal) A B (outIdx t r j) := by
  have back : ∀ k : Fin 3, gsV a b (bwd k c) (ValueIdx.ix2 r j)
      = Cert.ReferenceIdeal.Read.val_main_v5 (F := Ideal) A B (outIdx (bwd k c) r j) := fun k => by
    unfold gsV; rw [pay10_eq]; exact act_eq a b A B hA hB (bwd k c) r j
  unfold rowBlk
  by_cases h0 : t = c
  · rw [if_pos h0, h0]; unfold resOwnV; rw [pay9_eq]; exact act_eq a b A B hA hB c r j
  · rw [if_neg h0]
    by_cases h1 : t = bwd 0 c
    · rw [if_pos h1, h1]
      show k0_pay11 (F := Ideal) (grV a b c 0) (ValueIdx.ix2 r j) = _
      rw [pay11_at]; exact back 0
    · rw [if_neg h1]
      by_cases h2 : t = bwd 1 c
      · rw [if_pos h2, h2]
        show k0_pay12 (F := Ideal) (grV a b c 1) (ValueIdx.ix2 r j) = _
        rw [pay12_at]; exact back 1
      · rw [if_neg h2]
        have h3 : t = bwd 2 c := by rcases dev_cover c t with h | h | h | h <;> first | exact absurd h h0 | exact absurd h h1 | exact absurd h h2 | exact h
        rw [h3]
        show k0_pay13 (F := Ideal) (grV a b c 2) (ValueIdx.ix2 r j) = _
        rw [pay13_at]; exact back 2

include hA hB in
/-- Every device's result array is the reference's result. -/
theorem out_eq (c : Dev nD) : (outV a b c : S512x512.Idx → EReal) = Cert.ReferenceIdeal.Read.val_main_v5 (F := Ideal) A B := by
  funext i
  unfold outV
  rw [rowBlk_eq a b A B hA hB]
  refine congrArg (Cert.ReferenceIdeal.Read.val_main_v5 (F := Ideal) A B) (funext fun x => Fin.ext ?_)
  match x with
  | ⟨0, _⟩ => show 128 * ((i 0).val / 128) + (i 0).val % 128 = (i 0).val; exact Nat.div_add_mod _ _
  | ⟨1, _⟩ => rfl

end Value

/-! ## From the memory at launch -/

section Out
variable (m : (ℓ : Loc nD τ sig) → Buf (Elt Ideal) ℓ) (ρ : Dev nD → PrngReg)

/-- A device's staged block of the first matrix is its argument buffer at launch, -/
theorem aS_eq (c : Dev nD) : aS (F := Ideal) m ρ c = m ((c : Thread nD τ).loc main_arg0) :=
  Memref.read_access_unit_zero (Elt Ideal) main_arg0 (funext fun _ => Nat.zero_mul _) _ _
/-- and likewise of the second. -/
theorem bS_eq (c : Dev nD) : bS (F := Ideal) m ρ c = m ((c : Thread nD τ).loc main_arg1) :=
  Memref.read_access_unit_zero (Elt Ideal) main_arg1 (funext fun _ => Nat.zero_mul _) _ _

/-- Device `c`'s result array as a function of the memory at launch. -/
def kernelOut (c : Dev nD) : (⟨S512x512, .f32⟩ : BufTy).Contents (Elt Ideal) :=
  outV (F := Ideal) (fun d : Dev nD => m ((d : Thread nD τ).loc main_arg0)) (fun d : Dev nD => m ((d : Thread nD τ).loc main_arg1)) c

/-- It is the named contents of the staged blocks, whatever the generator registers. -/
theorem outV_staged (c : Dev nD) : outV (F := Ideal) (aS m ρ) (bS m ρ) c = kernelOut m c := by
  unfold kernelOut
  rw [show aS (F := Ideal) m ρ = fun d : Dev nD => m ((d : Thread nD τ).loc main_arg0) from funext (aS_eq m ρ),
    show bS (F := Ideal) m ρ = fun d : Dev nD => m ((d : Thread nD τ).loc main_arg1) from funext (bS_eq m ρ)]

/-- THE VALUE: when the devices' argument buffers are the blocks of whole arrays `A` and `B`, every device's result
    array is the reference's result of `A` and `B`. -/
theorem kernel_value
    (h : ∀ c : Dev nD,
      m ((c.tc : Thread nD τ).loc main_arg0) = Layout.block ⟨2, ![512, 256]⟩ ⟨2, ![512, 1024]⟩ 1 4 c A
      ∧ m ((c.tc : Thread nD τ).loc main_arg1) = Layout.block ⟨2, ![256, 512]⟩ ⟨2, ![1024, 512]⟩ 0 4 c B)
    (c : Dev nD) : kernelOut m c = Cert.ReferenceIdeal.Read.val_main_v5 (F := Ideal) A B :=
  out_eq _ _ A B (fun d => (h d).1) (fun d => (h d).2) c

end Out

end Cert.Proof.KernelValue

end
-- ==== Proof.Assemble.lean ====
import proofs.«900373_g7700000000000374_dist_matmul_silu_kshard_i_m512_n512_k256_v7x_i4_f32_1_alg».proof.Defs
import proofs.«900373_g7700000000000374_dist_matmul_silu_kshard_i_m512_n512_k256_v7x_i4_f32_1_alg».proof.Proof.V.Launch
import proofs.«900373_g7700000000000374_dist_matmul_silu_kshard_i_m512_n512_k256_v7x_i4_f32_1_alg».proof.Proof.V.Bits.Launch
import proofs.«900373_g7700000000000374_dist_matmul_silu_kshard_i_m512_n512_k256_v7x_i4_f32_1_alg».proof.Proof.V.Body
import proofs.«900373_g7700000000000374_dist_matmul_silu_kshard_i_m512_n512_k256_v7x_i4_f32_1_alg».proof.Proof.V.Bits.Body
import proofs.«900373_g7700000000000374_dist_matmul_silu_kshard_i_m512_n512_k256_v7x_i4_f32_1_alg».proof.Proof.RefRun
import proofs.«900373_g7700000000000374_dist_matmul_silu_kshard_i_m512_n512_k256_v7x_i4_f32_1_alg».proof.Proof.V.ValueParts
import proofs.«900373_g7700000000000374_dist_matmul_silu_kshard_i_m512_n512_k256_v7x_i4_f32_1_alg».proof.Proof.Gen.Pre_finite_inputs_Kernel
import proofs.«900373_g7700000000000374_dist_matmul_silu_kshard_i_m512_n512_k256_v7x_i4_f32_1_alg».proof.Proof.Gen.Pre_finite_inputs_ReferenceIdeal

/-! # The claims, assembled

Each program's frame is its run with the values dropped. The two kernels' frames come from the launch, given the proof
of one device's body; the reference's from its generated run. The idealization rewrote no operation. The algebraic
claim pairs the kernel's run at the extended reals, ending with the result array of every device at a named function of
the devices' blocks, with the reference's run, ending at its closed form of the whole arrays; that the two agree is an
equation between pure values. -/

noncomputable section

namespace Cert.Proof.Claims

open Idealize.ShloMosaic Idealize.SL.Sem
open Idealize.ShloMosaic.Pipeline (BodyObligation)

/-! ## The frames -/

/-- The word-level kernel's frame: the launch applied to the body's proof. -/
theorem frame_k : Cert.frame_Kernel :=
  fun m ρ _ => Cert.KernelProof.frame_run m ρ (Cert.KernelProof.body_obligation (F := Bits) m ρ)

/-- The idealized kernel's frame likewise. -/
theorem frame_ki : Cert.frame_KernelIdeal :=
  fun m ρ _ => Cert.KernelIdealProof.frame_run m ρ (Cert.KernelIdealProof.body_obligation (F := Ideal) m ρ)

/-- The reference's frame. -/
theorem frame_ri : Cert.frame_ReferenceIdeal := Cert.Proof.RefSide.frame_ri

/-- The idealized kernel is the kernel's own text read at the extended reals. -/
theorem preserves : Cert.preserves_Kernel_KernelIdeal := trivial

/-! ## The algebraic claim -/

/-- From the kernel's run ending with every device's result array at `out m c`, and the equation of `out m c` with
    the reference's closed form whenever the devices' argument buffers are the blocks of whole arrays `A`, `B`. -/
theorem algebraic_of
    (out : ((ℓ : Loc Cert.KernelIdeal.nD Cert.KernelIdeal.τ Cert.KernelIdeal.sig) → Buf (Elt Ideal) ℓ) → Dev Cert.KernelIdeal.nD
      → (⟨Cert.KernelIdeal.S512x512, .f32⟩ : BufTy).Contents (Elt Ideal))
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v1) = out m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)))
    (hval : ∀ (m : (ℓ : Loc Cert.KernelIdeal.nD Cert.KernelIdeal.τ Cert.KernelIdeal.sig) → Buf (Elt Ideal) ℓ)
        (A : (⟨Cert.ReferenceIdeal.S512x1024, .f32⟩ : BufTy).Contents (Elt Ideal)) (B : (⟨Cert.ReferenceIdeal.S1024x512, .f32⟩ : BufTy).Contents (Elt Ideal)),
      (∀ c : Dev Cert.KernelIdeal.nD,
        m ((c.tc : Thread Cert.KernelIdeal.nD Cert.KernelIdeal.τ).loc Cert.KernelIdeal.main_arg0) = Layout.block ⟨2, ![512, 256]⟩ ⟨2, ![512, 1024]⟩ 1 4 c A
        ∧ m ((c.tc : Thread Cert.KernelIdeal.nD Cert.KernelIdeal.τ).loc Cert.KernelIdeal.main_arg1) = Layout.block ⟨2, ![256, 512]⟩ ⟨2, ![1024, 512]⟩ 0 4 c B) →
      ∀ c : Dev Cert.KernelIdeal.nD, out m c = Cert.ReferenceIdeal.Read.val_main_v5 (F := Ideal) A B) :
    Cert.algebraic_KernelIdeal_ReferenceIdeal :=
  fun m g m' g' _ hblk =>
    ⟨Cert.ReferenceIdeal.Read.val_main_v5 (F := Ideal)
        (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1)),
      (θ_run _ _ _).mono (fun _ h c => ⟨((h c).1).trans (hval m _ _ hblk c), (h c).2.1, (h c).2.2⟩) (hrun m g),
      (θ_run _ _ _).mono (fun _ h => ⟨((h 0).1).trans (Cert.ReferenceIdeal.Read.val_main_v5_eq (F := Ideal) _ _), (h 0).2.1, (h 0).2.2⟩)
        (Cert.ReferenceIdeal.Value.run (F := Ideal) m' g')⟩

/-- The algebraic claim: the run with its value ends with every device's result array at the named contents of the
    staged blocks, which are the reference's result when the blocks are those of whole arrays. -/
theorem algebraic : Cert.algebraic_KernelIdeal_ReferenceIdeal :=
  algebraic_of Cert.Proof.KernelValue.kernelOut
    (fun m ρ => (θ_run _ _ _).mono
      (fun _ h c => ⟨((h c).1).trans (Cert.Proof.KernelValue.outV_staged m ρ c), (h c).2⟩)
      (Cert.KernelIdealProof.value_run m ρ (Cert.KernelIdealProof.body_obligation (F := Ideal) m ρ)))
    fun m A B h c => Cert.Proof.KernelValue.kernel_value A B m h c

end Cert.Proof.Claims

end
-- ==== Proof.lean ====
import proofs.«900373_g7700000000000374_dist_matmul_silu_kshard_i_m512_n512_k256_v7x_i4_f32_1_alg».proof.Defs
import proofs.«900373_g7700000000000374_dist_matmul_silu_kshard_i_m512_n512_k256_v7x_i4_f32_1_alg».proof.Proof.Gen.Kernel
import proofs.«900373_g7700000000000374_dist_matmul_silu_kshard_i_m512_n512_k256_v7x_i4_f32_1_alg».proof.Proof.Gen.KernelIdeal
import proofs.«900373_g7700000000000374_dist_matmul_silu_kshard_i_m512_n512_k256_v7x_i4_f32_1_alg».proof.Proof.Gen.ReferenceIdeal
import proofs.«900373_g7700000000000374_dist_matmul_silu_kshard_i_m512_n512_k256_v7x_i4_f32_1_alg».proof.Proof.Gen.Pre_finite_inputs_Kernel
import proofs.«900373_g7700000000000374_dist_matmul_silu_kshard_i_m512_n512_k256_v7x_i4_f32_1_alg».proof.Proof.Gen.Pre_finite_inputs_ReferenceIdeal
import proofs.«900373_g7700000000000374_dist_matmul_silu_kshard_i_m512_n512_k256_v7x_i4_f32_1_alg».proof.Proof.Assemble

/-! # Four devices compute `silu (A · B)` from column blocks of `A` and row blocks of `B`

Device `c` holds the column block `c` of `A` (512 × 256) and the row block `c` of `B` (256 × 512). Each device multiplies
its blocks, which gives its share `A_c · B_c` of every entry of `A · B`, and the shares of one entry summed over the four
devices are that entry: the sum over the 1024 products, cut in four runs of 256.

The devices first shake hands on their entry cells. Then, first exchange, device `c` sends the 128 rows `t` of its share
to device `t` for each of the three other devices and keeps rows `c`; device `c` adds the three shares it receives to its
own, so it holds rows `c` of `A · B`, and applies `z ↦ z · (1 / (1 + exp (0 − z)))`, which on every extended real is
`z / (1 + exp (−z))` because `1 + exp` never vanishes. Second exchange: every device sends its finished rows to the three
others, and each device copies its own and the three received row blocks into its result array, which therefore holds
the whole of `silu (A · B)` on every device. No finiteness of the inputs is used.

The run is proved once for a symbolic device and a float instance left open, from a schedule of seventeen counting
cells per device whose units hand the written landing slices to their readers with the values they hold; the word-level
program and the idealized program are its two instances. The reference is one device running seven host operations,
whose generated run and read-at-an-index lemmas give its closed form. -/

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    Claims.frame_k, Claims.frame_ki, Claims.frame_ri, Claims.preserves, Claims.algebraic⟩

end Cert.Proof

end
